-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v204)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v204) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x200000 : Shape := ⟨2, ![2, 200000]⟩
abbrev S200000x128 : Shape := ⟨2, ![200000, 128]⟩
abbrev S20000 : Shape := ⟨1, ![20000]⟩
abbrev S256x256 : Shape := ⟨2, ![256, 256]⟩
abbrev S256 : Shape := ⟨1, ![256]⟩
abbrev S256x128 : Shape := ⟨2, ![256, 128]⟩
abbrev S2x256x768 : Shape := ⟨3, ![2, 256, 768]⟩
abbrev S2x256 : Shape := ⟨2, ![2, 256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S2x256x768 : S_.BroadcastsInDim S2x256x768 (![] : Fin 0 → Fin S2x256x768.rank)
  reducesTo_S2x256x768_S_d0_1_2 : S2x256x768.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S2x256 .f32) (main_arg14 : FVec F S256x256 .f32) (main_arg15 : FVec F S256 .f32) (main_v48 : IVec S_ 1) (main_v49 : FVec F S2x256 .f32) (main_v50 : FVec F S2x256 .f32) : IVec S_ 1 :=
  let main_v51 : IVec S2x256 1 := cmpf .olt main_v49 main_v50
  let main_c_19 : IVec S_ 1 := constantI S_ 1 1#1
  let main_v52 : IVec S_ 1 := (fun x v => Host.reduce IntOp.andi x v reducesTo_S2x256_S_d0_1 h_S_) main_v51 main_c_19
  let main_v53 : IVec S_ 1 := andi main_v48 main_v52
  let main_v54 : FVec F S2x256 .f32 := Host.absf main_arg13
  let main_cst_20 : FVec F S_ .f32 := constant S_ .f32 0x7F800000#32
  let main_v55 : FVec F S2x256 .f32 := broadcastInDim S2x256 ![] bcast_S_S2x256 main_cst_20
  let main_v56 : IVec S2x256 1 := cmpf .olt main_v54 main_v55
  let main_c_21 : IVec S_ 1 := constantI S_ 1 1#1
  let main_v57 : IVec S_ 1 := (fun x v => Host.reduce IntOp.andi x v reducesTo_S2x256_S_d0_1 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg9 : FVec F S2x256 .f32) (main_arg10 : FVec F S2x256x768 .f32) (main_arg11 : FVec F S2x256 .f32) (main_arg12 : FVec F S2x256 .f32) (main_arg13 : FVec F S2x256 .f32) (main_arg14 : FVec F S256x256 .f32) (main_arg15 : FVec F S256 .f32) (main_v33 : IVec S_ 1) : IVec S_ 1 :=
  let main_v34 : FVec F S2x256 .f32 := Host.absf main_arg9
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S2x256x768 .f32 := Host.absf main_arg10
  let main_cst_14 : FVec F S_ .f32 := constant S_ .f32 0x7F800000#32
  let main_v40 : FVec F S2x256x768 .f32 := broadcastInDim S2x256x768 ![] bcast_S_S2x256x768 main_cst_14
  let main_v41 : IVec S2x256x768 1 := cmpf .olt main_v39 main_v40
  let main_c_15 : IVec S_ 1 := constantI S_ 1 1#1
  let main_v42 : IVec S_ 1 := (fun x v => Host.reduce IntOp.andi x v reducesTo_S2x256x768_S_d0_1_2 h_S_) main_v41 main_c_15
  let main_v43 : IVec S_ 1 := andi main_v38 main_v42
  let main_v44 : FVec F S2x256 .f32 := Host.absf main_arg11
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : FVec F S2x256 .f32 := Host.absf main_arg12
  let main_cst_18 : FVec F S_ .f32 := constant S_ .f32 0x7F800000#32
  let main_v50 : FVec F S2x256 .f32 := broadcastInDim S2x256 ![] bcast_S_S2x256 main_cst_18
  fn_part3 (F := F) main_arg13 main_arg14 main_arg15 main_v48 main_v49 main_v50

def fn_part1 {F : FTy → Type} [FloatOps F] (main_arg6 : FVec F S256x128 .f32) (main_arg7 : FVec F S256 .f32) (main_arg8 : FVec F S2x256x768 .f32) (main_arg9 : FVec F S2x256 .f32) (main_arg10 : FVec F S2x256x768 .f32) (main_arg11 : FVec F S2x256 .f32) (main_arg12 : FVec F S2x256 .f32) (main_arg13 : FVec F S2x256 .f32) (main_arg14 : FVec F S256x256 .f32) (main_arg15 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S2x256x768 .f32 := Host.absf main_arg8
  let main_cst_10 : FVec F S_ .f32 := constant S_ .f32 0x7F800000#32
  let main_v30 : FVec F S2x256x768 .f32 := broadcastInDim S2x256x768 ![] bcast_S_S2x256x768 main_cst_10
  let main_v31 : IVec S2x256x768 1 := cmpf .olt main_v29 main_v30
  let main_c_11 : IVec S_ 1 := constantI S_ 1 1#1
  let main_v32 : IVec S_ 1 := (fun x v => Host.reduce IntOp.andi x v reducesTo_S2x256x768_S_d0_1_2 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S20000x256 .f32) (main_arg1 : IVec S2x200000 32) (main_arg2 : FVec F S200000x128 .f32) (main_arg3 : IVec S20000 32) (main_arg4 : FVec F S256x256 .f32) (main_arg5 : FVec F S256 .f32) (main_arg6 : FVec F S256x128 .f32) (main_arg7 : FVec F S256 .f32) (main_arg8 : FVec F S2x256x768 .f32) (main_arg9 : FVec F S2x256 .f32) (main_arg10 : FVec F S2x256x768 .f32) (main_arg11 : FVec F S2x256 .f32) (main_arg12 : FVec F S2x256 .f32) (main_arg13 : FVec F S2x256 .f32) (main_arg14 : FVec F S256x256 .f32) (main_arg15 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S200000x128 .f32 := Host.absf main_arg2
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_v13 main_v16
-- ==== Kernel.lean ====
abbrev S20000x256 : Shape := ⟨2, ![20000, 256]⟩
abbrev S2x200000 : Shape := ⟨2, ![2, 200000]⟩
abbrev S200000x128 : Shape := ⟨2, ![200000, 128]⟩
abbrev S20000 : Shape := ⟨1, ![20000]⟩
abbrev S256x256 : Shape := ⟨2, ![256, 256]⟩
abbrev S256 : Shape := ⟨1, ![256]⟩
abbrev S256x128 : Shape := ⟨2, ![256, 128]⟩
abbrev S2x256x768 : Shape := ⟨3, ![2, 256, 768]⟩
abbrev S2x256 : Shape := ⟨2, ![2, 256]⟩
abbrev S1x200000 : Shape := ⟨2, ![1, 200000]⟩
abbrev S200000 : Shape := ⟨1, ![200000]⟩
abbrev S1x256 : Shape := ⟨2, ![1, 256]⟩
abbrev S2000x256 : Shape := ⟨2, ![2000, 256]⟩
abbrev S128x256 : Shape := ⟨2, ![128, 256]⟩
abbrev S200000x256 : Shape := ⟨2, ![200000, 256]⟩
abbrev S2000x128 : Shape := ⟨2, ![2000, 128]⟩
abbrev S_ : Shape := ⟨0, ![]⟩
abbrev S200000x1 : Shape := ⟨2, ![200000, 1]⟩
abbrev S20000x1 : Shape := ⟨2, ![20000, 1]⟩
abbrev S1x256x768 : Shape := ⟨3, ![1, 256, 768]⟩
abbrev S256x768 : Shape := ⟨2, ![256, 768]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S20000x1024 : Shape := ⟨2, ![20000, 1024]⟩
abbrev S2000x1024 : Shape := ⟨2, ![2000, 1024]⟩
abbrev S512x256 : Shape := ⟨2, ![512, 256]⟩
abbrev S256x512 : Shape := ⟨2, ![256, 512]⟩
abbrev S512 : Shape := ⟨1, ![512]⟩
abbrev S1x512 : Shape := ⟨2, ![1, 512]⟩
abbrev S200000x512 : Shape := ⟨2, ![200000, 512]⟩
abbrev S2000x512 : Shape := ⟨2, ![2000, 512]⟩
abbrev S20000x512 : Shape := ⟨2, ![20000, 512]⟩
abbrev S1600x512 : Shape := ⟨2, ![1600, 512]⟩
abbrev S1600x256 : Shape := ⟨2, ![1600, 256]⟩
abbrev S64 : Shape := ⟨1, ![64]⟩
abbrev S64x256 : Shape := ⟨2, ![64, 256]⟩
abbrev S64x1 : Shape := ⟨2, ![64, 1]⟩

abbrev nBuf : Space → Nat
  | .hbm => 279
  | .vmem => 56
  | .smem => 0
  | _ => 0

abbrev hbmTy0_0 (i : Nat) : BufTy := match i % 128 with
  | 0 => ⟨S20000x256, .f32⟩
  | 1 => ⟨S2x200000, .i32⟩
  | 2 => ⟨S200000x128, .f32⟩
  | 3 => ⟨S20000, .i32⟩
  | 4 => ⟨S256x256, .f32⟩
  | 5 => ⟨S256, .f32⟩
  | 6 => ⟨S256x128, .f32⟩
  | 7 => ⟨S256, .f32⟩
  | 8 => ⟨S2x256x768, .f32⟩
  | 9 => ⟨S2x256, .f32⟩
  | 10 => ⟨S2x256x768, .f32⟩
  | 11 => ⟨S2x256, .f32⟩
  | 12 => ⟨S2x256, .f32⟩
  | 13 => ⟨S2x256, .f32⟩
  | 14 => ⟨S256x256, .f32⟩
  | 15 => ⟨S256, .f32⟩
  | 16 => ⟨S1x200000, .i32⟩
  | 17 => ⟨S200000, .i32⟩
  | 18 => ⟨S1x200000, .i32⟩
  | 19 => ⟨S200000, .i32⟩
  | 20 => ⟨S20000x256, .bf16⟩
  | 21 => ⟨S256x256, .f32⟩
  | 22 => ⟨S256x256, .bf16⟩
  | 23 => ⟨S1x256, .f32⟩
  | 24 => ⟨S20000x256, .f32⟩
  | 25 => ⟨S200000x128, .bf16⟩
  | 26 => ⟨S128x256, .f32⟩
  | 27 => ⟨S128x256, .bf16⟩
  | 28 => ⟨S1x256, .f32⟩
  | 29 => ⟨S200000x256, .f32⟩
  | 30 => ⟨S200000x256, .bf16⟩
  | 31 => ⟨S_, .f32⟩
  | 32 => ⟨S200000, .f32⟩
  | 33 => ⟨S_, .f32⟩
  | 34 => ⟨S20000, .f32⟩
  | 35 => ⟨S200000x1, .i32⟩
  | 36 => ⟨S20000, .f32⟩
  | 37 => ⟨S_, .f32⟩
  | 38 => ⟨S20000, .f32⟩
  | 39 => ⟨S20000, .f32⟩
  | 40 => ⟨S_, .f32⟩
  | 41 => ⟨S20000, .f32⟩
  | 42 => ⟨S20000, .f32⟩
  | 43 => ⟨S20000x1, .f32⟩
  | 44 => ⟨S1x256x768, .f32⟩
  | 45 => ⟨S256x768, .f32⟩
  | 46 => ⟨S1x256x768, .f32⟩
  | 47 => ⟨S256x768, .f32⟩
  | 48 => ⟨S256x256, .f32⟩
  | 49 => ⟨S256x256, .f32⟩
  | 50 => ⟨S256x256, .f32⟩
  | 51 => ⟨S256x256, .f32⟩
  | 52 => ⟨S256x256, .f32⟩
  | 53 => ⟨S256x256, .f32⟩
  | 54 => ⟨S1024x256, .f32⟩
  | 55 => ⟨S256x1024, .f32⟩
  | 56 => ⟨S256x1024, .bf16⟩
  | 57 => ⟨S_, .f32⟩
  | 58 => ⟨S1024, .f32⟩
  | 59 => ⟨S20000x256, .bf16⟩
  | 60 => ⟨S1x1024, .f32⟩
  | 61 => ⟨S20000x1024, .f32⟩
  | 62 => ⟨S512x256, .f32⟩
  | 63 => ⟨S256x512, .f32⟩
  | 64 => ⟨S256x512, .bf16⟩
  | 65 => ⟨S_, .f32⟩
  | 66 => ⟨S512, .f32⟩
  | 67 => ⟨S1x512, .f32⟩
  | 68 => ⟨S200000x512, .f32⟩
  | 69 => ⟨S20000x512, .f32⟩
  | 70 => ⟨S20000x512, .f32⟩
  | 71 => ⟨S_, .i32⟩
  | 72 => ⟨S200000, .i32⟩
  | 73 => ⟨S200000, .i1⟩
  | 74 => ⟨S_, .i32⟩
  | 75 => ⟨S200000, .i32⟩
  | 76 => ⟨S200000, .i32⟩
  | 77 => ⟨S200000, .i32⟩
  | 78 => ⟨S200000x1, .i32⟩
  | 79 => ⟨S200000x512, .f32⟩
  | 80 => ⟨S_, .i32⟩
  | 81 => ⟨S200000, .i32⟩
  | 82 => ⟨S200000, .i1⟩
  | 83 => ⟨S_, .i32⟩
  | 84 => ⟨S200000, .i32⟩
  | 85 => ⟨S200000, .i32⟩
  | 86 => ⟨S200000, .i32⟩
  | 87 => ⟨S200000x1, .i32⟩
  | 88 => ⟨S200000x512, .f32⟩
  | 89 => ⟨S1x256, .f32⟩
  | 90 => ⟨S256, .f32⟩
  | 91 => ⟨S1x256, .f32⟩
  | 92 => ⟨S256, .f32⟩
  | 93 => ⟨S1x256, .f32⟩
  | 94 => ⟨S1x256, .f32⟩
  | 95 => ⟨S200000x256, .f32⟩
  | 96 => ⟨S_, .f32⟩
  | 97 => ⟨S20000x256, .f32⟩
  | 98 => ⟨S200000x1, .i32⟩
  | 99 => ⟨S20000x256, .f32⟩
  | 100 => ⟨S20000x256, .f32⟩
  | 101 => ⟨S20000x256, .f32⟩
  | 102 => ⟨S20000x256, .f32⟩
  | 103 => ⟨S_, .f32⟩
  | 104 => ⟨S256, .f32⟩
  | 105 => ⟨S_, .f32⟩
  | 106 => ⟨S256, .f32⟩
  | 107 => ⟨S256, .f32⟩
  | 108 => ⟨S1x256, .f32⟩
  | 109 => ⟨S20000x256, .f32⟩
  | 110 => ⟨S20000x256, .f32⟩
  | 111 => ⟨S20000x256, .f32⟩
  | 112 => ⟨S_, .f32⟩
  | 113 => ⟨S256, .f32⟩
  | 114 => ⟨S_, .f32⟩
  | 115 => ⟨S256, .f32⟩
  | 116 => ⟨S256, .f32⟩
  | 117 => ⟨S1x256, .f32⟩
  | 118 => ⟨S20000x256, .f32⟩
  | 119 => ⟨S20000x256, .f32⟩
  | 120 => ⟨S_, .f32⟩
  | 121 => ⟨S256, .f32⟩
  | 122 => ⟨S256, .f32⟩
  | 123 => ⟨S256, .f32⟩
  | 124 => ⟨S1x256, .f32⟩
  | 125 => ⟨S20000x256, .f32⟩
  | 126 => ⟨S20000x256, .f32⟩
  | 127 => ⟨S1x256, .f32⟩
  | _ => ⟨S20000x256, .f32⟩

abbrev hbmTy0_1 (i : Nat) : BufTy := match i % 128 with
  | 0 => ⟨S256, .f32⟩
  | 1 => ⟨S1x256, .f32⟩
  | 2 => ⟨S20000x256, .f32⟩
  | 3 => ⟨S20000x256, .f32⟩
  | 4 => ⟨S1x256, .f32⟩
  | 5 => ⟨S256, .f32⟩
  | 6 => ⟨S1x256, .f32⟩
  | 7 => ⟨S20000x256, .f32⟩
  | 8 => ⟨S20000x256, .f32⟩
  | 9 => ⟨S1x256x768, .f32⟩
  | 10 => ⟨S256x768, .f32⟩
  | 11 => ⟨S1x256x768, .f32⟩
  | 12 => ⟨S256x768, .f32⟩
  | 13 => ⟨S256x256, .f32⟩
  | 14 => ⟨S256x256, .f32⟩
  | 15 => ⟨S256x256, .f32⟩
  | 16 => ⟨S256x256, .f32⟩
  | 17 => ⟨S256x256, .f32⟩
  | 18 => ⟨S256x256, .f32⟩
  | 19 => ⟨S1024x256, .f32⟩
  | 20 => ⟨S256x1024, .f32⟩
  | 21 => ⟨S256x1024, .bf16⟩
  | 22 => ⟨S_, .f32⟩
  | 23 => ⟨S1024, .f32⟩
  | 24 => ⟨S20000x256, .bf16⟩
  | 25 => ⟨S1x1024, .f32⟩
  | 26 => ⟨S20000x1024, .f32⟩
  | 27 => ⟨S512x256, .f32⟩
  | 28 => ⟨S256x512, .f32⟩
  | 29 => ⟨S256x512, .bf16⟩
  | 30 => ⟨S_, .f32⟩
  | 31 => ⟨S512, .f32⟩
  | 32 => ⟨S1x512, .f32⟩
  | 33 => ⟨S200000x512, .f32⟩
  | 34 => ⟨S20000x512, .f32⟩
  | 35 => ⟨S20000x512, .f32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000x512, .f32⟩
  | 45 => ⟨S_, .i32⟩
  | 46 => ⟨S200000, .i32⟩
  | 47 => ⟨S200000, .i1⟩
  | 48 => ⟨S_, .i32⟩
  | 49 => ⟨S200000, .i32⟩
  | 50 => ⟨S200000, .i32⟩
  | 51 => ⟨S200000, .i32⟩
  | 52 => ⟨S200000x1, .i32⟩
  | 53 => ⟨S200000x512, .f32⟩
  | 54 => ⟨S1x256, .f32⟩
  | 55 => ⟨S256, .f32⟩
  | 56 => ⟨S1x256, .f32⟩
  | 57 => ⟨S256, .f32⟩
  | 58 => ⟨S1x256, .f32⟩
  | 59 => ⟨S1x256, .f32⟩
  | 60 => ⟨S200000x256, .f32⟩
  | 61 => ⟨S_, .f32⟩
  | 62 => ⟨S20000x256, .f32⟩
  | 63 => ⟨S200000x1, .i32⟩
  | 64 => ⟨S20000x256, .f32⟩
  | 65 => ⟨S20000x256, .f32⟩
  | 66 => ⟨S20000x256, .f32⟩
  | 67 => ⟨S20000x256, .f32⟩
  | 68 => ⟨S_, .f32⟩
  | 69 => ⟨S256, .f32⟩
  | 70 => ⟨S_, .f32⟩
  | 71 => ⟨S256, .f32⟩
  | 72 => ⟨S256, .f32⟩
  | 73 => ⟨S1x256, .f32⟩
  | 74 => ⟨S20000x256, .f32⟩
  | 75 => ⟨S20000x256, .f32⟩
  | 76 => ⟨S20000x256, .f32⟩
  | 77 => ⟨S_, .f32⟩
  | 78 => ⟨S256, .f32⟩
  | 79 => ⟨S_, .f32⟩
  | 80 => ⟨S256, .f32⟩
  | 81 => ⟨S256, .f32⟩
  | 82 => ⟨S1x256, .f32⟩
  | 83 => ⟨S20000x256, .f32⟩
  | 84 => ⟨S20000x256, .f32⟩
  | 85 => ⟨S_, .f32⟩
  | 86 => ⟨S256, .f32⟩
  | 87 => ⟨S256, .f32⟩
  | 88 => ⟨S256, .f32⟩
  | 89 => ⟨S1x256, .f32⟩
  | 90 => ⟨S20000x256, .f32⟩
  | 91 => ⟨S20000x256, .f32⟩
  | 92 => ⟨S1x256, .f32⟩
  | 93 => ⟨S256, .f32⟩
  | 94 => ⟨S1x256, .f32⟩
  | 95 => ⟨S20000x256, .f32⟩
  | 96 => ⟨S20000x256, .f32⟩
  | 97 => ⟨S1x256, .f32⟩
  | 98 => ⟨S256, .f32⟩
  | 99 => ⟨S1x256, .f32⟩
  | 100 => ⟨S20000x256, .f32⟩
  | 101 => ⟨S20000x256, .f32⟩
  | 102 => ⟨S_, .f32⟩
  | 103 => ⟨S20000, .f32⟩
  | 104 => ⟨S_, .f32⟩
  | 105 => ⟨S64, .f32⟩
  | 106 => ⟨S20000x1, .i32⟩
  | 107 => ⟨S64, .f32⟩
  | 108 => ⟨S_, .f32⟩
  | 109 => ⟨S64x256, .f32⟩
  | 110 => ⟨S20000x1, .i32⟩
  | 111 => ⟨S64x256, .f32⟩
  | 112 => ⟨S_, .f32⟩
  | 113 => ⟨S64, .f32⟩
  | 114 => ⟨S64, .f32⟩
  | 115 => ⟨S64x1, .f32⟩
  | 116 => ⟨S64x256, .f32⟩
  | 117 => ⟨S64x256, .f32⟩
  | 118 => ⟨S_, .f32⟩
  | 119 => ⟨S64x256, .f32⟩
  | 120 => ⟨S64x256, .f32⟩
  | 121 => ⟨S64x256, .f32⟩
  | 122 => ⟨S64x256, .f32⟩
  | 123 => ⟨S64x256, .i1⟩
  | 124 => ⟨S64x256, .f32⟩
  | 125 => ⟨S64x256, .f32⟩
  | 126 => ⟨S64x256, .f32⟩
  | 127 => ⟨S64x256, .f32⟩
  | _ => ⟨S20000x256, .f32⟩

abbrev hbmTy0_2 (i : Nat) : BufTy := match i % 128 with
  | 0 => ⟨S64x256, .f32⟩
  | 1 => ⟨S64x256, .f32⟩
  | 2 => ⟨S64x256, .f32⟩
  | 3 => ⟨S64x256, .f32⟩
  | 4 => ⟨S256x256, .f32⟩
  | 5 => ⟨S64x256, .f32⟩
  | 6 => ⟨S1x256, .f32⟩
  | 7 => ⟨S64x256, .f32⟩
  | 8 => ⟨S64x256, .f32⟩
  | 9 => ⟨S_, .f32⟩
  | 10 => ⟨S64x256, .f32⟩
  | 11 => ⟨S64x256, .f32⟩
  | 12 => ⟨S64x256, .f32⟩
  | 13 => ⟨S64x256, .f32⟩
  | 14 => ⟨S64x256, .i1⟩
  | 15 => ⟨S64x256, .f32⟩
  | 16 => ⟨S64x256, .f32⟩
  | 17 => ⟨S64x256, .f32⟩
  | 18 => ⟨S64x256, .f32⟩
  | 19 => ⟨S64x256, .f32⟩
  | 20 => ⟨S64x256, .f32⟩
  | 21 => ⟨S64x256, .f32⟩
  | 22 => ⟨S64x256, .f32⟩
  | _ => ⟨S20000x256, .f32⟩

abbrev hbmTy (i : Nat) : BufTy := match i / 128 with
  | 0 => hbmTy0_0 i
  | 1 => hbmTy0_1 i
  | 2 => hbmTy0_2 i
  | _ => ⟨S20000x256, .f32⟩

abbrev bufTy : (tb : Table) → Fin (tcTables nBuf tb) → BufTy
  | .hbm, ⟨i, _⟩ => hbmTy i
  | .local _ .vmem, ⟨0, _⟩ => ⟨S2000x256, .bf16⟩
  | .local _ .vmem, ⟨1, _⟩ => ⟨S2000x256, .bf16⟩
  | .local _ .vmem, ⟨2, _⟩ => ⟨S256x256, .bf16⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x128, .bf16⟩
  | .local _ .vmem, ⟨7, _⟩ => ⟨S2000x128, .bf16⟩
  | .local _ .vmem, ⟨8, _⟩ => ⟨S128x256, .bf16⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .bf16⟩
  | .local _ .vmem, ⟨13, _⟩ => ⟨S2000x256, .bf16⟩
  | .local _ .vmem, ⟨14, _⟩ => ⟨S256x1024, .bf16⟩
  | .local _ .vmem, ⟨15, _⟩ => ⟨S1x1024, .f32⟩
  | .local _ .vmem, ⟨16, _⟩ => ⟨S2000x1024, .f32⟩
  | .local _ .vmem, ⟨17, _⟩ => ⟨S2000x1024, .f32⟩
  | .local _ .vmem, ⟨18, _⟩ => ⟨S2000x256, .bf16⟩
  | .local _ .vmem, ⟨19, _⟩ => ⟨S2000x256, .bf16⟩
  | .local _ .vmem, ⟨20, _⟩ => ⟨S256x512, .bf16⟩
  | .local _ .vmem, ⟨21, _⟩ => ⟨S1x512, .f32⟩
  | .local _ .vmem, ⟨22, _⟩ => ⟨S2000x512, .f32⟩
  | .local _ .vmem, ⟨23, _⟩ => ⟨S2000x512, .f32⟩
  | .local _ .vmem, ⟨24, _⟩ => ⟨S1600x512, .f32⟩
  | .local _ .vmem, ⟨25, _⟩ => ⟨S1600x512, .f32⟩
  | .local _ .vmem, ⟨26, _⟩ => ⟨S1600x512, .f32⟩
  | .local _ .vmem, ⟨27, _⟩ => ⟨S1600x512, .f32⟩
  | .local _ .vmem, ⟨28, _⟩ => ⟨S1600x512, .f32⟩
  | .local _ .vmem, ⟨29, _⟩ => ⟨S1600x512, .f32⟩
  | .local _ .vmem, ⟨30, _⟩ => ⟨S1x256, .f32⟩
  | .local _ .vmem, ⟨31, _⟩ => ⟨S1x256, .f32⟩
  | .local _ .vmem, ⟨32, _⟩ => ⟨S1600x256, .f32⟩
  | .local _ .vmem, ⟨33, _⟩ => ⟨S1600x256, .f32⟩
  | .local _ .vmem, ⟨34, _⟩ => ⟨S2000x256, .bf16⟩
  | .local _ .vmem, ⟨35, _⟩ => ⟨S2000x256, .bf16⟩
  | .local _ .vmem, ⟨36, _⟩ => ⟨S256x1024, .bf16⟩
  | .local _ .vmem, ⟨37, _⟩ => ⟨S1x1024, .f32⟩
  | .local _ .vmem, ⟨38, _⟩ => ⟨S2000x1024, .f32⟩
  | .local _ .vmem, ⟨39, _⟩ => ⟨S2000x1024, .f32⟩
  | .local _ .vmem, ⟨40, _⟩ => ⟨S2000x256, .bf16⟩
  | .local _ .vmem, ⟨41, _⟩ => ⟨S2000x256, .bf16⟩
  | .local _ .vmem, ⟨42, _⟩ => ⟨S256x512, .bf16⟩
  | .local _ .vmem, ⟨43, _⟩ => ⟨S1x512, .f32⟩
  | .local _ .vmem, ⟨44, _⟩ => ⟨S2000x512, .f32⟩
  | .local _ .vmem, ⟨45, _⟩ => ⟨S2000x512, .f32⟩
  | .local _ .vmem, ⟨46, _⟩ => ⟨S1600x512, .f32⟩
  | .local _ .vmem, ⟨47, _⟩ => ⟨S1600x512, .f32⟩
  | .local _ .vmem, ⟨48, _⟩ => ⟨S1600x512, .f32⟩
  | .local _ .vmem, ⟨49, _⟩ => ⟨S1600x512, .f32⟩
  | .local _ .vmem, ⟨50, _⟩ => ⟨S1600x512, .f32⟩
  | .local _ .vmem, ⟨51, _⟩ => ⟨S1600x512, .f32⟩
  | .local _ .vmem, ⟨52, _⟩ => ⟨S1x256, .f32⟩
  | .local _ .vmem, ⟨53, _⟩ => ⟨S1x256, .f32⟩
  | .local _ .vmem, ⟨54, _⟩ => ⟨S1600x256, .f32⟩
  | .local _ .vmem, ⟨55, _⟩ => ⟨S1600x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c : Ref sig .tc := ⟨.hbm, 71, rfl⟩
abbrev main_v49 : Ref sig .tc := ⟨.hbm, 72, rfl⟩
abbrev main_v50 : Ref sig .tc := ⟨.hbm, 73, rfl⟩
abbrev main_c_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_6 : Ref sig .tc := ⟨.hbm, 80, rfl⟩
abbrev main_v56 : Ref sig .tc := ⟨.hbm, 81, rfl⟩
abbrev main_v57 : Ref sig .tc := ⟨.hbm, 82, rfl⟩
abbrev main_c_7 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_8 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_cst_10 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_11 : Ref sig .tc := ⟨.hbm, 112, rfl⟩
abbrev main_v83 : Ref sig .tc := ⟨.hbm, 113, rfl⟩
abbrev main_cst_12 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_13 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_14 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_15 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_c_16 : Ref sig .tc := ⟨.hbm, 164, rfl⟩
abbrev main_v130 : Ref sig .tc := ⟨.hbm, 165, rfl⟩
abbrev main_v131 : Ref sig .tc := ⟨.hbm, 166, rfl⟩
abbrev main_c_17 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_c_18 : Ref sig .tc := ⟨.hbm, 173, rfl⟩
abbrev main_v137 : Ref sig .tc := ⟨.hbm, 174, rfl⟩
abbrev main_v138 : Ref sig .tc := ⟨.hbm, 175, rfl⟩
abbrev main_c_19 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_20 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_21 : Ref sig .tc := ⟨.hbm, 196, rfl⟩
abbrev main_v157 : Ref sig .tc := ⟨.hbm, 197, rfl⟩
abbrev main_cst_22 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_cst_23 : Ref sig .tc := ⟨.hbm, 205, rfl⟩
abbrev main_v164 : Ref sig .tc := ⟨.hbm, 206, rfl⟩
abbrev main_cst_24 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_cst_25 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_cst_26 : Ref sig .tc := ⟨.hbm, 230, rfl⟩
abbrev main_v186 : Ref sig .tc := ⟨.hbm, 231, rfl⟩
abbrev main_cst_27 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_cst_28 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_cst_29 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_call0_cst : Ref sig .tc := ⟨.hbm, 246, rfl⟩
abbrev main_call0_v0 : Ref sig .tc := ⟨.hbm, 247, rfl⟩
abbrev main_call0_v1 : Ref sig .tc := ⟨.hbm, 248, rfl⟩
abbrev main_call0_v2 : Ref sig .tc := ⟨.hbm, 249, rfl⟩
abbrev main_call0_v3 : Ref sig .tc := ⟨.hbm, 250, rfl⟩
abbrev main_call0_v4 : Ref sig .tc := ⟨.hbm, 251, rfl⟩
abbrev main_call0_v5 : Ref sig .tc := ⟨.hbm, 252, rfl⟩
abbrev main_call0_v6 : Ref sig .tc := ⟨.hbm, 253, rfl⟩
abbrev main_call0_v7 : Ref sig .tc := ⟨.hbm, 254, rfl⟩
abbrev main_call0_v8 : Ref sig .tc := ⟨.hbm, 255, rfl⟩
abbrev main_call0_v9 : Ref sig .tc := ⟨.hbm, 256, rfl⟩
abbrev main_call0_v10 : Ref sig .tc := ⟨.hbm, 257, rfl⟩
abbrev main_call0_v11 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_call1_cst : Ref sig .tc := ⟨.hbm, 265, rfl⟩
abbrev main_call1_v0 : Ref sig .tc := ⟨.hbm, 266, rfl⟩
abbrev main_call1_v1 : Ref sig .tc := ⟨.hbm, 267, rfl⟩
abbrev main_call1_v2 : Ref sig .tc := ⟨.hbm, 268, rfl⟩
abbrev main_call1_v3 : Ref sig .tc := ⟨.hbm, 269, rfl⟩
abbrev main_call1_v4 : Ref sig .tc := ⟨.hbm, 270, rfl⟩
abbrev main_call1_v5 : Ref sig .tc := ⟨.hbm, 271, rfl⟩
abbrev main_call1_v6 : Ref sig .tc := ⟨.hbm, 272, rfl⟩
abbrev main_call1_v7 : Ref sig .tc := ⟨.hbm, 273, rfl⟩
abbrev main_call1_v8 : Ref sig .tc := ⟨.hbm, 274, rfl⟩
abbrev main_call1_v9 : Ref sig .tc := ⟨.hbm, 275, rfl⟩
abbrev main_call1_v10 : Ref sig .tc := ⟨.hbm, 276, rfl⟩
abbrev main_call1_v11 : Ref sig .tc := ⟨.hbm, 277, rfl⟩
abbrev main_v204 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg5_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg5_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem5_0 : DmaSem sig := 32
abbrev cc4_sem5_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc7_sem3_0 : DmaSem sig := 52
abbrev cc7_sem4_0 : DmaSem sig := 53
abbrev cc7_sem5_0 : DmaSem sig := 54
abbrev cc7_sem5_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1600x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1600x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1600x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1600x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![125], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1600x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1600x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1600x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1600x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bitsLt_bf16_f32 : FTy.bits .bf16 < FTy.bits .f32
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  transposes_S256x128_S128x256_1_0 : S256x128.Transposes [1, 0] S128x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bcast_S_S200000 : S_.BroadcastsInDim S200000 (![] : Fin 0 → Fin S200000.rank)
  bcast_S_S20000 : S_.BroadcastsInDim S20000 (![] : Fin 0 → Fin S20000.rank)
  bcast_S200000_S200000x1_0 : S200000.BroadcastsInDim S200000x1 (![0] : Fin 1 → Fin S200000x1.rank)
  bcast_S20000_S20000x1_0 : S20000.BroadcastsInDim S20000x1 (![0] : Fin 1 → Fin S20000x1.rank)
  slices_S2x256x768_S1x256x768_0_0_0 : S2x256x768.Slices ![0, 0, 0] S1x256x768
  shapeCasts_S1x256x768_S256x768 : S1x256x768.ShapeCasts S256x768
  slices_S256x768_S256x256_0_0 : S256x768.Slices ![0, 0] S256x256
  slices_S256x768_S256x256_0_256 : S256x768.Slices ![0, 256] S256x256
  slices_S256x768_S256x256_0_512 : S256x768.Slices ![0, 512] S256x256
  concatenates_S256x256_S256x256_S256x256_S256x256_S1024x256_d0 : Shape.Concatenates [S256x256, S256x256, S256x256, S256x256] S1024x256 0
  transposes_S1024x256_S256x1024_1_0 : S1024x256.Transposes [1, 0] S256x1024
  bcast_S_S1024 : S_.BroadcastsInDim S1024 (![] : Fin 0 → Fin S1024.rank)
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  concatenates_S256x256_S256x256_S512x256_d0 : Shape.Concatenates [S256x256, S256x256] S512x256 0
  transposes_S512x256_S256x512_1_0 : S512x256.Transposes [1, 0] S256x512
  bcast_S_S512 : S_.BroadcastsInDim S512 (![] : Fin 0 → Fin S512.rank)
  shapeCasts_S512_S1x512 : S512.ShapeCasts S1x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S20000x1024_S20000x512_0_0 : S20000x1024.Slices ![0, 0] S20000x512
  slices_S20000x1024_S20000x512_0_512 : S20000x1024.Slices ![0, 512] S20000x512
  slices_S2x256_S1x256_0_0 : S2x256.Slices ![0, 0] S1x256
  shapeCasts_S1x256_S256 : S1x256.ShapeCasts S256
  inb_S1600x512_S1600x512_0_0 : ∀ a, (![0, 0] : Fin 2 → Nat) a + S1600x512.size a ≤ S1600x512.size a
  h_S1600x512 : 0 < S1600x512.numel
  shapeCasts_S1600x512_S1600x512 : S1600x512.ShapeCasts S1600x512
  slices_S1600x512_o0_0_S1600x256 : S1600x512.Slices ![0, 0] S1600x256
  broadcasts_S1x256_S1600x256 : S1x256.Broadcasts S1600x256
  slices_S1600x512_o0_256_S1600x256 : S1600x512.Slices ![0, 256] S1600x256
  inb_S1600x256_S1600x256_0_0 : ∀ a, (![0, 0] : Fin 2 → Nat) a + S1600x256.size a ≤ S1600x256.size a
  h_S1600x256 : 0 < S1600x256.numel
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  reducesTo_S20000x256_S256_d0 : S20000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S2x256x768_S1x256x768_1_0_0 : S2x256x768.Slices ![1, 0, 0] S1x256x768
  slices_S2x256_S1x256_1_0 : S2x256.Slices ![1, 0] S1x256
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  dot_S2000x256_S256x256_S2000x256_1_0_0_1_n_n_wf : DotDims.WF S2000x256 S256x256 S2000x256 [1] [0] [0] [1] [] []
  dot_S2000x128_S128x256_S2000x256_1_0_0_1_n_n_wf : DotDims.WF S2000x128 S128x256 S2000x256 [1] [0] [0] [1] [] []
  scatter_S20000_S200000x1_S200000_n_0_0_1_wf : ScatterDims.WF S20000 S200000x1 S200000 [] [0] [0] 1
  dot_S2000x256_S256x1024_S2000x1024_1_0_0_1_n_n_wf : DotDims.WF S2000x256 S256x1024 S2000x1024 [1] [0] [0] [1] [] []
  dot_S2000x256_S256x512_S2000x512_1_0_0_1_n_n_wf : DotDims.WF S2000x256 S256x512 S2000x512 [1] [0] [0] [1] [] []
  gather_S20000x512_S200000x1_S200000x512_1_0_n_n_0_1_1512_wf : GatherDims.WF S20000x512 S200000x1 S200000x512 [1] [0] [] [0] [] 1 ![1, 512]
  scatter_S20000x256_S200000x1_S200000x256_1_0_0_1_wf : ScatterDims.WF S20000x256 S200000x1 S200000x256 [1] [0] [0] 1
  scatter_S64_S20000x1_S20000_n_0_0_1_wf : ScatterDims.WF S64 S20000x1 S20000 [] [0] [0] 1
  scatter_S64x256_S20000x1_S20000x256_1_0_0_1_wf : ScatterDims.WF S64x256 S20000x1 S20000x256 [1] [0] [0] 1
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .bf16 = 32 ∨ (Rect.block (s := S20000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S200000x128.size a
  hwx1_0 : ∀ i : grid1.Coords, EltTy.bits .bf16 = 32 ∨ (Rect.block (s := S200000x128) S2000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .bf16 = 32 ∨ (Rect.block (s := S128x256) S128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S200000x256.size a
  hwx1_3 : ∀ i : grid1.Coords, EltTy.bits .f32 = 32 ∨ (Rect.block (s := S200000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .bf16 = 32 ∨ (Rect.block (s := S20000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S256x1024.size a
  hwx2_1 : ∀ i : grid2.Coords, EltTy.bits .bf16 = 32 ∨ (Rect.block (s := S256x1024) S256x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1024.size a ≤ S20000x1024.size a
  hwx2_3 : ∀ i : grid2.Coords, EltTy.bits .f32 = 32 ∨ (Rect.block (s := S20000x1024) S2000x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .bf16 = 32 ∨ (Rect.block (s := S200000x256) S2000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x512.size a ≤ S256x512.size a
  hwx3_1 : ∀ i : grid3.Coords, EltTy.bits .bf16 = 32 ∨ (Rect.block (s := S256x512) S256x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x512.size a ≤ S200000x512.size a
  hwx3_3 : ∀ i : grid3.Coords, EltTy.bits .f32 = 32 ∨ (Rect.block (s := S200000x512) S2000x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1600x512.size a ≤ S200000x512.size a
  hwx4_0 : ∀ i : grid4.Coords, EltTy.bits .f32 = 32 ∨ (Rect.block (s := S200000x512) S1600x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1600x512.size a ≤ S200000x512.size a
  hwx4_1 : ∀ i : grid4.Coords, EltTy.bits .f32 = 32 ∨ (Rect.block (s := S200000x512) S1600x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1600x512.size a ≤ S200000x512.size a
  hwx4_2 : ∀ i : grid4.Coords, EltTy.bits .f32 = 32 ∨ (Rect.block (s := S200000x512) S1600x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1600x256.size a ≤ S200000x256.size a
  hwx4_5 : ∀ i : grid4.Coords, EltTy.bits .f32 = 32 ∨ (Rect.block (s := S200000x256) S1600x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .bf16 = 32 ∨ (Rect.block (s := S20000x256) S2000x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x1024.size a ≤ S256x1024.size a
  hwx5_1 : ∀ i : grid5.Coords, EltTy.bits .bf16 = 32 ∨ (Rect.block (s := S256x1024) S256x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1024.size a ≤ S20000x1024.size a
  hwx5_3 : ∀ i : grid5.Coords, EltTy.bits .f32 = 32 ∨ (Rect.block (s := S20000x1024) S2000x1024.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S200000x256.size a
  hwx6_0 : ∀ i : grid6.Coords, EltTy.bits .bf16 = 32 ∨ (Rect.block (s := S200000x256) S2000x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x512.size a ≤ S256x512.size a
  hwx6_1 : ∀ i : grid6.Coords, EltTy.bits .bf16 = 32 ∨ (Rect.block (s := S256x512) S256x512.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x512.size a ≤ S200000x512.size a
  hwx6_3 : ∀ i : grid6.Coords, EltTy.bits .f32 = 32 ∨ (Rect.block (s := S200000x512) S2000x512.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1600x512.size a ≤ S200000x512.size a
  hwx7_0 : ∀ i : grid7.Coords, EltTy.bits .f32 = 32 ∨ (Rect.block (s := S200000x512) S1600x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1600x512.size a ≤ S200000x512.size a
  hwx7_1 : ∀ i : grid7.Coords, EltTy.bits .f32 = 32 ∨ (Rect.block (s := S200000x512) S1600x512.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1600x512.size a ≤ S200000x512.size a
  hwx7_2 : ∀ i : grid7.Coords, EltTy.bits .f32 = 32 ∨ (Rect.block (s := S200000x512) S1600x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1600x256.size a ≤ S200000x256.size a
  hwx7_5 : ∀ i : grid7.Coords, EltTy.bits .f32 = 32 ∨ (Rect.block (s := S200000x256) S1600x256.size (cc7_transform_5 i) (hinb7_5 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S2000x256_S256x1024_S2000x1024_1_0_0_1_n_n : DotDims S2000x256 S256x1024 S2000x1024 where
  lhsContracting := [1]
  rhsContracting := [0]
  lhsNonContracting := [0]
  rhsNonContracting := [1]
  lhsBatch := []
  rhsBatch := []
  wf := dot_S2000x256_S256x1024_S2000x1024_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def gather_S20000x512_S200000x1_S200000x512_1_0_n_n_0_1_1512 : GatherDims S20000x512 S200000x1 S200000x512 where
  offsetDims := [1]
  collapsedSliceDims := [0]
  operandBatchingDims := []
  startIndicesBatchingDims := []
  startIndexMap := [0]
  indexVectorDim := 1
  sliceSizes := ![1, 512]
  wf := gather_S20000x512_S200000x1_S200000x512_1_0_n_n_0_1_1512_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_v4) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S256x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v14) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S256x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S2000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v55) S1600x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1600x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1600x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69) S1600x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v119) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v117) S256x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v120) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v121) S2000x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v14) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v124) S256x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v126) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v127) S2000x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v136) S1600x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v143) S1600x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v127) S1600x512.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v148) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v149) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v150) S1600x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S20000x256 : Shape := ⟨2, ![20000, 256]⟩
abbrev S2x200000 : Shape := ⟨2, ![2, 200000]⟩
abbrev S200000x128 : Shape := ⟨2, ![200000, 128]⟩
abbrev S20000 : Shape := ⟨1, ![20000]⟩
abbrev S256x256 : Shape := ⟨2, ![256, 256]⟩
abbrev S256 : Shape := ⟨1, ![256]⟩
abbrev S256x128 : Shape := ⟨2, ![256, 128]⟩
abbrev S2x256x768 : Shape := ⟨3, ![2, 256, 768]⟩
abbrev S2x256 : Shape := ⟨2, ![2, 256]⟩
abbrev S1x200000 : Shape := ⟨2, ![1, 200000]⟩
abbrev S200000 : Shape := ⟨1, ![200000]⟩
abbrev S1x256 : Shape := ⟨2, ![1, 256]⟩
abbrev S128x256 : Shape := ⟨2, ![128, 256]⟩
abbrev S200000x256 : Shape := ⟨2, ![200000, 256]⟩
abbrev S_ : Shape := ⟨0, ![]⟩
abbrev S200000x1 : Shape := ⟨2, ![200000, 1]⟩
abbrev S20000x1 : Shape := ⟨2, ![20000, 1]⟩
abbrev S1x256x768 : Shape := ⟨3, ![1, 256, 768]⟩
abbrev S256x768 : Shape := ⟨2, ![256, 768]⟩
abbrev S64 : Shape := ⟨1, ![64]⟩
abbrev S64x256 : Shape := ⟨2, ![64, 256]⟩
abbrev S64x1 : Shape := ⟨2, ![64, 1]⟩

abbrev nBuf : Space → Nat
  | .hbm => 364
  | .vmem => 0
  | .smem => 0
  | _ => 0

abbrev hbmTy0_0 (i : Nat) : BufTy := match i % 128 with
  | 0 => ⟨S20000x256, .f32⟩
  | 1 => ⟨S2x200000, .i32⟩
  | 2 => ⟨S200000x128, .f32⟩
  | 3 => ⟨S20000, .i32⟩
  | 4 => ⟨S256x256, .f32⟩
  | 5 => ⟨S256, .f32⟩
  | 6 => ⟨S256x128, .f32⟩
  | 7 => ⟨S256, .f32⟩
  | 8 => ⟨S2x256x768, .f32⟩
  | 9 => ⟨S2x256, .f32⟩
  | 10 => ⟨S2x256x768, .f32⟩
  | 11 => ⟨S2x256, .f32⟩
  | 12 => ⟨S2x256, .f32⟩
  | 13 => ⟨S2x256, .f32⟩
  | 14 => ⟨S256x256, .f32⟩
  | 15 => ⟨S256, .f32⟩
  | 16 => ⟨S1x200000, .i32⟩
  | 17 => ⟨S200000, .i32⟩
  | 18 => ⟨S1x200000, .i32⟩
  | 19 => ⟨S200000, .i32⟩
  | 20 => ⟨S256x256, .f32⟩
  | 21 => ⟨S20000x256, .f32⟩
  | 22 => ⟨S1x256, .f32⟩
  | 23 => ⟨S20000x256, .f32⟩
  | 24 => ⟨S20000x256, .f32⟩
  | 25 => ⟨S128x256, .f32⟩
  | 26 => ⟨S200000x256, .f32⟩
  | 27 => ⟨S1x256, .f32⟩
  | 28 => ⟨S200000x256, .f32⟩
  | 29 => ⟨S200000x256, .f32⟩
  | 30 => ⟨S_, .f32⟩
  | 31 => ⟨S200000, .f32⟩
  | 32 => ⟨S_, .f32⟩
  | 33 => ⟨S20000, .f32⟩
  | 34 => ⟨S200000x1, .i32⟩
  | 35 => ⟨S20000, .f32⟩
  | 36 => ⟨S_, .f32⟩
  | 37 => ⟨S20000, .f32⟩
  | 38 => ⟨S20000, .f32⟩
  | 39 => ⟨S_, .f32⟩
  | 40 => ⟨S20000, .f32⟩
  | 41 => ⟨S20000, .f32⟩
  | 42 => ⟨S20000x1, .f32⟩
  | 43 => ⟨S1x256x768, .f32⟩
  | 44 => ⟨S256x768, .f32⟩
  | 45 => ⟨S1x256, .f32⟩
  | 46 => ⟨S256, .f32⟩
  | 47 => ⟨S1x256x768, .f32⟩
  | 48 => ⟨S256x768, .f32⟩
  | 49 => ⟨S1x256, .f32⟩
  | 50 => ⟨S256, .f32⟩
  | 51 => ⟨S256x256, .f32⟩
  | 52 => ⟨S256x256, .f32⟩
  | 53 => ⟨S256x256, .f32⟩
  | 54 => ⟨S256x256, .f32⟩
  | 55 => ⟨S20000x256, .f32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S200000x256, .f32⟩
  | 65 => ⟨S256x256, .f32⟩
  | 66 => ⟨S20000x256, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x256, .f32⟩
  | 76 => ⟨S200000x256, .f32⟩
  | 77 => ⟨S256x256, .f32⟩
  | 78 => ⟨S200000x256, .f32⟩
  | 79 => ⟨S200000x256, .f32⟩
  | 80 => ⟨S1x256, .f32⟩
  | 81 => ⟨S200000x256, .f32⟩
  | 82 => ⟨S200000x256, .f32⟩
  | 83 => ⟨S200000x256, .f32⟩
  | 84 => ⟨S200000x256, .f32⟩
  | 85 => ⟨S_, .f32⟩
  | 86 => ⟨S200000x256, .f32⟩
  | 87 => ⟨S200000x256, .f32⟩
  | 88 => ⟨S_, .f32⟩
  | 89 => ⟨S200000x256, .f32⟩
  | 90 => ⟨S200000x256, .f32⟩
  | 91 => ⟨S256x256, .f32⟩
  | 92 => ⟨S256x256, .f32⟩
  | 93 => ⟨S256x256, .f32⟩
  | 94 => ⟨S256x256, .f32⟩
  | 95 => ⟨S20000x256, .f32⟩
  | 96 => ⟨S_, .i32⟩
  | 97 => ⟨S200000, .i32⟩
  | 98 => ⟨S200000, .i1⟩
  | 99 => ⟨S_, .i32⟩
  | 100 => ⟨S200000, .i32⟩
  | 101 => ⟨S200000, .i32⟩
  | 102 => ⟨S200000, .i32⟩
  | 103 => ⟨S200000x1, .i32⟩
  | 104 => ⟨S200000x256, .f32⟩
  | 105 => ⟨S256x256, .f32⟩
  | 106 => ⟨S20000x256, .f32⟩
  | 107 => ⟨S_, .i32⟩
  | 108 => ⟨S200000, .i32⟩
  | 109 => ⟨S200000, .i1⟩
  | 110 => ⟨S_, .i32⟩
  | 111 => ⟨S200000, .i32⟩
  | 112 => ⟨S200000, .i32⟩
  | 113 => ⟨S200000, .i32⟩
  | 114 => ⟨S200000x1, .i32⟩
  | 115 => ⟨S200000x256, .f32⟩
  | 116 => ⟨S200000x256, .f32⟩
  | 117 => ⟨S256x256, .f32⟩
  | 118 => ⟨S200000x256, .f32⟩
  | 119 => ⟨S200000x256, .f32⟩
  | 120 => ⟨S1x256, .f32⟩
  | 121 => ⟨S200000x256, .f32⟩
  | 122 => ⟨S200000x256, .f32⟩
  | 123 => ⟨S_, .f32⟩
  | 124 => ⟨S200000x256, .f32⟩
  | 125 => ⟨S200000x256, .f32⟩
  | 126 => ⟨S200000x256, .f32⟩
  | 127 => ⟨S200000x256, .f32⟩
  | _ => ⟨S20000x256, .f32⟩

abbrev hbmTy0_1 (i : Nat) : BufTy := match i % 128 with
  | 0 => ⟨S200000x256, .i1⟩
  | 1 => ⟨S200000x256, .f32⟩
  | 2 => ⟨S200000x256, .f32⟩
  | 3 => ⟨S200000x256, .f32⟩
  | 4 => ⟨S200000x256, .f32⟩
  | 5 => ⟨S200000x256, .f32⟩
  | 6 => ⟨S200000x256, .f32⟩
  | 7 => ⟨S200000x256, .f32⟩
  | 8 => ⟨S200000x256, .f32⟩
  | 9 => ⟨S200000x256, .f32⟩
  | 10 => ⟨S_, .f32⟩
  | 11 => ⟨S20000x256, .f32⟩
  | 12 => ⟨S200000x1, .i32⟩
  | 13 => ⟨S20000x256, .f32⟩
  | 14 => ⟨S20000x256, .f32⟩
  | 15 => ⟨S20000x256, .f32⟩
  | 16 => ⟨S20000x256, .f32⟩
  | 17 => ⟨S1x256, .f32⟩
  | 18 => ⟨S256, .f32⟩
  | 19 => ⟨S1x256, .f32⟩
  | 20 => ⟨S256, .f32⟩
  | 21 => ⟨S_, .f32⟩
  | 22 => ⟨S256, .f32⟩
  | 23 => ⟨S_, .f32⟩
  | 24 => ⟨S256, .f32⟩
  | 25 => ⟨S256, .f32⟩
  | 26 => ⟨S1x256, .f32⟩
  | 27 => ⟨S20000x256, .f32⟩
  | 28 => ⟨S20000x256, .f32⟩
  | 29 => ⟨S20000x256, .f32⟩
  | 30 => ⟨S_, .f32⟩
  | 31 => ⟨S256, .f32⟩
  | 32 => ⟨S_, .f32⟩
  | 33 => ⟨S256, .f32⟩
  | 34 => ⟨S256, .f32⟩
  | 35 => ⟨S1x256, .f32⟩
  | 36 => ⟨S20000x256, .f32⟩
  | 37 => ⟨S20000x256, .f32⟩
  | 38 => ⟨S_, .f32⟩
  | 39 => ⟨S256, .f32⟩
  | 40 => ⟨S256, .f32⟩
  | 41 => ⟨S256, .f32⟩
  | 42 => ⟨S1x256, .f32⟩
  | 43 => ⟨S20000x256, .f32⟩
  | 44 => ⟨S20000x256, .f32⟩
  | 45 => ⟨S1x256, .f32⟩
  | 46 => ⟨S20000x256, .f32⟩
  | 47 => ⟨S20000x256, .f32⟩
  | 48 => ⟨S1x256, .f32⟩
  | 49 => ⟨S20000x256, .f32⟩
  | 50 => ⟨S20000x256, .f32⟩
  | 51 => ⟨S1x256x768, .f32⟩
  | 52 => ⟨S256x768, .f32⟩
  | 53 => ⟨S1x256, .f32⟩
  | 54 => ⟨S256, .f32⟩
  | 55 => ⟨S1x256x768, .f32⟩
  | 56 => ⟨S256x768, .f32⟩
  | 57 => ⟨S1x256, .f32⟩
  | 58 => ⟨S256, .f32⟩
  | 59 => ⟨S256x256, .f32⟩
  | 60 => ⟨S256x256, .f32⟩
  | 61 => ⟨S256x256, .f32⟩
  | 62 => ⟨S256x256, .f32⟩
  | 63 => ⟨S20000x256, .f32⟩
  | 64 => ⟨S_, .i32⟩
  | 65 => ⟨S200000, .i32⟩
  | 66 => ⟨S200000, .i1⟩
  | 67 => ⟨S_, .i32⟩
  | 68 => ⟨S200000, .i32⟩
  | 69 => ⟨S200000, .i32⟩
  | 70 => ⟨S200000, .i32⟩
  | 71 => ⟨S200000x1, .i32⟩
  | 72 => ⟨S200000x256, .f32⟩
  | 73 => ⟨S256x256, .f32⟩
  | 74 => ⟨S20000x256, .f32⟩
  | 75 => ⟨S_, .i32⟩
  | 76 => ⟨S200000, .i32⟩
  | 77 => ⟨S200000, .i1⟩
  | 78 => ⟨S_, .i32⟩
  | 79 => ⟨S200000, .i32⟩
  | 80 => ⟨S200000, .i32⟩
  | 81 => ⟨S200000, .i32⟩
  | 82 => ⟨S200000x1, .i32⟩
  | 83 => ⟨S200000x256, .f32⟩
  | 84 => ⟨S200000x256, .f32⟩
  | 85 => ⟨S256x256, .f32⟩
  | 86 => ⟨S200000x256, .f32⟩
  | 87 => ⟨S200000x256, .f32⟩
  | 88 => ⟨S1x256, .f32⟩
  | 89 => ⟨S200000x256, .f32⟩
  | 90 => ⟨S200000x256, .f32⟩
  | 91 => ⟨S200000x256, .f32⟩
  | 92 => ⟨S200000x256, .f32⟩
  | 93 => ⟨S_, .f32⟩
  | 94 => ⟨S200000x256, .f32⟩
  | 95 => ⟨S200000x256, .f32⟩
  | 96 => ⟨S_, .f32⟩
  | 97 => ⟨S200000x256, .f32⟩
  | 98 => ⟨S200000x256, .f32⟩
  | 99 => ⟨S256x256, .f32⟩
  | 100 => ⟨S256x256, .f32⟩
  | 101 => ⟨S256x256, .f32⟩
  | 102 => ⟨S256x256, .f32⟩
  | 103 => ⟨S20000x256, .f32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S200000x256, .f32⟩
  | 113 => ⟨S256x256, .f32⟩
  | 114 => ⟨S20000x256, .f32⟩
  | 115 => ⟨S_, .i32⟩
  | 116 => ⟨S200000, .i32⟩
  | 117 => ⟨S200000, .i1⟩
  | 118 => ⟨S_, .i32⟩
  | 119 => ⟨S200000, .i32⟩
  | 120 => ⟨S200000, .i32⟩
  | 121 => ⟨S200000, .i32⟩
  | 122 => ⟨S200000x1, .i32⟩
  | 123 => ⟨S200000x256, .f32⟩
  | 124 => ⟨S200000x256, .f32⟩
  | 125 => ⟨S256x256, .f32⟩
  | 126 => ⟨S200000x256, .f32⟩
  | 127 => ⟨S200000x256, .f32⟩
  | _ => ⟨S20000x256, .f32⟩

abbrev hbmTy0_2 (i : Nat) : BufTy := match i % 128 with
  | 0 => ⟨S1x256, .f32⟩
  | 1 => ⟨S200000x256, .f32⟩
  | 2 => ⟨S200000x256, .f32⟩
  | 3 => ⟨S_, .f32⟩
  | 4 => ⟨S200000x256, .f32⟩
  | 5 => ⟨S200000x256, .f32⟩
  | 6 => ⟨S200000x256, .f32⟩
  | 7 => ⟨S200000x256, .f32⟩
  | 8 => ⟨S200000x256, .i1⟩
  | 9 => ⟨S200000x256, .f32⟩
  | 10 => ⟨S200000x256, .f32⟩
  | 11 => ⟨S200000x256, .f32⟩
  | 12 => ⟨S200000x256, .f32⟩
  | 13 => ⟨S200000x256, .f32⟩
  | 14 => ⟨S200000x256, .f32⟩
  | 15 => ⟨S200000x256, .f32⟩
  | 16 => ⟨S200000x256, .f32⟩
  | 17 => ⟨S200000x256, .f32⟩
  | 18 => ⟨S_, .f32⟩
  | 19 => ⟨S20000x256, .f32⟩
  | 20 => ⟨S200000x1, .i32⟩
  | 21 => ⟨S20000x256, .f32⟩
  | 22 => ⟨S20000x256, .f32⟩
  | 23 => ⟨S20000x256, .f32⟩
  | 24 => ⟨S20000x256, .f32⟩
  | 25 => ⟨S1x256, .f32⟩
  | 26 => ⟨S256, .f32⟩
  | 27 => ⟨S1x256, .f32⟩
  | 28 => ⟨S256, .f32⟩
  | 29 => ⟨S_, .f32⟩
  | 30 => ⟨S256, .f32⟩
  | 31 => ⟨S_, .f32⟩
  | 32 => ⟨S256, .f32⟩
  | 33 => ⟨S256, .f32⟩
  | 34 => ⟨S1x256, .f32⟩
  | 35 => ⟨S20000x256, .f32⟩
  | 36 => ⟨S20000x256, .f32⟩
  | 37 => ⟨S20000x256, .f32⟩
  | 38 => ⟨S_, .f32⟩
  | 39 => ⟨S256, .f32⟩
  | 40 => ⟨S_, .f32⟩
  | 41 => ⟨S256, .f32⟩
  | 42 => ⟨S256, .f32⟩
  | 43 => ⟨S1x256, .f32⟩
  | 44 => ⟨S20000x256, .f32⟩
  | 45 => ⟨S20000x256, .f32⟩
  | 46 => ⟨S_, .f32⟩
  | 47 => ⟨S256, .f32⟩
  | 48 => ⟨S256, .f32⟩
  | 49 => ⟨S256, .f32⟩
  | 50 => ⟨S1x256, .f32⟩
  | 51 => ⟨S20000x256, .f32⟩
  | 52 => ⟨S20000x256, .f32⟩
  | 53 => ⟨S1x256, .f32⟩
  | 54 => ⟨S20000x256, .f32⟩
  | 55 => ⟨S20000x256, .f32⟩
  | 56 => ⟨S1x256, .f32⟩
  | 57 => ⟨S20000x256, .f32⟩
  | 58 => ⟨S20000x256, .f32⟩
  | 59 => ⟨S_, .f32⟩
  | 60 => ⟨S20000, .f32⟩
  | 61 => ⟨S_, .f32⟩
  | 62 => ⟨S64, .f32⟩
  | 63 => ⟨S20000x1, .i32⟩
  | 64 => ⟨S64, .f32⟩
  | 65 => ⟨S_, .f32⟩
  | 66 => ⟨S64x256, .f32⟩
  | 67 => ⟨S20000x1, .i32⟩
  | 68 => ⟨S64x256, .f32⟩
  | 69 => ⟨S_, .f32⟩
  | 70 => ⟨S64, .f32⟩
  | 71 => ⟨S64, .f32⟩
  | 72 => ⟨S64x1, .f32⟩
  | 73 => ⟨S64x256, .f32⟩
  | 74 => ⟨S64x256, .f32⟩
  | 75 => ⟨S_, .f32⟩
  | 76 => ⟨S64x256, .f32⟩
  | 77 => ⟨S64x256, .f32⟩
  | 78 => ⟨S64x256, .f32⟩
  | 79 => ⟨S64x256, .f32⟩
  | 80 => ⟨S64x256, .i1⟩
  | 81 => ⟨S64x256, .f32⟩
  | 82 => ⟨S64x256, .f32⟩
  | 83 => ⟨S64x256, .f32⟩
  | 84 => ⟨S64x256, .f32⟩
  | 85 => ⟨S64x256, .f32⟩
  | 86 => ⟨S64x256, .f32⟩
  | 87 => ⟨S64x256, .f32⟩
  | 88 => ⟨S64x256, .f32⟩
  | 89 => ⟨S256x256, .f32⟩
  | 90 => ⟨S64x256, .f32⟩
  | 91 => ⟨S1x256, .f32⟩
  | 92 => ⟨S64x256, .f32⟩
  | 93 => ⟨S64x256, .f32⟩
  | 94 => ⟨S_, .f32⟩
  | 95 => ⟨S64x256, .f32⟩
  | 96 => ⟨S64x256, .f32⟩
  | 97 => ⟨S64x256, .f32⟩
  | 98 => ⟨S64x256, .f32⟩
  | 99 => ⟨S64x256, .i1⟩
  | 100 => ⟨S64x256, .f32⟩
  | 101 => ⟨S64x256, .f32⟩
  | 102 => ⟨S64x256, .f32⟩
  | 103 => ⟨S64x256, .f32⟩
  | 104 => ⟨S64x256, .f32⟩
  | 105 => ⟨S64x256, .f32⟩
  | 106 => ⟨S64x256, .f32⟩
  | 107 => ⟨S64x256, .f32⟩
  | _ => ⟨S20000x256, .f32⟩

abbrev hbmTy (i : Nat) : BufTy := match i / 128 with
  | 0 => hbmTy0_0 i
  | 1 => hbmTy0_1 i
  | 2 => hbmTy0_2 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c : Ref sig .tc := ⟨.hbm, 56, rfl⟩
abbrev main_v36 : Ref sig .tc := ⟨.hbm, 57, rfl⟩
abbrev main_v37 : Ref sig .tc := ⟨.hbm, 58, rfl⟩
abbrev main_c_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_4 : Ref sig .tc := ⟨.hbm, 67, rfl⟩
abbrev main_v45 : Ref sig .tc := ⟨.hbm, 68, rfl⟩
abbrev main_v46 : Ref sig .tc := ⟨.hbm, 69, rfl⟩
abbrev main_c_5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_6 : Ref sig .tc := ⟨.hbm, 85, rfl⟩
abbrev main_v61 : Ref sig .tc := ⟨.hbm, 86, rfl⟩
abbrev main_v62 : Ref sig .tc := ⟨.hbm, 87, rfl⟩
abbrev main_cst_7 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_8 : Ref sig .tc := ⟨.hbm, 96, rfl⟩
abbrev main_v70 : Ref sig .tc := ⟨.hbm, 97, rfl⟩
abbrev main_v71 : Ref sig .tc := ⟨.hbm, 98, rfl⟩
abbrev main_c_9 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_10 : Ref sig .tc := ⟨.hbm, 107, rfl⟩
abbrev main_v79 : Ref sig .tc := ⟨.hbm, 108, rfl⟩
abbrev main_v80 : Ref sig .tc := ⟨.hbm, 109, rfl⟩
abbrev main_c_11 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call0_cst : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_call0_v3 : Ref sig .tc := ⟨.hbm, 127, rfl⟩
abbrev main_call0_v4 : Ref sig .tc := ⟨.hbm, 128, rfl⟩
abbrev main_call0_v5 : Ref sig .tc := ⟨.hbm, 129, rfl⟩
abbrev main_call0_v6 : Ref sig .tc := ⟨.hbm, 130, rfl⟩
abbrev main_call0_v7 : Ref sig .tc := ⟨.hbm, 131, rfl⟩
abbrev main_call0_v8 : Ref sig .tc := ⟨.hbm, 132, rfl⟩
abbrev main_call0_v9 : Ref sig .tc := ⟨.hbm, 133, rfl⟩
abbrev main_call0_v10 : Ref sig .tc := ⟨.hbm, 134, rfl⟩
abbrev main_call0_v11 : Ref sig .tc := ⟨.hbm, 135, rfl⟩
abbrev main_v93 : Ref sig .tc := ⟨.hbm, 136, rfl⟩
abbrev main_v94 : Ref sig .tc := ⟨.hbm, 137, rfl⟩
abbrev main_cst_12 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_13 : Ref sig .tc := ⟨.hbm, 149, rfl⟩
abbrev main_v105 : Ref sig .tc := ⟨.hbm, 150, rfl⟩
abbrev main_cst_14 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_15 : Ref sig .tc := ⟨.hbm, 158, rfl⟩
abbrev main_v112 : Ref sig .tc := ⟨.hbm, 159, rfl⟩
abbrev main_cst_16 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_17 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_c_18 : Ref sig .tc := ⟨.hbm, 192, rfl⟩
abbrev main_v143 : Ref sig .tc := ⟨.hbm, 193, rfl⟩
abbrev main_v144 : Ref sig .tc := ⟨.hbm, 194, rfl⟩
abbrev main_c_19 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_c_20 : Ref sig .tc := ⟨.hbm, 203, rfl⟩
abbrev main_v152 : Ref sig .tc := ⟨.hbm, 204, rfl⟩
abbrev main_v153 : Ref sig .tc := ⟨.hbm, 205, rfl⟩
abbrev main_c_21 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_cst_22 : Ref sig .tc := ⟨.hbm, 221, rfl⟩
abbrev main_v168 : Ref sig .tc := ⟨.hbm, 222, rfl⟩
abbrev main_v169 : Ref sig .tc := ⟨.hbm, 223, rfl⟩
abbrev main_cst_23 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_c_24 : Ref sig .tc := ⟨.hbm, 232, rfl⟩
abbrev main_v177 : Ref sig .tc := ⟨.hbm, 233, rfl⟩
abbrev main_v178 : Ref sig .tc := ⟨.hbm, 234, rfl⟩
abbrev main_c_25 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_c_26 : Ref sig .tc := ⟨.hbm, 243, rfl⟩
abbrev main_v186 : Ref sig .tc := ⟨.hbm, 244, rfl⟩
abbrev main_v187 : Ref sig .tc := ⟨.hbm, 245, rfl⟩
abbrev main_c_27 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_call1_cst : Ref sig .tc := ⟨.hbm, 259, rfl⟩
abbrev main_call1_v0 : Ref sig .tc := ⟨.hbm, 260, rfl⟩
abbrev main_call1_v1 : Ref sig .tc := ⟨.hbm, 261, rfl⟩
abbrev main_call1_v2 : Ref sig .tc := ⟨.hbm, 262, rfl⟩
abbrev main_call1_v3 : Ref sig .tc := ⟨.hbm, 263, rfl⟩
abbrev main_call1_v4 : Ref sig .tc := ⟨.hbm, 264, rfl⟩
abbrev main_call1_v5 : Ref sig .tc := ⟨.hbm, 265, rfl⟩
abbrev main_call1_v6 : Ref sig .tc := ⟨.hbm, 266, rfl⟩
abbrev main_call1_v7 : Ref sig .tc := ⟨.hbm, 267, rfl⟩
abbrev main_call1_v8 : Ref sig .tc := ⟨.hbm, 268, rfl⟩
abbrev main_call1_v9 : Ref sig .tc := ⟨.hbm, 269, rfl⟩
abbrev main_call1_v10 : Ref sig .tc := ⟨.hbm, 270, rfl⟩
abbrev main_call1_v11 : Ref sig .tc := ⟨.hbm, 271, rfl⟩
abbrev main_v200 : Ref sig .tc := ⟨.hbm, 272, rfl⟩
abbrev main_v201 : Ref sig .tc := ⟨.hbm, 273, rfl⟩
abbrev main_cst_28 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_cst_29 : Ref sig .tc := ⟨.hbm, 285, rfl⟩
abbrev main_v212 : Ref sig .tc := ⟨.hbm, 286, rfl⟩
abbrev main_cst_30 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_cst_31 : Ref sig .tc := ⟨.hbm, 294, rfl⟩
abbrev main_v219 : Ref sig .tc := ⟨.hbm, 295, rfl⟩
abbrev main_cst_32 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_cst_33 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_cst_34 : Ref sig .tc := ⟨.hbm, 315, rfl⟩
abbrev main_v237 : Ref sig .tc := ⟨.hbm, 316, rfl⟩
abbrev main_cst_35 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_cst_36 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_cst_37 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_call2_cst : Ref sig .tc := ⟨.hbm, 331, rfl⟩
abbrev main_call2_v0 : Ref sig .tc := ⟨.hbm, 332, rfl⟩
abbrev main_call2_v1 : Ref sig .tc := ⟨.hbm, 333, rfl⟩
abbrev main_call2_v2 : Ref sig .tc := ⟨.hbm, 334, rfl⟩
abbrev main_call2_v3 : Ref sig .tc := ⟨.hbm, 335, rfl⟩
abbrev main_call2_v4 : Ref sig .tc := ⟨.hbm, 336, rfl⟩
abbrev main_call2_v5 : Ref sig .tc := ⟨.hbm, 337, rfl⟩
abbrev main_call2_v6 : Ref sig .tc := ⟨.hbm, 338, rfl⟩
abbrev main_call2_v7 : Ref sig .tc := ⟨.hbm, 339, rfl⟩
abbrev main_call2_v8 : Ref sig .tc := ⟨.hbm, 340, rfl⟩
abbrev main_call2_v9 : Ref sig .tc := ⟨.hbm, 341, rfl⟩
abbrev main_call2_v10 : Ref sig .tc := ⟨.hbm, 342, rfl⟩
abbrev main_call2_v11 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_call3_cst : Ref sig .tc := ⟨.hbm, 350, rfl⟩
abbrev main_call3_v0 : Ref sig .tc := ⟨.hbm, 351, rfl⟩
abbrev main_call3_v1 : Ref sig .tc := ⟨.hbm, 352, rfl⟩
abbrev main_call3_v2 : Ref sig .tc := ⟨.hbm, 353, rfl⟩
abbrev main_call3_v3 : Ref sig .tc := ⟨.hbm, 354, rfl⟩
abbrev main_call3_v4 : Ref sig .tc := ⟨.hbm, 355, rfl⟩
abbrev main_call3_v5 : Ref sig .tc := ⟨.hbm, 356, rfl⟩
abbrev main_call3_v6 : Ref sig .tc := ⟨.hbm, 357, rfl⟩
abbrev main_call3_v7 : Ref sig .tc := ⟨.hbm, 358, rfl⟩
abbrev main_call3_v8 : Ref sig .tc := ⟨.hbm, 359, rfl⟩
abbrev main_call3_v9 : Ref sig .tc := ⟨.hbm, 360, rfl⟩
abbrev main_call3_v10 : Ref sig .tc := ⟨.hbm, 361, rfl⟩
abbrev main_call3_v11 : Ref sig .tc := ⟨.hbm, 362, rfl⟩
abbrev main_v255 : Ref sig .tc := ⟨.hbm, 363, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  transposes_S256x256_S256x256_1_0 : S256x256.Transposes [1, 0] S256x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  transposes_S256x128_S128x256_1_0 : S256x128.Transposes [1, 0] S128x256
  bcast_S1x256_S200000x256_0_1 : S1x256.BroadcastsInDim S200000x256 (![0, 1] : Fin 2 → Fin S200000x256.rank)
  bcast_S_S200000 : S_.BroadcastsInDim S200000 (![] : Fin 0 → Fin S200000.rank)
  bcast_S_S20000 : S_.BroadcastsInDim S20000 (![] : Fin 0 → Fin S20000.rank)
  bcast_S200000_S200000x1_0 : S200000.BroadcastsInDim S200000x1 (![0] : Fin 1 → Fin S200000x1.rank)
  bcast_S20000_S20000x1_0 : S20000.BroadcastsInDim S20000x1 (![0] : Fin 1 → Fin S20000x1.rank)
  slices_S2x256x768_S1x256x768_0_0_0 : S2x256x768.Slices ![0, 0, 0] S1x256x768
  shapeCasts_S1x256x768_S256x768 : S1x256x768.ShapeCasts S256x768
  slices_S2x256_S1x256_0_0 : S2x256.Slices ![0, 0] S1x256
  shapeCasts_S1x256_S256 : S1x256.ShapeCasts S256
  slices_S256x768_S256x256_0_0 : S256x768.Slices ![0, 0] S256x256
  slices_S256x768_S256x256_0_256 : S256x768.Slices ![0, 256] S256x256
  slices_S256x768_S256x256_0_512 : S256x768.Slices ![0, 512] S256x256
  bcast_S_S200000x256 : S_.BroadcastsInDim S200000x256 (![] : Fin 0 → Fin S200000x256.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  reducesTo_S20000x256_S256_d0 : S20000x256.ReducesTo [0] S256
  h_S_ : 0 < S_.numel
  bcast_S_S256 : S_.BroadcastsInDim S256 (![] : Fin 0 → Fin S256.rank)
  slices_S2x256x768_S1x256x768_1_0_0 : S2x256x768.Slices ![1, 0, 0] S1x256x768
  slices_S2x256_S1x256_1_0 : S2x256.Slices ![1, 0] S1x256
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  dot_S20000x256_S256x256_S20000x256_1_0_0_1_n_n_wf : DotDims.WF S20000x256 S256x256 S20000x256 [1] [0] [0] [1] [] []
  dot_S200000x128_S128x256_S200000x256_1_0_0_1_n_n_wf : DotDims.WF S200000x128 S128x256 S200000x256 [1] [0] [0] [1] [] []
  scatter_S20000_S200000x1_S200000_n_0_0_1_wf : ScatterDims.WF S20000 S200000x1 S200000 [] [0] [0] 1
  gather_S20000x256_S200000x1_S200000x256_1_0_n_n_0_1_1256_wf : GatherDims.WF S20000x256 S200000x1 S200000x256 [1] [0] [] [0] [] 1 ![1, 256]
  dot_S200000x256_S256x256_S200000x256_1_0_0_1_n_n_wf : DotDims.WF S200000x256 S256x256 S200000x256 [1] [0] [0] [1] [] []
  scatter_S20000x256_S200000x1_S200000x256_1_0_0_1_wf : ScatterDims.WF S20000x256 S200000x1 S200000x256 [1] [0] [0] 1
  scatter_S64_S20000x1_S20000_n_0_0_1_wf : ScatterDims.WF S64 S20000x1 S20000 [] [0] [0] 1
  scatter_S64x256_S20000x1_S20000x256_1_0_0_1_wf : ScatterDims.WF S64x256 S20000x1 S20000x256 [1] [0] [0] 1
  dot_S64x256_S256x256_S64x256_1_0_0_1_n_n_wf : DotDims.WF S64x256 S256x256 S64x256 [1] [0] [0] [1] [] []

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

class Facts : Prop extends Facts₀ where

variable [Facts]
-- ==== Proof.K.Region0.lean ====
import proofs.«149463_j13572096656012_1_alg».proof.Proof.Gen.Kernel.Launch
import proofs.«149463_j13572096656012_1_alg».proof.Proof.Gen.Kernel.Skeleton
import proofs.«149463_j13572096656012_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out0_3`: the one store's value over the three loaded blocks), the body's triple, the pipeline's proof data
(`dat0`) and the body obligation at every point.
-/

-- membership in a rectangle of 2000 rows: the structural look recurses once per coordinate of the long axis
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (the weight and the bias
    row are fetched once: their block index never moves), for any proof data over `V`'s arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_a : Rect S2000x256 := Rect.unit (s := S2000x256) ![0, 0] S2000x256.size inb_S2000x256_S2000x256_0_0
abbrev r0_b : Rect S256x256 := Rect.unit (s := S256x256) ![0, 0] S256x256.size inb_S256x256_S256x256_0_0
abbrev r0_bias : Rect S1x256 := Rect.unit (s := S1x256) ![0, 0] S1x256.size inb_S1x256_S1x256_0_0
abbrev r0_o : Rect S2000x256 := Rect.unit (s := S2000x256) ![0, 0] S2000x256.size inb_S2000x256_S2000x256_0_0

/-! ## What the body leaves in the output window's buffer -/

/-- The output buffer after the body, from the three input blocks: its one store, of the product plus the bias row. -/
def out0_3 (x0 : Vec F S2000x256 .bf16) (x1 : Vec F S256x256 .bf16) (x2 : Vec F S1x256 .f32) : Vec F S2000x256 .f32 :=
  View.canon [⟨r0_o, k0_pay1 (View.ld x0 r0_a) (View.ld x1 r0_b) (View.ld x2 r0_bias)⟩]

/-- The one store covers the buffer. -/
theorem cover0_3 (p0 : Vec F S2000x256 .f32) (y : S2000x256.Idx) :
    ∃ pc ∈ ([⟨r0_o, p0⟩] : List (View.Piece (Elt F) S2000x256 .f32)), y ∈ pc.1.set :=
  View.cover_of_tiled [⟨r0_o, p0⟩] S2000x256.size (by rfl) y

/-! ## The body's triple -/

set_option maxHeartbeats 1000000 in
/-- The body on whole buffers, the inputs' at read contents and the output's at anything, runs to the continuation
    holding the inputs' as they were and the output's at `out0_3` of the inputs'. -/
theorem sound_kernel0 (c : Dev nD) (E : Set ℕ) (i : grid0.Coords) (arg1 : Memref sig .tc .vmem S2000x256 .bf16) (harg1 : arg1.IsWhole) (arg2 : Memref sig .tc .vmem S256x256 .bf16) (harg2 : arg2.IsWhole) (arg3 : Memref sig .tc .vmem S1x256 .f32) (harg3 : arg3.IsWhole) (arg4 : Memref sig .tc .vmem S2000x256 .f32) (harg4 : arg4.IsWhole)
    (x0 : Vec F S2000x256 .bf16) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the region finds them; after the body at point `t` each input's
    buffer at its block and the output's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.K.Region1.lean ====
import proofs.«149463_j13572096656012_1_alg».proof.Proof.Gen.Kernel.Launch
import proofs.«149463_j13572096656012_1_alg».proof.Proof.Gen.Kernel.Skeleton
import proofs.«149463_j13572096656012_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out1_3`: the one store's value over the three loaded blocks), the body's triple, the pipeline's proof data
(`dat1`) and the body obligation at every point.
-/

-- membership in a rectangle of 2000 rows: the structural look recurses once per coordinate of the long axis
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (the weight and the bias
    row are fetched once: their block index never moves), for any proof data over `V`'s arrays whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_a : Rect S2000x128 := Rect.unit (s := S2000x128) ![0, 0] S2000x128.size inb_S2000x128_S2000x128_0_0
abbrev r1_b : Rect S128x256 := Rect.unit (s := S128x256) ![0, 0] S128x256.size inb_S128x256_S128x256_0_0
abbrev r1_bias : Rect S1x256 := Rect.unit (s := S1x256) ![0, 0] S1x256.size inb_S1x256_S1x256_0_0
abbrev r1_o : Rect S2000x256 := Rect.unit (s := S2000x256) ![0, 0] S2000x256.size inb_S2000x256_S2000x256_0_0

/-! ## What the body leaves in the output window's buffer -/

/-- The output buffer after the body, from the three input blocks: its one store, of the product plus the bias row. -/
def out1_3 (x0 : Vec F S2000x128 .bf16) (x1 : Vec F S128x256 .bf16) (x2 : Vec F S1x256 .f32) : Vec F S2000x256 .f32 :=
  View.canon [⟨r1_o, k1_pay1 (View.ld x0 r1_a) (View.ld x1 r1_b) (View.ld x2 r1_bias)⟩]

/-- The one store covers the buffer. -/
theorem cover1_3 (p0 : Vec F S2000x256 .f32) (y : S2000x256.Idx) :
    ∃ pc ∈ ([⟨r1_o, p0⟩] : List (View.Piece (Elt F) S2000x256 .f32)), y ∈ pc.1.set :=
  View.cover_of_tiled [⟨r1_o, p0⟩] S2000x256.size (by rfl) y

/-! ## The body's triple -/

set_option maxHeartbeats 1000000 in
/-- The body on whole buffers, the inputs' at read contents and the output's at anything, runs to the continuation
    holding the inputs' as they were and the output's at `out1_3` of the inputs'. -/
theorem sound_kernel1 (c : Dev nD) (E : Set ℕ) (i : grid1.Coords) (arg1 : Memref sig .tc .vmem S2000x128 .bf16) (harg1 : arg1.IsWhole) (arg2 : Memref sig .tc .vmem S128x256 .bf16) (harg2 : arg2.IsWhole) (arg3 : Memref sig .tc .vmem S1x256 .f32) (harg3 : arg3.IsWhole) (arg4 : Memref sig .tc .vmem S2000x256 .f32) (harg4 : arg4.IsWhole)
    (x0 : Vec F S2000x128 .bf16) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_bias_kernel i arg1 harg1 arg2 harg2 arg3 harg3 arg4 harg4) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data on core `c`: the arrays as the region finds them; after the body at point `t` each input's
    buffer at its block and the output's at `out1_3` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Rg

end
-- ==== Proof.K.Region2.lean ====
import proofs.«149463_j13572096656012_1_alg».proof.Proof.Gen.Kernel.Launch
import proofs.«149463_j13572096656012_1_alg».proof.Proof.Gen.Kernel.Skeleton
import proofs.«149463_j13572096656012_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out2_3`: the one store's value over the three loaded blocks), the body's triple, the pipeline's proof data
(`dat2`) and the body obligation at every point.
-/

-- membership in a rectangle of 2000 rows: the structural look recurses once per coordinate of the long axis
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (the weight and the bias
    row are fetched once: their block index never moves), for any proof data over `V`'s arrays whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_a : Rect S2000x256 := Rect.unit (s := S2000x256) ![0, 0] S2000x256.size inb_S2000x256_S2000x256_0_0
abbrev r2_b : Rect S256x1024 := Rect.unit (s := S256x1024) ![0, 0] S256x1024.size inb_S256x1024_S256x1024_0_0
abbrev r2_bias : Rect S1x1024 := Rect.unit (s := S1x1024) ![0, 0] S1x1024.size inb_S1x1024_S1x1024_0_0
abbrev r2_o : Rect S2000x1024 := Rect.unit (s := S2000x1024) ![0, 0] S2000x1024.size inb_S2000x1024_S2000x1024_0_0

/-! ## What the body leaves in the output window's buffer -/

/-- The output buffer after the body, from the three input blocks: its one store, of the product plus the bias row. -/
def out2_3 (x0 : Vec F S2000x256 .bf16) (x1 : Vec F S256x1024 .bf16) (x2 : Vec F S1x1024 .f32) : Vec F S2000x1024 .f32 :=
  View.canon [⟨r2_o, k2_pay1 (View.ld x0 r2_a) (View.ld x1 r2_b) (View.ld x2 r2_bias)⟩]

/-- The one store covers the buffer. -/
theorem cover2_3 (p0 : Vec F S2000x1024 .f32) (y : S2000x1024.Idx) :
    ∃ pc ∈ ([⟨r2_o, p0⟩] : List (View.Piece (Elt F) S2000x1024 .f32)), y ∈ pc.1.set :=
  View.cover_of_tiled [⟨r2_o, p0⟩] S2000x1024.size (by rfl) y

/-! ## The body's triple -/

set_option maxHeartbeats 1000000 in
/-- The body on whole buffers, the inputs' at read contents and the output's at anything, runs to the continuation
    holding the inputs' as they were and the output's at `out2_3` of the inputs'. -/
theorem sound_kernel2 (c : Dev nD) (E : Set ℕ) (i : grid2.Coords) (arg1 : Memref sig .tc .vmem S2000x256 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S2000x1024 .f32) (harg4 : arg4.IsWhole)
    (x0 : Vec F S2000x256 .bf16) (x1 : Vec F S256x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data on core `c`: the arrays as the region finds them; after the body at point `t` each input's
    buffer at its block and the output's at `out2_3` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.K.Region3.lean ====
import proofs.«149463_j13572096656012_1_alg».proof.Proof.Gen.Kernel.Launch
import proofs.«149463_j13572096656012_1_alg».proof.Proof.Gen.Kernel.Skeleton
import proofs.«149463_j13572096656012_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out3_3`: the one store's value over the three loaded blocks), the body's triple, the pipeline's proof data
(`dat3`) and the body obligation at every point.
-/

-- membership in a rectangle of 2000 rows: the structural look recurses once per coordinate of the long axis
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (the weight and the bias
    row are fetched once: their block index never moves), for any proof data over `V`'s arrays whose body leaves the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_a : Rect S2000x256 := Rect.unit (s := S2000x256) ![0, 0] S2000x256.size inb_S2000x256_S2000x256_0_0
abbrev r3_b : Rect S256x512 := Rect.unit (s := S256x512) ![0, 0] S256x512.size inb_S256x512_S256x512_0_0
abbrev r3_bias : Rect S1x512 := Rect.unit (s := S1x512) ![0, 0] S1x512.size inb_S1x512_S1x512_0_0
abbrev r3_o : Rect S2000x512 := Rect.unit (s := S2000x512) ![0, 0] S2000x512.size inb_S2000x512_S2000x512_0_0

/-! ## What the body leaves in the output window's buffer -/

/-- The output buffer after the body, from the three input blocks: its one store, of the product plus the bias row. -/
def out3_3 (x0 : Vec F S2000x256 .bf16) (x1 : Vec F S256x512 .bf16) (x2 : Vec F S1x512 .f32) : Vec F S2000x512 .f32 :=
  View.canon [⟨r3_o, k3_pay1 (View.ld x0 r3_a) (View.ld x1 r3_b) (View.ld x2 r3_bias)⟩]

/-- The one store covers the buffer. -/
theorem cover3_3 (p0 : Vec F S2000x512 .f32) (y : S2000x512.Idx) :
    ∃ pc ∈ ([⟨r3_o, p0⟩] : List (View.Piece (Elt F) S2000x512 .f32)), y ∈ pc.1.set :=
  View.cover_of_tiled [⟨r3_o, p0⟩] S2000x512.size (by rfl) y

/-! ## The body's triple -/

set_option maxHeartbeats 1000000 in
/-- The body on whole buffers, the inputs' at read contents and the output's at anything, runs to the continuation
    holding the inputs' as they were and the output's at `out3_3` of the inputs'. -/
theorem sound_kernel3 (c : Dev nD) (E : Set ℕ) (i : grid3.Coords) (arg1 : Memref sig .tc .vmem S2000x256 .bf16) (harg1 : arg1.IsWhole) (arg2 : Memref sig .tc .vmem S256x512 .bf16) (harg2 : arg2.IsWhole) (arg3 : Memref sig .tc .vmem S1x512 .f32) (harg3 : arg3.IsWhole) (arg4 : Memref sig .tc .vmem S2000x512 .f32) (harg4 : arg4.IsWhole)
    (x0 : Vec F S2000x256 .bf16) (x1 : Vec F S256x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_bias_kernel i arg1 harg1 arg2 harg2 arg3 harg3 arg4 harg4) K := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data on core `c`: the arrays as the region finds them; after the body at point `t` each input's
    buffer at its block and the output's at `out3_3` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Rg

end
-- ==== Proof.K.Region4.lean ====
import proofs.«149463_j13572096656012_1_alg».proof.Proof.Gen.Kernel.Launch
import proofs.«149463_j13572096656012_1_alg».proof.Proof.Gen.Kernel.Skeleton
import proofs.«149463_j13572096656012_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the gated message, row block by row block

The region computes, over blocks of 1600 rows, `out = σ(g₁) · sp(g₂)` where, with the three 512-column inputs split
into their left and right halves of 256 columns, `g₁ = gd_L + gs_L + ee_L + bf` and `g₂ = gd_R + gs_R + ee_R + bs`
(`bf`, `bs` rows broadcast down the block), `σ` the logistic function and `sp` the softplus in its stable form
`max(x, 0) + log1p(exp(-|x|))`.  At every grid point the body loads its block of each of the three inputs and the
two bias rows whole, and stores the whole output block once.  Stated here at any contents `V` of the buffers when
the region is entered: what each point leaves in the output window's buffer (`out4_5`: the one store's value over
the five loaded blocks), the body's triple, the pipeline's proof data (`dat4`) and the body obligation at every
point.
-/

-- membership in a rectangle of 1600 rows: the structural look recurses once per coordinate of the long axis
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, fetched there or not (the two bias rows are
    fetched once: their block index never moves), for any proof data over `V`'s arrays whose body leaves the block
    in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_x : Rect S1600x512 := Rect.unit (s := S1600x512) ![0, 0] S1600x512.size inb_S1600x512_S1600x512_0_0
abbrev r4_b : Rect S1x256 := Rect.unit (s := S1x256) ![0, 0] S1x256.size inb_S1x256_S1x256_0_0
abbrev r4_0 : Rect S1600x256 := Rect.unit (s := S1600x256) ![0, 0] S1600x256.size inb_S1600x256_S1600x256_0_0

/-! ## What the body leaves in the output window's buffer -/

/-- The output buffer after the body, from the five input blocks: its one store, of the gated product. -/
def out4_5 (x0 : Vec F S1600x512 .f32) (x1 : Vec F S1600x512 .f32) (x2 : Vec F S1600x512 .f32) (x3 : Vec F S1x256 .f32) (x4 : Vec F S1x256 .f32) : Vec F S1600x256 .f32 :=
  View.canon [⟨r4_0, k4_pay1 (View.ld x0 r4_x) (View.ld x1 r4_x) (View.ld x2 r4_x) (View.ld x3 r4_b) (View.ld x4 r4_b)⟩]

/-- The one store covers the buffer. -/
theorem cover4_5 (p0 : Vec F S1600x256 .f32) (y : S1600x256.Idx) :
    ∃ pc ∈ ([⟨r4_0, p0⟩] : List (View.Piece (Elt F) S1600x256 .f32)), y ∈ pc.1.set :=
  View.cover_of_tiled [⟨r4_0, p0⟩] S1600x256.size (by rfl) y

/-! ## The body's triple -/

set_option maxHeartbeats 1000000 in
/-- The body on whole buffers, the inputs' at read contents and the output's at anything, runs to the continuation
    holding the inputs' as they were and the output's at `out4_5` of the inputs'. -/
theorem sound_kernel4 (c : Dev nD) (E : Set ℕ) (i : grid4.Coords) (arg1 : Memref sig .tc .vmem S1600x512 .f32) (harg1 : arg1.IsWhole) (arg2 : Memref sig .tc .vmem S1600x512 .f32) (harg2 : arg2.IsWhole) (arg3 : Memref sig .tc .vmem S1600x512 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1600x256 .f32) (harg6 : arg6.IsWhole)
    (x0 : Vec F S1600x512 .f32) (x1 : Vec F S1600x512 .f32) (x2 : Vec F S1600x512 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__message_kernel i arg1 harg1 arg2 harg2 arg3 harg3 arg4 harg4 arg5 harg5 arg6 harg6) K := by
  simp only [cc4__message_kernel_eq_skeleton]; unfold cc4__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data on core `c`: the arrays as the region finds them; after the body at point `t` each input's
    buffer at its block and the output's at `out4_5` of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Rg

end
-- ==== Proof.K.Region5.lean ====
import proofs.«149463_j13572096656012_1_alg».proof.Proof.Gen.Kernel.Launch
import proofs.«149463_j13572096656012_1_alg».proof.Proof.Gen.Kernel.Skeleton
import proofs.«149463_j13572096656012_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out5_3`: the one store's value over the three loaded blocks), the body's triple, the pipeline's proof data
(`dat5`) and the body obligation at every point.
-/

-- membership in a rectangle of 2000 rows: the structural look recurses once per coordinate of the long axis
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not (the weight and the bias
    row are fetched once: their block index never moves), for any proof data over `V`'s arrays whose body leaves the
    block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_a : Rect S2000x256 := Rect.unit (s := S2000x256) ![0, 0] S2000x256.size inb_S2000x256_S2000x256_0_0
abbrev r5_b : Rect S256x1024 := Rect.unit (s := S256x1024) ![0, 0] S256x1024.size inb_S256x1024_S256x1024_0_0
abbrev r5_bias : Rect S1x1024 := Rect.unit (s := S1x1024) ![0, 0] S1x1024.size inb_S1x1024_S1x1024_0_0
abbrev r5_o : Rect S2000x1024 := Rect.unit (s := S2000x1024) ![0, 0] S2000x1024.size inb_S2000x1024_S2000x1024_0_0

/-! ## What the body leaves in the output window's buffer -/

/-- The output buffer after the body, from the three input blocks: its one store, of the product plus the bias row. -/
def out5_3 (x0 : Vec F S2000x256 .bf16) (x1 : Vec F S256x1024 .bf16) (x2 : Vec F S1x1024 .f32) : Vec F S2000x1024 .f32 :=
  View.canon [⟨r5_o, k5_pay1 (View.ld x0 r5_a) (View.ld x1 r5_b) (View.ld x2 r5_bias)⟩]

/-- The one store covers the buffer. -/
theorem cover5_3 (p0 : Vec F S2000x1024 .f32) (y : S2000x1024.Idx) :
    ∃ pc ∈ ([⟨r5_o, p0⟩] : List (View.Piece (Elt F) S2000x1024 .f32)), y ∈ pc.1.set :=
  View.cover_of_tiled [⟨r5_o, p0⟩] S2000x1024.size (by rfl) y

/-! ## The body's triple -/

set_option maxHeartbeats 1000000 in
/-- The body on whole buffers, the inputs' at read contents and the output's at anything, runs to the continuation
    holding the inputs' as they were and the output's at `out5_3` of the inputs'. -/
theorem sound_kernel5 (c : Dev nD) (E : Set ℕ) (i : grid5.Coords) (arg1 : Memref sig .tc .vmem S2000x256 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S2000x1024 .f32) (harg4 : arg4.IsWhole)
    (x0 : Vec F S2000x256 .bf16) (x1 : Vec F S256x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__matmul_bias_kernel i arg1 harg1 arg2 harg2 arg3 harg3 arg4 harg4) K := by
  simp only [cc5__matmul_bias_kernel_eq_skeleton]; unfold cc5__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data on core `c`: the arrays as the region finds them; after the body at point `t` each input's
    buffer at its block and the output's at `out5_3` of the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Rg

end
-- ==== Proof.K.Region6.lean ====
import proofs.«149463_j13572096656012_1_alg».proof.Proof.Gen.Kernel.Launch
import proofs.«149463_j13572096656012_1_alg».proof.Proof.Gen.Kernel.Skeleton
import proofs.«149463_j13572096656012_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 6: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out6_3`: the one store's value over the three loaded blocks), the body's triple, the pipeline's proof data
(`dat6`) and the body obligation at every point.
-/

-- membership in a rectangle of 2000 rows: the structural look recurses once per coordinate of the long axis
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its block at every point, fetched there or not (the weight and the bias
    row are fetched once: their block index never moves), for any proof data over `V`'s arrays whose body leaves the
    block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_a : Rect S2000x256 := Rect.unit (s := S2000x256) ![0, 0] S2000x256.size inb_S2000x256_S2000x256_0_0
abbrev r6_b : Rect S256x512 := Rect.unit (s := S256x512) ![0, 0] S256x512.size inb_S256x512_S256x512_0_0
abbrev r6_bias : Rect S1x512 := Rect.unit (s := S1x512) ![0, 0] S1x512.size inb_S1x512_S1x512_0_0
abbrev r6_o : Rect S2000x512 := Rect.unit (s := S2000x512) ![0, 0] S2000x512.size inb_S2000x512_S2000x512_0_0

/-! ## What the body leaves in the output window's buffer -/

/-- The output buffer after the body, from the three input blocks: its one store, of the product plus the bias row. -/
def out6_3 (x0 : Vec F S2000x256 .bf16) (x1 : Vec F S256x512 .bf16) (x2 : Vec F S1x512 .f32) : Vec F S2000x512 .f32 :=
  View.canon [⟨r6_o, k6_pay1 (View.ld x0 r6_a) (View.ld x1 r6_b) (View.ld x2 r6_bias)⟩]

/-- The one store covers the buffer. -/
theorem cover6_3 (p0 : Vec F S2000x512 .f32) (y : S2000x512.Idx) :
    ∃ pc ∈ ([⟨r6_o, p0⟩] : List (View.Piece (Elt F) S2000x512 .f32)), y ∈ pc.1.set :=
  View.cover_of_tiled [⟨r6_o, p0⟩] S2000x512.size (by rfl) y

/-! ## The body's triple -/

set_option maxHeartbeats 1000000 in
/-- The body on whole buffers, the inputs' at read contents and the output's at anything, runs to the continuation
    holding the inputs' as they were and the output's at `out6_3` of the inputs'. -/
theorem sound_kernel6 (c : Dev nD) (E : Set ℕ) (i : grid6.Coords) (arg1 : Memref sig .tc .vmem S2000x256 .bf16) (harg1 : arg1.IsWhole) (arg2 : Memref sig .tc .vmem S256x512 .bf16) (harg2 : arg2.IsWhole) (arg3 : Memref sig .tc .vmem S1x512 .f32) (harg3 : arg3.IsWhole) (arg4 : Memref sig .tc .vmem S2000x512 .f32) (harg4 : arg4.IsWhole)
    (x0 : Vec F S2000x256 .bf16) (x1 : Vec F S256x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data on core `c`: the arrays as the region finds them; after the body at point `t` each input's
    buffer at its block and the output's at `out6_3` of the input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Rg

end
-- ==== Proof.K.Region7.lean ====
import proofs.«149463_j13572096656012_1_alg».proof.Proof.Gen.Kernel.Launch
import proofs.«149463_j13572096656012_1_alg».proof.Proof.Gen.Kernel.Skeleton
import proofs.«149463_j13572096656012_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: the gated message, row block by row block

The region computes, over blocks of 1600 rows, `out = σ(g₁) · sp(g₂)` where, with the three 512-column inputs split
into their left and right halves of 256 columns, `g₁ = gd_L + gs_L + ee_L + bf` and `g₂ = gd_R + gs_R + ee_R + bs`
(`bf`, `bs` rows broadcast down the block), `σ` the logistic function and `sp` the softplus in its stable form
`max(x, 0) + log1p(exp(-|x|))`.  At every grid point the body loads its block of each of the three inputs and the
two bias rows whole, and stores the whole output block once.  Stated here at any contents `V` of the buffers when
the region is entered: what each point leaves in the output window's buffer (`out7_5`: the one store's value over
the five loaded blocks), the body's triple, the pipeline's proof data (`dat7`) and the body obligation at every
point.
-/

-- membership in a rectangle of 1600 rows: the structural look recurses once per coordinate of the long axis
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current buffer holds its block at every point, fetched there or not (the two bias rows are
    fetched once: their block index never moves), for any proof data over `V`'s arrays whose body leaves the block
    in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_x : Rect S1600x512 := Rect.unit (s := S1600x512) ![0, 0] S1600x512.size inb_S1600x512_S1600x512_0_0
abbrev r7_b : Rect S1x256 := Rect.unit (s := S1x256) ![0, 0] S1x256.size inb_S1x256_S1x256_0_0
abbrev r7_0 : Rect S1600x256 := Rect.unit (s := S1600x256) ![0, 0] S1600x256.size inb_S1600x256_S1600x256_0_0

/-! ## What the body leaves in the output window's buffer -/

/-- The output buffer after the body, from the five input blocks: its one store, of the gated product. -/
def out7_5 (x0 : Vec F S1600x512 .f32) (x1 : Vec F S1600x512 .f32) (x2 : Vec F S1600x512 .f32) (x3 : Vec F S1x256 .f32) (x4 : Vec F S1x256 .f32) : Vec F S1600x256 .f32 :=
  View.canon [⟨r7_0, k7_pay1 (View.ld x0 r7_x) (View.ld x1 r7_x) (View.ld x2 r7_x) (View.ld x3 r7_b) (View.ld x4 r7_b)⟩]

/-- The one store covers the buffer. -/
theorem cover7_5 (p0 : Vec F S1600x256 .f32) (y : S1600x256.Idx) :
    ∃ pc ∈ ([⟨r7_0, p0⟩] : List (View.Piece (Elt F) S1600x256 .f32)), y ∈ pc.1.set :=
  View.cover_of_tiled [⟨r7_0, p0⟩] S1600x256.size (by rfl) y

/-! ## The body's triple -/

set_option maxHeartbeats 1000000 in
/-- The body on whole buffers, the inputs' at read contents and the output's at anything, runs to the continuation
    holding the inputs' as they were and the output's at `out7_5` of the inputs'. -/
theorem sound_kernel7 (c : Dev nD) (E : Set ℕ) (i : grid7.Coords) (arg1 : Memref sig .tc .vmem S1600x512 .f32) (harg1 : arg1.IsWhole) (arg2 : Memref sig .tc .vmem S1600x512 .f32) (harg2 : arg2.IsWhole) (arg3 : Memref sig .tc .vmem S1600x512 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1600x256 .f32) (harg6 : arg6.IsWhole)
    (x0 : Vec F S1600x512 .f32) (x1 : Vec F S1600x512 .f32) (x2 : Vec F S1600x512 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__message_kernel i arg1 harg1 arg2 harg2 arg3 harg3 arg4 harg4 arg5 harg5 arg6 harg6) K := by
  simp only [cc7__message_kernel_eq_skeleton]; unfold cc7__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data on core `c`: the arrays as the region finds them; after the body at point `t` each input's
    buffer at its block and the output's at `out7_5` of the input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Rg

end
-- ==== Proof.K.Run.lean ====
import proofs.«149463_j13572096656012_1_alg».proof.Proof.K.Region0
import proofs.«149463_j13572096656012_1_alg».proof.Proof.K.Region1
import proofs.«149463_j13572096656012_1_alg».proof.Proof.K.Region2
import proofs.«149463_j13572096656012_1_alg».proof.Proof.K.Region3
import proofs.«149463_j13572096656012_1_alg».proof.Proof.K.Region4
import proofs.«149463_j13572096656012_1_alg».proof.Proof.K.Region5
import proofs.«149463_j13572096656012_1_alg».proof.Proof.K.Region6
import proofs.«149463_j13572096656012_1_alg».proof.Proof.K.Region7
import proofs.«149463_j13572096656012_1_alg».proof.Proof.Gen.Kernel.Regions

/-!
# The run: the eight regions chained through the host stretches

Between two items of the program every unscoped buffer is held whole.  Entering region `K` the buffers hold `Vin K`;
leaving it they hold `Vout K`: the same contents except the region's one output array, which holds what the
pipeline's write-backs leave (`outK`).  The contents are defined region by region, each from the ones before it;
`outs` collects them in the form the conditional frame reads.  Each region is then one segment record over the thread
state "every unscoped buffer at these contents, the generator register at some state, nothing owed".
-/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references (what a region's half takes). -/
abbrev atTc (W : Dev nD → Valuation τ sig (Elt F)) : (c : Dev nD) → (b : Ref sig .tc) → Buf (Elt F) ((c : Thread nD τ).loc b) :=
  fun c b => W c b

/-! ## The contents at the regions' boundaries -/

/-- The buffers' contents entering region 0. -/
def Vin0 : Dev nD → Valuation τ sig (Elt F) := fun c => Gen.V1 m c
/-- What region 0 leaves in its output array. -/
def out0 (c : Dev nD) : Buf (Elt F) ((c : Thread nD τ).loc main_v8) := (dat0 (atTc (Vin0 m)) c).arrAt 3 cfg0.N
/-- The buffers' contents leaving region 0. -/
def Vout0 : Dev nD → Valuation τ sig (Elt F) := fun c => Function.update (Vin0 m c) main_v8 (out0 m c)
/-- The regions' outputs up to region 0, in the form the conditional frame reads them. -/
def outsUpTo0 : Gen.Outs (F := F) := fun J r c => match J with
  | _ => Vout0 m c r

/-- The buffers' contents entering region 1. -/
def Vin1 : Dev nD → Valuation τ sig (Elt F) := fun c => Gen.V3 m (outsUpTo0 m) c
/-- What region 1 leaves in its output array. -/
def out1 (c : Dev nD) : Buf (Elt F) ((c : Thread nD τ).loc main_v13) := (dat1 (atTc (Vin1 m)) c).arrAt 3 cfg1.N
/-- The buffers' contents leaving region 1. -/
def Vout1 : Dev nD → Valuation τ sig (Elt F) := fun c => Function.update (Vin1 m c) main_v13 (out1 m c)
/-- The regions' outputs up to region 1, in the form the conditional frame reads them. -/
def outsUpTo1 : Gen.Outs (F := F) := fun J r c => match J with
  | 2 => Vout0 m c r
  | _ => Vout1 m c r

/-- The buffers' contents entering region 2. -/
def Vin2 : Dev nD → Valuation τ sig (Elt F) := fun c => Gen.V5 m (outsUpTo1 m) c
/-- What region 2 leaves in its output array. -/
def out2 (c : Dev nD) : Buf (Elt F) ((c : Thread nD τ).loc main_v40) := (dat2 (atTc (Vin2 m)) c).arrAt 3 cfg2.N
/-- The buffers' contents leaving region 2. -/
def Vout2 : Dev nD → Valuation τ sig (Elt F) := fun c => Function.update (Vin2 m c) main_v40 (out2 m c)
/-- The regions' outputs up to region 2, in the form the conditional frame reads them. -/
def outsUpTo2 : Gen.Outs (F := F) := fun J r c => match J with
  | 2 => Vout0 m c r
  | 4 => Vout1 m c r
  | _ => Vout2 m c r

/-- The buffers' contents entering region 3. -/
def Vin3 : Dev nD → Valuation τ sig (Elt F) := fun c => Gen.V7 m (outsUpTo2 m) c
/-- What region 3 leaves in its output array. -/
def out3 (c : Dev nD) : Buf (Elt F) ((c : Thread nD τ).loc main_v46) := (dat3 (atTc (Vin3 m)) c).arrAt 3 cfg3.N
/-- The buffers' contents leaving region 3. -/
def Vout3 : Dev nD → Valuation τ sig (Elt F) := fun c => Function.update (Vin3 m c) main_v46 (out3 m c)
/-- The regions' outputs up to region 3, in the form the conditional frame reads them. -/
def outsUpTo3 : Gen.Outs (F := F) := fun J r c => match J with
  | 2 => Vout0 m c r
  | 4 => Vout1 m c r
  | 6 => Vout2 m c r
  | _ => Vout3 m c r

/-- The buffers' contents entering region 4. -/
def Vin4 : Dev nD → Valuation τ sig (Elt F) := fun c => Gen.V9 m (outsUpTo3 m) c
/-- What region 4 leaves in its output array. -/
def out4 (c : Dev nD) : Buf (Elt F) ((c : Thread nD τ).loc main_v69) := (dat4 (atTc (Vin4 m)) c).arrAt 5 cfg4.N
/-- The buffers' contents leaving region 4. -/
def Vout4 : Dev nD → Valuation τ sig (Elt F) := fun c => Function.update (Vin4 m c) main_v69 (out4 m c)
/-- The regions' outputs up to region 4, in the form the conditional frame reads them. -/
def outsUpTo4 : Gen.Outs (F := F) := fun J r c => match J with
  | 2 => Vout0 m c r
  | 4 => Vout1 m c r
  | 6 => Vout2 m c r
  | 8 => Vout3 m c r
  | _ => Vout4 m c r

/-- The buffers' contents entering region 5. -/
def Vin5 : Dev nD → Valuation τ sig (Elt F) := fun c => Gen.V11 m (outsUpTo4 m) c
/-- What region 5 leaves in its output array. -/
def out5 (c : Dev nD) : Buf (Elt F) ((c : Thread nD τ).loc main_v121) := (dat5 (atTc (Vin5 m)) c).arrAt 3 cfg5.N
/-- The buffers' contents leaving region 5. -/
def Vout5 : Dev nD → Valuation τ sig (Elt F) := fun c => Function.update (Vin5 m c) main_v121 (out5 m c)
/-- The regions' outputs up to region 5, in the form the conditional frame reads them. -/
def outsUpTo5 : Gen.Outs (F := F) := fun J r c => match J with
  | 2 => Vout0 m c r
  | 4 => Vout1 m c r
  | 6 => Vout2 m c r
  | 8 => Vout3 m c r
  | 10 => Vout4 m c r
  | _ => Vout5 m c r

/-- The buffers' contents entering region 6. -/
def Vin6 : Dev nD → Valuation τ sig (Elt F) := fun c => Gen.V13 m (outsUpTo5 m) c
/-- What region 6 leaves in its output array. -/
def out6 (c : Dev nD) : Buf (Elt F) ((c : Thread nD τ).loc main_v127) := (dat6 (atTc (Vin6 m)) c).arrAt 3 cfg6.N
/-- The buffers' contents leaving region 6. -/
def Vout6 : Dev nD → Valuation τ sig (Elt F) := fun c => Function.update (Vin6 m c) main_v127 (out6 m c)
/-- The regions' outputs up to region 6, in the form the conditional frame reads them. -/
def outsUpTo6 : Gen.Outs (F := F) := fun J r c => match J with
  | 2 => Vout0 m c r
  | 4 => Vout1 m c r
  | 6 => Vout2 m c r
  | 8 => Vout3 m c r
  | 10 => Vout4 m c r
  | 12 => Vout5 m c r
  | _ => Vout6 m c r

/-- The buffers' contents entering region 7. -/
def Vin7 : Dev nD → Valuation τ sig (Elt F) := fun c => Gen.V15 m (outsUpTo6 m) c
/-- What region 7 leaves in its output array. -/
def out7 (c : Dev nD) : Buf (Elt F) ((c : Thread nD τ).loc main_v150) := (dat7 (atTc (Vin7 m)) c).arrAt 5 cfg7.N
/-- The buffers' contents leaving region 7. -/
def Vout7 : Dev nD → Valuation τ sig (Elt F) := fun c => Function.update (Vin7 m c) main_v150 (out7 m c)
/-- The regions' outputs up to region 7, in the form the conditional frame reads them. -/
def outsUpTo7 : Gen.Outs (F := F) := fun J r c => match J with
  | 2 => Vout0 m c r
  | 4 => Vout1 m c r
  | 6 => Vout2 m c r
  | 8 => Vout3 m c r
  | 10 => Vout4 m c r
  | 12 => Vout5 m c r
  | 14 => Vout6 m c r
  | _ => Vout7 m c r

/-- Every region's output. -/
abbrev outs : Gen.Outs (F := F) := outsUpTo7 m

/-! ### The conditional frame's contents are these -/

theorem Vin0_eq (c : Dev nD) : Gen.V1 m c = Vin0 m c := rfl
theorem Vout0_eq (c : Dev nD) : Gen.V2 m (outs m) c = Vout0 m c := by
  show Function.update (Gen.V1 m c) main_v8 (Vout0 m c main_v8) = Vout0 m c
  rw [Vin0_eq]; unfold Vout0; rw [Function.update_self]

theorem Vin1_eq (c : Dev nD) : Gen.V3 m (outs m) c = Vin1 m c := rfl
theorem Vout1_eq (c : Dev nD) : Gen.V4 m (outs m) c = Vout1 m c := by
  show Function.update (Gen.V3 m (outs m) c) main_v13 (Vout1 m c main_v13) = Vout1 m c
  rw [Vin1_eq]; unfold Vout1; rw [Function.update_self]

theorem Vin2_eq (c : Dev nD) : Gen.V5 m (outs m) c = Vin2 m c := rfl
theorem Vout2_eq (c : Dev nD) : Gen.V6 m (outs m) c = Vout2 m c := by
  show Function.update (Gen.V5 m (outs m) c) main_v40 (Vout2 m c main_v40) = Vout2 m c
  rw [Vin2_eq]; unfold Vout2; rw [Function.update_self]

theorem Vin3_eq (c : Dev nD) : Gen.V7 m (outs m) c = Vin3 m c := rfl
theorem Vout3_eq (c : Dev nD) : Gen.V8 m (outs m) c = Vout3 m c := by
  show Function.update (Gen.V7 m (outs m) c) main_v46 (Vout3 m c main_v46) = Vout3 m c
  rw [Vin3_eq]; unfold Vout3; rw [Function.update_self]

theorem Vin4_eq (c : Dev nD) : Gen.V9 m (outs m) c = Vin4 m c := rfl
theorem Vout4_eq (c : Dev nD) : Gen.V10 m (outs m) c = Vout4 m c := by
  show Function.update (Gen.V9 m (outs m) c) main_v69 (Vout4 m c main_v69) = Vout4 m c
  rw [Vin4_eq]; unfold Vout4; rw [Function.update_self]

theorem Vin5_eq (c : Dev nD) : Gen.V11 m (outs m) c = Vin5 m c := rfl
theorem Vout5_eq (c : Dev nD) : Gen.V12 m (outs m) c = Vout5 m c := by
  show Function.update (Gen.V11 m (outs m) c) main_v121 (Vout5 m c main_v121) = Vout5 m c
  rw [Vin5_eq]; unfold Vout5; rw [Function.update_self]

theorem Vin6_eq (c : Dev nD) : Gen.V13 m (outs m) c = Vin6 m c := rfl
theorem Vout6_eq (c : Dev nD) : Gen.V14 m (outs m) c = Vout6 m c := by
  show Function.update (Gen.V13 m (outs m) c) main_v127 (Vout6 m c main_v127) = Vout6 m c
  rw [Vin6_eq]; unfold Vout6; rw [Function.update_self]

theorem Vin7_eq (c : Dev nD) : Gen.V15 m (outs m) c = Vin7 m c := rfl
theorem Vout7_eq (c : Dev nD) : Gen.V16 m (outs m) c = Vout7 m c := by
  show Function.update (Gen.V15 m (outs m) c) main_v150 (Vout7 m c main_v150) = Vout7 m c
  rw [Vin7_eq]; unfold Vout7; rw [Function.update_self]

/-! ## The proof data family and the thread state -/

/-- Every pipeline's proof data, each at its region's entry contents. -/
def pdats : (p : Fin 8) → (c : Dev nD) → Dat τ (Elt F) Unit ℕ (UR sig nD τ) ℕ (cfgs p) c
  | ⟨0, _⟩ => fun c => dat0 (atTc (Vin0 m)) c
  | ⟨1, _⟩ => fun c => dat1 (atTc (Vin1 m)) c
  | ⟨2, _⟩ => fun c => dat2 (atTc (Vin2 m)) c
  | ⟨3, _⟩ => fun c => dat3 (atTc (Vin3 m)) c
  | ⟨4, _⟩ => fun c => dat4 (atTc (Vin4 m)) c
  | ⟨5, _⟩ => fun c => dat5 (atTc (Vin5 m)) c
  | ⟨6, _⟩ => fun c => dat6 (atTc (Vin6 m)) c
  | ⟨7, _⟩ => fun c => dat7 (atTc (Vin7 m)) c

abbrev 𝒱n : Variants := Variants.none
/-- No core owes another anything: no level is assigned. -/
abbrev Lv : GSem nD τ sig → Finset Unit := fun _ => ∅
abbrev lvl : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)

/-! ### Region 0 -/

set_option maxHeartbeats 1600000 in
/-- Leaving region 0, each of its arrays holds what the pipeline leaves: the inputs as entered, the output its write-backs. -/
theorem hF0 (c : Dev nD) (w : Fin cfg0.W) : (dat0 (atTc (Vin0 m)) c).arrAt w cfg0.N = atTc (Vout0 m) c (Pipeline.arrRef spec0 w) := by
  match w with
  | ⟨0, _⟩ =>
    refine (((dat0 (atTc (Vin0 m)) c).arrAt_in 0 rfl _).trans (A_eq0 (atTc (Vin0 m)) c 0)).trans ?_
    show Vin0 m c (Proc.devRef .tc (Pipeline.arrRef spec0 0)) = Function.update (Vin0 m c) main_v8 (out0 m c) (Proc.devRef .tc (Pipeline.arrRef spec0 0))
    exact (Function.update_of_ne (StableHlo.devRef_ne_of_ne (by decide)) _ _).symm
  | ⟨1, _⟩ =>
    refine (((dat0 (atTc (Vin0 m)) c).arrAt_in 1 rfl _).trans (A_eq0 (atTc (Vin0 m)) c 1)).trans ?_
    show Vin0 m c (Proc.devRef .tc (Pipeline.arrRef spec0 1)) = Function.update (Vin0 m c) main_v8 (out0 m c) (Proc.devRef .tc (Pipeline.arrRef spec0 1))
    exact (Function.update_of_ne (StableHlo.devRef_ne_of_ne (by decide)) _ _).symm
  | ⟨2, _⟩ =>
    refine (((dat0 (atTc (Vin0 m)) c).arrAt_in 2 rfl _).trans (A_eq0 (atTc (Vin0 m)) c 2)).trans ?_
    show Vin0 m c (Proc.devRef .tc (Pipeline.arrRef spec0 2)) = Function.update (Vin0 m c) main_v8 (out0 m c) (Proc.devRef .tc (Pipeline.arrRef spec0 2))
    exact (Function.update_of_ne (StableHlo.devRef_ne_of_ne (by decide)) _ _).symm
  | ⟨3, _⟩ =>
    show out0 m c = Function.update (Vin0 m c) main_v8 (out0 m c) main_v8
    rw [Function.update_self]
/-- and every other buffer what it held at entry. -/
theorem hrest0 (c : Dev nD) : ∀ b, b ∉ Finset.univ.image (Pipeline.arrRef spec0) → atTc (Vout0 m) c b = atTc (Vin0 m) c b := fun b hb => by
  show Function.update (Vin0 m c) main_v8 (out0 m c) (Proc.devRef .tc b) = Vin0 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 0 over the thread state: entered from every unscoped buffer at `Vin0`, left at `Vout0`.  Its arrays are split
    out of the unscoped buffers and put back at the exit contents; the generator register goes into the class invariant and
    comes out; nothing is owed; the kernel has no semaphore of its own. -/
def reg0 : RegionSeg (pcfgs (F := F)) Gen.adm (pdats m) () defs₀ 𝒱n Lv lvl 0 where
  win := launch0.win.to₀
  block_pos := launch0.block_pos
  stage_whole := launch0.stage_whole
  K := PEmpty
  osem k := k.elim
  ho := Pipeline.OwnSemFacts.none _
  hbody c := (body_obligation0 (atTc (Vin0 m)) c).loose
  hwaits := Pipeline.hwaits_of_owed_zero _ _ _ _ Lv lvl 0 fun _ _ => rfl
  pre c := iprop(StableHlo.held (c : Thread nD τ) (Pipeline.ucRefs τ sig) (Vin0 m c) ∗ Rest c)
  post c := iprop(StableHlo.held (c : Thread nD τ) (Pipeline.ucRefs τ sig) (Vout0 m c) ∗ Rest c)
  X c := iprop(∃ r, prngReg c r)
  Y c := iprop(∃ r, prngReg c r)
  Z c := Pipeline.unscopedRest (Ix := Unit) (Name := ℕ) (U := UR sig nD τ) (Lvl := ℕ) spec0 c (atTc (Vin0 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (Vin0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (Vin0 m) c) (atTc (Vout0 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1 -/

set_option maxHeartbeats 1600000 in
/-- Leaving region 1, each of its arrays holds what the pipeline leaves: the inputs as entered, the output its write-backs. -/
theorem hF1 (c : Dev nD) (w : Fin cfg1.W) : (dat1 (atTc (Vin1 m)) c).arrAt w cfg1.N = atTc (Vout1 m) c (Pipeline.arrRef spec1 w) := by
  match w with
  | ⟨0, _⟩ =>
    refine (((dat1 (atTc (Vin1 m)) c).arrAt_in 0 rfl _).trans (A_eq1 (atTc (Vin1 m)) c 0)).trans ?_
    show Vin1 m c (Proc.devRef .tc (Pipeline.arrRef spec1 0)) = Function.update (Vin1 m c) main_v13 (out1 m c) (Proc.devRef .tc (Pipeline.arrRef spec1 0))
    exact (Function.update_of_ne (StableHlo.devRef_ne_of_ne (by decide)) _ _).symm
  | ⟨1, _⟩ =>
    refine (((dat1 (atTc (Vin1 m)) c).arrAt_in 1 rfl _).trans (A_eq1 (atTc (Vin1 m)) c 1)).trans ?_
    show Vin1 m c (Proc.devRef .tc (Pipeline.arrRef spec1 1)) = Function.update (Vin1 m c) main_v13 (out1 m c) (Proc.devRef .tc (Pipeline.arrRef spec1 1))
    exact (Function.update_of_ne (StableHlo.devRef_ne_of_ne (by decide)) _ _).symm
  | ⟨2, _⟩ =>
    refine (((dat1 (atTc (Vin1 m)) c).arrAt_in 2 rfl _).trans (A_eq1 (atTc (Vin1 m)) c 2)).trans ?_
    show Vin1 m c (Proc.devRef .tc (Pipeline.arrRef spec1 2)) = Function.update (Vin1 m c) main_v13 (out1 m c) (Proc.devRef .tc (Pipeline.arrRef spec1 2))
    exact (Function.update_of_ne (StableHlo.devRef_ne_of_ne (by decide)) _ _).symm
  | ⟨3, _⟩ =>
    show out1 m c = Function.update (Vin1 m c) main_v13 (out1 m c) main_v13
    rw [Function.update_self]
/-- and every other buffer what it held at entry. -/
theorem hrest1 (c : Dev nD) : ∀ b, b ∉ Finset.univ.image (Pipeline.arrRef spec1) → atTc (Vout1 m) c b = atTc (Vin1 m) c b := fun b hb => by
  show Function.update (Vin1 m c) main_v13 (out1 m c) (Proc.devRef .tc b) = Vin1 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 1 over the thread state: entered from every unscoped buffer at `Vin1`, left at `Vout1`.  Its arrays are split
    out of the unscoped buffers and put back at the exit contents; the generator register goes into the class invariant and
    comes out; nothing is owed; the kernel has no semaphore of its own. -/
def reg1 : RegionSeg (pcfgs (F := F)) Gen.adm (pdats m) () defs₀ 𝒱n Lv lvl 1 where
  win := launch1.win.to₀
  block_pos := launch1.block_pos
  stage_whole := launch1.stage_whole
  K := PEmpty
  osem k := k.elim
  ho := Pipeline.OwnSemFacts.none _
  hbody c := (body_obligation1 (atTc (Vin1 m)) c).loose
  hwaits := Pipeline.hwaits_of_owed_zero _ _ _ _ Lv lvl 1 fun _ _ => rfl
  pre c := iprop(StableHlo.held (c : Thread nD τ) (Pipeline.ucRefs τ sig) (Vin1 m c) ∗ Rest c)
  post c := iprop(StableHlo.held (c : Thread nD τ) (Pipeline.ucRefs τ sig) (Vout1 m c) ∗ Rest c)
  X c := iprop(∃ r, prngReg c r)
  Y c := iprop(∃ r, prngReg c r)
  Z c := Pipeline.unscopedRest (Ix := Unit) (Name := ℕ) (U := UR sig nD τ) (Lvl := ℕ) spec1 c (atTc (Vin1 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (Vin1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (Vin1 m) c) (atTc (Vout1 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2 -/

set_option maxHeartbeats 1600000 in
/-- Leaving region 2, each of its arrays holds what the pipeline leaves: the inputs as entered, the output its write-backs. -/
theorem hF2 (c : Dev nD) (w : Fin cfg2.W) : (dat2 (atTc (Vin2 m)) c).arrAt w cfg2.N = atTc (Vout2 m) c (Pipeline.arrRef spec2 w) := by
  match w with
  | ⟨0, _⟩ =>
    refine (((dat2 (atTc (Vin2 m)) c).arrAt_in 0 rfl _).trans (A_eq2 (atTc (Vin2 m)) c 0)).trans ?_
    show Vin2 m c (Proc.devRef .tc (Pipeline.arrRef spec2 0)) = Function.update (Vin2 m c) main_v40 (out2 m c) (Proc.devRef .tc (Pipeline.arrRef spec2 0))
    exact (Function.update_of_ne (StableHlo.devRef_ne_of_ne (by decide)) _ _).symm
  | ⟨1, _⟩ =>
    refine (((dat2 (atTc (Vin2 m)) c).arrAt_in 1 rfl _).trans (A_eq2 (atTc (Vin2 m)) c 1)).trans ?_
    show Vin2 m c (Proc.devRef .tc (Pipeline.arrRef spec2 1)) = Function.update (Vin2 m c) main_v40 (out2 m c) (Proc.devRef .tc (Pipeline.arrRef spec2 1))
    exact (Function.update_of_ne (StableHlo.devRef_ne_of_ne (by decide)) _ _).symm
  | ⟨2, _⟩ =>
    refine (((dat2 (atTc (Vin2 m)) c).arrAt_in 2 rfl _).trans (A_eq2 (atTc (Vin2 m)) c 2)).trans ?_
    show Vin2 m c (Proc.devRef .tc (Pipeline.arrRef spec2 2)) = Function.update (Vin2 m c) main_v40 (out2 m c) (Proc.devRef .tc (Pipeline.arrRef spec2 2))
    exact (Function.update_of_ne (StableHlo.devRef_ne_of_ne (by decide)) _ _).symm
  | ⟨3, _⟩ =>
    show out2 m c = Function.update (Vin2 m c) main_v40 (out2 m c) main_v40
    rw [Function.update_self]
/-- and every other buffer what it held at entry. -/
theorem hrest2 (c : Dev nD) : ∀ b, b ∉ Finset.univ.image (Pipeline.arrRef spec2) → atTc (Vout2 m) c b = atTc (Vin2 m) c b := fun b hb => by
  show Function.update (Vin2 m c) main_v40 (out2 m c) (Proc.devRef .tc b) = Vin2 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 2 over the thread state: entered from every unscoped buffer at `Vin2`, left at `Vout2`.  Its arrays are split
    out of the unscoped buffers and put back at the exit contents; the generator register goes into the class invariant and
    comes out; nothing is owed; the kernel has no semaphore of its own. -/
def reg2 : RegionSeg (pcfgs (F := F)) Gen.adm (pdats m) () defs₀ 𝒱n Lv lvl 2 where
  win := launch2.win.to₀
  block_pos := launch2.block_pos
  stage_whole := launch2.stage_whole
  K := PEmpty
  osem k := k.elim
  ho := Pipeline.OwnSemFacts.none _
  hbody c := (body_obligation2 (atTc (Vin2 m)) c).loose
  hwaits := Pipeline.hwaits_of_owed_zero _ _ _ _ Lv lvl 2 fun _ _ => rfl
  pre c := iprop(StableHlo.held (c : Thread nD τ) (Pipeline.ucRefs τ sig) (Vin2 m c) ∗ Rest c)
  post c := iprop(StableHlo.held (c : Thread nD τ) (Pipeline.ucRefs τ sig) (Vout2 m c) ∗ Rest c)
  X c := iprop(∃ r, prngReg c r)
  Y c := iprop(∃ r, prngReg c r)
  Z c := Pipeline.unscopedRest (Ix := Unit) (Name := ℕ) (U := UR sig nD τ) (Lvl := ℕ) spec2 c (atTc (Vin2 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (Vin2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (Vin2 m) c) (atTc (Vout2 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3 -/

set_option maxHeartbeats 1600000 in
/-- Leaving region 3, each of its arrays holds what the pipeline leaves: the inputs as entered, the output its write-backs. -/
theorem hF3 (c : Dev nD) (w : Fin cfg3.W) : (dat3 (atTc (Vin3 m)) c).arrAt w cfg3.N = atTc (Vout3 m) c (Pipeline.arrRef spec3 w) := by
  match w with
  | ⟨0, _⟩ =>
    refine (((dat3 (atTc (Vin3 m)) c).arrAt_in 0 rfl _).trans (A_eq3 (atTc (Vin3 m)) c 0)).trans ?_
    show Vin3 m c (Proc.devRef .tc (Pipeline.arrRef spec3 0)) = Function.update (Vin3 m c) main_v46 (out3 m c) (Proc.devRef .tc (Pipeline.arrRef spec3 0))
    exact (Function.update_of_ne (StableHlo.devRef_ne_of_ne (by decide)) _ _).symm
  | ⟨1, _⟩ =>
    refine (((dat3 (atTc (Vin3 m)) c).arrAt_in 1 rfl _).trans (A_eq3 (atTc (Vin3 m)) c 1)).trans ?_
    show Vin3 m c (Proc.devRef .tc (Pipeline.arrRef spec3 1)) = Function.update (Vin3 m c) main_v46 (out3 m c) (Proc.devRef .tc (Pipeline.arrRef spec3 1))
    exact (Function.update_of_ne (StableHlo.devRef_ne_of_ne (by decide)) _ _).symm
  | ⟨2, _⟩ =>
    refine (((dat3 (atTc (Vin3 m)) c).arrAt_in 2 rfl _).trans (A_eq3 (atTc (Vin3 m)) c 2)).trans ?_
    show Vin3 m c (Proc.devRef .tc (Pipeline.arrRef spec3 2)) = Function.update (Vin3 m c) main_v46 (out3 m c) (Proc.devRef .tc (Pipeline.arrRef spec3 2))
    exact (Function.update_of_ne (StableHlo.devRef_ne_of_ne (by decide)) _ _).symm
  | ⟨3, _⟩ =>
    show out3 m c = Function.update (Vin3 m c) main_v46 (out3 m c) main_v46
    rw [Function.update_self]
/-- and every other buffer what it held at entry. -/
theorem hrest3 (c : Dev nD) : ∀ b, b ∉ Finset.univ.image (Pipeline.arrRef spec3) → atTc (Vout3 m) c b = atTc (Vin3 m) c b := fun b hb => by
  show Function.update (Vin3 m c) main_v46 (out3 m c) (Proc.devRef .tc b) = Vin3 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 3 over the thread state: entered from every unscoped buffer at `Vin3`, left at `Vout3`.  Its arrays are split
    out of the unscoped buffers and put back at the exit contents; the generator register goes into the class invariant and
    comes out; nothing is owed; the kernel has no semaphore of its own. -/
def reg3 : RegionSeg (pcfgs (F := F)) Gen.adm (pdats m) () defs₀ 𝒱n Lv lvl 3 where
  win := launch3.win.to₀
  block_pos := launch3.block_pos
  stage_whole := launch3.stage_whole
  K := PEmpty
  osem k := k.elim
  ho := Pipeline.OwnSemFacts.none _
  hbody c := (body_obligation3 (atTc (Vin3 m)) c).loose
  hwaits := Pipeline.hwaits_of_owed_zero _ _ _ _ Lv lvl 3 fun _ _ => rfl
  pre c := iprop(StableHlo.held (c : Thread nD τ) (Pipeline.ucRefs τ sig) (Vin3 m c) ∗ Rest c)
  post c := iprop(StableHlo.held (c : Thread nD τ) (Pipeline.ucRefs τ sig) (Vout3 m c) ∗ Rest c)
  X c := iprop(∃ r, prngReg c r)
  Y c := iprop(∃ r, prngReg c r)
  Z c := Pipeline.unscopedRest (Ix := Unit) (Name := ℕ) (U := UR sig nD τ) (Lvl := ℕ) spec3 c (atTc (Vin3 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (Vin3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (Vin3 m) c) (atTc (Vout3 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4 -/

set_option maxHeartbeats 1600000 in
/-- Leaving region 4, each of its arrays holds what the pipeline leaves: the inputs as entered, the output its write-backs. -/
theorem hF4 (c : Dev nD) (w : Fin cfg4.W) : (dat4 (atTc (Vin4 m)) c).arrAt w cfg4.N = atTc (Vout4 m) c (Pipeline.arrRef spec4 w) := by
  match w with
  | ⟨0, _⟩ =>
    refine (((dat4 (atTc (Vin4 m)) c).arrAt_in 0 rfl _).trans (A_eq4 (atTc (Vin4 m)) c 0)).trans ?_
    show Vin4 m c (Proc.devRef .tc (Pipeline.arrRef spec4 0)) = Function.update (Vin4 m c) main_v69 (out4 m c) (Proc.devRef .tc (Pipeline.arrRef spec4 0))
    exact (Function.update_of_ne (StableHlo.devRef_ne_of_ne (by decide)) _ _).symm
  | ⟨1, _⟩ =>
    refine (((dat4 (atTc (Vin4 m)) c).arrAt_in 1 rfl _).trans (A_eq4 (atTc (Vin4 m)) c 1)).trans ?_
    show Vin4 m c (Proc.devRef .tc (Pipeline.arrRef spec4 1)) = Function.update (Vin4 m c) main_v69 (out4 m c) (Proc.devRef .tc (Pipeline.arrRef spec4 1))
    exact (Function.update_of_ne (StableHlo.devRef_ne_of_ne (by decide)) _ _).symm
  | ⟨2, _⟩ =>
    refine (((dat4 (atTc (Vin4 m)) c).arrAt_in 2 rfl _).trans (A_eq4 (atTc (Vin4 m)) c 2)).trans ?_
    show Vin4 m c (Proc.devRef .tc (Pipeline.arrRef spec4 2)) = Function.update (Vin4 m c) main_v69 (out4 m c) (Proc.devRef .tc (Pipeline.arrRef spec4 2))
    exact (Function.update_of_ne (StableHlo.devRef_ne_of_ne (by decide)) _ _).symm
  | ⟨3, _⟩ =>
    refine (((dat4 (atTc (Vin4 m)) c).arrAt_in 3 rfl _).trans (A_eq4 (atTc (Vin4 m)) c 3)).trans ?_
    show Vin4 m c (Proc.devRef .tc (Pipeline.arrRef spec4 3)) = Function.update (Vin4 m c) main_v69 (out4 m c) (Proc.devRef .tc (Pipeline.arrRef spec4 3))
    exact (Function.update_of_ne (StableHlo.devRef_ne_of_ne (by decide)) _ _).symm
  | ⟨4, _⟩ =>
    refine (((dat4 (atTc (Vin4 m)) c).arrAt_in 4 rfl _).trans (A_eq4 (atTc (Vin4 m)) c 4)).trans ?_
    show Vin4 m c (Proc.devRef .tc (Pipeline.arrRef spec4 4)) = Function.update (Vin4 m c) main_v69 (out4 m c) (Proc.devRef .tc (Pipeline.arrRef spec4 4))
    exact (Function.update_of_ne (StableHlo.devRef_ne_of_ne (by decide)) _ _).symm
  | ⟨5, _⟩ =>
    show out4 m c = Function.update (Vin4 m c) main_v69 (out4 m c) main_v69
    rw [Function.update_self]
/-- and every other buffer what it held at entry. -/
theorem hrest4 (c : Dev nD) : ∀ b, b ∉ Finset.univ.image (Pipeline.arrRef spec4) → atTc (Vout4 m) c b = atTc (Vin4 m) c b := fun b hb => by
  show Function.update (Vin4 m c) main_v69 (out4 m c) (Proc.devRef .tc b) = Vin4 m c (Proc.devRef .tc b)
  refine Function.update_of_ne (StableHlo.devRef_ne_of_ne fun e => hb (Finset.mem_image.mpr ⟨5, Finset.mem_univ _, ?_⟩)) _ _
  exact e.symm

set_option backward.isDefEq.respectTransparency.types false in
/-- Region 4 over the thread state: entered from every unscoped buffer at `Vin4`, left at `Vout4`.  Its arrays are split
    out of the unscoped buffers and put back at the exit contents; the generator register goes into the class invariant and
    comes out; nothing is owed; the kernel has no semaphore of its own. -/
def reg4 : RegionSeg (pcfgs (F := F)) Gen.adm (pdats m) () defs₀ 𝒱n Lv lvl 4 where
  win := launch4.win.to₀
  block_pos := launch4.block_pos
  stage_whole := launch4.stage_whole
  K := PEmpty
  osem k := k.elim
  ho := Pipeline.OwnSemFacts.none _
  hbody c := (body_obligation4 (atTc (Vin4 m)) c).loose
  hwaits := Pipeline.hwaits_of_owed_zero _ _ _ _ Lv lvl 4 fun _ _ => rfl
  pre c := iprop(StableHlo.held (c : Thread nD τ) (Pipeline.ucRefs τ sig) (Vin4 m c) ∗ Rest c)
  post c := iprop(StableHlo.held (c : Thread nD τ) (Pipeline.ucRefs τ sig) (Vout4 m c) ∗ Rest c)
  X c := iprop(∃ r, prngReg c r)
  Y c := iprop(∃ r, prngReg c r)
  Z c := Pipeline.unscopedRest (Ix := Unit) (Name := ℕ) (U := UR sig nD τ) (Lvl := ℕ) spec4 c (atTc (Vin4 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atTc (Vin4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atTc (Vin4 m) c) (atTc (Vout4 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 5 -/

set_option maxHeartbeats 1600000 in
/-- Leaving region 5, each of its arrays holds what the pipeline leaves: the inputs as entered, the output its write-backs. -/
theorem hF5 (c : Dev nD) (w : Fin cfg5.W) : (dat5 (atTc (Vin5 m)) c).arrAt w cfg5.N = atTc (Vout5 m) c (Pipeline.arrRef spec5 w) := by
  match w with
  | ⟨0, _⟩ =>
    refine (((dat5 (atTc (Vin5 m)) c).arrAt_in 0 rfl _).trans (A_eq5 (atTc (Vin5 m)) c 0)).trans ?_
    show Vin5 m c (Proc.devRef .tc (Pipeline.arrRef spec5 0)) = Function.update (Vin5 m c) main_v121 (out5 m c) (Proc.devRef .tc (Pipeline.arrRef spec5 0))
    exact (Function.update_of_ne (StableHlo.devRef_ne_of_ne (by decide)) _ _).symm
  | ⟨1, _⟩ =>
    refine (((dat5 (atTc (Vin5 m)) c).arrAt_in 1 rfl _).trans (A_eq5 (atTc (Vin5 m)) c 1)).trans ?_
    show Vin5 m c (Proc.devRef .tc (Pipeline.arrRef spec5 1)) = Function.update (Vin5 m c) main_v121 (out5 m c) (Proc.devRef .tc (Pipeline.arrRef spec5 1))
    exact (Function.update_of_ne (StableHlo.devRef_ne_of_ne (by decide)) _ _).symm
  | ⟨2, _⟩ =>
    refine (((dat5 (atTc (Vin5 m)) c).arrAt_in 2 rfl _).trans (A_eq5 (atTc (Vin5 m)) c 2)).trans ?_
    show Vin5 m c (Proc.devRef .tc (Pipeline.arrRef spec5 2)) = Function.update (Vin5 m c) main_v121 (out5 m c) (Proc.devRef .tc (Pipeline.arrRef spec5 2))
    exact (Function.update_of_ne (StableHlo.devRef_ne_of_ne (by decide)) _ _).symm
  | ⟨3, _⟩ =>
    show out5 m c = Function.update (Vin5 m c) main_v121 (out5 m c) main_v121
    rw [Function.update_self]
/-- and every other buffer what it held at entry. -/
theorem hrest5 (c : Dev nD) : ∀ b, b ∉ Finset.univ.image (Pipeline.arrRef spec5) → atTc (Vout5 m) c b = atTc (Vin5 m) c b := fun b hb => by
  show Function.update (Vin5 m c) main_v121 (out5 m c) (Proc.devRef .tc b) = Vin5 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 5 over the thread state: entered from every unscoped buffer at `Vin5`, left at `Vout5`.  Its arrays are split
    out of the unscoped buffers and put back at the exit contents; the generator register goes into the class invariant and
    comes out; nothing is owed; the kernel has no semaphore of its own. -/
def reg5 : RegionSeg (pcfgs (F := F)) Gen.adm (pdats m) () defs₀ 𝒱n Lv lvl 5 where
  win := launch5.win.to₀
  block_pos := launch5.block_pos
  stage_whole := launch5.stage_whole
  K := PEmpty
  osem k := k.elim
  ho := Pipeline.OwnSemFacts.none _
  hbody c := (body_obligation5 (atTc (Vin5 m)) c).loose
  hwaits := Pipeline.hwaits_of_owed_zero _ _ _ _ Lv lvl 5 fun _ _ => rfl
  pre c := iprop(StableHlo.held (c : Thread nD τ) (Pipeline.ucRefs τ sig) (Vin5 m c) ∗ Rest c)
  post c := iprop(StableHlo.held (c : Thread nD τ) (Pipeline.ucRefs τ sig) (Vout5 m c) ∗ Rest c)
  X c := iprop(∃ r, prngReg c r)
  Y c := iprop(∃ r, prngReg c r)
  Z c := Pipeline.unscopedRest (Ix := Unit) (Name := ℕ) (U := UR sig nD τ) (Lvl := ℕ) spec5 c (atTc (Vin5 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (atTc (Vin5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (atTc (Vin5 m) c) (atTc (Vout5 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 6 -/

set_option maxHeartbeats 1600000 in
/-- Leaving region 6, each of its arrays holds what the pipeline leaves: the inputs as entered, the output its write-backs. -/
theorem hF6 (c : Dev nD) (w : Fin cfg6.W) : (dat6 (atTc (Vin6 m)) c).arrAt w cfg6.N = atTc (Vout6 m) c (Pipeline.arrRef spec6 w) := by
  match w with
  | ⟨0, _⟩ =>
    refine (((dat6 (atTc (Vin6 m)) c).arrAt_in 0 rfl _).trans (A_eq6 (atTc (Vin6 m)) c 0)).trans ?_
    show Vin6 m c (Proc.devRef .tc (Pipeline.arrRef spec6 0)) = Function.update (Vin6 m c) main_v127 (out6 m c) (Proc.devRef .tc (Pipeline.arrRef spec6 0))
    exact (Function.update_of_ne (StableHlo.devRef_ne_of_ne (by decide)) _ _).symm
  | ⟨1, _⟩ =>
    refine (((dat6 (atTc (Vin6 m)) c).arrAt_in 1 rfl _).trans (A_eq6 (atTc (Vin6 m)) c 1)).trans ?_
    show Vin6 m c (Proc.devRef .tc (Pipeline.arrRef spec6 1)) = Function.update (Vin6 m c) main_v127 (out6 m c) (Proc.devRef .tc (Pipeline.arrRef spec6 1))
    exact (Function.update_of_ne (StableHlo.devRef_ne_of_ne (by decide)) _ _).symm
  | ⟨2, _⟩ =>
    refine (((dat6 (atTc (Vin6 m)) c).arrAt_in 2 rfl _).trans (A_eq6 (atTc (Vin6 m)) c 2)).trans ?_
    show Vin6 m c (Proc.devRef .tc (Pipeline.arrRef spec6 2)) = Function.update (Vin6 m c) main_v127 (out6 m c) (Proc.devRef .tc (Pipeline.arrRef spec6 2))
    exact (Function.update_of_ne (StableHlo.devRef_ne_of_ne (by decide)) _ _).symm
  | ⟨3, _⟩ =>
    show out6 m c = Function.update (Vin6 m c) main_v127 (out6 m c) main_v127
    rw [Function.update_self]
/-- and every other buffer what it held at entry. -/
theorem hrest6 (c : Dev nD) : ∀ b, b ∉ Finset.univ.image (Pipeline.arrRef spec6) → atTc (Vout6 m) c b = atTc (Vin6 m) c b := fun b hb => by
  show Function.update (Vin6 m c) main_v127 (out6 m c) (Proc.devRef .tc b) = Vin6 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 6 over the thread state: entered from every unscoped buffer at `Vin6`, left at `Vout6`.  Its arrays are split
    out of the unscoped buffers and put back at the exit contents; the generator register goes into the class invariant and
    comes out; nothing is owed; the kernel has no semaphore of its own. -/
def reg6 : RegionSeg (pcfgs (F := F)) Gen.adm (pdats m) () defs₀ 𝒱n Lv lvl 6 where
  win := launch6.win.to₀
  block_pos := launch6.block_pos
  stage_whole := launch6.stage_whole
  K := PEmpty
  osem k := k.elim
  ho := Pipeline.OwnSemFacts.none _
  hbody c := (body_obligation6 (atTc (Vin6 m)) c).loose
  hwaits := Pipeline.hwaits_of_owed_zero _ _ _ _ Lv lvl 6 fun _ _ => rfl
  pre c := iprop(StableHlo.held (c : Thread nD τ) (Pipeline.ucRefs τ sig) (Vin6 m c) ∗ Rest c)
  post c := iprop(StableHlo.held (c : Thread nD τ) (Pipeline.ucRefs τ sig) (Vout6 m c) ∗ Rest c)
  X c := iprop(∃ r, prngReg c r)
  Y c := iprop(∃ r, prngReg c r)
  Z c := Pipeline.unscopedRest (Ix := Unit) (Name := ℕ) (U := UR sig nD τ) (Lvl := ℕ) spec6 c (atTc (Vin6 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (atTc (Vin6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (atTc (Vin6 m) c) (atTc (Vout6 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 7 -/

set_option maxHeartbeats 1600000 in
/-- Leaving region 7, each of its arrays holds what the pipeline leaves: the inputs as entered, the output its write-backs. -/
theorem hF7 (c : Dev nD) (w : Fin cfg7.W) : (dat7 (atTc (Vin7 m)) c).arrAt w cfg7.N = atTc (Vout7 m) c (Pipeline.arrRef spec7 w) := by
  match w with
  | ⟨0, _⟩ =>
    refine (((dat7 (atTc (Vin7 m)) c).arrAt_in 0 rfl _).trans (A_eq7 (atTc (Vin7 m)) c 0)).trans ?_
    show Vin7 m c (Proc.devRef .tc (Pipeline.arrRef spec7 0)) = Function.update (Vin7 m c) main_v150 (out7 m c) (Proc.devRef .tc (Pipeline.arrRef spec7 0))
    exact (Function.update_of_ne (StableHlo.devRef_ne_of_ne (by decide)) _ _).symm
  | ⟨1, _⟩ =>
    refine (((dat7 (atTc (Vin7 m)) c).arrAt_in 1 rfl _).trans (A_eq7 (atTc (Vin7 m)) c 1)).trans ?_
    show Vin7 m c (Proc.devRef .tc (Pipeline.arrRef spec7 1)) = Function.update (Vin7 m c) main_v150 (out7 m c) (Proc.devRef .tc (Pipeline.arrRef spec7 1))
    exact (Function.update_of_ne (StableHlo.devRef_ne_of_ne (by decide)) _ _).symm
  | ⟨2, _⟩ =>
    refine (((dat7 (atTc (Vin7 m)) c).arrAt_in 2 rfl _).trans (A_eq7 (atTc (Vin7 m)) c 2)).trans ?_
    show Vin7 m c (Proc.devRef .tc (Pipeline.arrRef spec7 2)) = Function.update (Vin7 m c) main_v150 (out7 m c) (Proc.devRef .tc (Pipeline.arrRef spec7 2))
    exact (Function.update_of_ne (StableHlo.devRef_ne_of_ne (by decide)) _ _).symm
  | ⟨3, _⟩ =>
    refine (((dat7 (atTc (Vin7 m)) c).arrAt_in 3 rfl _).trans (A_eq7 (atTc (Vin7 m)) c 3)).trans ?_
    show Vin7 m c (Proc.devRef .tc (Pipeline.arrRef spec7 3)) = Function.update (Vin7 m c) main_v150 (out7 m c) (Proc.devRef .tc (Pipeline.arrRef spec7 3))
    exact (Function.update_of_ne (StableHlo.devRef_ne_of_ne (by decide)) _ _).symm
  | ⟨4, _⟩ =>
    refine (((dat7 (atTc (Vin7 m)) c).arrAt_in 4 rfl _).trans (A_eq7 (atTc (Vin7 m)) c 4)).trans ?_
    show Vin7 m c (Proc.devRef .tc (Pipeline.arrRef spec7 4)) = Function.update (Vin7 m c) main_v150 (out7 m c) (Proc.devRef .tc (Pipeline.arrRef spec7 4))
    exact (Function.update_of_ne (StableHlo.devRef_ne_of_ne (by decide)) _ _).symm
  | ⟨5, _⟩ =>
    show out7 m c = Function.update (Vin7 m c) main_v150 (out7 m c) main_v150
    rw [Function.update_self]
/-- and every other buffer what it held at entry. -/
theorem hrest7 (c : Dev nD) : ∀ b, b ∉ Finset.univ.image (Pipeline.arrRef spec7) → atTc (Vout7 m) c b = atTc (Vin7 m) c b := fun b hb => by
  show Function.update (Vin7 m c) main_v150 (out7 m c) (Proc.devRef .tc b) = Vin7 m c (Proc.devRef .tc b)
  refine Function.update_of_ne (StableHlo.devRef_ne_of_ne fun e => hb (Finset.mem_image.mpr ⟨5, Finset.mem_univ _, ?_⟩)) _ _
  exact e.symm

set_option backward.isDefEq.respectTransparency.types false in
/-- Region 7 over the thread state: entered from every unscoped buffer at `Vin7`, left at `Vout7`.  Its arrays are split
    out of the unscoped buffers and put back at the exit contents; the generator register goes into the class invariant and
    comes out; nothing is owed; the kernel has no semaphore of its own. -/
def reg7 : RegionSeg (pcfgs (F := F)) Gen.adm (pdats m) () defs₀ 𝒱n Lv lvl 7 where
  win := launch7.win.to₀
  block_pos := launch7.block_pos
  stage_whole := launch7.stage_whole
  K := PEmpty
  osem k := k.elim
  ho := Pipeline.OwnSemFacts.none _
  hbody c := (body_obligation7 (atTc (Vin7 m)) c).loose
  hwaits := Pipeline.hwaits_of_owed_zero _ _ _ _ Lv lvl 7 fun _ _ => rfl
  pre c := iprop(StableHlo.held (c : Thread nD τ) (Pipeline.ucRefs τ sig) (Vin7 m c) ∗ Rest c)
  post c := iprop(StableHlo.held (c : Thread nD τ) (Pipeline.ucRefs τ sig) (Vout7 m c) ∗ Rest c)
  X c := iprop(∃ r, prngReg c r)
  Y c := iprop(∃ r, prngReg c r)
  Z c := Pipeline.unscopedRest (Ix := Unit) (Name := ℕ) (U := UR sig nD τ) (Lvl := ℕ) spec7 c (atTc (Vin7 m) c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (atTc (Vin7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (atTc (Vin7 m) c) (atTc (Vout7 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources and the frame -/

/-- What the launch deals each core, less its buffers, makes the first rest: the generator register at its launch state and
    nothing owed. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lv lvl)
      ⊢ (|={Set.univ}=> bigSep Finset.univ (fun c : Dev nD => Rest (F := F) c) : sProp 𝕄) := by
  refine Pipeline.initEach Lv lvl fun c => ?_
  iintro ⟨⟨-, HO, -, Hp, -⟩, -⟩
  imodintro
  isplitl [Hp]; · iexists _; iexact Hp
  iexists ∅; iexact HO

set_option backward.isDefEq.respectTransparency.types false in
/-- The frame: from any memory with zero counters every weakly fair execution of the program terminates, nothing
    faulting, and every argument array ends as launched — the conditional frame at the eight regions' records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond (m := m) (EP := emb₁) (ι := ()) (𝒱₀ := 𝒱n) (L := Lv) (lv := lvl) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c) (hE0 := rest_init ρ)
    (hE8 := fun c => by iintro ⟨-, H⟩; iexact H)
    (R0 := reg0 m) (hpre0 := fun c => by rw [Vin0_eq]; exact .rfl) (hpost0 := fun c => by rw [Vout0_eq]; exact .rfl)
    (R1 := reg1 m) (hpre1 := fun c => by rw [Vin1_eq]; exact .rfl) (hpost1 := fun c => by rw [Vout1_eq]; exact .rfl)
    (R2 := reg2 m) (hpre2 := fun c => by rw [Vin2_eq]; exact .rfl) (hpost2 := fun c => by rw [Vout2_eq]; exact .rfl)
    (R3 := reg3 m) (hpre3 := fun c => by rw [Vin3_eq]; exact .rfl) (hpost3 := fun c => by rw [Vout3_eq]; exact .rfl)
    (R4 := reg4 m) (hpre4 := fun c => by rw [Vin4_eq]; exact .rfl) (hpost4 := fun c => by rw [Vout4_eq]; exact .rfl)
    (R5 := reg5 m) (hpre5 := fun c => by rw [Vin5_eq]; exact .rfl) (hpost5 := fun c => by rw [Vout5_eq]; exact .rfl)
    (R6 := reg6 m) (hpre6 := fun c => by rw [Vin6_eq]; exact .rfl) (hpost6 := fun c => by rw [Vout6_eq]; exact .rfl)
    (R7 := reg7 m) (hpre7 := fun c => by rw [Vin7_eq]; exact .rfl) (hpost7 := fun c => by rw [Vout7_eq]; exact .rfl)

end Cert.Kernel.Rg

end
-- ==== Proof.KI.Region0.lean ====
import proofs.«149463_j13572096656012_1_alg».proof.Proof.Gen.KernelIdeal.Launch
import proofs.«149463_j13572096656012_1_alg».proof.Proof.Gen.KernelIdeal.Skeleton
import proofs.«149463_j13572096656012_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out0_3`: the one store's value over the three loaded blocks), the body's triple, the pipeline's proof data
(`dat0`) and the body obligation at every point.
-/

-- membership in a rectangle of 2000 rows: the structural look recurses once per coordinate of the long axis
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (the weight and the bias
    row are fetched once: their block index never moves), for any proof data over `V`'s arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_a : Rect S2000x256 := Rect.unit (s := S2000x256) ![0, 0] S2000x256.size inb_S2000x256_S2000x256_0_0
abbrev r0_b : Rect S256x256 := Rect.unit (s := S256x256) ![0, 0] S256x256.size inb_S256x256_S256x256_0_0
abbrev r0_bias : Rect S1x256 := Rect.unit (s := S1x256) ![0, 0] S1x256.size inb_S1x256_S1x256_0_0
abbrev r0_o : Rect S2000x256 := Rect.unit (s := S2000x256) ![0, 0] S2000x256.size inb_S2000x256_S2000x256_0_0

/-! ## What the body leaves in the output window's buffer -/

/-- The output buffer after the body, from the three input blocks: its one store, of the product plus the bias row. -/
def out0_3 (x0 : Vec F S2000x256 .bf16) (x1 : Vec F S256x256 .bf16) (x2 : Vec F S1x256 .f32) : Vec F S2000x256 .f32 :=
  View.canon [⟨r0_o, k0_pay1 (View.ld x0 r0_a) (View.ld x1 r0_b) (View.ld x2 r0_bias)⟩]

/-- The one store covers the buffer. -/
theorem cover0_3 (p0 : Vec F S2000x256 .f32) (y : S2000x256.Idx) :
    ∃ pc ∈ ([⟨r0_o, p0⟩] : List (View.Piece (Elt F) S2000x256 .f32)), y ∈ pc.1.set :=
  View.cover_of_tiled [⟨r0_o, p0⟩] S2000x256.size (by rfl) y

/-! ## The body's triple -/

set_option maxHeartbeats 1000000 in
/-- The body on whole buffers, the inputs' at read contents and the output's at anything, runs to the continuation
    holding the inputs' as they were and the output's at `out0_3` of the inputs'. -/
theorem sound_kernel0 (c : Dev nD) (E : Set ℕ) (i : grid0.Coords) (arg1 : Memref sig .tc .vmem S2000x256 .bf16) (harg1 : arg1.IsWhole) (arg2 : Memref sig .tc .vmem S256x256 .bf16) (harg2 : arg2.IsWhole) (arg3 : Memref sig .tc .vmem S1x256 .f32) (harg3 : arg3.IsWhole) (arg4 : Memref sig .tc .vmem S2000x256 .f32) (harg4 : arg4.IsWhole)
    (x0 : Vec F S2000x256 .bf16) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the region finds them; after the body at point `t` each input's
    buffer at its block and the output's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KI.Region1.lean ====
import proofs.«149463_j13572096656012_1_alg».proof.Proof.Gen.KernelIdeal.Launch
import proofs.«149463_j13572096656012_1_alg».proof.Proof.Gen.KernelIdeal.Skeleton
import proofs.«149463_j13572096656012_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out1_3`: the one store's value over the three loaded blocks), the body's triple, the pipeline's proof data
(`dat1`) and the body obligation at every point.
-/

-- membership in a rectangle of 2000 rows: the structural look recurses once per coordinate of the long axis
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (the weight and the bias
    row are fetched once: their block index never moves), for any proof data over `V`'s arrays whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_a : Rect S2000x128 := Rect.unit (s := S2000x128) ![0, 0] S2000x128.size inb_S2000x128_S2000x128_0_0
abbrev r1_b : Rect S128x256 := Rect.unit (s := S128x256) ![0, 0] S128x256.size inb_S128x256_S128x256_0_0
abbrev r1_bias : Rect S1x256 := Rect.unit (s := S1x256) ![0, 0] S1x256.size inb_S1x256_S1x256_0_0
abbrev r1_o : Rect S2000x256 := Rect.unit (s := S2000x256) ![0, 0] S2000x256.size inb_S2000x256_S2000x256_0_0

/-! ## What the body leaves in the output window's buffer -/

/-- The output buffer after the body, from the three input blocks: its one store, of the product plus the bias row. -/
def out1_3 (x0 : Vec F S2000x128 .bf16) (x1 : Vec F S128x256 .bf16) (x2 : Vec F S1x256 .f32) : Vec F S2000x256 .f32 :=
  View.canon [⟨r1_o, k1_pay1 (View.ld x0 r1_a) (View.ld x1 r1_b) (View.ld x2 r1_bias)⟩]

/-- The one store covers the buffer. -/
theorem cover1_3 (p0 : Vec F S2000x256 .f32) (y : S2000x256.Idx) :
    ∃ pc ∈ ([⟨r1_o, p0⟩] : List (View.Piece (Elt F) S2000x256 .f32)), y ∈ pc.1.set :=
  View.cover_of_tiled [⟨r1_o, p0⟩] S2000x256.size (by rfl) y

/-! ## The body's triple -/

set_option maxHeartbeats 1000000 in
/-- The body on whole buffers, the inputs' at read contents and the output's at anything, runs to the continuation
    holding the inputs' as they were and the output's at `out1_3` of the inputs'. -/
theorem sound_kernel1 (c : Dev nD) (E : Set ℕ) (i : grid1.Coords) (arg1 : Memref sig .tc .vmem S2000x128 .bf16) (harg1 : arg1.IsWhole) (arg2 : Memref sig .tc .vmem S128x256 .bf16) (harg2 : arg2.IsWhole) (arg3 : Memref sig .tc .vmem S1x256 .f32) (harg3 : arg3.IsWhole) (arg4 : Memref sig .tc .vmem S2000x256 .f32) (harg4 : arg4.IsWhole)
    (x0 : Vec F S2000x128 .bf16) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_bias_kernel i arg1 harg1 arg2 harg2 arg3 harg3 arg4 harg4) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data on core `c`: the arrays as the region finds them; after the body at point `t` each input's
    buffer at its block and the output's at `out1_3` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rg

end
-- ==== Proof.KI.Region2.lean ====
import proofs.«149463_j13572096656012_1_alg».proof.Proof.Gen.KernelIdeal.Launch
import proofs.«149463_j13572096656012_1_alg».proof.Proof.Gen.KernelIdeal.Skeleton
import proofs.«149463_j13572096656012_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out2_3`: the one store's value over the three loaded blocks), the body's triple, the pipeline's proof data
(`dat2`) and the body obligation at every point.
-/

-- membership in a rectangle of 2000 rows: the structural look recurses once per coordinate of the long axis
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (the weight and the bias
    row are fetched once: their block index never moves), for any proof data over `V`'s arrays whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_a : Rect S2000x256 := Rect.unit (s := S2000x256) ![0, 0] S2000x256.size inb_S2000x256_S2000x256_0_0
abbrev r2_b : Rect S256x1024 := Rect.unit (s := S256x1024) ![0, 0] S256x1024.size inb_S256x1024_S256x1024_0_0
abbrev r2_bias : Rect S1x1024 := Rect.unit (s := S1x1024) ![0, 0] S1x1024.size inb_S1x1024_S1x1024_0_0
abbrev r2_o : Rect S2000x1024 := Rect.unit (s := S2000x1024) ![0, 0] S2000x1024.size inb_S2000x1024_S2000x1024_0_0

/-! ## What the body leaves in the output window's buffer -/

/-- The output buffer after the body, from the three input blocks: its one store, of the product plus the bias row. -/
def out2_3 (x0 : Vec F S2000x256 .bf16) (x1 : Vec F S256x1024 .bf16) (x2 : Vec F S1x1024 .f32) : Vec F S2000x1024 .f32 :=
  View.canon [⟨r2_o, k2_pay1 (View.ld x0 r2_a) (View.ld x1 r2_b) (View.ld x2 r2_bias)⟩]

/-- The one store covers the buffer. -/
theorem cover2_3 (p0 : Vec F S2000x1024 .f32) (y : S2000x1024.Idx) :
    ∃ pc ∈ ([⟨r2_o, p0⟩] : List (View.Piece (Elt F) S2000x1024 .f32)), y ∈ pc.1.set :=
  View.cover_of_tiled [⟨r2_o, p0⟩] S2000x1024.size (by rfl) y

/-! ## The body's triple -/

set_option maxHeartbeats 1000000 in
/-- The body on whole buffers, the inputs' at read contents and the output's at anything, runs to the continuation
    holding the inputs' as they were and the output's at `out2_3` of the inputs'. -/
theorem sound_kernel2 (c : Dev nD) (E : Set ℕ) (i : grid2.Coords) (arg1 : Memref sig .tc .vmem S2000x256 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S2000x1024 .f32) (harg4 : arg4.IsWhole)
    (x0 : Vec F S2000x256 .bf16) (x1 : Vec F S256x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data on core `c`: the arrays as the region finds them; after the body at point `t` each input's
    buffer at its block and the output's at `out2_3` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KI.Region3.lean ====
import proofs.«149463_j13572096656012_1_alg».proof.Proof.Gen.KernelIdeal.Launch
import proofs.«149463_j13572096656012_1_alg».proof.Proof.Gen.KernelIdeal.Skeleton
import proofs.«149463_j13572096656012_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out3_3`: the one store's value over the three loaded blocks), the body's triple, the pipeline's proof data
(`dat3`) and the body obligation at every point.
-/

-- membership in a rectangle of 2000 rows: the structural look recurses once per coordinate of the long axis
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (the weight and the bias
    row are fetched once: their block index never moves), for any proof data over `V`'s arrays whose body leaves the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_a : Rect S2000x256 := Rect.unit (s := S2000x256) ![0, 0] S2000x256.size inb_S2000x256_S2000x256_0_0
abbrev r3_b : Rect S256x512 := Rect.unit (s := S256x512) ![0, 0] S256x512.size inb_S256x512_S256x512_0_0
abbrev r3_bias : Rect S1x512 := Rect.unit (s := S1x512) ![0, 0] S1x512.size inb_S1x512_S1x512_0_0
abbrev r3_o : Rect S2000x512 := Rect.unit (s := S2000x512) ![0, 0] S2000x512.size inb_S2000x512_S2000x512_0_0

/-! ## What the body leaves in the output window's buffer -/

/-- The output buffer after the body, from the three input blocks: its one store, of the product plus the bias row. -/
def out3_3 (x0 : Vec F S2000x256 .bf16) (x1 : Vec F S256x512 .bf16) (x2 : Vec F S1x512 .f32) : Vec F S2000x512 .f32 :=
  View.canon [⟨r3_o, k3_pay1 (View.ld x0 r3_a) (View.ld x1 r3_b) (View.ld x2 r3_bias)⟩]

/-- The one store covers the buffer. -/
theorem cover3_3 (p0 : Vec F S2000x512 .f32) (y : S2000x512.Idx) :
    ∃ pc ∈ ([⟨r3_o, p0⟩] : List (View.Piece (Elt F) S2000x512 .f32)), y ∈ pc.1.set :=
  View.cover_of_tiled [⟨r3_o, p0⟩] S2000x512.size (by rfl) y

/-! ## The body's triple -/

set_option maxHeartbeats 1000000 in
/-- The body on whole buffers, the inputs' at read contents and the output's at anything, runs to the continuation
    holding the inputs' as they were and the output's at `out3_3` of the inputs'. -/
theorem sound_kernel3 (c : Dev nD) (E : Set ℕ) (i : grid3.Coords) (arg1 : Memref sig .tc .vmem S2000x256 .bf16) (harg1 : arg1.IsWhole) (arg2 : Memref sig .tc .vmem S256x512 .bf16) (harg2 : arg2.IsWhole) (arg3 : Memref sig .tc .vmem S1x512 .f32) (harg3 : arg3.IsWhole) (arg4 : Memref sig .tc .vmem S2000x512 .f32) (harg4 : arg4.IsWhole)
    (x0 : Vec F S2000x256 .bf16) (x1 : Vec F S256x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_bias_kernel i arg1 harg1 arg2 harg2 arg3 harg3 arg4 harg4) K := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data on core `c`: the arrays as the region finds them; after the body at point `t` each input's
    buffer at its block and the output's at `out3_3` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Rg

end
-- ==== Proof.KI.Region4.lean ====
import proofs.«149463_j13572096656012_1_alg».proof.Proof.Gen.KernelIdeal.Launch
import proofs.«149463_j13572096656012_1_alg».proof.Proof.Gen.KernelIdeal.Skeleton
import proofs.«149463_j13572096656012_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the gated message, row block by row block

The region computes, over blocks of 1600 rows, `out = σ(g₁) · sp(g₂)` where, with the three 512-column inputs split
into their left and right halves of 256 columns, `g₁ = gd_L + gs_L + ee_L + bf` and `g₂ = gd_R + gs_R + ee_R + bs`
(`bf`, `bs` rows broadcast down the block), `σ` the logistic function and `sp` the softplus in its stable form
`max(x, 0) + log1p(exp(-|x|))`.  At every grid point the body loads its block of each of the three inputs and the
two bias rows whole, and stores the whole output block once.  Stated here at any contents `V` of the buffers when
the region is entered: what each point leaves in the output window's buffer (`out4_5`: the one store's value over
the five loaded blocks), the body's triple, the pipeline's proof data (`dat4`) and the body obligation at every
point.
-/

-- membership in a rectangle of 1600 rows: the structural look recurses once per coordinate of the long axis
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, fetched there or not (the two bias rows are
    fetched once: their block index never moves), for any proof data over `V`'s arrays whose body leaves the block
    in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_x : Rect S1600x512 := Rect.unit (s := S1600x512) ![0, 0] S1600x512.size inb_S1600x512_S1600x512_0_0
abbrev r4_b : Rect S1x256 := Rect.unit (s := S1x256) ![0, 0] S1x256.size inb_S1x256_S1x256_0_0
abbrev r4_0 : Rect S1600x256 := Rect.unit (s := S1600x256) ![0, 0] S1600x256.size inb_S1600x256_S1600x256_0_0

/-! ## What the body leaves in the output window's buffer -/

/-- The output buffer after the body, from the five input blocks: its one store, of the gated product. -/
def out4_5 (x0 : Vec F S1600x512 .f32) (x1 : Vec F S1600x512 .f32) (x2 : Vec F S1600x512 .f32) (x3 : Vec F S1x256 .f32) (x4 : Vec F S1x256 .f32) : Vec F S1600x256 .f32 :=
  View.canon [⟨r4_0, k4_pay1 (View.ld x0 r4_x) (View.ld x1 r4_x) (View.ld x2 r4_x) (View.ld x3 r4_b) (View.ld x4 r4_b)⟩]

/-- The one store covers the buffer. -/
theorem cover4_5 (p0 : Vec F S1600x256 .f32) (y : S1600x256.Idx) :
    ∃ pc ∈ ([⟨r4_0, p0⟩] : List (View.Piece (Elt F) S1600x256 .f32)), y ∈ pc.1.set :=
  View.cover_of_tiled [⟨r4_0, p0⟩] S1600x256.size (by rfl) y

/-! ## The body's triple -/

set_option maxHeartbeats 1000000 in
/-- The body on whole buffers, the inputs' at read contents and the output's at anything, runs to the continuation
    holding the inputs' as they were and the output's at `out4_5` of the inputs'. -/
theorem sound_kernel4 (c : Dev nD) (E : Set ℕ) (i : grid4.Coords) (arg1 : Memref sig .tc .vmem S1600x512 .f32) (harg1 : arg1.IsWhole) (arg2 : Memref sig .tc .vmem S1600x512 .f32) (harg2 : arg2.IsWhole) (arg3 : Memref sig .tc .vmem S1600x512 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1600x256 .f32) (harg6 : arg6.IsWhole)
    (x0 : Vec F S1600x512 .f32) (x1 : Vec F S1600x512 .f32) (x2 : Vec F S1600x512 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__message_kernel i arg1 harg1 arg2 harg2 arg3 harg3 arg4 harg4 arg5 harg5 arg6 harg6) K := by
  simp only [cc4__message_kernel_eq_skeleton]; unfold cc4__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data on core `c`: the arrays as the region finds them; after the body at point `t` each input's
    buffer at its block and the output's at `out4_5` of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Rg

end
-- ==== Proof.KI.Region5.lean ====
import proofs.«149463_j13572096656012_1_alg».proof.Proof.Gen.KernelIdeal.Launch
import proofs.«149463_j13572096656012_1_alg».proof.Proof.Gen.KernelIdeal.Skeleton
import proofs.«149463_j13572096656012_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out5_3`: the one store's value over the three loaded blocks), the body's triple, the pipeline's proof data
(`dat5`) and the body obligation at every point.
-/

-- membership in a rectangle of 2000 rows: the structural look recurses once per coordinate of the long axis
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not (the weight and the bias
    row are fetched once: their block index never moves), for any proof data over `V`'s arrays whose body leaves the
    block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_a : Rect S2000x256 := Rect.unit (s := S2000x256) ![0, 0] S2000x256.size inb_S2000x256_S2000x256_0_0
abbrev r5_b : Rect S256x1024 := Rect.unit (s := S256x1024) ![0, 0] S256x1024.size inb_S256x1024_S256x1024_0_0
abbrev r5_bias : Rect S1x1024 := Rect.unit (s := S1x1024) ![0, 0] S1x1024.size inb_S1x1024_S1x1024_0_0
abbrev r5_o : Rect S2000x1024 := Rect.unit (s := S2000x1024) ![0, 0] S2000x1024.size inb_S2000x1024_S2000x1024_0_0

/-! ## What the body leaves in the output window's buffer -/

/-- The output buffer after the body, from the three input blocks: its one store, of the product plus the bias row. -/
def out5_3 (x0 : Vec F S2000x256 .bf16) (x1 : Vec F S256x1024 .bf16) (x2 : Vec F S1x1024 .f32) : Vec F S2000x1024 .f32 :=
  View.canon [⟨r5_o, k5_pay1 (View.ld x0 r5_a) (View.ld x1 r5_b) (View.ld x2 r5_bias)⟩]

/-- The one store covers the buffer. -/
theorem cover5_3 (p0 : Vec F S2000x1024 .f32) (y : S2000x1024.Idx) :
    ∃ pc ∈ ([⟨r5_o, p0⟩] : List (View.Piece (Elt F) S2000x1024 .f32)), y ∈ pc.1.set :=
  View.cover_of_tiled [⟨r5_o, p0⟩] S2000x1024.size (by rfl) y

/-! ## The body's triple -/

set_option maxHeartbeats 1000000 in
/-- The body on whole buffers, the inputs' at read contents and the output's at anything, runs to the continuation
    holding the inputs' as they were and the output's at `out5_3` of the inputs'. -/
theorem sound_kernel5 (c : Dev nD) (E : Set ℕ) (i : grid5.Coords) (arg1 : Memref sig .tc .vmem S2000x256 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S2000x1024 .f32) (harg4 : arg4.IsWhole)
    (x0 : Vec F S2000x256 .bf16) (x1 : Vec F S256x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__matmul_bias_kernel i arg1 harg1 arg2 harg2 arg3 harg3 arg4 harg4) K := by
  simp only [cc5__matmul_bias_kernel_eq_skeleton]; unfold cc5__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data on core `c`: the arrays as the region finds them; after the body at point `t` each input's
    buffer at its block and the output's at `out5_3` of the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Rg

end
-- ==== Proof.KI.Region6.lean ====
import proofs.«149463_j13572096656012_1_alg».proof.Proof.Gen.KernelIdeal.Launch
import proofs.«149463_j13572096656012_1_alg».proof.Proof.Gen.KernelIdeal.Skeleton
import proofs.«149463_j13572096656012_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 6: a row-blocked product plus a bias row

The region computes `out = a · b + bias` over blocks of 2000 rows: at every grid point the body loads its
block of `a` (2000 rows), the whole of `b` and the bias row, and stores the whole output block.  Stated here at
any contents `V` of the buffers when the region is entered: what each point leaves in the output window's buffer
(`out6_3`: the one store's value over the three loaded blocks), the body's triple, the pipeline's proof data
(`dat6`) and the body obligation at every point.
-/

-- membership in a rectangle of 2000 rows: the structural look recurses once per coordinate of the long axis
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its block at every point, fetched there or not (the weight and the bias
    row are fetched once: their block index never moves), for any proof data over `V`'s arrays whose body leaves the
    block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_a : Rect S2000x256 := Rect.unit (s := S2000x256) ![0, 0] S2000x256.size inb_S2000x256_S2000x256_0_0
abbrev r6_b : Rect S256x512 := Rect.unit (s := S256x512) ![0, 0] S256x512.size inb_S256x512_S256x512_0_0
abbrev r6_bias : Rect S1x512 := Rect.unit (s := S1x512) ![0, 0] S1x512.size inb_S1x512_S1x512_0_0
abbrev r6_o : Rect S2000x512 := Rect.unit (s := S2000x512) ![0, 0] S2000x512.size inb_S2000x512_S2000x512_0_0

/-! ## What the body leaves in the output window's buffer -/

/-- The output buffer after the body, from the three input blocks: its one store, of the product plus the bias row. -/
def out6_3 (x0 : Vec F S2000x256 .bf16) (x1 : Vec F S256x512 .bf16) (x2 : Vec F S1x512 .f32) : Vec F S2000x512 .f32 :=
  View.canon [⟨r6_o, k6_pay1 (View.ld x0 r6_a) (View.ld x1 r6_b) (View.ld x2 r6_bias)⟩]

/-- The one store covers the buffer. -/
theorem cover6_3 (p0 : Vec F S2000x512 .f32) (y : S2000x512.Idx) :
    ∃ pc ∈ ([⟨r6_o, p0⟩] : List (View.Piece (Elt F) S2000x512 .f32)), y ∈ pc.1.set :=
  View.cover_of_tiled [⟨r6_o, p0⟩] S2000x512.size (by rfl) y

/-! ## The body's triple -/

set_option maxHeartbeats 1000000 in
/-- The body on whole buffers, the inputs' at read contents and the output's at anything, runs to the continuation
    holding the inputs' as they were and the output's at `out6_3` of the inputs'. -/
theorem sound_kernel6 (c : Dev nD) (E : Set ℕ) (i : grid6.Coords) (arg1 : Memref sig .tc .vmem S2000x256 .bf16) (harg1 : arg1.IsWhole) (arg2 : Memref sig .tc .vmem S256x512 .bf16) (harg2 : arg2.IsWhole) (arg3 : Memref sig .tc .vmem S1x512 .f32) (harg3 : arg3.IsWhole) (arg4 : Memref sig .tc .vmem S2000x512 .f32) (harg4 : arg4.IsWhole)
    (x0 : Vec F S2000x256 .bf16) (x1 : Vec F S256x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data on core `c`: the arrays as the region finds them; after the body at point `t` each input's
    buffer at its block and the output's at `out6_3` of the input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Rg

end
-- ==== Proof.KI.Region7.lean ====
import proofs.«149463_j13572096656012_1_alg».proof.Proof.Gen.KernelIdeal.Launch
import proofs.«149463_j13572096656012_1_alg».proof.Proof.Gen.KernelIdeal.Skeleton
import proofs.«149463_j13572096656012_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: the gated message, row block by row block

The region computes, over blocks of 1600 rows, `out = σ(g₁) · sp(g₂)` where, with the three 512-column inputs split
into their left and right halves of 256 columns, `g₁ = gd_L + gs_L + ee_L + bf` and `g₂ = gd_R + gs_R + ee_R + bs`
(`bf`, `bs` rows broadcast down the block), `σ` the logistic function and `sp` the softplus in its stable form
`max(x, 0) + log1p(exp(-|x|))`.  At every grid point the body loads its block of each of the three inputs and the
two bias rows whole, and stores the whole output block once.  Stated here at any contents `V` of the buffers when
the region is entered: what each point leaves in the output window's buffer (`out7_5`: the one store's value over
the five loaded blocks), the body's triple, the pipeline's proof data (`dat7`) and the body obligation at every
point.
-/

-- membership in a rectangle of 1600 rows: the structural look recurses once per coordinate of the long axis
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current buffer holds its block at every point, fetched there or not (the two bias rows are
    fetched once: their block index never moves), for any proof data over `V`'s arrays whose body leaves the block
    in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_x : Rect S1600x512 := Rect.unit (s := S1600x512) ![0, 0] S1600x512.size inb_S1600x512_S1600x512_0_0
abbrev r7_b : Rect S1x256 := Rect.unit (s := S1x256) ![0, 0] S1x256.size inb_S1x256_S1x256_0_0
abbrev r7_0 : Rect S1600x256 := Rect.unit (s := S1600x256) ![0, 0] S1600x256.size inb_S1600x256_S1600x256_0_0

/-! ## What the body leaves in the output window's buffer -/

/-- The output buffer after the body, from the five input blocks: its one store, of the gated product. -/
def out7_5 (x0 : Vec F S1600x512 .f32) (x1 : Vec F S1600x512 .f32) (x2 : Vec F S1600x512 .f32) (x3 : Vec F S1x256 .f32) (x4 : Vec F S1x256 .f32) : Vec F S1600x256 .f32 :=
  View.canon [⟨r7_0, k7_pay1 (View.ld x0 r7_x) (View.ld x1 r7_x) (View.ld x2 r7_x) (View.ld x3 r7_b) (View.ld x4 r7_b)⟩]

/-- The one store covers the buffer. -/
theorem cover7_5 (p0 : Vec F S1600x256 .f32) (y : S1600x256.Idx) :
    ∃ pc ∈ ([⟨r7_0, p0⟩] : List (View.Piece (Elt F) S1600x256 .f32)), y ∈ pc.1.set :=
  View.cover_of_tiled [⟨r7_0, p0⟩] S1600x256.size (by rfl) y

/-! ## The body's triple -/

set_option maxHeartbeats 1000000 in
/-- The body on whole buffers, the inputs' at read contents and the output's at anything, runs to the continuation
    holding the inputs' as they were and the output's at `out7_5` of the inputs'. -/
theorem sound_kernel7 (c : Dev nD) (E : Set ℕ) (i : grid7.Coords) (arg1 : Memref sig .tc .vmem S1600x512 .f32) (harg1 : arg1.IsWhole) (arg2 : Memref sig .tc .vmem S1600x512 .f32) (harg2 : arg2.IsWhole) (arg3 : Memref sig .tc .vmem S1600x512 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1600x256 .f32) (harg6 : arg6.IsWhole)
    (x0 : Vec F S1600x512 .f32) (x1 : Vec F S1600x512 .f32) (x2 : Vec F S1600x512 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__message_kernel i arg1 harg1 arg2 harg2 arg3 harg3 arg4 harg4 arg5 harg5 arg6 harg6) K := by
  simp only [cc7__message_kernel_eq_skeleton]; unfold cc7__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data on core `c`: the arrays as the region finds them; after the body at point `t` each input's
    buffer at its block and the output's at `out7_5` of the input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Rg

end
-- ==== Proof.KI.Run.lean ====
import proofs.«149463_j13572096656012_1_alg».proof.Proof.KI.Region0
import proofs.«149463_j13572096656012_1_alg».proof.Proof.KI.Region1
import proofs.«149463_j13572096656012_1_alg».proof.Proof.KI.Region2
import proofs.«149463_j13572096656012_1_alg».proof.Proof.KI.Region3
import proofs.«149463_j13572096656012_1_alg».proof.Proof.KI.Region4
import proofs.«149463_j13572096656012_1_alg».proof.Proof.KI.Region5
import proofs.«149463_j13572096656012_1_alg».proof.Proof.KI.Region6
import proofs.«149463_j13572096656012_1_alg».proof.Proof.KI.Region7
import proofs.«149463_j13572096656012_1_alg».proof.Proof.Gen.KernelIdeal.Regions

/-!
# The run: the eight regions chained through the host stretches

Between two items of the program every unscoped buffer is held whole.  Entering region `K` the buffers hold `Vin K`;
leaving it they hold `Vout K`: the same contents except the region's one output array, which holds what the
pipeline's write-backs leave (`outK`).  The contents are defined region by region, each from the ones before it;
`outs` collects them in the form the conditional frame reads.  Each region is then one segment record over the thread
state "every unscoped buffer at these contents, the generator register at some state, nothing owed".
-/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references (what a region's half takes). -/
abbrev atTc (W : Dev nD → Valuation τ sig (Elt F)) : (c : Dev nD) → (b : Ref sig .tc) → Buf (Elt F) ((c : Thread nD τ).loc b) :=
  fun c b => W c b

/-! ## The contents at the regions' boundaries -/

/-- The buffers' contents entering region 0. -/
def Vin0 : Dev nD → Valuation τ sig (Elt F) := fun c => Gen.V1 m c
/-- What region 0 leaves in its output array. -/
def out0 (c : Dev nD) : Buf (Elt F) ((c : Thread nD τ).loc main_v8) := (dat0 (atTc (Vin0 m)) c).arrAt 3 cfg0.N
/-- The buffers' contents leaving region 0. -/
def Vout0 : Dev nD → Valuation τ sig (Elt F) := fun c => Function.update (Vin0 m c) main_v8 (out0 m c)
/-- The regions' outputs up to region 0, in the form the conditional frame reads them. -/
def outsUpTo0 : Gen.Outs (F := F) := fun J r c => match J with
  | _ => Vout0 m c r

/-- The buffers' contents entering region 1. -/
def Vin1 : Dev nD → Valuation τ sig (Elt F) := fun c => Gen.V3 m (outsUpTo0 m) c
/-- What region 1 leaves in its output array. -/
def out1 (c : Dev nD) : Buf (Elt F) ((c : Thread nD τ).loc main_v13) := (dat1 (atTc (Vin1 m)) c).arrAt 3 cfg1.N
/-- The buffers' contents leaving region 1. -/
def Vout1 : Dev nD → Valuation τ sig (Elt F) := fun c => Function.update (Vin1 m c) main_v13 (out1 m c)
/-- The regions' outputs up to region 1, in the form the conditional frame reads them. -/
def outsUpTo1 : Gen.Outs (F := F) := fun J r c => match J with
  | 2 => Vout0 m c r
  | _ => Vout1 m c r

/-- The buffers' contents entering region 2. -/
def Vin2 : Dev nD → Valuation τ sig (Elt F) := fun c => Gen.V5 m (outsUpTo1 m) c
/-- What region 2 leaves in its output array. -/
def out2 (c : Dev nD) : Buf (Elt F) ((c : Thread nD τ).loc main_v40) := (dat2 (atTc (Vin2 m)) c).arrAt 3 cfg2.N
/-- The buffers' contents leaving region 2. -/
def Vout2 : Dev nD → Valuation τ sig (Elt F) := fun c => Function.update (Vin2 m c) main_v40 (out2 m c)
/-- The regions' outputs up to region 2, in the form the conditional frame reads them. -/
def outsUpTo2 : Gen.Outs (F := F) := fun J r c => match J with
  | 2 => Vout0 m c r
  | 4 => Vout1 m c r
  | _ => Vout2 m c r

/-- The buffers' contents entering region 3. -/
def Vin3 : Dev nD → Valuation τ sig (Elt F) := fun c => Gen.V7 m (outsUpTo2 m) c
/-- What region 3 leaves in its output array. -/
def out3 (c : Dev nD) : Buf (Elt F) ((c : Thread nD τ).loc main_v46) := (dat3 (atTc (Vin3 m)) c).arrAt 3 cfg3.N
/-- The buffers' contents leaving region 3. -/
def Vout3 : Dev nD → Valuation τ sig (Elt F) := fun c => Function.update (Vin3 m c) main_v46 (out3 m c)
/-- The regions' outputs up to region 3, in the form the conditional frame reads them. -/
def outsUpTo3 : Gen.Outs (F := F) := fun J r c => match J with
  | 2 => Vout0 m c r
  | 4 => Vout1 m c r
  | 6 => Vout2 m c r
  | _ => Vout3 m c r

/-- The buffers' contents entering region 4. -/
def Vin4 : Dev nD → Valuation τ sig (Elt F) := fun c => Gen.V9 m (outsUpTo3 m) c
/-- What region 4 leaves in its output array. -/
def out4 (c : Dev nD) : Buf (Elt F) ((c : Thread nD τ).loc main_v69) := (dat4 (atTc (Vin4 m)) c).arrAt 5 cfg4.N
/-- The buffers' contents leaving region 4. -/
def Vout4 : Dev nD → Valuation τ sig (Elt F) := fun c => Function.update (Vin4 m c) main_v69 (out4 m c)
/-- The regions' outputs up to region 4, in the form the conditional frame reads them. -/
def outsUpTo4 : Gen.Outs (F := F) := fun J r c => match J with
  | 2 => Vout0 m c r
  | 4 => Vout1 m c r
  | 6 => Vout2 m c r
  | 8 => Vout3 m c r
  | _ => Vout4 m c r

/-- The buffers' contents entering region 5. -/
def Vin5 : Dev nD → Valuation τ sig (Elt F) := fun c => Gen.V11 m (outsUpTo4 m) c
/-- What region 5 leaves in its output array. -/
def out5 (c : Dev nD) : Buf (Elt F) ((c : Thread nD τ).loc main_v121) := (dat5 (atTc (Vin5 m)) c).arrAt 3 cfg5.N
/-- The buffers' contents leaving region 5. -/
def Vout5 : Dev nD → Valuation τ sig (Elt F) := fun c => Function.update (Vin5 m c) main_v121 (out5 m c)
/-- The regions' outputs up to region 5, in the form the conditional frame reads them. -/
def outsUpTo5 : Gen.Outs (F := F) := fun J r c => match J with
  | 2 => Vout0 m c r
  | 4 => Vout1 m c r
  | 6 => Vout2 m c r
  | 8 => Vout3 m c r
  | 10 => Vout4 m c r
  | _ => Vout5 m c r

/-- The buffers' contents entering region 6. -/
def Vin6 : Dev nD → Valuation τ sig (Elt F) := fun c => Gen.V13 m (outsUpTo5 m) c
/-- What region 6 leaves in its output array. -/
def out6 (c : Dev nD) : Buf (Elt F) ((c : Thread nD τ).loc main_v127) := (dat6 (atTc (Vin6 m)) c).arrAt 3 cfg6.N
/-- The buffers' contents leaving region 6. -/
def Vout6 : Dev nD → Valuation τ sig (Elt F) := fun c => Function.update (Vin6 m c) main_v127 (out6 m c)
/-- The regions' outputs up to region 6, in the form the conditional frame reads them. -/
def outsUpTo6 : Gen.Outs (F := F) := fun J r c => match J with
  | 2 => Vout0 m c r
  | 4 => Vout1 m c r
  | 6 => Vout2 m c r
  | 8 => Vout3 m c r
  | 10 => Vout4 m c r
  | 12 => Vout5 m c r
  | _ => Vout6 m c r

/-- The buffers' contents entering region 7. -/
def Vin7 : Dev nD → Valuation τ sig (Elt F) := fun c => Gen.V15 m (outsUpTo6 m) c
/-- What region 7 leaves in its output array. -/
def out7 (c : Dev nD) : Buf (Elt F) ((c : Thread nD τ).loc main_v150) := (dat7 (atTc (Vin7 m)) c).arrAt 5 cfg7.N
/-- The buffers' contents leaving region 7. -/
def Vout7 : Dev nD → Valuation τ sig (Elt F) := fun c => Function.update (Vin7 m c) main_v150 (out7 m c)
/-- The regions' outputs up to region 7, in the form the conditional frame reads them. -/
def outsUpTo7 : Gen.Outs (F := F) := fun J r c => match J with
  | 2 => Vout0 m c r
  | 4 => Vout1 m c r
  | 6 => Vout2 m c r
  | 8 => Vout3 m c r
  | 10 => Vout4 m c r
  | 12 => Vout5 m c r
  | 14 => Vout6 m c r
  | _ => Vout7 m c r

/-- Every region's output. -/
abbrev outs : Gen.Outs (F := F) := outsUpTo7 m

/-! ### The conditional frame's contents are these -/

theorem Vin0_eq (c : Dev nD) : Gen.V1 m c = Vin0 m c := rfl
theorem Vout0_eq (c : Dev nD) : Gen.V2 m (outs m) c = Vout0 m c := by
  show Function.update (Gen.V1 m c) main_v8 (Vout0 m c main_v8) = Vout0 m c
  rw [Vin0_eq]; unfold Vout0; rw [Function.update_self]

theorem Vin1_eq (c : Dev nD) : Gen.V3 m (outs m) c = Vin1 m c := rfl
theorem Vout1_eq (c : Dev nD) : Gen.V4 m (outs m) c = Vout1 m c := by
  show Function.update (Gen.V3 m (outs m) c) main_v13 (Vout1 m c main_v13) = Vout1 m c
  rw [Vin1_eq]; unfold Vout1; rw [Function.update_self]

theorem Vin2_eq (c : Dev nD) : Gen.V5 m (outs m) c = Vin2 m c := rfl
theorem Vout2_eq (c : Dev nD) : Gen.V6 m (outs m) c = Vout2 m c := by
  show Function.update (Gen.V5 m (outs m) c) main_v40 (Vout2 m c main_v40) = Vout2 m c
  rw [Vin2_eq]; unfold Vout2; rw [Function.update_self]

theorem Vin3_eq (c : Dev nD) : Gen.V7 m (outs m) c = Vin3 m c := rfl
theorem Vout3_eq (c : Dev nD) : Gen.V8 m (outs m) c = Vout3 m c := by
  show Function.update (Gen.V7 m (outs m) c) main_v46 (Vout3 m c main_v46) = Vout3 m c
  rw [Vin3_eq]; unfold Vout3; rw [Function.update_self]

theorem Vin4_eq (c : Dev nD) : Gen.V9 m (outs m) c = Vin4 m c := rfl
theorem Vout4_eq (c : Dev nD) : Gen.V10 m (outs m) c = Vout4 m c := by
  show Function.update (Gen.V9 m (outs m) c) main_v69 (Vout4 m c main_v69) = Vout4 m c
  rw [Vin4_eq]; unfold Vout4; rw [Function.update_self]

theorem Vin5_eq (c : Dev nD) : Gen.V11 m (outs m) c = Vin5 m c := rfl
theorem Vout5_eq (c : Dev nD) : Gen.V12 m (outs m) c = Vout5 m c := by
  show Function.update (Gen.V11 m (outs m) c) main_v121 (Vout5 m c main_v121) = Vout5 m c
  rw [Vin5_eq]; unfold Vout5; rw [Function.update_self]

theorem Vin6_eq (c : Dev nD) : Gen.V13 m (outs m) c = Vin6 m c := rfl
theorem Vout6_eq (c : Dev nD) : Gen.V14 m (outs m) c = Vout6 m c := by
  show Function.update (Gen.V13 m (outs m) c) main_v127 (Vout6 m c main_v127) = Vout6 m c
  rw [Vin6_eq]; unfold Vout6; rw [Function.update_self]

theorem Vin7_eq (c : Dev nD) : Gen.V15 m (outs m) c = Vin7 m c := rfl
theorem Vout7_eq (c : Dev nD) : Gen.V16 m (outs m) c = Vout7 m c := by
  show Function.update (Gen.V15 m (outs m) c) main_v150 (Vout7 m c main_v150) = Vout7 m c
  rw [Vin7_eq]; unfold Vout7; rw [Function.update_self]

/-! ## The proof data family and the thread state -/

/-- Every pipeline's proof data, each at its region's entry contents. -/
def pdats : (p : Fin 8) → (c : Dev nD) → Dat τ (Elt F) Unit ℕ (UR sig nD τ) ℕ (cfgs p) c
  | ⟨0, _⟩ => fun c => dat0 (atTc (Vin0 m)) c
  | ⟨1, _⟩ => fun c => dat1 (atTc (Vin1 m)) c
  | ⟨2, _⟩ => fun c => dat2 (atTc (Vin2 m)) c
  | ⟨3, _⟩ => fun c => dat3 (atTc (Vin3 m)) c
  | ⟨4, _⟩ => fun c => dat4 (atTc (Vin4 m)) c
  | ⟨5, _⟩ => fun c => dat5 (atTc (Vin5 m)) c
  | ⟨6, _⟩ => fun c => dat6 (atTc (Vin6 m)) c
  | ⟨7, _⟩ => fun c => dat7 (atTc (Vin7 m)) c

abbrev 𝒱n : Variants := Variants.none
/-- No core owes another anything: no level is assigned. -/
abbrev Lv : GSem nD τ sig → Finset Unit := fun _ => ∅
abbrev lvl : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)

/-! ### Region 0 -/

set_option maxHeartbeats 1600000 in
/-- Leaving region 0, each of its arrays holds what the pipeline leaves: the inputs as entered, the output its write-backs. -/
theorem hF0 (c : Dev nD) (w : Fin cfg0.W) : (dat0 (atTc (Vin0 m)) c).arrAt w cfg0.N = atTc (Vout0 m) c (Pipeline.arrRef spec0 w) := by
  match w with
  | ⟨0, _⟩ =>
    refine (((dat0 (atTc (Vin0 m)) c).arrAt_in 0 rfl _).trans (A_eq0 (atTc (Vin0 m)) c 0)).trans ?_
    show Vin0 m c (Proc.devRef .tc (Pipeline.arrRef spec0 0)) = Function.update (Vin0 m c) main_v8 (out0 m c) (Proc.devRef .tc (Pipeline.arrRef spec0 0))
    exact (Function.update_of_ne (StableHlo.devRef_ne_of_ne (by decide)) _ _).symm
  | ⟨1, _⟩ =>
    refine (((dat0 (atTc (Vin0 m)) c).arrAt_in 1 rfl _).trans (A_eq0 (atTc (Vin0 m)) c 1)).trans ?_
    show Vin0 m c (Proc.devRef .tc (Pipeline.arrRef spec0 1)) = Function.update (Vin0 m c) main_v8 (out0 m c) (Proc.devRef .tc (Pipeline.arrRef spec0 1))
    exact (Function.update_of_ne (StableHlo.devRef_ne_of_ne (by decide)) _ _).symm
  | ⟨2, _⟩ =>
    refine (((dat0 (atTc (Vin0 m)) c).arrAt_in 2 rfl _).trans (A_eq0 (atTc (Vin0 m)) c 2)).trans ?_
    show Vin0 m c (Proc.devRef .tc (Pipeline.arrRef spec0 2)) = Function.update (Vin0 m c) main_v8 (out0 m c) (Proc.devRef .tc (Pipeline.arrRef spec0 2))
    exact (Function.update_of_ne (StableHlo.devRef_ne_of_ne (by decide)) _ _).symm
  | ⟨3, _⟩ =>
    show out0 m c = Function.update (Vin0 m c) main_v8 (out0 m c) main_v8
    rw [Function.update_self]
/-- and every other buffer what it held at entry. -/
theorem hrest0 (c : Dev nD) : ∀ b, b ∉ Finset.univ.image (Pipeline.arrRef spec0) → atTc (Vout0 m) c b = atTc (Vin0 m) c b := fun b hb => by
  show Function.update (Vin0 m c) main_v8 (out0 m c) (Proc.devRef .tc b) = Vin0 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 0 over the thread state: entered from every unscoped buffer at `Vin0`, left at `Vout0`.  Its arrays are split
    out of the unscoped buffers and put back at the exit contents; the generator register goes into the class invariant and
    comes out; nothing is owed; the kernel has no semaphore of its own. -/
def reg0 : RegionSeg (pcfgs (F := F)) Gen.adm (pdats m) () defs₀ 𝒱n Lv lvl 0 where
  win := launch0.win.to₀
  block_pos := launch0.block_pos
  stage_whole := launch0.stage_whole
  K := PEmpty
  osem k := k.elim
  ho := Pipeline.OwnSemFacts.none _
  hbody c := (body_obligation0 (atTc (Vin0 m)) c).loose
  hwaits := Pipeline.hwaits_of_owed_zero _ _ _ _ Lv lvl 0 fun _ _ => rfl
  pre c := iprop(StableHlo.held (c : Thread nD τ) (Pipeline.ucRefs τ sig) (Vin0 m c) ∗ Rest c)
  post c := iprop(StableHlo.held (c : Thread nD τ) (Pipeline.ucRefs τ sig) (Vout0 m c) ∗ Rest c)
  X c := iprop(∃ r, prngReg c r)
  Y c := iprop(∃ r, prngReg c r)
  Z c := Pipeline.unscopedRest (Ix := Unit) (Name := ℕ) (U := UR sig nD τ) (Lvl := ℕ) spec0 c (atTc (Vin0 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (Vin0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (Vin0 m) c) (atTc (Vout0 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1 -/

set_option maxHeartbeats 1600000 in
/-- Leaving region 1, each of its arrays holds what the pipeline leaves: the inputs as entered, the output its write-backs. -/
theorem hF1 (c : Dev nD) (w : Fin cfg1.W) : (dat1 (atTc (Vin1 m)) c).arrAt w cfg1.N = atTc (Vout1 m) c (Pipeline.arrRef spec1 w) := by
  match w with
  | ⟨0, _⟩ =>
    refine (((dat1 (atTc (Vin1 m)) c).arrAt_in 0 rfl _).trans (A_eq1 (atTc (Vin1 m)) c 0)).trans ?_
    show Vin1 m c (Proc.devRef .tc (Pipeline.arrRef spec1 0)) = Function.update (Vin1 m c) main_v13 (out1 m c) (Proc.devRef .tc (Pipeline.arrRef spec1 0))
    exact (Function.update_of_ne (StableHlo.devRef_ne_of_ne (by decide)) _ _).symm
  | ⟨1, _⟩ =>
    refine (((dat1 (atTc (Vin1 m)) c).arrAt_in 1 rfl _).trans (A_eq1 (atTc (Vin1 m)) c 1)).trans ?_
    show Vin1 m c (Proc.devRef .tc (Pipeline.arrRef spec1 1)) = Function.update (Vin1 m c) main_v13 (out1 m c) (Proc.devRef .tc (Pipeline.arrRef spec1 1))
    exact (Function.update_of_ne (StableHlo.devRef_ne_of_ne (by decide)) _ _).symm
  | ⟨2, _⟩ =>
    refine (((dat1 (atTc (Vin1 m)) c).arrAt_in 2 rfl _).trans (A_eq1 (atTc (Vin1 m)) c 2)).trans ?_
    show Vin1 m c (Proc.devRef .tc (Pipeline.arrRef spec1 2)) = Function.update (Vin1 m c) main_v13 (out1 m c) (Proc.devRef .tc (Pipeline.arrRef spec1 2))
    exact (Function.update_of_ne (StableHlo.devRef_ne_of_ne (by decide)) _ _).symm
  | ⟨3, _⟩ =>
    show out1 m c = Function.update (Vin1 m c) main_v13 (out1 m c) main_v13
    rw [Function.update_self]
/-- and every other buffer what it held at entry. -/
theorem hrest1 (c : Dev nD) : ∀ b, b ∉ Finset.univ.image (Pipeline.arrRef spec1) → atTc (Vout1 m) c b = atTc (Vin1 m) c b := fun b hb => by
  show Function.update (Vin1 m c) main_v13 (out1 m c) (Proc.devRef .tc b) = Vin1 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 1 over the thread state: entered from every unscoped buffer at `Vin1`, left at `Vout1`.  Its arrays are split
    out of the unscoped buffers and put back at the exit contents; the generator register goes into the class invariant and
    comes out; nothing is owed; the kernel has no semaphore of its own. -/
def reg1 : RegionSeg (pcfgs (F := F)) Gen.adm (pdats m) () defs₀ 𝒱n Lv lvl 1 where
  win := launch1.win.to₀
  block_pos := launch1.block_pos
  stage_whole := launch1.stage_whole
  K := PEmpty
  osem k := k.elim
  ho := Pipeline.OwnSemFacts.none _
  hbody c := (body_obligation1 (atTc (Vin1 m)) c).loose
  hwaits := Pipeline.hwaits_of_owed_zero _ _ _ _ Lv lvl 1 fun _ _ => rfl
  pre c := iprop(StableHlo.held (c : Thread nD τ) (Pipeline.ucRefs τ sig) (Vin1 m c) ∗ Rest c)
  post c := iprop(StableHlo.held (c : Thread nD τ) (Pipeline.ucRefs τ sig) (Vout1 m c) ∗ Rest c)
  X c := iprop(∃ r, prngReg c r)
  Y c := iprop(∃ r, prngReg c r)
  Z c := Pipeline.unscopedRest (Ix := Unit) (Name := ℕ) (U := UR sig nD τ) (Lvl := ℕ) spec1 c (atTc (Vin1 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (Vin1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (Vin1 m) c) (atTc (Vout1 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2 -/

set_option maxHeartbeats 1600000 in
/-- Leaving region 2, each of its arrays holds what the pipeline leaves: the inputs as entered, the output its write-backs. -/
theorem hF2 (c : Dev nD) (w : Fin cfg2.W) : (dat2 (atTc (Vin2 m)) c).arrAt w cfg2.N = atTc (Vout2 m) c (Pipeline.arrRef spec2 w) := by
  match w with
  | ⟨0, _⟩ =>
    refine (((dat2 (atTc (Vin2 m)) c).arrAt_in 0 rfl _).trans (A_eq2 (atTc (Vin2 m)) c 0)).trans ?_
    show Vin2 m c (Proc.devRef .tc (Pipeline.arrRef spec2 0)) = Function.update (Vin2 m c) main_v40 (out2 m c) (Proc.devRef .tc (Pipeline.arrRef spec2 0))
    exact (Function.update_of_ne (StableHlo.devRef_ne_of_ne (by decide)) _ _).symm
  | ⟨1, _⟩ =>
    refine (((dat2 (atTc (Vin2 m)) c).arrAt_in 1 rfl _).trans (A_eq2 (atTc (Vin2 m)) c 1)).trans ?_
    show Vin2 m c (Proc.devRef .tc (Pipeline.arrRef spec2 1)) = Function.update (Vin2 m c) main_v40 (out2 m c) (Proc.devRef .tc (Pipeline.arrRef spec2 1))
    exact (Function.update_of_ne (StableHlo.devRef_ne_of_ne (by decide)) _ _).symm
  | ⟨2, _⟩ =>
    refine (((dat2 (atTc (Vin2 m)) c).arrAt_in 2 rfl _).trans (A_eq2 (atTc (Vin2 m)) c 2)).trans ?_
    show Vin2 m c (Proc.devRef .tc (Pipeline.arrRef spec2 2)) = Function.update (Vin2 m c) main_v40 (out2 m c) (Proc.devRef .tc (Pipeline.arrRef spec2 2))
    exact (Function.update_of_ne (StableHlo.devRef_ne_of_ne (by decide)) _ _).symm
  | ⟨3, _⟩ =>
    show out2 m c = Function.update (Vin2 m c) main_v40 (out2 m c) main_v40
    rw [Function.update_self]
/-- and every other buffer what it held at entry. -/
theorem hrest2 (c : Dev nD) : ∀ b, b ∉ Finset.univ.image (Pipeline.arrRef spec2) → atTc (Vout2 m) c b = atTc (Vin2 m) c b := fun b hb => by
  show Function.update (Vin2 m c) main_v40 (out2 m c) (Proc.devRef .tc b) = Vin2 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 2 over the thread state: entered from every unscoped buffer at `Vin2`, left at `Vout2`.  Its arrays are split
    out of the unscoped buffers and put back at the exit contents; the generator register goes into the class invariant and
    comes out; nothing is owed; the kernel has no semaphore of its own. -/
def reg2 : RegionSeg (pcfgs (F := F)) Gen.adm (pdats m) () defs₀ 𝒱n Lv lvl 2 where
  win := launch2.win.to₀
  block_pos := launch2.block_pos
  stage_whole := launch2.stage_whole
  K := PEmpty
  osem k := k.elim
  ho := Pipeline.OwnSemFacts.none _
  hbody c := (body_obligation2 (atTc (Vin2 m)) c).loose
  hwaits := Pipeline.hwaits_of_owed_zero _ _ _ _ Lv lvl 2 fun _ _ => rfl
  pre c := iprop(StableHlo.held (c : Thread nD τ) (Pipeline.ucRefs τ sig) (Vin2 m c) ∗ Rest c)
  post c := iprop(StableHlo.held (c : Thread nD τ) (Pipeline.ucRefs τ sig) (Vout2 m c) ∗ Rest c)
  X c := iprop(∃ r, prngReg c r)
  Y c := iprop(∃ r, prngReg c r)
  Z c := Pipeline.unscopedRest (Ix := Unit) (Name := ℕ) (U := UR sig nD τ) (Lvl := ℕ) spec2 c (atTc (Vin2 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (Vin2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (Vin2 m) c) (atTc (Vout2 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3 -/

set_option maxHeartbeats 1600000 in
/-- Leaving region 3, each of its arrays holds what the pipeline leaves: the inputs as entered, the output its write-backs. -/
theorem hF3 (c : Dev nD) (w : Fin cfg3.W) : (dat3 (atTc (Vin3 m)) c).arrAt w cfg3.N = atTc (Vout3 m) c (Pipeline.arrRef spec3 w) := by
  match w with
  | ⟨0, _⟩ =>
    refine (((dat3 (atTc (Vin3 m)) c).arrAt_in 0 rfl _).trans (A_eq3 (atTc (Vin3 m)) c 0)).trans ?_
    show Vin3 m c (Proc.devRef .tc (Pipeline.arrRef spec3 0)) = Function.update (Vin3 m c) main_v46 (out3 m c) (Proc.devRef .tc (Pipeline.arrRef spec3 0))
    exact (Function.update_of_ne (StableHlo.devRef_ne_of_ne (by decide)) _ _).symm
  | ⟨1, _⟩ =>
    refine (((dat3 (atTc (Vin3 m)) c).arrAt_in 1 rfl _).trans (A_eq3 (atTc (Vin3 m)) c 1)).trans ?_
    show Vin3 m c (Proc.devRef .tc (Pipeline.arrRef spec3 1)) = Function.update (Vin3 m c) main_v46 (out3 m c) (Proc.devRef .tc (Pipeline.arrRef spec3 1))
    exact (Function.update_of_ne (StableHlo.devRef_ne_of_ne (by decide)) _ _).symm
  | ⟨2, _⟩ =>
    refine (((dat3 (atTc (Vin3 m)) c).arrAt_in 2 rfl _).trans (A_eq3 (atTc (Vin3 m)) c 2)).trans ?_
    show Vin3 m c (Proc.devRef .tc (Pipeline.arrRef spec3 2)) = Function.update (Vin3 m c) main_v46 (out3 m c) (Proc.devRef .tc (Pipeline.arrRef spec3 2))
    exact (Function.update_of_ne (StableHlo.devRef_ne_of_ne (by decide)) _ _).symm
  | ⟨3, _⟩ =>
    show out3 m c = Function.update (Vin3 m c) main_v46 (out3 m c) main_v46
    rw [Function.update_self]
/-- and every other buffer what it held at entry. -/
theorem hrest3 (c : Dev nD) : ∀ b, b ∉ Finset.univ.image (Pipeline.arrRef spec3) → atTc (Vout3 m) c b = atTc (Vin3 m) c b := fun b hb => by
  show Function.update (Vin3 m c) main_v46 (out3 m c) (Proc.devRef .tc b) = Vin3 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 3 over the thread state: entered from every unscoped buffer at `Vin3`, left at `Vout3`.  Its arrays are split
    out of the unscoped buffers and put back at the exit contents; the generator register goes into the class invariant and
    comes out; nothing is owed; the kernel has no semaphore of its own. -/
def reg3 : RegionSeg (pcfgs (F := F)) Gen.adm (pdats m) () defs₀ 𝒱n Lv lvl 3 where
  win := launch3.win.to₀
  block_pos := launch3.block_pos
  stage_whole := launch3.stage_whole
  K := PEmpty
  osem k := k.elim
  ho := Pipeline.OwnSemFacts.none _
  hbody c := (body_obligation3 (atTc (Vin3 m)) c).loose
  hwaits := Pipeline.hwaits_of_owed_zero _ _ _ _ Lv lvl 3 fun _ _ => rfl
  pre c := iprop(StableHlo.held (c : Thread nD τ) (Pipeline.ucRefs τ sig) (Vin3 m c) ∗ Rest c)
  post c := iprop(StableHlo.held (c : Thread nD τ) (Pipeline.ucRefs τ sig) (Vout3 m c) ∗ Rest c)
  X c := iprop(∃ r, prngReg c r)
  Y c := iprop(∃ r, prngReg c r)
  Z c := Pipeline.unscopedRest (Ix := Unit) (Name := ℕ) (U := UR sig nD τ) (Lvl := ℕ) spec3 c (atTc (Vin3 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (Vin3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (Vin3 m) c) (atTc (Vout3 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4 -/

set_option maxHeartbeats 1600000 in
/-- Leaving region 4, each of its arrays holds what the pipeline leaves: the inputs as entered, the output its write-backs. -/
theorem hF4 (c : Dev nD) (w : Fin cfg4.W) : (dat4 (atTc (Vin4 m)) c).arrAt w cfg4.N = atTc (Vout4 m) c (Pipeline.arrRef spec4 w) := by
  match w with
  | ⟨0, _⟩ =>
    refine (((dat4 (atTc (Vin4 m)) c).arrAt_in 0 rfl _).trans (A_eq4 (atTc (Vin4 m)) c 0)).trans ?_
    show Vin4 m c (Proc.devRef .tc (Pipeline.arrRef spec4 0)) = Function.update (Vin4 m c) main_v69 (out4 m c) (Proc.devRef .tc (Pipeline.arrRef spec4 0))
    exact (Function.update_of_ne (StableHlo.devRef_ne_of_ne (by decide)) _ _).symm
  | ⟨1, _⟩ =>
    refine (((dat4 (atTc (Vin4 m)) c).arrAt_in 1 rfl _).trans (A_eq4 (atTc (Vin4 m)) c 1)).trans ?_
    show Vin4 m c (Proc.devRef .tc (Pipeline.arrRef spec4 1)) = Function.update (Vin4 m c) main_v69 (out4 m c) (Proc.devRef .tc (Pipeline.arrRef spec4 1))
    exact (Function.update_of_ne (StableHlo.devRef_ne_of_ne (by decide)) _ _).symm
  | ⟨2, _⟩ =>
    refine (((dat4 (atTc (Vin4 m)) c).arrAt_in 2 rfl _).trans (A_eq4 (atTc (Vin4 m)) c 2)).trans ?_
    show Vin4 m c (Proc.devRef .tc (Pipeline.arrRef spec4 2)) = Function.update (Vin4 m c) main_v69 (out4 m c) (Proc.devRef .tc (Pipeline.arrRef spec4 2))
    exact (Function.update_of_ne (StableHlo.devRef_ne_of_ne (by decide)) _ _).symm
  | ⟨3, _⟩ =>
    refine (((dat4 (atTc (Vin4 m)) c).arrAt_in 3 rfl _).trans (A_eq4 (atTc (Vin4 m)) c 3)).trans ?_
    show Vin4 m c (Proc.devRef .tc (Pipeline.arrRef spec4 3)) = Function.update (Vin4 m c) main_v69 (out4 m c) (Proc.devRef .tc (Pipeline.arrRef spec4 3))
    exact (Function.update_of_ne (StableHlo.devRef_ne_of_ne (by decide)) _ _).symm
  | ⟨4, _⟩ =>
    refine (((dat4 (atTc (Vin4 m)) c).arrAt_in 4 rfl _).trans (A_eq4 (atTc (Vin4 m)) c 4)).trans ?_
    show Vin4 m c (Proc.devRef .tc (Pipeline.arrRef spec4 4)) = Function.update (Vin4 m c) main_v69 (out4 m c) (Proc.devRef .tc (Pipeline.arrRef spec4 4))
    exact (Function.update_of_ne (StableHlo.devRef_ne_of_ne (by decide)) _ _).symm
  | ⟨5, _⟩ =>
    show out4 m c = Function.update (Vin4 m c) main_v69 (out4 m c) main_v69
    rw [Function.update_self]
/-- and every other buffer what it held at entry. -/
theorem hrest4 (c : Dev nD) : ∀ b, b ∉ Finset.univ.image (Pipeline.arrRef spec4) → atTc (Vout4 m) c b = atTc (Vin4 m) c b := fun b hb => by
  show Function.update (Vin4 m c) main_v69 (out4 m c) (Proc.devRef .tc b) = Vin4 m c (Proc.devRef .tc b)
  refine Function.update_of_ne (StableHlo.devRef_ne_of_ne fun e => hb (Finset.mem_image.mpr ⟨5, Finset.mem_univ _, ?_⟩)) _ _
  exact e.symm

set_option backward.isDefEq.respectTransparency.types false in
/-- Region 4 over the thread state: entered from every unscoped buffer at `Vin4`, left at `Vout4`.  Its arrays are split
    out of the unscoped buffers and put back at the exit contents; the generator register goes into the class invariant and
    comes out; nothing is owed; the kernel has no semaphore of its own. -/
def reg4 : RegionSeg (pcfgs (F := F)) Gen.adm (pdats m) () defs₀ 𝒱n Lv lvl 4 where
  win := launch4.win.to₀
  block_pos := launch4.block_pos
  stage_whole := launch4.stage_whole
  K := PEmpty
  osem k := k.elim
  ho := Pipeline.OwnSemFacts.none _
  hbody c := (body_obligation4 (atTc (Vin4 m)) c).loose
  hwaits := Pipeline.hwaits_of_owed_zero _ _ _ _ Lv lvl 4 fun _ _ => rfl
  pre c := iprop(StableHlo.held (c : Thread nD τ) (Pipeline.ucRefs τ sig) (Vin4 m c) ∗ Rest c)
  post c := iprop(StableHlo.held (c : Thread nD τ) (Pipeline.ucRefs τ sig) (Vout4 m c) ∗ Rest c)
  X c := iprop(∃ r, prngReg c r)
  Y c := iprop(∃ r, prngReg c r)
  Z c := Pipeline.unscopedRest (Ix := Unit) (Name := ℕ) (U := UR sig nD τ) (Lvl := ℕ) spec4 c (atTc (Vin4 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atTc (Vin4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atTc (Vin4 m) c) (atTc (Vout4 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 5 -/

set_option maxHeartbeats 1600000 in
/-- Leaving region 5, each of its arrays holds what the pipeline leaves: the inputs as entered, the output its write-backs. -/
theorem hF5 (c : Dev nD) (w : Fin cfg5.W) : (dat5 (atTc (Vin5 m)) c).arrAt w cfg5.N = atTc (Vout5 m) c (Pipeline.arrRef spec5 w) := by
  match w with
  | ⟨0, _⟩ =>
    refine (((dat5 (atTc (Vin5 m)) c).arrAt_in 0 rfl _).trans (A_eq5 (atTc (Vin5 m)) c 0)).trans ?_
    show Vin5 m c (Proc.devRef .tc (Pipeline.arrRef spec5 0)) = Function.update (Vin5 m c) main_v121 (out5 m c) (Proc.devRef .tc (Pipeline.arrRef spec5 0))
    exact (Function.update_of_ne (StableHlo.devRef_ne_of_ne (by decide)) _ _).symm
  | ⟨1, _⟩ =>
    refine (((dat5 (atTc (Vin5 m)) c).arrAt_in 1 rfl _).trans (A_eq5 (atTc (Vin5 m)) c 1)).trans ?_
    show Vin5 m c (Proc.devRef .tc (Pipeline.arrRef spec5 1)) = Function.update (Vin5 m c) main_v121 (out5 m c) (Proc.devRef .tc (Pipeline.arrRef spec5 1))
    exact (Function.update_of_ne (StableHlo.devRef_ne_of_ne (by decide)) _ _).symm
  | ⟨2, _⟩ =>
    refine (((dat5 (atTc (Vin5 m)) c).arrAt_in 2 rfl _).trans (A_eq5 (atTc (Vin5 m)) c 2)).trans ?_
    show Vin5 m c (Proc.devRef .tc (Pipeline.arrRef spec5 2)) = Function.update (Vin5 m c) main_v121 (out5 m c) (Proc.devRef .tc (Pipeline.arrRef spec5 2))
    exact (Function.update_of_ne (StableHlo.devRef_ne_of_ne (by decide)) _ _).symm
  | ⟨3, _⟩ =>
    show out5 m c = Function.update (Vin5 m c) main_v121 (out5 m c) main_v121
    rw [Function.update_self]
/-- and every other buffer what it held at entry. -/
theorem hrest5 (c : Dev nD) : ∀ b, b ∉ Finset.univ.image (Pipeline.arrRef spec5) → atTc (Vout5 m) c b = atTc (Vin5 m) c b := fun b hb => by
  show Function.update (Vin5 m c) main_v121 (out5 m c) (Proc.devRef .tc b) = Vin5 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 5 over the thread state: entered from every unscoped buffer at `Vin5`, left at `Vout5`.  Its arrays are split
    out of the unscoped buffers and put back at the exit contents; the generator register goes into the class invariant and
    comes out; nothing is owed; the kernel has no semaphore of its own. -/
def reg5 : RegionSeg (pcfgs (F := F)) Gen.adm (pdats m) () defs₀ 𝒱n Lv lvl 5 where
  win := launch5.win.to₀
  block_pos := launch5.block_pos
  stage_whole := launch5.stage_whole
  K := PEmpty
  osem k := k.elim
  ho := Pipeline.OwnSemFacts.none _
  hbody c := (body_obligation5 (atTc (Vin5 m)) c).loose
  hwaits := Pipeline.hwaits_of_owed_zero _ _ _ _ Lv lvl 5 fun _ _ => rfl
  pre c := iprop(StableHlo.held (c : Thread nD τ) (Pipeline.ucRefs τ sig) (Vin5 m c) ∗ Rest c)
  post c := iprop(StableHlo.held (c : Thread nD τ) (Pipeline.ucRefs τ sig) (Vout5 m c) ∗ Rest c)
  X c := iprop(∃ r, prngReg c r)
  Y c := iprop(∃ r, prngReg c r)
  Z c := Pipeline.unscopedRest (Ix := Unit) (Name := ℕ) (U := UR sig nD τ) (Lvl := ℕ) spec5 c (atTc (Vin5 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (atTc (Vin5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (atTc (Vin5 m) c) (atTc (Vout5 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 6 -/

set_option maxHeartbeats 1600000 in
/-- Leaving region 6, each of its arrays holds what the pipeline leaves: the inputs as entered, the output its write-backs. -/
theorem hF6 (c : Dev nD) (w : Fin cfg6.W) : (dat6 (atTc (Vin6 m)) c).arrAt w cfg6.N = atTc (Vout6 m) c (Pipeline.arrRef spec6 w) := by
  match w with
  | ⟨0, _⟩ =>
    refine (((dat6 (atTc (Vin6 m)) c).arrAt_in 0 rfl _).trans (A_eq6 (atTc (Vin6 m)) c 0)).trans ?_
    show Vin6 m c (Proc.devRef .tc (Pipeline.arrRef spec6 0)) = Function.update (Vin6 m c) main_v127 (out6 m c) (Proc.devRef .tc (Pipeline.arrRef spec6 0))
    exact (Function.update_of_ne (StableHlo.devRef_ne_of_ne (by decide)) _ _).symm
  | ⟨1, _⟩ =>
    refine (((dat6 (atTc (Vin6 m)) c).arrAt_in 1 rfl _).trans (A_eq6 (atTc (Vin6 m)) c 1)).trans ?_
    show Vin6 m c (Proc.devRef .tc (Pipeline.arrRef spec6 1)) = Function.update (Vin6 m c) main_v127 (out6 m c) (Proc.devRef .tc (Pipeline.arrRef spec6 1))
    exact (Function.update_of_ne (StableHlo.devRef_ne_of_ne (by decide)) _ _).symm
  | ⟨2, _⟩ =>
    refine (((dat6 (atTc (Vin6 m)) c).arrAt_in 2 rfl _).trans (A_eq6 (atTc (Vin6 m)) c 2)).trans ?_
    show Vin6 m c (Proc.devRef .tc (Pipeline.arrRef spec6 2)) = Function.update (Vin6 m c) main_v127 (out6 m c) (Proc.devRef .tc (Pipeline.arrRef spec6 2))
    exact (Function.update_of_ne (StableHlo.devRef_ne_of_ne (by decide)) _ _).symm
  | ⟨3, _⟩ =>
    show out6 m c = Function.update (Vin6 m c) main_v127 (out6 m c) main_v127
    rw [Function.update_self]
/-- and every other buffer what it held at entry. -/
theorem hrest6 (c : Dev nD) : ∀ b, b ∉ Finset.univ.image (Pipeline.arrRef spec6) → atTc (Vout6 m) c b = atTc (Vin6 m) c b := fun b hb => by
  show Function.update (Vin6 m c) main_v127 (out6 m c) (Proc.devRef .tc b) = Vin6 m c (Proc.devRef .tc b)
  refine Function.update_of_ne (StableHlo.devRef_ne_of_ne fun e => hb (Finset.mem_image.mpr ⟨3, Finset.mem_univ _, ?_⟩)) _ _
  exact e.symm

set_option backward.isDefEq.respectTransparency.types false in
/-- Region 6 over the thread state: entered from every unscoped buffer at `Vin6`, left at `Vout6`.  Its arrays are split
    out of the unscoped buffers and put back at the exit contents; the generator register goes into the class invariant and
    comes out; nothing is owed; the kernel has no semaphore of its own. -/
def reg6 : RegionSeg (pcfgs (F := F)) Gen.adm (pdats m) () defs₀ 𝒱n Lv lvl 6 where
  win := launch6.win.to₀
  block_pos := launch6.block_pos
  stage_whole := launch6.stage_whole
  K := PEmpty
  osem k := k.elim
  ho := Pipeline.OwnSemFacts.none _
  hbody c := (body_obligation6 (atTc (Vin6 m)) c).loose
  hwaits := Pipeline.hwaits_of_owed_zero _ _ _ _ Lv lvl 6 fun _ _ => rfl
  pre c := iprop(StableHlo.held (c : Thread nD τ) (Pipeline.ucRefs τ sig) (Vin6 m c) ∗ Rest c)
  post c := iprop(StableHlo.held (c : Thread nD τ) (Pipeline.ucRefs τ sig) (Vout6 m c) ∗ Rest c)
  X c := iprop(∃ r, prngReg c r)
  Y c := iprop(∃ r, prngReg c r)
  Z c := Pipeline.unscopedRest (Ix := Unit) (Name := ℕ) (U := UR sig nD τ) (Lvl := ℕ) spec6 c (atTc (Vin6 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (atTc (Vin6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (atTc (Vin6 m) c) (atTc (Vout6 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 7 -/

set_option maxHeartbeats 1600000 in
/-- Leaving region 7, each of its arrays holds what the pipeline leaves: the inputs as entered, the output its write-backs. -/
theorem hF7 (c : Dev nD) (w : Fin cfg7.W) : (dat7 (atTc (Vin7 m)) c).arrAt w cfg7.N = atTc (Vout7 m) c (Pipeline.arrRef spec7 w) := by
  match w with
  | ⟨0, _⟩ =>
    refine (((dat7 (atTc (Vin7 m)) c).arrAt_in 0 rfl _).trans (A_eq7 (atTc (Vin7 m)) c 0)).trans ?_
    show Vin7 m c (Proc.devRef .tc (Pipeline.arrRef spec7 0)) = Function.update (Vin7 m c) main_v150 (out7 m c) (Proc.devRef .tc (Pipeline.arrRef spec7 0))
    exact (Function.update_of_ne (StableHlo.devRef_ne_of_ne (by decide)) _ _).symm
  | ⟨1, _⟩ =>
    refine (((dat7 (atTc (Vin7 m)) c).arrAt_in 1 rfl _).trans (A_eq7 (atTc (Vin7 m)) c 1)).trans ?_
    show Vin7 m c (Proc.devRef .tc (Pipeline.arrRef spec7 1)) = Function.update (Vin7 m c) main_v150 (out7 m c) (Proc.devRef .tc (Pipeline.arrRef spec7 1))
    exact (Function.update_of_ne (StableHlo.devRef_ne_of_ne (by decide)) _ _).symm
  | ⟨2, _⟩ =>
    refine (((dat7 (atTc (Vin7 m)) c).arrAt_in 2 rfl _).trans (A_eq7 (atTc (Vin7 m)) c 2)).trans ?_
    show Vin7 m c (Proc.devRef .tc (Pipeline.arrRef spec7 2)) = Function.update (Vin7 m c) main_v150 (out7 m c) (Proc.devRef .tc (Pipeline.arrRef spec7 2))
    exact (Function.update_of_ne (StableHlo.devRef_ne_of_ne (by decide)) _ _).symm
  | ⟨3, _⟩ =>
    refine (((dat7 (atTc (Vin7 m)) c).arrAt_in 3 rfl _).trans (A_eq7 (atTc (Vin7 m)) c 3)).trans ?_
    show Vin7 m c (Proc.devRef .tc (Pipeline.arrRef spec7 3)) = Function.update (Vin7 m c) main_v150 (out7 m c) (Proc.devRef .tc (Pipeline.arrRef spec7 3))
    exact (Function.update_of_ne (StableHlo.devRef_ne_of_ne (by decide)) _ _).symm
  | ⟨4, _⟩ =>
    refine (((dat7 (atTc (Vin7 m)) c).arrAt_in 4 rfl _).trans (A_eq7 (atTc (Vin7 m)) c 4)).trans ?_
    show Vin7 m c (Proc.devRef .tc (Pipeline.arrRef spec7 4)) = Function.update (Vin7 m c) main_v150 (out7 m c) (Proc.devRef .tc (Pipeline.arrRef spec7 4))
    exact (Function.update_of_ne (StableHlo.devRef_ne_of_ne (by decide)) _ _).symm
  | ⟨5, _⟩ =>
    show out7 m c = Function.update (Vin7 m c) main_v150 (out7 m c) main_v150
    rw [Function.update_self]
/-- and every other buffer what it held at entry. -/
theorem hrest7 (c : Dev nD) : ∀ b, b ∉ Finset.univ.image (Pipeline.arrRef spec7) → atTc (Vout7 m) c b = atTc (Vin7 m) c b := fun b hb => by
  show Function.update (Vin7 m c) main_v150 (out7 m c) (Proc.devRef .tc b) = Vin7 m c (Proc.devRef .tc b)
  refine Function.update_of_ne (StableHlo.devRef_ne_of_ne fun e => hb (Finset.mem_image.mpr ⟨5, Finset.mem_univ _, ?_⟩)) _ _
  exact e.symm

set_option backward.isDefEq.respectTransparency.types false in
/-- Region 7 over the thread state: entered from every unscoped buffer at `Vin7`, left at `Vout7`.  Its arrays are split
    out of the unscoped buffers and put back at the exit contents; the generator register goes into the class invariant and
    comes out; nothing is owed; the kernel has no semaphore of its own. -/
def reg7 : RegionSeg (pcfgs (F := F)) Gen.adm (pdats m) () defs₀ 𝒱n Lv lvl 7 where
  win := launch7.win.to₀
  block_pos := launch7.block_pos
  stage_whole := launch7.stage_whole
  K := PEmpty
  osem k := k.elim
  ho := Pipeline.OwnSemFacts.none _
  hbody c := (body_obligation7 (atTc (Vin7 m)) c).loose
  hwaits := Pipeline.hwaits_of_owed_zero _ _ _ _ Lv lvl 7 fun _ _ => rfl
  pre c := iprop(StableHlo.held (c : Thread nD τ) (Pipeline.ucRefs τ sig) (Vin7 m c) ∗ Rest c)
  post c := iprop(StableHlo.held (c : Thread nD τ) (Pipeline.ucRefs τ sig) (Vout7 m c) ∗ Rest c)
  X c := iprop(∃ r, prngReg c r)
  Y c := iprop(∃ r, prngReg c r)
  Z c := Pipeline.unscopedRest (Ix := Unit) (Name := ℕ) (U := UR sig nD τ) (Lvl := ℕ) spec7 c (atTc (Vin7 m) c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (atTc (Vin7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (atTc (Vin7 m) c) (atTc (Vout7 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources and the frame -/

/-- What the launch deals each core, less its buffers, makes the first rest: the generator register at its launch state and
    nothing owed. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lv lvl)
      ⊢ (|={Set.univ}=> bigSep Finset.univ (fun c : Dev nD => Rest (F := F) c) : sProp 𝕄) := by
  refine Pipeline.initEach Lv lvl fun c => ?_
  iintro ⟨⟨-, HO, -, Hp, -⟩, -⟩
  imodintro
  isplitl [Hp]; · iexists _; iexact Hp
  iexists ∅; iexact HO

set_option backward.isDefEq.respectTransparency.types false in
/-- The frame: from any memory with zero counters every weakly fair execution of the program terminates, nothing
    faulting, and every argument array ends as launched — the conditional frame at the eight regions' records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond (m := m) (EP := emb₁) (ι := ()) (𝒱₀ := 𝒱n) (L := Lv) (lv := lvl) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c) (hE0 := rest_init ρ)
    (hE8 := fun c => by iintro ⟨-, H⟩; iexact H)
    (R0 := reg0 m) (hpre0 := fun c => by rw [Vin0_eq]; exact .rfl) (hpost0 := fun c => by rw [Vout0_eq]; exact .rfl)
    (R1 := reg1 m) (hpre1 := fun c => by rw [Vin1_eq]; exact .rfl) (hpost1 := fun c => by rw [Vout1_eq]; exact .rfl)
    (R2 := reg2 m) (hpre2 := fun c => by rw [Vin2_eq]; exact .rfl) (hpost2 := fun c => by rw [Vout2_eq]; exact .rfl)
    (R3 := reg3 m) (hpre3 := fun c => by rw [Vin3_eq]; exact .rfl) (hpost3 := fun c => by rw [Vout3_eq]; exact .rfl)
    (R4 := reg4 m) (hpre4 := fun c => by rw [Vin4_eq]; exact .rfl) (hpost4 := fun c => by rw [Vout4_eq]; exact .rfl)
    (R5 := reg5 m) (hpre5 := fun c => by rw [Vin5_eq]; exact .rfl) (hpost5 := fun c => by rw [Vout5_eq]; exact .rfl)
    (R6 := reg6 m) (hpre6 := fun c => by rw [Vin6_eq]; exact .rfl) (hpost6 := fun c => by rw [Vout6_eq]; exact .rfl)
    (R7 := reg7 m) (hpre7 := fun c => by rw [Vin7_eq]; exact .rfl) (hpost7 := fun c => by rw [Vout7_eq]; exact .rfl)

end Cert.KernelIdeal.Rg

end
-- ==== Proof.KI.RunResult.lean ====
import proofs.«149463_j13572096656012_1_alg».proof.Proof.KI.Run
import proofs.«149463_j13572096656012_1_alg».proof.Proof.KI.RunValue

/-!
# The program's run with its result

The same eight records as the frame, in the run that also names the result: at the end the result array holds the
last boundary's contents (the fold of the host stretches and the regions' outputs) read at the result's buffer.
-/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- From any memory with zero counters every weakly fair execution of the program terminates, nothing faulting; the
    result array ends at the last boundary's contents and every argument array as launched. -/
theorem run_result (ρ : Dev nD → PrngReg) :
    θ_run defs (onTc (τ := τ) (main (F := F))) ⟨m, fun _ => 0, ρ⟩ (fun r => ∀ c : Dev nD,
      r.2.mem ((c.tc : Thread nD τ).loc main_v204) = Gen.V20 m (outs m) c main_v204
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_cond (m := m) (EP := emb₁) (ι := ()) (𝒱₀ := 𝒱n) (L := Lv) (lv := lvl) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c) (hE0 := rest_init ρ)
    (hE8 := fun c => by iintro ⟨-, H⟩; iexact H)
    (R0 := reg0 m) (hpre0 := fun c => by rw [Vin0_eq]; exact .rfl) (hpost0 := fun c => by rw [Vout0_eq]; exact .rfl)
    (R1 := reg1 m) (hpre1 := fun c => by rw [Vin1_eq]; exact .rfl) (hpost1 := fun c => by rw [Vout1_eq]; exact .rfl)
    (R2 := reg2 m) (hpre2 := fun c => by rw [Vin2_eq]; exact .rfl) (hpost2 := fun c => by rw [Vout2_eq]; exact .rfl)
    (R3 := reg3 m) (hpre3 := fun c => by rw [Vin3_eq]; exact .rfl) (hpost3 := fun c => by rw [Vout3_eq]; exact .rfl)
    (R4 := reg4 m) (hpre4 := fun c => by rw [Vin4_eq]; exact .rfl) (hpost4 := fun c => by rw [Vout4_eq]; exact .rfl)
    (R5 := reg5 m) (hpre5 := fun c => by rw [Vin5_eq]; exact .rfl) (hpost5 := fun c => by rw [Vout5_eq]; exact .rfl)
    (R6 := reg6 m) (hpre6 := fun c => by rw [Vin6_eq]; exact .rfl) (hpost6 := fun c => by rw [Vout6_eq]; exact .rfl)
    (R7 := reg7 m) (hpre7 := fun c => by rw [Vin7_eq]; exact .rfl) (hpost7 := fun c => by rw [Vout7_eq]; exact .rfl)

end Cert.KernelIdeal.Rg

end
-- ==== Proof.Shared.Chains.lean ====
import proofs.«149463_j13572096656012_1_alg».proof.Proof.Gen.ReferenceIdeal

/-! The three chains of host operations that both programs apply, as functions of arrays.

The inverse in-degree column `1 / max(deg, 1)`; a layer's output from its input and its messages (the messages summed into their
target nodes, scaled by the inverse degree, added to the input, then a batch normalisation over the nodes); and the readout (the
mean of the node rows of each graph, a softplus, a dense layer, a softplus). Each is the composition of the host operations of
that step over the reference program's dimension records, generic in the float instance. A value certificate proves the values
going INTO a chain equal and never opens the chain. -/

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-- Contents of an array of shape `S` and element type `t`. -/
abbrev Arr (F : FTy → Type) (S : Shape) (t : EltTy) : Type := (⟨S, t⟩ : BufTy).Contents (Elt F)

/-! ## The inverse degree -/

/-- `1 / max(in-degree, 1)` as a column. -/
def invDeg (dst : Arr F S200000 .i32) : Arr F S20000x1 .f32 :=
  broadcastInDim S20000x1 ![0] bcast_S20000_S20000x1_0
    (Host.divf (broadcastInDim S20000 ![] bcast_S_S20000 (constant S_ .f32 0x3F800000#32))
      (maximumf
        (Host.scatterAdd scatter_S20000_S200000x1_S200000_n_0_0_1 (broadcastInDim S20000 ![] bcast_S_S20000 (constant S_ .f32 0x00000000#32))
          (broadcastInDim S200000x1 ![0] bcast_S200000_S200000x1_0 dst) (broadcastInDim S200000 ![] bcast_S_S200000 (constant S_ .f32 0x3F800000#32)))
        (broadcastInDim S20000 ![] bcast_S_S20000 (constant S_ .f32 0x3F800000#32))))

/-! ## From the messages to the layer's output -/

/-- A vector as every row of a node array. -/
def rowsOf (v : Arr F S256 .f32) : Arr F S20000x256 .f32 :=
  broadcastInDim S20000x256 ![0, 1] bcast_S1x256_S20000x256_0_1 (broadcastInDim S1x256 ![1] bcast_S256_S1x256_1 v)
/-- The mean of every column over the nodes. -/
def colMean (a : Arr F S20000x256 .f32) : Arr F S256 .f32 :=
  Host.divf (Host.reduceAdd a (constant S_ .f32 0x00000000#32) reducesTo_S20000x256_S256_d0 h_S_)
    (broadcastInDim S256 ![] bcast_S_S256 (constant S_ .f32 0x469C4000#32))
/-- `h` plus the messages summed into their target nodes, scaled by the inverse degree. -/
def aggregate (h : Arr F S20000x256 .f32) (msg : Arr F S200000x256 .f32) (dst : Arr F S200000 .i32) (inv : Arr F S20000x1 .f32) :
    Arr F S20000x256 .f32 :=
  addf h
    (mulf
      (Host.scatterAdd scatter_S20000x256_S200000x1_S200000x256_1_0_0_1 (broadcastInDim S20000x256 ![] bcast_S_S20000x256 (constant S_ .f32 0x00000000#32))
        (broadcastInDim S200000x1 ![0] bcast_S200000_S200000x1_0 dst) msg)
      (broadcastInDim S20000x256 ![0, 1] bcast_S20000x1_S20000x256_0_1 inv))
/-- Batch normalisation over the nodes with scale `g` and shift `b`. -/
def batchNorm (a : Arr F S20000x256 .f32) (g b : Arr F S256 .f32) : Arr F S20000x256 .f32 :=
  addf
    (mulf
      (mulf (subf a (rowsOf (colMean a)))
        (rowsOf (Host.rsqrt (addf (colMean (mulf (subf a (rowsOf (colMean a))) (subf a (rowsOf (colMean a)))))
          (broadcastInDim S256 ![] bcast_S_S256 (constant S_ .f32 0x3727C5AC#32))))))
      (rowsOf g))
    (rowsOf b)
/-- A layer's output from its input `h` and its messages. -/
def layerTail (h : Arr F S20000x256 .f32) (msg : Arr F S200000x256 .f32) (dst : Arr F S200000 .i32) (inv : Arr F S20000x1 .f32)
    (g b : Arr F S256 .f32) : Arr F S20000x256 .f32 :=
  batchNorm (aggregate h msg dst inv) g b

/-! ## The readout -/

/-- The all-zero graph array. -/
def zeroG : Arr F S64x256 .f32 := broadcastInDim S64x256 ![] bcast_S_S64x256 (constant S_ .f32 0x00000000#32)
/-- `softplus` on the graphs. -/
def softplusG (z : Arr F S64x256 .f32) : Arr F S64x256 .f32 :=
  select (cmpf .une (subf z zeroG) (subf z zeroG)) (addf z zeroG)
    (addf (maximumf z zeroG) (Host.log1p (Host.exp (Host.negf (Host.absf (subf z zeroG))))))
/-- The mean of the node rows of each graph, `softplus`, a dense layer, `softplus`. -/
def finalTail (h : Arr F S20000x256 .f32) (batch : Arr F S20000 .i32) (W : Arr F S256x256 .f32) (b : Arr F S256 .f32) : Arr F S64x256 .f32 :=
  softplusG
    (addf
      (Host.dotGeneral dot_S64x256_S256x256_S64x256_1_0_0_1_n_n none
        (softplusG
          (Host.divf
            (Host.scatterAdd scatter_S64x256_S20000x1_S20000x256_1_0_0_1 zeroG (broadcastInDim S20000x1 ![0] bcast_S20000_S20000x1_0 batch) h)
            (broadcastInDim S64x256 ![0, 1] bcast_S64x1_S64x256_0_1
              (broadcastInDim S64x1 ![0] bcast_S64_S64x1_0
                (maximumf
                  (Host.scatterAdd scatter_S64_S20000x1_S20000_n_0_0_1 (broadcastInDim S64 ![] bcast_S_S64 (constant S_ .f32 0x00000000#32))
                    (broadcastInDim S20000x1 ![0] bcast_S20000_S20000x1_0 batch) (broadcastInDim S20000 ![] bcast_S_S20000 (constant S_ .f32 0x3F800000#32)))
                  (broadcastInDim S64 ![] bcast_S_S64 (constant S_ .f32 0x3F800000#32)))))))
        (transpose S256x256 [1, 0] W transposes_S256x256_S256x256_1_0))
      (broadcastInDim S64x256 ![0, 1] bcast_S1x256_S64x256_0_1 (broadcastInDim S1x256 ![1] bcast_S256_S1x256_1 b)))

end Cert.Bridge

end
-- ==== Proof.Ref.Stages.lean ====
import proofs.«149463_j13572096656012_1_alg».proof.Proof.Shared.Chains

/-! The reference program's own stages as functions of arrays, and its values as functions of its sixteen arguments.

A two-layer gated graph convolution: node and edge embeddings (a matrix product plus a bias row); per layer a message
`sigmoid(z_f) * softplus(z_s)` on every edge with `z = (h Wᵢᵀ)[dst] + (h Wⱼᵀ)[src] + e Wₑᵀ + b`; the layer's output and the readout
are the shared chains of `Shared/Chains.lean`. Each function is the composition of the reference's host operations for one step,
over the reference program's own dimension records, generic in the float instance; nothing here is about a particular index. -/

noncomputable section

namespace Cert.Bridge.Ref

open Cert.Bridge Cert.ReferenceIdeal Cert.ReferenceIdeal.Gen Idealize.ShloMosaic Idealize.ShloMosaic.TcCoe Idealize.SL.Sem Idealize.ShloMosaic.StableHlo

variable {F : FTy → Type} [FloatOps F]

/-! ## Rows of the edge list and of the per-layer parameters -/

/-- Row 0 of the edge list: the source node of every edge. -/
def srcRow (ei : Arr F S2x200000 .i32) : Arr F S200000 .i32 :=
  shapeCast _ (extractStridedSlice S1x200000 ![0, 0] ei slices_S2x200000_S1x200000_0_0) shapeCasts_S1x200000_S200000
/-- Row 1 of the edge list: the target node of every edge. -/
def dstRow (ei : Arr F S2x200000 .i32) : Arr F S200000 .i32 :=
  shapeCast _ (extractStridedSlice S1x200000 ![1, 0] ei slices_S2x200000_S1x200000_1_0) shapeCasts_S1x200000_S200000
/-- Layer 0's `256 × 768` weight. -/
def mat0 (W : Arr F S2x256x768 .f32) : Arr F S256x768 .f32 :=
  shapeCast _ (extractStridedSlice S1x256x768 ![0, 0, 0] W slices_S2x256x768_S1x256x768_0_0_0) shapeCasts_S1x256x768_S256x768
/-- Layer 1's `256 × 768` weight. -/
def mat1 (W : Arr F S2x256x768 .f32) : Arr F S256x768 .f32 :=
  shapeCast _ (extractStridedSlice S1x256x768 ![1, 0, 0] W slices_S2x256x768_S1x256x768_1_0_0) shapeCasts_S1x256x768_S256x768
/-- Layer 0's row of a `2 × 256` parameter. -/
def row0 (b : Arr F S2x256 .f32) : Arr F S256 .f32 :=
  shapeCast _ (extractStridedSlice S1x256 ![0, 0] b slices_S2x256_S1x256_0_0) shapeCasts_S1x256_S256
/-- Layer 1's row of a `2 × 256` parameter. -/
def row1 (b : Arr F S2x256 .f32) : Arr F S256 .f32 :=
  shapeCast _ (extractStridedSlice S1x256 ![1, 0] b slices_S2x256_S1x256_1_0) shapeCasts_S1x256_S256

/-! ## The embeddings -/

/-- `x Wᵀ + b` on the nodes. -/
def nodeEmb (x : Arr F S20000x256 .f32) (W : Arr F S256x256 .f32) (b : Arr F S256 .f32) : Arr F S20000x256 .f32 :=
  addf (Host.dotGeneral dot_S20000x256_S256x256_S20000x256_1_0_0_1_n_n none x (transpose S256x256 [1, 0] W transposes_S256x256_S256x256_1_0))
    (broadcastInDim S20000x256 ![0, 1] bcast_S1x256_S20000x256_0_1 (broadcastInDim S1x256 ![1] bcast_S256_S1x256_1 b))
/-- `a Wᵀ + b` on the edges. -/
def edgeEmb (a : Arr F S200000x128 .f32) (W : Arr F S256x128 .f32) (b : Arr F S256 .f32) : Arr F S200000x256 .f32 :=
  addf (Host.dotGeneral dot_S200000x128_S128x256_S200000x256_1_0_0_1_n_n none a (transpose S128x256 [1, 0] W transposes_S256x128_S128x256_1_0))
    (broadcastInDim S200000x256 ![0, 1] bcast_S1x256_S200000x256_0_1 (broadcastInDim S1x256 ![1] bcast_S256_S1x256_1 b))
/-! ## A layer's message -/

/-- A node index wrapped once if negative, as the column a row gather reads. -/
def wrapIdx (d : Arr F S200000 .i32) : Arr F S200000x1 .i32 :=
  broadcastInDim S200000x1 ![0] bcast_S200000_S200000x1_0
    (select (cmpi .slt d (broadcastInDim S200000 ![] bcast_S_S200000 (constantI S_ 32 0#32)))
      (addi d (broadcastInDim S200000 ![] bcast_S_S200000 (constantI S_ 32 20000#32))) d)
/-- `h Wᵀ` for a `256 × 256` block `W`. -/
def proj (h : Arr F S20000x256 .f32) (W : Arr F S256x256 .f32) : Arr F S20000x256 .f32 :=
  Host.dotGeneral dot_S20000x256_S256x256_S20000x256_1_0_0_1_n_n none h (transpose S256x256 [1, 0] W transposes_S256x256_S256x256_1_0)
/-- The rows of `t` at the node of every edge. -/
def gatherRows (t : Arr F S20000x256 .f32) (ix : Arr F S200000x1 .i32) : Arr F S200000x256 .f32 :=
  Host.gather gather_S20000x256_S200000x1_S200000x256_1_0_n_n_0_1_1256 t ix
/-- The pre-activation `(h Wᵢᵀ)[dst] + (h Wⱼᵀ)[src] + e Wₑᵀ + b`, `W = [Wᵢ | Wⱼ | Wₑ]`. -/
def pre (h : Arr F S20000x256 .f32) (e : Arr F S200000x256 .f32) (W : Arr F S256x768 .f32) (b : Arr F S256 .f32)
    (dst src : Arr F S200000 .i32) : Arr F S200000x256 .f32 :=
  addf
    (addf
      (addf (gatherRows (proj h (extractStridedSlice S256x256 ![0, 0] W slices_S256x768_S256x256_0_0)) (wrapIdx dst))
        (gatherRows (proj h (extractStridedSlice S256x256 ![0, 256] W slices_S256x768_S256x256_0_256)) (wrapIdx src)))
      (Host.dotGeneral dot_S200000x256_S256x256_S200000x256_1_0_0_1_n_n none e
        (transpose S256x256 [1, 0] (extractStridedSlice S256x256 ![0, 512] W slices_S256x768_S256x256_0_512) transposes_S256x256_S256x256_1_0)))
    (broadcastInDim S200000x256 ![0, 1] bcast_S1x256_S200000x256_0_1 (broadcastInDim S1x256 ![1] bcast_S256_S1x256_1 b))
/-- `1 / (1 + exp (-z))`. -/
def sigm (z : Arr F S200000x256 .f32) : Arr F S200000x256 .f32 :=
  Host.divf (broadcastInDim S200000x256 ![] bcast_S_S200000x256 (constant S_ .f32 0x3F800000#32))
    (addf (broadcastInDim S200000x256 ![] bcast_S_S200000x256 (constant S_ .f32 0x3F800000#32)) (Host.exp (Host.negf z)))
/-- The all-zero edge array. -/
def zeroE : Arr F S200000x256 .f32 := broadcastInDim S200000x256 ![] bcast_S_S200000x256 (constant S_ .f32 0x00000000#32)
/-- `softplus z = max(z, 0) + log1p (exp (-|z|))`, `z` itself where `z ≠ z`; on the edges. -/
def softplusE (z : Arr F S200000x256 .f32) : Arr F S200000x256 .f32 :=
  select (cmpf .une (subf z zeroE) (subf z zeroE)) (addf z zeroE)
    (addf (maximumf z zeroE) (Host.log1p (Host.exp (Host.negf (Host.absf (subf z zeroE))))))
/-- The message on every edge. -/
def message (h : Arr F S20000x256 .f32) (e : Arr F S200000x256 .f32) (Wf : Arr F S256x768 .f32) (bf : Arr F S256 .f32)
    (Ws : Arr F S256x768 .f32) (bs : Arr F S256 .f32) (dst src : Arr F S200000 .i32) : Arr F S200000x256 .f32 :=
  mulf (sigm (pre h e Wf bf dst src)) (softplusE (pre h e Ws bs dst src))

/-! ## The reference's values as functions of its sixteen arguments -/

section Whole

variable (x : Arr F S20000x256 .f32) (ei : Arr F S2x200000 .i32) (ea : Arr F S200000x128 .f32) (batch : Arr F S20000 .i32)
  (Wemb : Arr F S256x256 .f32) (bemb : Arr F S256 .f32) (Wedge : Arr F S256x128 .f32) (bedge : Arr F S256 .f32)
  (Wf : Arr F S2x256x768 .f32) (bf : Arr F S2x256 .f32) (Ws : Arr F S2x256x768 .f32) (bs gamma beta : Arr F S2x256 .f32)
  (Wfc : Arr F S256x256 .f32) (bfc : Arr F S256 .f32)

/-- Layer 0's messages. -/
def msg1 : Arr F S200000x256 .f32 :=
  message (nodeEmb x Wemb bemb) (edgeEmb ea Wedge bedge) (mat0 Wf) (row0 bf) (mat0 Ws) (row0 bs) (dstRow ei) (srcRow ei)
/-- The nodes after layer 0. -/
def h1 : Arr F S20000x256 .f32 :=
  layerTail (nodeEmb x Wemb bemb) (msg1 x ei ea Wemb bemb Wedge bedge Wf bf Ws bs) (dstRow ei) (invDeg (dstRow ei)) (row0 gamma) (row0 beta)
/-- Layer 1's messages. -/
def msg2 : Arr F S200000x256 .f32 :=
  message (h1 x ei ea Wemb bemb Wedge bedge Wf bf Ws bs gamma beta) (edgeEmb ea Wedge bedge) (mat1 Wf) (row1 bf) (mat1 Ws) (row1 bs) (dstRow ei) (srcRow ei)
/-- The nodes after layer 1. -/
def h2 : Arr F S20000x256 .f32 :=
  layerTail (h1 x ei ea Wemb bemb Wedge bedge Wf bf Ws bs gamma beta) (msg2 x ei ea Wemb bemb Wedge bedge Wf bf Ws bs gamma beta) (dstRow ei)
    (invDeg (dstRow ei)) (row1 gamma) (row1 beta)
/-- The reference's result. -/
def out : Arr F S64x256 .f32 :=
  finalTail (h2 x ei ea Wemb bemb Wedge bedge Wf bf Ws bs gamma beta) batch Wfc bfc

end Whole

end Cert.Bridge.Ref

end
-- ==== Proof.KI.Chunks.lean ====
import proofs.«149463_j13572096656012_1_alg».proof.Proof.Gen.KernelIdeal.Launch
import proofs.«149463_j13572096656012_1_alg».proof.Proof.Ref.Stages
import Idealize.ShloMosaic.Lib.StableHlo.Run
import Idealize.ShloMosaic.PureOps.Ideal

/-!
# The kernel program's host stretches that both programs share

Between its regions the kernel program applies the same host operations as the reference: the rows of the edge list, the
inverse in-degree column, a layer's output from its input and its messages, and the readout.  Each stretch is read here at
ANY contents `W` of the buffers before it: the buffer it ends in holds the shared chain applied to the contents of the
buffers it starts from.  The chains themselves are never opened.
-/

set_option maxRecDepth 16384

noncomputable section

namespace Cert.KernelIdeal.Stage

open Cert.KernelIdeal Cert.KernelIdeal.Gen Idealize.ShloMosaic Idealize.ShloMosaic.TcCoe Idealize.SL.Sem Idealize.ShloMosaic.StableHlo
open Cert.Bridge Cert.Bridge.Ref

variable (W : Valuation τ sig (Elt Ideal))

/-- The source row of the edge list. -/
theorem src_read : StableHlo.after (hostOps0 (F := Ideal)) W (Proc.devRef .tc main_v1) = srcRow (F := Ideal) (W (Proc.devRef .tc main_arg1)) := by
  after_results
  rfl
/-- The target row of the edge list. -/
theorem dst_read : StableHlo.after (hostOps0 (F := Ideal)) W (Proc.devRef .tc main_v3) = dstRow (F := Ideal) (W (Proc.devRef .tc main_arg1)) := by
  after_results
  rfl
/-- The inverse in-degree column, from the target row. -/
theorem invdeg_read : StableHlo.after (hostOps2 (F := Ideal)) W (Proc.devRef .tc main_v23) = invDeg (F := Ideal) (W (Proc.devRef .tc main_v3)) := by
  after_results
  rfl
set_option maxHeartbeats 16000000 in
/-- Layer 0's output, from its input, its messages, the target row, the inverse degree and the layer's scale and shift. -/
theorem layer0_read : StableHlo.after (hostOps5 (F := Ideal)) W (Proc.devRef .tc main_v104)
    = layerTail (F := Ideal) (W (Proc.devRef .tc main_v8)) (W (Proc.devRef .tc main_v69)) (W (Proc.devRef .tc main_v3)) (W (Proc.devRef .tc main_v23))
        (row0 (W (Proc.devRef .tc main_arg12))) (row0 (W (Proc.devRef .tc main_arg13))) := by
  after_results_simp <;> rfl
set_option maxHeartbeats 16000000 in
/-- Layer 1's output. -/
theorem layer1_read : StableHlo.after (hostOps8 (F := Ideal)) W (Proc.devRef .tc main_v185)
    = layerTail (F := Ideal) (W (Proc.devRef .tc main_v104)) (W (Proc.devRef .tc main_v150)) (W (Proc.devRef .tc main_v3)) (W (Proc.devRef .tc main_v23))
        (row1 (W (Proc.devRef .tc main_arg12))) (row1 (W (Proc.devRef .tc main_arg13))) := by
  after_results_simp <;> rfl

end Cert.KernelIdeal.Stage

end
-- ==== Proof.Shared.Readout.lean ====
import proofs.«149463_j13572096656012_1_alg».proof.Proof.Shared.Chains

/-! The readout chain in its three steps: the mean of the node rows of each graph, the dense layer, and the two softplus around
it.  The readout of `Shared/Chains.lean` is their composition, by definition. -/

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-- The mean of the node rows of each graph: the rows summed into their graphs, over the graph's size (at least one). -/
def graphMean (h : Arr F S20000x256 .f32) (batch : Arr F S20000 .i32) : Arr F S64x256 .f32 :=
  Host.divf
    (Host.scatterAdd scatter_S64x256_S20000x1_S20000x256_1_0_0_1 zeroG (broadcastInDim S20000x1 ![0] bcast_S20000_S20000x1_0 batch) h)
    (broadcastInDim S64x256 ![0, 1] bcast_S64x1_S64x256_0_1
      (broadcastInDim S64x1 ![0] bcast_S64_S64x1_0
        (maximumf
          (Host.scatterAdd scatter_S64_S20000x1_S20000_n_0_0_1 (broadcastInDim S64 ![] bcast_S_S64 (constant S_ .f32 0x00000000#32))
            (broadcastInDim S20000x1 ![0] bcast_S20000_S20000x1_0 batch) (broadcastInDim S20000 ![] bcast_S_S20000 (constant S_ .f32 0x3F800000#32)))
          (broadcastInDim S64 ![] bcast_S_S64 (constant S_ .f32 0x3F800000#32)))))

/-- The dense layer `z Wᵀ + b` on the graphs. -/
def denseOut (z : Arr F S64x256 .f32) (W : Arr F S256x256 .f32) (b : Arr F S256 .f32) : Arr F S64x256 .f32 :=
  addf
    (Host.dotGeneral dot_S64x256_S256x256_S64x256_1_0_0_1_n_n none z (transpose S256x256 [1, 0] W transposes_S256x256_S256x256_1_0))
    (broadcastInDim S64x256 ![0, 1] bcast_S1x256_S64x256_0_1 (broadcastInDim S1x256 ![1] bcast_S256_S1x256_1 b))

/-- The readout is: graph means, softplus, dense layer, softplus. -/
theorem finalTail_eq (h : Arr F S20000x256 .f32) (batch : Arr F S20000 .i32) (W : Arr F S256x256 .f32) (b : Arr F S256 .f32) :
    finalTail h batch W b = softplusG (denseOut (softplusG (graphMean h batch)) W b) := rfl

end Cert.Bridge

end
-- ==== Proof.KI.ChunksTail.lean ====
import proofs.«149463_j13572096656012_1_alg».proof.Proof.Gen.KernelIdeal.Launch
import proofs.«149463_j13572096656012_1_alg».proof.Proof.Ref.Stages
import proofs.«149463_j13572096656012_1_alg».proof.Proof.Shared.Readout
import Idealize.ShloMosaic.Lib.StableHlo.Run
import Idealize.ShloMosaic.PureOps.Ideal

/-!
# The kernel program's readout

After its last region the kernel program applies the readout in four stretches: the second layer's output and the mean of the
node rows of each graph; a softplus; the dense layer; a softplus.  Each is read at ANY contents `W` of the buffers before it.
-/

set_option maxRecDepth 16384

noncomputable section

namespace Cert.KernelIdeal.Stage

open Cert.KernelIdeal Cert.KernelIdeal.Gen Idealize.ShloMosaic Idealize.ShloMosaic.TcCoe Idealize.SL.Sem Idealize.ShloMosaic.StableHlo
open Cert.Bridge Cert.Bridge.Ref

variable (W : Valuation τ sig (Elt Ideal))

set_option maxHeartbeats 16000000 in
/-- The graph means of the second layer's output. -/
theorem mean_read : StableHlo.after (hostOps8 (F := Ideal)) W (Proc.devRef .tc main_v197)
    = graphMean (F := Ideal)
        (layerTail (F := Ideal) (W (Proc.devRef .tc main_v104)) (W (Proc.devRef .tc main_v150)) (W (Proc.devRef .tc main_v3)) (W (Proc.devRef .tc main_v23))
          (row1 (W (Proc.devRef .tc main_arg12))) (row1 (W (Proc.devRef .tc main_arg13))))
        (W (Proc.devRef .tc main_arg3)) := by
  after_results_simp <;> rfl

set_option maxHeartbeats 4000000 in
/-- The first softplus. -/
theorem softplus1_read : StableHlo.after (hostOps8_1 (F := Ideal)) W (Proc.devRef .tc main_v198) = softplusG (F := Ideal) (W (Proc.devRef .tc main_v197)) := by
  after_results_simp <;> rfl

/-- The dense layer. -/
theorem dense_read : StableHlo.after (hostOps8_2 (F := Ideal)) W (Proc.devRef .tc main_v203)
    = denseOut (F := Ideal) (W (Proc.devRef .tc main_v198)) (W (Proc.devRef .tc main_arg14)) (W (Proc.devRef .tc main_arg15)) := by
  after_results_simp <;> rfl

set_option maxHeartbeats 4000000 in
/-- The second softplus: the result. -/
theorem softplus2_read : StableHlo.after (hostOps8_3 (F := Ideal)) W (Proc.devRef .tc main_v204) = softplusG (F := Ideal) (W (Proc.devRef .tc main_v203)) := by
  after_results_simp <;> rfl

end Cert.KernelIdeal.Stage

end
-- ==== Proof.KI.KernelOut.lean ====
import proofs.«149463_j13572096656012_1_alg».proof.Proof.KI.Run
import proofs.«149463_j13572096656012_1_alg».proof.Proof.KI.Chunks
import proofs.«149463_j13572096656012_1_alg».proof.Proof.KI.ChunksTail

/-!
# The kernel program's result as the reference's function of the arguments

The last boundary's contents at the result's buffer, walked back through the stretches and the regions: the readout of the
second layer's output; each layer's output the shared chain of its input and its messages; the target and source rows and the
inverse degree read once and carried unchanged to where they are used.  What the four regions of the embeddings and the
messages leave is taken as given here (the hypotheses), each as the reference's function of what feeds it.
-/

set_option maxRecDepth 16384

noncomputable section

namespace Cert.KernelIdeal.Stage

open Cert.KernelIdeal Cert.KernelIdeal.Gen Cert.KernelIdeal.Rg Idealize.ShloMosaic Idealize.ShloMosaic.TcCoe Idealize.SL.Sem Idealize.ShloMosaic.StableHlo
open Cert.Bridge Cert.Bridge.Ref

variable (m : (ℓ : Loc nD τ sig) → Buf (Elt Ideal) ℓ) (c : Dev nD)

/-! ## Buffers carried unchanged -/

theorem arg1_at16 : Gen.V16 m (outs m) c main_arg1 = (m ((c : Thread nD τ).loc main_arg1)) := ((Gen.V16_of m (outs m) c main_arg1 (by decide)).trans ((Gen.V15_of m (outs m) c main_arg1 (by decide)).trans ((Gen.V14_of m (outs m) c main_arg1 (by decide)).trans ((Gen.V13_of m (outs m) c main_arg1 (by decide)).trans ((Gen.V12_of m (outs m) c main_arg1 (by decide)).trans ((Gen.V11_of m (outs m) c main_arg1 (by decide)).trans ((Gen.V10_of m (outs m) c main_arg1 (by decide)).trans ((Gen.V9_of m (outs m) c main_arg1 (by decide)).trans ((Gen.V8_of m (outs m) c main_arg1 (by decide)).trans ((Gen.V7_of m (outs m) c main_arg1 (by decide)).trans ((Gen.V6_of m (outs m) c main_arg1 (by decide)).trans ((Gen.V5_of m (outs m) c main_arg1 (by decide)).trans ((Gen.V4_of m (outs m) c main_arg1 (by decide)).trans ((Gen.V3_of m (outs m) c main_arg1 (by decide)).trans ((Gen.V2_of m (outs m) c main_arg1 (by decide)).trans (Gen.V1_of m c main_arg1 (by decide)))))))))))))))))
theorem arg3_at14 : Gen.V14 m (outs m) c main_arg3 = (m ((c : Thread nD τ).loc main_arg3)) := ((Gen.V14_of m (outs m) c main_arg3 (by decide)).trans ((Gen.V13_of m (outs m) c main_arg3 (by decide)).trans ((Gen.V12_of m (outs m) c main_arg3 (by decide)).trans ((Gen.V11_of m (outs m) c main_arg3 (by decide)).trans ((Gen.V10_of m (outs m) c main_arg3 (by decide)).trans ((Gen.V9_of m (outs m) c main_arg3 (by decide)).trans ((Gen.V8_of m (outs m) c main_arg3 (by decide)).trans ((Gen.V7_of m (outs m) c main_arg3 (by decide)).trans ((Gen.V6_of m (outs m) c main_arg3 (by decide)).trans ((Gen.V5_of m (outs m) c main_arg3 (by decide)).trans ((Gen.V4_of m (outs m) c main_arg3 (by decide)).trans ((Gen.V3_of m (outs m) c main_arg3 (by decide)).trans ((Gen.V2_of m (outs m) c main_arg3 (by decide)).trans (Gen.V1_of m c main_arg3 (by decide)))))))))))))))
theorem arg4_at12 : Gen.V12 m (outs m) c main_arg4 = (m ((c : Thread nD τ).loc main_arg4)) := ((Gen.V12_of m (outs m) c main_arg4 (by decide)).trans ((Gen.V11_of m (outs m) c main_arg4 (by decide)).trans ((Gen.V10_of m (outs m) c main_arg4 (by decide)).trans ((Gen.V9_of m (outs m) c main_arg4 (by decide)).trans ((Gen.V8_of m (outs m) c main_arg4 (by decide)).trans ((Gen.V7_of m (outs m) c main_arg4 (by decide)).trans ((Gen.V6_of m (outs m) c main_arg4 (by decide)).trans ((Gen.V5_of m (outs m) c main_arg4 (by decide)).trans ((Gen.V4_of m (outs m) c main_arg4 (by decide)).trans ((Gen.V3_of m (outs m) c main_arg4 (by decide)).trans ((Gen.V2_of m (outs m) c main_arg4 (by decide)).trans (Gen.V1_of m c main_arg4 (by decide)))))))))))))
theorem arg5_at12 : Gen.V12 m (outs m) c main_arg5 = (m ((c : Thread nD τ).loc main_arg5)) := ((Gen.V12_of m (outs m) c main_arg5 (by decide)).trans ((Gen.V11_of m (outs m) c main_arg5 (by decide)).trans ((Gen.V10_of m (outs m) c main_arg5 (by decide)).trans ((Gen.V9_of m (outs m) c main_arg5 (by decide)).trans ((Gen.V8_of m (outs m) c main_arg5 (by decide)).trans ((Gen.V7_of m (outs m) c main_arg5 (by decide)).trans ((Gen.V6_of m (outs m) c main_arg5 (by decide)).trans ((Gen.V5_of m (outs m) c main_arg5 (by decide)).trans ((Gen.V4_of m (outs m) c main_arg5 (by decide)).trans ((Gen.V3_of m (outs m) c main_arg5 (by decide)).trans ((Gen.V2_of m (outs m) c main_arg5 (by decide)).trans (Gen.V1_of m c main_arg5 (by decide)))))))))))))
theorem arg8_at14 : Gen.V14 m (outs m) c main_arg8 = (m ((c : Thread nD τ).loc main_arg8)) := ((Gen.V14_of m (outs m) c main_arg8 (by decide)).trans ((Gen.V13_of m (outs m) c main_arg8 (by decide)).trans ((Gen.V12_of m (outs m) c main_arg8 (by decide)).trans ((Gen.V11_of m (outs m) c main_arg8 (by decide)).trans ((Gen.V10_of m (outs m) c main_arg8 (by decide)).trans ((Gen.V9_of m (outs m) c main_arg8 (by decide)).trans ((Gen.V8_of m (outs m) c main_arg8 (by decide)).trans ((Gen.V7_of m (outs m) c main_arg8 (by decide)).trans ((Gen.V6_of m (outs m) c main_arg8 (by decide)).trans ((Gen.V5_of m (outs m) c main_arg8 (by decide)).trans ((Gen.V4_of m (outs m) c main_arg8 (by decide)).trans ((Gen.V3_of m (outs m) c main_arg8 (by decide)).trans ((Gen.V2_of m (outs m) c main_arg8 (by decide)).trans (Gen.V1_of m c main_arg8 (by decide)))))))))))))))
theorem arg9_at14 : Gen.V14 m (outs m) c main_arg9 = (m ((c : Thread nD τ).loc main_arg9)) := ((Gen.V14_of m (outs m) c main_arg9 (by decide)).trans ((Gen.V13_of m (outs m) c main_arg9 (by decide)).trans ((Gen.V12_of m (outs m) c main_arg9 (by decide)).trans ((Gen.V11_of m (outs m) c main_arg9 (by decide)).trans ((Gen.V10_of m (outs m) c main_arg9 (by decide)).trans ((Gen.V9_of m (outs m) c main_arg9 (by decide)).trans ((Gen.V8_of m (outs m) c main_arg9 (by decide)).trans ((Gen.V7_of m (outs m) c main_arg9 (by decide)).trans ((Gen.V6_of m (outs m) c main_arg9 (by decide)).trans ((Gen.V5_of m (outs m) c main_arg9 (by decide)).trans ((Gen.V4_of m (outs m) c main_arg9 (by decide)).trans ((Gen.V3_of m (outs m) c main_arg9 (by decide)).trans ((Gen.V2_of m (outs m) c main_arg9 (by decide)).trans (Gen.V1_of m c main_arg9 (by decide)))))))))))))))
theorem arg10_at14 : Gen.V14 m (outs m) c main_arg10 = (m ((c : Thread nD τ).loc main_arg10)) := ((Gen.V14_of m (outs m) c main_arg10 (by decide)).trans ((Gen.V13_of m (outs m) c main_arg10 (by decide)).trans ((Gen.V12_of m (outs m) c main_arg10 (by decide)).trans ((Gen.V11_of m (outs m) c main_arg10 (by decide)).trans ((Gen.V10_of m (outs m) c main_arg10 (by decide)).trans ((Gen.V9_of m (outs m) c main_arg10 (by decide)).trans ((Gen.V8_of m (outs m) c main_arg10 (by decide)).trans ((Gen.V7_of m (outs m) c main_arg10 (by decide)).trans ((Gen.V6_of m (outs m) c main_arg10 (by decide)).trans ((Gen.V5_of m (outs m) c main_arg10 (by decide)).trans ((Gen.V4_of m (outs m) c main_arg10 (by decide)).trans ((Gen.V3_of m (outs m) c main_arg10 (by decide)).trans ((Gen.V2_of m (outs m) c main_arg10 (by decide)).trans (Gen.V1_of m c main_arg10 (by decide)))))))))))))))
theorem arg11_at14 : Gen.V14 m (outs m) c main_arg11 = (m ((c : Thread nD τ).loc main_arg11)) := ((Gen.V14_of m (outs m) c main_arg11 (by decide)).trans ((Gen.V13_of m (outs m) c main_arg11 (by decide)).trans ((Gen.V12_of m (outs m) c main_arg11 (by decide)).trans ((Gen.V11_of m (outs m) c main_arg11 (by decide)).trans ((Gen.V10_of m (outs m) c main_arg11 (by decide)).trans ((Gen.V9_of m (outs m) c main_arg11 (by decide)).trans ((Gen.V8_of m (outs m) c main_arg11 (by decide)).trans ((Gen.V7_of m (outs m) c main_arg11 (by decide)).trans ((Gen.V6_of m (outs m) c main_arg11 (by decide)).trans ((Gen.V5_of m (outs m) c main_arg11 (by decide)).trans ((Gen.V4_of m (outs m) c main_arg11 (by decide)).trans ((Gen.V3_of m (outs m) c main_arg11 (by decide)).trans ((Gen.V2_of m (outs m) c main_arg11 (by decide)).trans (Gen.V1_of m c main_arg11 (by decide)))))))))))))))
theorem arg12_at16 : Gen.V16 m (outs m) c main_arg12 = (m ((c : Thread nD τ).loc main_arg12)) := ((Gen.V16_of m (outs m) c main_arg12 (by decide)).trans ((Gen.V15_of m (outs m) c main_arg12 (by decide)).trans ((Gen.V14_of m (outs m) c main_arg12 (by decide)).trans ((Gen.V13_of m (outs m) c main_arg12 (by decide)).trans ((Gen.V12_of m (outs m) c main_arg12 (by decide)).trans ((Gen.V11_of m (outs m) c main_arg12 (by decide)).trans ((Gen.V10_of m (outs m) c main_arg12 (by decide)).trans ((Gen.V9_of m (outs m) c main_arg12 (by decide)).trans ((Gen.V8_of m (outs m) c main_arg12 (by decide)).trans ((Gen.V7_of m (outs m) c main_arg12 (by decide)).trans ((Gen.V6_of m (outs m) c main_arg12 (by decide)).trans ((Gen.V5_of m (outs m) c main_arg12 (by decide)).trans ((Gen.V4_of m (outs m) c main_arg12 (by decide)).trans ((Gen.V3_of m (outs m) c main_arg12 (by decide)).trans ((Gen.V2_of m (outs m) c main_arg12 (by decide)).trans (Gen.V1_of m c main_arg12 (by decide)))))))))))))))))
theorem arg13_at16 : Gen.V16 m (outs m) c main_arg13 = (m ((c : Thread nD τ).loc main_arg13)) := ((Gen.V16_of m (outs m) c main_arg13 (by decide)).trans ((Gen.V15_of m (outs m) c main_arg13 (by decide)).trans ((Gen.V14_of m (outs m) c main_arg13 (by decide)).trans ((Gen.V13_of m (outs m) c main_arg13 (by decide)).trans ((Gen.V12_of m (outs m) c main_arg13 (by decide)).trans ((Gen.V11_of m (outs m) c main_arg13 (by decide)).trans ((Gen.V10_of m (outs m) c main_arg13 (by decide)).trans ((Gen.V9_of m (outs m) c main_arg13 (by decide)).trans ((Gen.V8_of m (outs m) c main_arg13 (by decide)).trans ((Gen.V7_of m (outs m) c main_arg13 (by decide)).trans ((Gen.V6_of m (outs m) c main_arg13 (by decide)).trans ((Gen.V5_of m (outs m) c main_arg13 (by decide)).trans ((Gen.V4_of m (outs m) c main_arg13 (by decide)).trans ((Gen.V3_of m (outs m) c main_arg13 (by decide)).trans ((Gen.V2_of m (outs m) c main_arg13 (by decide)).trans (Gen.V1_of m c main_arg13 (by decide)))))))))))))))))
theorem arg14_at18 : Gen.V18 m (outs m) c main_arg14 = (m ((c : Thread nD τ).loc main_arg14)) := ((Gen.V18_of m (outs m) c main_arg14 (by decide)).trans ((Gen.V17_of m (outs m) c main_arg14 (by decide)).trans ((Gen.V16_of m (outs m) c main_arg14 (by decide)).trans ((Gen.V15_of m (outs m) c main_arg14 (by decide)).trans ((Gen.V14_of m (outs m) c main_arg14 (by decide)).trans ((Gen.V13_of m (outs m) c main_arg14 (by decide)).trans ((Gen.V12_of m (outs m) c main_arg14 (by decide)).trans ((Gen.V11_of m (outs m) c main_arg14 (by decide)).trans ((Gen.V10_of m (outs m) c main_arg14 (by decide)).trans ((Gen.V9_of m (outs m) c main_arg14 (by decide)).trans ((Gen.V8_of m (outs m) c main_arg14 (by decide)).trans ((Gen.V7_of m (outs m) c main_arg14 (by decide)).trans ((Gen.V6_of m (outs m) c main_arg14 (by decide)).trans ((Gen.V5_of m (outs m) c main_arg14 (by decide)).trans ((Gen.V4_of m (outs m) c main_arg14 (by decide)).trans ((Gen.V3_of m (outs m) c main_arg14 (by decide)).trans ((Gen.V2_of m (outs m) c main_arg14 (by decide)).trans (Gen.V1_of m c main_arg14 (by decide)))))))))))))))))))
theorem arg15_at18 : Gen.V18 m (outs m) c main_arg15 = (m ((c : Thread nD τ).loc main_arg15)) := ((Gen.V18_of m (outs m) c main_arg15 (by decide)).trans ((Gen.V17_of m (outs m) c main_arg15 (by decide)).trans ((Gen.V16_of m (outs m) c main_arg15 (by decide)).trans ((Gen.V15_of m (outs m) c main_arg15 (by decide)).trans ((Gen.V14_of m (outs m) c main_arg15 (by decide)).trans ((Gen.V13_of m (outs m) c main_arg15 (by decide)).trans ((Gen.V12_of m (outs m) c main_arg15 (by decide)).trans ((Gen.V11_of m (outs m) c main_arg15 (by decide)).trans ((Gen.V10_of m (outs m) c main_arg15 (by decide)).trans ((Gen.V9_of m (outs m) c main_arg15 (by decide)).trans ((Gen.V8_of m (outs m) c main_arg15 (by decide)).trans ((Gen.V7_of m (outs m) c main_arg15 (by decide)).trans ((Gen.V6_of m (outs m) c main_arg15 (by decide)).trans ((Gen.V5_of m (outs m) c main_arg15 (by decide)).trans ((Gen.V4_of m (outs m) c main_arg15 (by decide)).trans ((Gen.V3_of m (outs m) c main_arg15 (by decide)).trans ((Gen.V2_of m (outs m) c main_arg15 (by decide)).trans (Gen.V1_of m c main_arg15 (by decide)))))))))))))))))))
theorem arg12_at10 : Gen.V10 m (outs m) c main_arg12 = (m ((c : Thread nD τ).loc main_arg12)) := ((Gen.V10_of m (outs m) c main_arg12 (by decide)).trans ((Gen.V9_of m (outs m) c main_arg12 (by decide)).trans ((Gen.V8_of m (outs m) c main_arg12 (by decide)).trans ((Gen.V7_of m (outs m) c main_arg12 (by decide)).trans ((Gen.V6_of m (outs m) c main_arg12 (by decide)).trans ((Gen.V5_of m (outs m) c main_arg12 (by decide)).trans ((Gen.V4_of m (outs m) c main_arg12 (by decide)).trans ((Gen.V3_of m (outs m) c main_arg12 (by decide)).trans ((Gen.V2_of m (outs m) c main_arg12 (by decide)).trans (Gen.V1_of m c main_arg12 (by decide)))))))))))
theorem arg13_at10 : Gen.V10 m (outs m) c main_arg13 = (m ((c : Thread nD τ).loc main_arg13)) := ((Gen.V10_of m (outs m) c main_arg13 (by decide)).trans ((Gen.V9_of m (outs m) c main_arg13 (by decide)).trans ((Gen.V8_of m (outs m) c main_arg13 (by decide)).trans ((Gen.V7_of m (outs m) c main_arg13 (by decide)).trans ((Gen.V6_of m (outs m) c main_arg13 (by decide)).trans ((Gen.V5_of m (outs m) c main_arg13 (by decide)).trans ((Gen.V4_of m (outs m) c main_arg13 (by decide)).trans ((Gen.V3_of m (outs m) c main_arg13 (by decide)).trans ((Gen.V2_of m (outs m) c main_arg13 (by decide)).trans (Gen.V1_of m c main_arg13 (by decide)))))))))))
theorem arg3_at16 : Gen.V16 m (outs m) c main_arg3 = (m ((c : Thread nD τ).loc main_arg3)) := ((Gen.V16_of m (outs m) c main_arg3 (by decide)).trans ((Gen.V15_of m (outs m) c main_arg3 (by decide)).trans ((Gen.V14_of m (outs m) c main_arg3 (by decide)).trans ((Gen.V13_of m (outs m) c main_arg3 (by decide)).trans ((Gen.V12_of m (outs m) c main_arg3 (by decide)).trans ((Gen.V11_of m (outs m) c main_arg3 (by decide)).trans ((Gen.V10_of m (outs m) c main_arg3 (by decide)).trans ((Gen.V9_of m (outs m) c main_arg3 (by decide)).trans ((Gen.V8_of m (outs m) c main_arg3 (by decide)).trans ((Gen.V7_of m (outs m) c main_arg3 (by decide)).trans ((Gen.V6_of m (outs m) c main_arg3 (by decide)).trans ((Gen.V5_of m (outs m) c main_arg3 (by decide)).trans ((Gen.V4_of m (outs m) c main_arg3 (by decide)).trans ((Gen.V3_of m (outs m) c main_arg3 (by decide)).trans ((Gen.V2_of m (outs m) c main_arg3 (by decide)).trans (Gen.V1_of m c main_arg3 (by decide)))))))))))))))))

/-- The target row, read once. -/
theorem dst_at1 : Gen.V1 m c main_v3 = dstRow (F := Ideal) (m ((c : Thread nD τ).loc main_arg1)) := dst_read (Gen.V0 m c)
theorem src_at1 : Gen.V1 m c main_v1 = srcRow (F := Ideal) (m ((c : Thread nD τ).loc main_arg1)) := src_read (Gen.V0 m c)
theorem dst_at4 : Gen.V4 m (outs m) c main_v3 = dstRow (F := Ideal) (m ((c : Thread nD τ).loc main_arg1)) := ((Gen.V4_of m (outs m) c main_v3 (by decide)).trans ((Gen.V3_of m (outs m) c main_v3 (by decide)).trans (Gen.V2_of m (outs m) c main_v3 (by decide)))).trans (dst_at1 m c)
theorem dst_at10 : Gen.V10 m (outs m) c main_v3 = dstRow (F := Ideal) (m ((c : Thread nD τ).loc main_arg1)) := ((Gen.V10_of m (outs m) c main_v3 (by decide)).trans ((Gen.V9_of m (outs m) c main_v3 (by decide)).trans ((Gen.V8_of m (outs m) c main_v3 (by decide)).trans ((Gen.V7_of m (outs m) c main_v3 (by decide)).trans ((Gen.V6_of m (outs m) c main_v3 (by decide)).trans ((Gen.V5_of m (outs m) c main_v3 (by decide)).trans ((Gen.V4_of m (outs m) c main_v3 (by decide)).trans ((Gen.V3_of m (outs m) c main_v3 (by decide)).trans (Gen.V2_of m (outs m) c main_v3 (by decide)))))))))).trans (dst_at1 m c)
theorem dst_at16 : Gen.V16 m (outs m) c main_v3 = dstRow (F := Ideal) (m ((c : Thread nD τ).loc main_arg1)) := ((Gen.V16_of m (outs m) c main_v3 (by decide)).trans ((Gen.V15_of m (outs m) c main_v3 (by decide)).trans ((Gen.V14_of m (outs m) c main_v3 (by decide)).trans ((Gen.V13_of m (outs m) c main_v3 (by decide)).trans ((Gen.V12_of m (outs m) c main_v3 (by decide)).trans ((Gen.V11_of m (outs m) c main_v3 (by decide)).trans ((Gen.V10_of m (outs m) c main_v3 (by decide)).trans ((Gen.V9_of m (outs m) c main_v3 (by decide)).trans ((Gen.V8_of m (outs m) c main_v3 (by decide)).trans ((Gen.V7_of m (outs m) c main_v3 (by decide)).trans ((Gen.V6_of m (outs m) c main_v3 (by decide)).trans ((Gen.V5_of m (outs m) c main_v3 (by decide)).trans ((Gen.V4_of m (outs m) c main_v3 (by decide)).trans ((Gen.V3_of m (outs m) c main_v3 (by decide)).trans (Gen.V2_of m (outs m) c main_v3 (by decide)))))))))))))))).trans (dst_at1 m c)
/-- The inverse degree, read once. -/
theorem inv_at5 : Gen.V5 m (outs m) c main_v23 = invDeg (F := Ideal) (dstRow (m ((c : Thread nD τ).loc main_arg1))) := (invdeg_read (Gen.V4 m (outs m) c)).trans (congrArg _ (dst_at4 m c))
theorem inv_at10 : Gen.V10 m (outs m) c main_v23 = invDeg (F := Ideal) (dstRow (m ((c : Thread nD τ).loc main_arg1))) := ((Gen.V10_of m (outs m) c main_v23 (by decide)).trans ((Gen.V9_of m (outs m) c main_v23 (by decide)).trans ((Gen.V8_of m (outs m) c main_v23 (by decide)).trans ((Gen.V7_of m (outs m) c main_v23 (by decide)).trans (Gen.V6_of m (outs m) c main_v23 (by decide)))))).trans (inv_at5 m c)
theorem inv_at16 : Gen.V16 m (outs m) c main_v23 = invDeg (F := Ideal) (dstRow (m ((c : Thread nD τ).loc main_arg1))) := ((Gen.V16_of m (outs m) c main_v23 (by decide)).trans ((Gen.V15_of m (outs m) c main_v23 (by decide)).trans ((Gen.V14_of m (outs m) c main_v23 (by decide)).trans ((Gen.V13_of m (outs m) c main_v23 (by decide)).trans ((Gen.V12_of m (outs m) c main_v23 (by decide)).trans ((Gen.V11_of m (outs m) c main_v23 (by decide)).trans ((Gen.V10_of m (outs m) c main_v23 (by decide)).trans ((Gen.V9_of m (outs m) c main_v23 (by decide)).trans ((Gen.V8_of m (outs m) c main_v23 (by decide)).trans ((Gen.V7_of m (outs m) c main_v23 (by decide)).trans (Gen.V6_of m (outs m) c main_v23 (by decide)))))))))))).trans (inv_at5 m c)

/-! ## The regions' outputs where they are read -/

theorem out0_at2 : Gen.V2 m (outs m) c main_v8 = out0 m c := by rw [Vout0_eq]; unfold Vout0; rw [Function.update_self]
theorem out1_at4 : Gen.V4 m (outs m) c main_v13 = out1 m c := by rw [Vout1_eq]; unfold Vout1; rw [Function.update_self]
theorem out4_at10 : Gen.V10 m (outs m) c main_v69 = out4 m c := by rw [Vout4_eq]; unfold Vout4; rw [Function.update_self]
theorem out7_at16 : Gen.V16 m (outs m) c main_v150 = out7 m c := by rw [Vout7_eq]; unfold Vout7; rw [Function.update_self]
theorem h0_at4 : Gen.V4 m (outs m) c main_v8 = out0 m c := ((Gen.V4_of m (outs m) c main_v8 (by decide)).trans (Gen.V3_of m (outs m) c main_v8 (by decide))).trans (out0_at2 m c)
theorem h0_at10 : Gen.V10 m (outs m) c main_v8 = out0 m c := ((Gen.V10_of m (outs m) c main_v8 (by decide)).trans ((Gen.V9_of m (outs m) c main_v8 (by decide)).trans ((Gen.V8_of m (outs m) c main_v8 (by decide)).trans ((Gen.V7_of m (outs m) c main_v8 (by decide)).trans ((Gen.V6_of m (outs m) c main_v8 (by decide)).trans ((Gen.V5_of m (outs m) c main_v8 (by decide)).trans ((Gen.V4_of m (outs m) c main_v8 (by decide)).trans (Gen.V3_of m (outs m) c main_v8 (by decide))))))))).trans (out0_at2 m c)

/-! ## The result -/

/-- Layer 0's output. -/
theorem h1_at11 : Gen.V11 m (outs m) c main_v104
    = layerTail (F := Ideal) (out0 m c) (out4 m c) (dstRow (m ((c : Thread nD τ).loc main_arg1))) (invDeg (dstRow (m ((c : Thread nD τ).loc main_arg1)))) (row0 (m ((c : Thread nD τ).loc main_arg12))) (row0 (m ((c : Thread nD τ).loc main_arg13))) := by
  refine (layer0_read (Gen.V10 m (outs m) c)).trans ?_
  rw [h0_at10, out4_at10, dst_at10, inv_at10, arg12_at10, arg13_at10]
theorem h1_at16 : Gen.V16 m (outs m) c main_v104 = Gen.V11 m (outs m) c main_v104 := ((Gen.V16_of m (outs m) c main_v104 (by decide)).trans ((Gen.V15_of m (outs m) c main_v104 (by decide)).trans ((Gen.V14_of m (outs m) c main_v104 (by decide)).trans ((Gen.V13_of m (outs m) c main_v104 (by decide)).trans (Gen.V12_of m (outs m) c main_v104 (by decide))))))

/-- The kernel program's result is the reference's function of the sixteen arguments, given what the embedding and message
    regions leave. -/
theorem kernel_out
    (T_h0 : out0 m c = nodeEmb (F := Ideal) (m ((c : Thread nD τ).loc main_arg0)) (m ((c : Thread nD τ).loc main_arg4)) (m ((c : Thread nD τ).loc main_arg5)))
    (T_e : out1 m c = edgeEmb (F := Ideal) (m ((c : Thread nD τ).loc main_arg2)) (m ((c : Thread nD τ).loc main_arg6)) (m ((c : Thread nD τ).loc main_arg7)))
    (T_msg0 : out4 m c = message (F := Ideal) (Gen.V4 m (outs m) c main_v8) (Gen.V4 m (outs m) c main_v13) (mat0 (m ((c : Thread nD τ).loc main_arg8))) (row0 (m ((c : Thread nD τ).loc main_arg9))) (mat0 (m ((c : Thread nD τ).loc main_arg10))) (row0 (m ((c : Thread nD τ).loc main_arg11))) (dstRow (m ((c : Thread nD τ).loc main_arg1))) (srcRow (m ((c : Thread nD τ).loc main_arg1))))
    (T_msg1 : out7 m c = message (F := Ideal) (Gen.V11 m (outs m) c main_v104) (Gen.V4 m (outs m) c main_v13) (mat1 (m ((c : Thread nD τ).loc main_arg8))) (row1 (m ((c : Thread nD τ).loc main_arg9))) (mat1 (m ((c : Thread nD τ).loc main_arg10))) (row1 (m ((c : Thread nD τ).loc main_arg11))) (dstRow (m ((c : Thread nD τ).loc main_arg1))) (srcRow (m ((c : Thread nD τ).loc main_arg1)))) :
    Gen.V20 m (outs m) c main_v204 = Ref.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have E1 : Gen.V20 m (outs m) c main_v204 = softplusG (F := Ideal) (Gen.V19 m (outs m) c main_v203) := softplus2_read _
  have E2 : Gen.V19 m (outs m) c main_v203 = denseOut (F := Ideal) (Gen.V18 m (outs m) c main_v198) (Gen.V18 m (outs m) c main_arg14) (Gen.V18 m (outs m) c main_arg15) := dense_read _
  have E3 : Gen.V18 m (outs m) c main_v198 = softplusG (F := Ideal) (Gen.V17 m (outs m) c main_v197) := softplus1_read _
  have E4 := mean_read (Gen.V16 m (outs m) c)
  have H1 := h1_at11 m c
  rw [T_msg0, h0_at4, out1_at4, T_h0, T_e] at H1
  rw [E1, E2, E3, arg14_at18, arg15_at18]
  refine (congrArg (fun z => softplusG (F := Ideal) (denseOut (F := Ideal) (softplusG (F := Ideal) z) (m ((c : Thread nD τ).loc main_arg14)) (m ((c : Thread nD τ).loc main_arg15)))) E4).trans ?_
  rw [h1_at16, out7_at16, dst_at16, inv_at16, arg12_at16, arg13_at16, arg3_at16, T_msg1, out1_at4, T_e, H1]
  rfl

end Cert.KernelIdeal.Stage

end
-- ==== Proof.KI.Value0.lean ====
import proofs.«149463_j13572096656012_1_alg».proof.Proof.KI.Region0
import Idealize.ShloMosaic.Lib.Pipeline.Value
import Idealize.ShloMosaic.Lib.ValueIdx
import Idealize.ShloMosaic.PureOps.Ideal.Laws

/-!
# Region 0: the array it leaves, as one function of the arrays it found

The region computes `out = a · b + bias` over blocks of 2000 rows of `a` ([20000, 256]) against the whole of `b`
([256, 256]) and the bias row ([1, 256]).  At the exact values every entry of the result is
`out[r, q] = (∑ k, a[r, k] · b[k, q]) + bias[0, q]`: an entry of a block product only reads row `r` of the left block
and column `q` of `b`, the row blocks tile the rows of `a` (row `r` lies in block `r / 2000` at offset `r % 2000`), and
every point writes its own block back, so the 10 write-backs together leave that one function of the three arrays.
-/

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- `out[r, q] = (∑ k, a[r, k] · b[k, q]) + bias[0, q]`, entry by entry, over the whole arrays. -/
abbrev G0 (a : S20000x256.Idx → EReal) (b : S256x256.Idx → EReal) (bias : S1x256.Idx → EReal) : S20000x256.Idx → EReal :=
  fun i => (∑ k : Fin 256, a (ix2 (i 0 : Fin 20000) k) * b (ix2 k (i 1 : Fin 256))) + bias (ix2 (0 : Fin 1) (i 1 : Fin 256))

/-! ## One entry of a block product plus the bias row -/

/-- The product's left operand at output entry `(p, q)` and contraction index `k` is read in row `p`, -/
theorem mm0_lhs_row (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- and the right operand in column `q`. -/
theorem mm0_rhs_col (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The block product into the zero accumulator, at entry `(p, q)`: the sum over the 256 contraction indices of
    row `p` of the left block times column `q` of the right one (the contraction shape has one axis: the sum over
    it is re-indexed by its one coordinate). -/
theorem mm0_apply (a : FVec Ideal S2000x256 .bf16) (b : FVec Ideal S256x256 .bf16) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) := by
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun d => Fin.ext (by
      match d with
      | ⟨0, _⟩ => exact mm0_lhs_row _ _
      | ⟨1, _⟩ => exact (dot_S2000x256_S256x256_S2000x256_1_0_0_1_n_n.lhsIdx_val_of_single rfl _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun d => Fin.ext (by
      match d with
      | ⟨0, _⟩ => exact (dot_S2000x256_S256x256_S2000x256_1_0_0_1_n_n.rhsIdx_val_of_single rfl _ _).trans hk
      | ⟨1, _⟩ => exact mm0_rhs_col _ _)
  rw [el, er]

/-- The bias row broadcast down the 2000 rows, at entry `(p, q)`: the row's entry `q`. -/
theorem bias0_apply (r : S1x256.Idx → EReal) (p : Fin 2000) (q : Fin 256) :
    broadcastTo S2000x256 r broadcasts_S1x256_S2000x256 (ix2 p q) = r (ix2 0 q) :=
  broadcastTo_apply r broadcasts_S1x256_S2000x256 (ix2 p q) (ix2 0 q) (fun d => match d with
    | ⟨0, _⟩ => by show 0 = if (1 : Nat) = 1 then 0 else _; rw [if_pos rfl]
    | ⟨1, _⟩ => by show q.val = if (256 : Nat) = 1 then 0 else q.val; rw [if_neg (by decide)])

/-- What the body stores, at entry `(p, q)` of the block: row `p` of the left block times column `q` of the
    right one, plus the bias row's entry `q`. -/
theorem pay0_apply (x0 : Vec Ideal S2000x256 .bf16) (x1 : Vec Ideal S256x256 .bf16) (x2 : Vec Ideal S1x256 .f32)
    (p : Fin 2000) (q : Fin 256) :
    k0_pay1 (F := Ideal) x0 x1 x2 (ix2 p q) = (∑ k : Fin 256, (x0 (ix2 p k) : EReal) * x1 (ix2 k q)) + x2 (ix2 0 q) := by
  unfold k0_pay1
  simp only [shapeCast_self]
  refine (addf_apply _ _ (ix2 p q)).trans ?_
  exact congrArg₂ (· + ·) (mm0_apply x0 x1 p q) (bias0_apply x2 p q)

/-- So a stored entry is the function's value at an array index `i`, as soon as row `p` of the left block is row
    `i 0` of `a`, column `q` of the right block is column `i 1` of `b`, and the bias block's entry `q` is
    the bias row's entry `i 1`. -/
theorem pay0_eq_G (A : S20000x256.Idx → EReal) (B : S256x256.Idx → EReal) (R : S1x256.Idx → EReal)
    (x0 : Vec Ideal S2000x256 .bf16) (x1 : Vec Ideal S256x256 .bf16) (x2 : Vec Ideal S1x256 .f32)
    (i : S20000x256.Idx) (p : Fin 2000) (q : Fin 256)
    (h0 : ∀ k : Fin 256, x0 (ix2 p k) = A (ix2 (i 0 : Fin 20000) k))
    (h1 : ∀ k : Fin 256, x1 (ix2 k q) = B (ix2 k (i 1 : Fin 256)))
    (h2 : x2 (ix2 0 q) = R (ix2 (0 : Fin 1) (i 1 : Fin 256))) :
    k0_pay1 (F := Ideal) x0 x1 x2 (ix2 p q) = G0 A B R i := by
  refine (pay0_apply x0 x1 x2 p q).trans ?_
  exact congrArg₂ (· + ·) (Finset.sum_congr rfl fun k _ => congrArg₂ (· * ·) (h0 k) (h1 k)) h2

/-! ## From blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: at point `t` the left operand's and the output's blocks are
    row block `t`; the right operand and the bias row are always their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the function of the arrays as the region finds them: an element of
    a block sits, on each axis, at block index × block size + its coordinate inside the block. -/
theorem flushed0_eq (c : Dev nD) (t : Fin cfg0.N) :
    (Rg.dat0 V c).flushed 3 t
      = ((cfg0.win 3).blk t).view.read (Elt Ideal) (G0 (V c main_v4) (V c main_v6) (V c main_v7)) := by
  show (cfg0.win 3).cut (grid0.coords t) ((Rg.dat0 V c).after 3 t) = _
  rw [Rg.after0_3]
  unfold Rg.out0_3
  rw [View.canon_unit_zero hz0]
  simp only [View.ld_unit_zero (S := S2000x256) hz0, View.ld_unit_zero (S := S256x256) hz0, View.ld_unit_zero (S := S1x256) hz0]
  obtain ⟨e0, e1, e2, e3, e4, e5, e6, e7⟩ := idx_facts0 t
  funext j
  obtain ⟨p, q, rfl⟩ : ∃ (p : Fin 2000) (q : Fin 256), j = ix2 p q := ⟨j 0, j 1, eq_ix2 j⟩
  show k0_pay1 (F := Ideal) (Rg.iblk0 V c 0 t) (Rg.iblk0 V c 1 t) (Rg.iblk0 V c 2 t) (ix2 p q)
    = G0 (V c main_v4) (V c main_v6) (V c main_v7) (((cfg0.win 3).blk t).view.emb (ix2 p q))
  refine pay0_eq_G (V c main_v4) (V c main_v6) (V c main_v7) (Rg.iblk0 V c 0 t) (Rg.iblk0 V c 1 t) (Rg.iblk0 V c 2 t)
    (((cfg0.win 3).blk t).view.emb (ix2 p q)) p q (fun k => ?_) (fun k => ?_) ?_
  · show V c main_v4 (((cfg0.win 0).blk t).view.emb (ix2 p k)) = V c main_v4 _
    refine congrArg (V c main_v4) (funext fun d => Fin.ext ?_)
    match d with
    | ⟨0, _⟩ => show win0_0.index t (0 : Fin 2) * 2000 + 1 * p.val = win0_3.index t (0 : Fin 2) * 2000 + 1 * p.val; omega
    | ⟨1, _⟩ => show win0_0.index t (1 : Fin 2) * 256 + 1 * k.val = k.val; omega
  · show V c main_v6 (((cfg0.win 1).blk t).view.emb (ix2 k q)) = V c main_v6 _
    refine congrArg (V c main_v6) (funext fun d => Fin.ext ?_)
    match d with
    | ⟨0, _⟩ => show win0_1.index t (0 : Fin 2) * 256 + 1 * k.val = k.val; omega
    | ⟨1, _⟩ => show win0_1.index t (1 : Fin 2) * 256 + 1 * q.val = win0_3.index t (1 : Fin 2) * 256 + 1 * q.val; omega
  · show V c main_v7 (((cfg0.win 2).blk t).view.emb (ix2 0 q)) = V c main_v7 _
    refine congrArg (V c main_v7) (funext fun d => Fin.ext ?_)
    match d with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega

/-- An index of the array is in point `t`'s block iff each coordinate is in the block's range on its axis. -/
theorem mem_blk0 (t : Fin cfg0.N) (i : S20000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v8).slice (win0_3.rect t)).set ↔ _
  rw [View.set_slice_whole, Rect.mem_set_unit]
  exact Iff.rfl

/-- Every index of the array is in some point's block: row `r` is in row block `r / 2000`. -/
theorem cover0 (i : S20000x256.Idx) : ∃ t : Fin cfg0.N, (cfg0.win 3).flush t = true ∧ i ∈ ((cfg0.win 3).blk t).view.set := by
  have hi0 : (i 0).val < 20000 := (i 0).isLt
  have hi1 : (i 1).val < 256 := (i 1).isLt
  have hN : cfg0.N = 10 := N_0
  refine ⟨⟨(i 0).val / 2000, by rw [hN]; omega⟩, flush0_3 _, ?_⟩
  obtain ⟨e0, e1, e2, e3, e4, e5, e6, e7⟩ := idx_facts0 ⟨(i 0).val / 2000, by rw [hN]; omega⟩
  rw [mem_blk0]
  intro a
  match a with
  | ⟨0, _⟩ => show win0_3.index _ (0 : Fin 2) * 2000 ≤ (i 0).val ∧ (i 0).val < win0_3.index _ (0 : Fin 2) * 2000 + 2000; rw [e6]; show (i 0).val / 2000 * 2000 ≤ (i 0).val ∧ (i 0).val < (i 0).val / 2000 * 2000 + 2000; omega
  | ⟨1, _⟩ => show win0_3.index _ (1 : Fin 2) * 256 ≤ (i 1).val ∧ (i 1).val < win0_3.index _ (1 : Fin 2) * 256 + 256; rw [e7]; omega

/-- The array the region leaves in its output window: `a · b + bias` of the arrays it found, entry by entry. -/
theorem final0 (c : Dev nD) :
    (Rg.dat0 V c).arrAt 3 cfg0.N = G0 (V c main_v4) (V c main_v6) (V c main_v7) :=
  (Rg.dat0 V c).arrAt_eq_of_cover 3 (G0 (V c main_v4) (V c main_v6) (V c main_v7))
    (fun t _ => flushed0_eq V c t) cover0

end Cert.KernelIdeal.Val

end
-- ==== Proof.KI.Value1.lean ====
import proofs.«149463_j13572096656012_1_alg».proof.Proof.KI.Region1
import Idealize.ShloMosaic.Lib.Pipeline.Value
import Idealize.ShloMosaic.Lib.ValueIdx
import Idealize.ShloMosaic.PureOps.Ideal.Laws

/-!
# Region 1: the array it leaves, as one function of the arrays it found

The region computes `out = a · b + bias` over blocks of 2000 rows of `a` ([200000, 128]) against the whole of `b`
([128, 256]) and the bias row ([1, 256]).  At the exact values every entry of the result is
`out[r, q] = (∑ k, a[r, k] · b[k, q]) + bias[0, q]`: an entry of a block product only reads row `r` of the left block
and column `q` of `b`, the row blocks tile the rows of `a` (row `r` lies in block `r / 2000` at offset `r % 2000`), and
every point writes its own block back, so the 100 write-backs together leave that one function of the three arrays.
-/

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- `out[r, q] = (∑ k, a[r, k] · b[k, q]) + bias[0, q]`, entry by entry, over the whole arrays. -/
abbrev G1 (a : S200000x128.Idx → EReal) (b : S128x256.Idx → EReal) (bias : S1x256.Idx → EReal) : S200000x256.Idx → EReal :=
  fun i => (∑ k : Fin 128, a (ix2 (i 0 : Fin 200000) k) * b (ix2 k (i 1 : Fin 256))) + bias (ix2 (0 : Fin 1) (i 1 : Fin 256))

/-! ## One entry of a block product plus the bias row -/

/-- The product's left operand at output entry `(p, q)` and contraction index `k` is read in row `p`, -/
theorem mm1_lhs_row (j : S2000x256.Idx) (k : dot_S2000x128_S128x256_S2000x256_1_0_0_1_n_n.contr.Idx) :
    (dot_S2000x128_S128x256_S2000x256_1_0_0_1_n_n.lhsIdx j k 0).val = (j 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

/-- and the right operand in column `q`. -/
theorem mm1_rhs_col (j : S2000x256.Idx) (k : dot_S2000x128_S128x256_S2000x256_1_0_0_1_n_n.contr.Idx) :
    (dot_S2000x128_S128x256_S2000x256_1_0_0_1_n_n.rhsIdx j k 1).val = (j 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The block product into the zero accumulator, at entry `(p, q)`: the sum over the 128 contraction indices of
    row `p` of the left block times column `q` of the right one (the contraction shape has one axis: the sum over
    it is re-indexed by its one coordinate). -/
theorem mm1_apply (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  simp only [matmul]
  rw [Ideal.matmul_constant_zero_apply,
    ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q)
      ((contrEquiv1 dot_S2000x128_S128x256_S2000x256_1_0_0_1_n_n 128 rfl rfl).symm k) = ix2 p k :=
    funext fun d => Fin.ext (by
      match d with
      | ⟨0, _⟩ => exact mm1_lhs_row _ _
      | ⟨1, _⟩ => exact (dot_S2000x128_S128x256_S2000x256_1_0_0_1_n_n.lhsIdx_val_of_single rfl _ _).trans hk)
  have er : dot_S2000x128_S128x256_S2000x256_1_0_0_1_n_n.rhsIdx (ix2 p q)
      ((contrEquiv1 dot_S2000x128_S128x256_S2000x256_1_0_0_1_n_n 128 rfl rfl).symm k) = ix2 k q :=
    funext fun d => Fin.ext (by
      match d with
      | ⟨0, _⟩ => exact (dot_S2000x128_S128x256_S2000x256_1_0_0_1_n_n.rhsIdx_val_of_single rfl _ _).trans hk
      | ⟨1, _⟩ => exact mm1_rhs_col _ _)
  rw [el, er]

/-- The bias row broadcast down the 2000 rows, at entry `(p, q)`: the row's entry `q`. -/
theorem bias1_apply (r : S1x256.Idx → EReal) (p : Fin 2000) (q : Fin 256) :
    broadcastTo S2000x256 r broadcasts_S1x256_S2000x256 (ix2 p q) = r (ix2 0 q) :=
  broadcastTo_apply r broadcasts_S1x256_S2000x256 (ix2 p q) (ix2 0 q) (fun d => match d with
    | ⟨0, _⟩ => by show 0 = if (1 : Nat) = 1 then 0 else _; rw [if_pos rfl]
    | ⟨1, _⟩ => by show q.val = if (256 : Nat) = 1 then 0 else q.val; rw [if_neg (by decide)])

/-- What the body stores, at entry `(p, q)` of the block: row `p` of the left block times column `q` of the
    right one, plus the bias row's entry `q`. -/
theorem pay1_apply (x0 : Vec Ideal S2000x128 .bf16) (x1 : Vec Ideal S128x256 .bf16) (x2 : Vec Ideal S1x256 .f32)
    (p : Fin 2000) (q : Fin 256) :
    k1_pay1 (F := Ideal) x0 x1 x2 (ix2 p q) = (∑ k : Fin 128, (x0 (ix2 p k) : EReal) * x1 (ix2 k q)) + x2 (ix2 0 q) := by
  unfold k1_pay1
  simp only [shapeCast_self]
  refine (addf_apply _ _ (ix2 p q)).trans ?_
  exact congrArg₂ (· + ·) (mm1_apply x0 x1 p q) (bias1_apply x2 p q)

/-- So a stored entry is the function's value at an array index `i`, as soon as row `p` of the left block is row
    `i 0` of `a`, column `q` of the right block is column `i 1` of `b`, and the bias block's entry `q` is
    the bias row's entry `i 1`. -/
theorem pay1_eq_G (A : S200000x128.Idx → EReal) (B : S128x256.Idx → EReal) (R : S1x256.Idx → EReal)
    (x0 : Vec Ideal S2000x128 .bf16) (x1 : Vec Ideal S128x256 .bf16) (x2 : Vec Ideal S1x256 .f32)
    (i : S200000x256.Idx) (p : Fin 2000) (q : Fin 256)
    (h0 : ∀ k : Fin 128, x0 (ix2 p k) = A (ix2 (i 0 : Fin 200000) k))
    (h1 : ∀ k : Fin 128, x1 (ix2 k q) = B (ix2 k (i 1 : Fin 256)))
    (h2 : x2 (ix2 0 q) = R (ix2 (0 : Fin 1) (i 1 : Fin 256))) :
    k1_pay1 (F := Ideal) x0 x1 x2 (ix2 p q) = G1 A B R i := by
  refine (pay1_apply x0 x1 x2 p q).trans ?_
  exact congrArg₂ (· + ·) (Finset.sum_congr rfl fun k _ => congrArg₂ (· * ·) (h0 k) (h1 k)) h2

/-! ## From blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: at point `t` the left operand's and the output's blocks are
    row block `t`; the right operand and the bias row are always their one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the function of the arrays as the region finds them: an element of
    a block sits, on each axis, at block index × block size + its coordinate inside the block. -/
theorem flushed1_eq (c : Dev nD) (t : Fin cfg1.N) :
    (Rg.dat1 V c).flushed 3 t
      = ((cfg1.win 3).blk t).view.read (Elt Ideal) (G1 (V c main_v9) (V c main_v11) (V c main_v12)) := by
  show (cfg1.win 3).cut (grid1.coords t) ((Rg.dat1 V c).after 3 t) = _
  rw [Rg.after1_3]
  unfold Rg.out1_3
  rw [View.canon_unit_zero hz1]
  simp only [View.ld_unit_zero (S := S2000x128) hz1, View.ld_unit_zero (S := S128x256) hz1, View.ld_unit_zero (S := S1x256) hz1]
  obtain ⟨e0, e1, e2, e3, e4, e5, e6, e7⟩ := idx_facts1 t
  funext j
  obtain ⟨p, q, rfl⟩ : ∃ (p : Fin 2000) (q : Fin 256), j = ix2 p q := ⟨j 0, j 1, eq_ix2 j⟩
  show k1_pay1 (F := Ideal) (Rg.iblk1 V c 0 t) (Rg.iblk1 V c 1 t) (Rg.iblk1 V c 2 t) (ix2 p q)
    = G1 (V c main_v9) (V c main_v11) (V c main_v12) (((cfg1.win 3).blk t).view.emb (ix2 p q))
  refine pay1_eq_G (V c main_v9) (V c main_v11) (V c main_v12) (Rg.iblk1 V c 0 t) (Rg.iblk1 V c 1 t) (Rg.iblk1 V c 2 t)
    (((cfg1.win 3).blk t).view.emb (ix2 p q)) p q (fun k => ?_) (fun k => ?_) ?_
  · show V c main_v9 (((cfg1.win 0).blk t).view.emb (ix2 p k)) = V c main_v9 _
    refine congrArg (V c main_v9) (funext fun d => Fin.ext ?_)
    match d with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  · show V c main_v11 (((cfg1.win 1).blk t).view.emb (ix2 k q)) = V c main_v11 _
    refine congrArg (V c main_v11) (funext fun d => Fin.ext ?_)
    match d with
    | ⟨0, _⟩ => show win1_1.index t (0 : Fin 2) * 128 + 1 * k.val = k.val; omega
    | ⟨1, _⟩ => show win1_1.index t (1 : Fin 2) * 256 + 1 * q.val = win1_3.index t (1 : Fin 2) * 256 + 1 * q.val; omega
  · show V c main_v12 (((cfg1.win 2).blk t).view.emb (ix2 0 q)) = V c main_v12 _
    refine congrArg (V c main_v12) (funext fun d => Fin.ext ?_)
    match d with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega

/-- An index of the array is in point `t`'s block iff each coordinate is in the block's range on its axis. -/
theorem mem_blk1 (t : Fin cfg1.N) (i : S200000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v13).slice (win1_3.rect t)).set ↔ _
  rw [View.set_slice_whole, Rect.mem_set_unit]
  exact Iff.rfl

/-- Every index of the array is in some point's block: row `r` is in row block `r / 2000`. -/
theorem cover1 (i : S200000x256.Idx) : ∃ t : Fin cfg1.N, (cfg1.win 3).flush t = true ∧ i ∈ ((cfg1.win 3).blk t).view.set := by
  have hi0 : (i 0).val < 200000 := (i 0).isLt
  have hi1 : (i 1).val < 256 := (i 1).isLt
  have hN : cfg1.N = 100 := N_1
  refine ⟨⟨(i 0).val / 2000, by rw [hN]; omega⟩, flush1_3 _, ?_⟩
  obtain ⟨e0, e1, e2, e3, e4, e5, e6, e7⟩ := idx_facts1 ⟨(i 0).val / 2000, by rw [hN]; omega⟩
  rw [mem_blk1]
  intro a
  match a with
  | ⟨0, _⟩ => show win1_3.index _ (0 : Fin 2) * 2000 ≤ (i 0).val ∧ (i 0).val < win1_3.index _ (0 : Fin 2) * 2000 + 2000; rw [e6]; show (i 0).val / 2000 * 2000 ≤ (i 0).val ∧ (i 0).val < (i 0).val / 2000 * 2000 + 2000; omega
  | ⟨1, _⟩ => show win1_3.index _ (1 : Fin 2) * 256 ≤ (i 1).val ∧ (i 1).val < win1_3.index _ (1 : Fin 2) * 256 + 256; rw [e7]; omega

/-- The array the region leaves in its output window: `a · b + bias` of the arrays it found, entry by entry. -/
theorem final1 (c : Dev nD) :
    (Rg.dat1 V c).arrAt 3 cfg1.N = G1 (V c main_v9) (V c main_v11) (V c main_v12) :=
  (Rg.dat1 V c).arrAt_eq_of_cover 3 (G1 (V c main_v9) (V c main_v11) (V c main_v12))
    (fun t _ => flushed1_eq V c t) cover1

end Cert.KernelIdeal.Val

end
-- ==== Proof.KI.Value2.lean ====
import proofs.«149463_j13572096656012_1_alg».proof.Proof.KI.Region2
import Idealize.ShloMosaic.Lib.Pipeline.Value
import Idealize.ShloMosaic.Lib.ValueIdx
import Idealize.ShloMosaic.PureOps.Ideal.Laws

/-!
# Region 2: the array it leaves, as one function of the arrays it found

The region computes `out = a · b + bias` over blocks of 2000 rows of `a` ([20000, 256]) against the whole of `b`
([256, 1024]) and the bias row ([1, 1024]).  At the exact values every entry of the result is
`out[r, q] = (∑ k, a[r, k] · b[k, q]) + bias[0, q]`: an entry of a block product only reads row `r` of the left block
and column `q` of `b`, the row blocks tile the rows of `a` (row `r` lies in block `r / 2000` at offset `r % 2000`), and
every point writes its own block back, so the 10 write-backs together leave that one function of the three arrays.
-/

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- `out[r, q] = (∑ k, a[r, k] · b[k, q]) + bias[0, q]`, entry by entry, over the whole arrays. -/
abbrev G2 (a : S20000x256.Idx → EReal) (b : S256x1024.Idx → EReal) (bias : S1x1024.Idx → EReal) : S20000x1024.Idx → EReal :=
  fun i => (∑ k : Fin 256, a (ix2 (i 0 : Fin 20000) k) * b (ix2 k (i 1 : Fin 1024))) + bias (ix2 (0 : Fin 1) (i 1 : Fin 1024))

/-! ## One entry of a block product plus the bias row -/

/-- The product's left operand at output entry `(p, q)` and contraction index `k` is read in row `p`, -/
theorem mm2_lhs_row (j : S2000x1024.Idx) (k : dot_S2000x256_S256x1024_S2000x1024_1_0_0_1_n_n.contr.Idx) :
    (dot_S2000x256_S256x1024_S2000x1024_1_0_0_1_n_n.lhsIdx j k 0).val = (j 0).val := by
  unfold DotDims.lhsIdx
  rw [dif_neg (show ¬(0 : Fin S2000x256.rank) ∈ dot_S2000x256_S256x1024_S2000x1024_1_0_0_1_n_n.lhsBatch by decide),
    dif_pos (show (0 : Fin S2000x256.rank) ∈ dot_S2000x256_S256x1024_S2000x1024_1_0_0_1_n_n.lhsNonContracting by decide)]
  rfl

/-- and the right operand in column `q`. -/
theorem mm2_rhs_col (j : S2000x1024.Idx) (k : dot_S2000x256_S256x1024_S2000x1024_1_0_0_1_n_n.contr.Idx) :
    (dot_S2000x256_S256x1024_S2000x1024_1_0_0_1_n_n.rhsIdx j k 1).val = (j 1).val := by
  unfold DotDims.rhsIdx
  rw [dif_neg (show ¬(1 : Fin S256x1024.rank) ∈ dot_S2000x256_S256x1024_S2000x1024_1_0_0_1_n_n.rhsBatch by decide),
    dif_pos (show (1 : Fin S256x1024.rank) ∈ dot_S2000x256_S256x1024_S2000x1024_1_0_0_1_n_n.rhsNonContracting by decide)]
  rfl

/-- The block product into the zero accumulator, at entry `(p, q)`: the sum over the 256 contraction indices of
    row `p` of the left block times column `q` of the right one (the contraction shape has one axis: the sum over
    it is re-indexed by its one coordinate). -/
theorem mm2_apply (a : FVec Ideal S2000x256 .bf16) (b : FVec Ideal S256x1024 .bf16) (p : Fin 2000) (q : Fin 1024) :
    matmul dot_S2000x256_S256x1024_S2000x1024_1_0_0_1_n_n none a b (constant (F := Ideal) S2000x1024 .f32 0x00000000#32) (ix2 p q)
      = ∑ k : Fin 256, a (ix2 p k) * b (ix2 k q) := by
  simp only [matmul]
  rw [Ideal.matmul_constant_zero_apply,
    ← Equiv.sum_comp (contrEquiv1 dot_S2000x256_S256x1024_S2000x1024_1_0_0_1_n_n 256 rfl rfl).symm]
  refine Finset.sum_congr rfl fun k _ => ?_
  have hk := contrEquiv1_symm_val dot_S2000x256_S256x1024_S2000x1024_1_0_0_1_n_n 256 rfl rfl k
  have el : dot_S2000x256_S256x1024_S2000x1024_1_0_0_1_n_n.lhsIdx (ix2 p q)
      ((contrEquiv1 dot_S2000x256_S256x1024_S2000x1024_1_0_0_1_n_n 256 rfl rfl).symm k) = ix2 p k :=
    funext fun d => Fin.ext (by
      match d with
      | ⟨0, _⟩ => exact mm2_lhs_row _ _
      | ⟨1, _⟩ => exact (dot_S2000x256_S256x1024_S2000x1024_1_0_0_1_n_n.lhsIdx_val_of_single rfl _ _).trans hk)
  have er : dot_S2000x256_S256x1024_S2000x1024_1_0_0_1_n_n.rhsIdx (ix2 p q)
      ((contrEquiv1 dot_S2000x256_S256x1024_S2000x1024_1_0_0_1_n_n 256 rfl rfl).symm k) = ix2 k q :=
    funext fun d => Fin.ext (by
      match d with
      | ⟨0, _⟩ => exact (dot_S2000x256_S256x1024_S2000x1024_1_0_0_1_n_n.rhsIdx_val_of_single rfl _ _).trans hk
      | ⟨1, _⟩ => exact mm2_rhs_col _ _)
  rw [el, er]

/-- The bias row broadcast down the 2000 rows, at entry `(p, q)`: the row's entry `q`. -/
theorem bias2_apply (r : S1x1024.Idx → EReal) (p : Fin 2000) (q : Fin 1024) :
    broadcastTo S2000x1024 r broadcasts_S1x1024_S2000x1024 (ix2 p q) = r (ix2 0 q) :=
  broadcastTo_apply r broadcasts_S1x1024_S2000x1024 (ix2 p q) (ix2 0 q) (fun d => match d with
    | ⟨0, _⟩ => by show 0 = if (1 : Nat) = 1 then 0 else _; rw [if_pos rfl]
    | ⟨1, _⟩ => by show q.val = if (1024 : Nat) = 1 then 0 else q.val; rw [if_neg (by decide)])

/-- What the body stores, at entry `(p, q)` of the block: row `p` of the left block times column `q` of the
    right one, plus the bias row's entry `q`. -/
theorem pay2_apply (x0 : Vec Ideal S2000x256 .bf16) (x1 : Vec Ideal S256x1024 .bf16) (x2 : Vec Ideal S1x1024 .f32)
    (p : Fin 2000) (q : Fin 1024) :
    k2_pay1 (F := Ideal) x0 x1 x2 (ix2 p q) = (∑ k : Fin 256, (x0 (ix2 p k) : EReal) * x1 (ix2 k q)) + x2 (ix2 0 q) := by
  unfold k2_pay1
  simp only [shapeCast_self]
  refine (addf_apply _ _ (ix2 p q)).trans ?_
  exact congrArg₂ (· + ·) (mm2_apply x0 x1 p q) (bias2_apply x2 p q)

/-- So a stored entry is the function's value at an array index `i`, as soon as row `p` of the left block is row
    `i 0` of `a`, column `q` of the right block is column `i 1` of `b`, and the bias block's entry `q` is
    the bias row's entry `i 1`. -/
theorem pay2_eq_G (A : S20000x256.Idx → EReal) (B : S256x1024.Idx → EReal) (R : S1x1024.Idx → EReal)
    (x0 : Vec Ideal S2000x256 .bf16) (x1 : Vec Ideal S256x1024 .bf16) (x2 : Vec Ideal S1x1024 .f32)
    (i : S20000x1024.Idx) (p : Fin 2000) (q : Fin 1024)
    (h0 : ∀ k : Fin 256, x0 (ix2 p k) = A (ix2 (i 0 : Fin 20000) k))
    (h1 : ∀ k : Fin 256, x1 (ix2 k q) = B (ix2 k (i 1 : Fin 1024)))
    (h2 : x2 (ix2 0 q) = R (ix2 (0 : Fin 1) (i 1 : Fin 1024))) :
    k2_pay1 (F := Ideal) x0 x1 x2 (ix2 p q) = G2 A B R i := by
  refine (pay2_apply x0 x1 x2 p q).trans ?_
  exact congrArg₂ (· + ·) (Finset.sum_congr rfl fun k _ => congrArg₂ (· * ·) (h0 k) (h1 k)) h2

/-! ## From blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: at point `t` the left operand's and the output's blocks are
    row block `t`; the right operand and the bias row are always their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the function of the arrays as the region finds them: an element of
    a block sits, on each axis, at block index × block size + its coordinate inside the block. -/
theorem flushed2_eq (c : Dev nD) (t : Fin cfg2.N) :
    (Rg.dat2 V c).flushed 3 t
      = ((cfg2.win 3).blk t).view.read (Elt Ideal) (G2 (V c main_v38) (V c main_v36) (V c main_v39)) := by
  show (cfg2.win 3).cut (grid2.coords t) ((Rg.dat2 V c).after 3 t) = _
  rw [Rg.after2_3]
  unfold Rg.out2_3
  rw [View.canon_unit_zero hz2]
  simp only [View.ld_unit_zero (S := S2000x256) hz2, View.ld_unit_zero (S := S256x1024) hz2, View.ld_unit_zero (S := S1x1024) hz2]
  obtain ⟨e0, e1, e2, e3, e4, e5, e6, e7⟩ := idx_facts2 t
  funext j
  obtain ⟨p, q, rfl⟩ : ∃ (p : Fin 2000) (q : Fin 1024), j = ix2 p q := ⟨j 0, j 1, eq_ix2 j⟩
  show k2_pay1 (F := Ideal) (Rg.iblk2 V c 0 t) (Rg.iblk2 V c 1 t) (Rg.iblk2 V c 2 t) (ix2 p q)
    = G2 (V c main_v38) (V c main_v36) (V c main_v39) (((cfg2.win 3).blk t).view.emb (ix2 p q))
  refine pay2_eq_G (V c main_v38) (V c main_v36) (V c main_v39) (Rg.iblk2 V c 0 t) (Rg.iblk2 V c 1 t) (Rg.iblk2 V c 2 t)
    (((cfg2.win 3).blk t).view.emb (ix2 p q)) p q (fun k => ?_) (fun k => ?_) ?_
  · show V c main_v38 (((cfg2.win 0).blk t).view.emb (ix2 p k)) = V c main_v38 _
    refine congrArg (V c main_v38) (funext fun d => Fin.ext ?_)
    match d with
    | ⟨0, _⟩ => show win2_0.index t (0 : Fin 2) * 2000 + 1 * p.val = win2_3.index t (0 : Fin 2) * 2000 + 1 * p.val; omega
    | ⟨1, _⟩ => show win2_0.index t (1 : Fin 2) * 256 + 1 * k.val = k.val; omega
  · show V c main_v36 (((cfg2.win 1).blk t).view.emb (ix2 k q)) = V c main_v36 _
    refine congrArg (V c main_v36) (funext fun d => Fin.ext ?_)
    match d with
    | ⟨0, _⟩ => show win2_1.index t (0 : Fin 2) * 256 + 1 * k.val = k.val; omega
    | ⟨1, _⟩ => show win2_1.index t (1 : Fin 2) * 1024 + 1 * q.val = win2_3.index t (1 : Fin 2) * 1024 + 1 * q.val; omega
  · show V c main_v39 (((cfg2.win 2).blk t).view.emb (ix2 0 q)) = V c main_v39 _
    refine congrArg (V c main_v39) (funext fun d => Fin.ext ?_)
    match d with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega

/-- An index of the array is in point `t`'s block iff each coordinate is in the block's range on its axis. -/
theorem mem_blk2 (t : Fin cfg2.N) (i : S20000x1024.Idx) :
    i ∈ ((cfg2.win 3).blk t).view.set ↔ ∀ a : Fin 2, win2_3.index t a * S2000x1024.size a ≤ (i a).val ∧ (i a).val < win2_3.index t a * S2000x1024.size a + S2000x1024.size a := by
  show i ∈ ((View.whole main_v40).slice (win2_3.rect t)).set ↔ _
  rw [View.set_slice_whole, Rect.mem_set_unit]
  exact Iff.rfl

/-- Every index of the array is in some point's block: row `r` is in row block `r / 2000`. -/
theorem cover2 (i : S20000x1024.Idx) : ∃ t : Fin cfg2.N, (cfg2.win 3).flush t = true ∧ i ∈ ((cfg2.win 3).blk t).view.set := by
  have hi0 : (i 0).val < 20000 := (i 0).isLt
  have hi1 : (i 1).val < 1024 := (i 1).isLt
  have hN : cfg2.N = 10 := N_2
  refine ⟨⟨(i 0).val / 2000, by rw [hN]; omega⟩, flush2_3 _, ?_⟩
  obtain ⟨e0, e1, e2, e3, e4, e5, e6, e7⟩ := idx_facts2 ⟨(i 0).val / 2000, by rw [hN]; omega⟩
  rw [mem_blk2]
  intro a
  match a with
  | ⟨0, _⟩ => show win2_3.index _ (0 : Fin 2) * 2000 ≤ (i 0).val ∧ (i 0).val < win2_3.index _ (0 : Fin 2) * 2000 + 2000; rw [e6]; show (i 0).val / 2000 * 2000 ≤ (i 0).val ∧ (i 0).val < (i 0).val / 2000 * 2000 + 2000; omega
  | ⟨1, _⟩ => show win2_3.index _ (1 : Fin 2) * 1024 ≤ (i 1).val ∧ (i 1).val < win2_3.index _ (1 : Fin 2) * 1024 + 1024; rw [e7]; omega

/-- The array the region leaves in its output window: `a · b + bias` of the arrays it found, entry by entry. -/
theorem final2 (c : Dev nD) :
    (Rg.dat2 V c).arrAt 3 cfg2.N = G2 (V c main_v38) (V c main_v36) (V c main_v39) :=
  (Rg.dat2 V c).arrAt_eq_of_cover 3 (G2 (V c main_v38) (V c main_v36) (V c main_v39))
    (fun t _ => flushed2_eq V c t) cover2

end Cert.KernelIdeal.Val

end
-- ==== Proof.KI.Value3.lean ====
import proofs.«149463_j13572096656012_1_alg».proof.Proof.KI.Region3
import Idealize.ShloMosaic.Lib.Pipeline.Value
import Idealize.ShloMosaic.Lib.ValueIdx
import Idealize.ShloMosaic.PureOps.Ideal.Laws

/-!
# Region 3: the array it leaves, as one function of the arrays it found

The region computes `out = a · b + bias` over blocks of 2000 rows of `a` ([200000, 256]) against the whole of `b`
([256, 512]) and the bias row ([1, 512]).  At the exact values every entry of the result is
`out[r, q] = (∑ k, a[r, k] · b[k, q]) + bias[0, q]`: an entry of a block product only reads row `r` of the left block
and column `q` of `b`, the row blocks tile the rows of `a` (row `r` lies in block `r / 2000` at offset `r % 2000`), and
every point writes its own block back, so the 100 write-backs together leave that one function of the three arrays.
-/

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- `out[r, q] = (∑ k, a[r, k] · b[k, q]) + bias[0, q]`, entry by entry, over the whole arrays. -/
abbrev G3 (a : S200000x256.Idx → EReal) (b : S256x512.Idx → EReal) (bias : S1x512.Idx → EReal) : S200000x512.Idx → EReal :=
  fun i => (∑ k : Fin 256, a (ix2 (i 0 : Fin 200000) k) * b (ix2 k (i 1 : Fin 512))) + bias (ix2 (0 : Fin 1) (i 1 : Fin 512))

/-! ## One entry of a block product plus the bias row -/

/-- The product's left operand at output entry `(p, q)` and contraction index `k` is read in row `p`, -/
theorem mm3_lhs_row (j : S2000x512.Idx) (k : dot_S2000x256_S256x512_S2000x512_1_0_0_1_n_n.contr.Idx) :
    (dot_S2000x256_S256x512_S2000x512_1_0_0_1_n_n.lhsIdx j k 0).val = (j 0).val := by
  unfold DotDims.lhsIdx
  rw [dif_neg (show ¬(0 : Fin S2000x256.rank) ∈ dot_S2000x256_S256x512_S2000x512_1_0_0_1_n_n.lhsBatch by decide),
    dif_pos (show (0 : Fin S2000x256.rank) ∈ dot_S2000x256_S256x512_S2000x512_1_0_0_1_n_n.lhsNonContracting by decide)]
  rfl

/-- and the right operand in column `q`. -/
theorem mm3_rhs_col (j : S2000x512.Idx) (k : dot_S2000x256_S256x512_S2000x512_1_0_0_1_n_n.contr.Idx) :
    (dot_S2000x256_S256x512_S2000x512_1_0_0_1_n_n.rhsIdx j k 1).val = (j 1).val := by
  unfold DotDims.rhsIdx
  rw [dif_neg (show ¬(1 : Fin S256x512.rank) ∈ dot_S2000x256_S256x512_S2000x512_1_0_0_1_n_n.rhsBatch by decide),
    dif_pos (show (1 : Fin S256x512.rank) ∈ dot_S2000x256_S256x512_S2000x512_1_0_0_1_n_n.rhsNonContracting by decide)]
  rfl

/-- The block product into the zero accumulator, at entry `(p, q)`: the sum over the 256 contraction indices of
    row `p` of the left block times column `q` of the right one (the contraction shape has one axis: the sum over
    it is re-indexed by its one coordinate). -/
theorem mm3_apply (a : FVec Ideal S2000x256 .bf16) (b : FVec Ideal S256x512 .bf16) (p : Fin 2000) (q : Fin 512) :
    matmul dot_S2000x256_S256x512_S2000x512_1_0_0_1_n_n none a b (constant (F := Ideal) S2000x512 .f32 0x00000000#32) (ix2 p q)
      = ∑ k : Fin 256, a (ix2 p k) * b (ix2 k q) := by
  simp only [matmul]
  rw [Ideal.matmul_constant_zero_apply,
    ← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 p q)
      ((contrEquiv1 dot_S2000x256_S256x512_S2000x512_1_0_0_1_n_n 256 rfl rfl).symm k) = ix2 p k :=
    funext fun d => Fin.ext (by
      match d with
      | ⟨0, _⟩ => exact mm3_lhs_row _ _
      | ⟨1, _⟩ => exact (dot_S2000x256_S256x512_S2000x512_1_0_0_1_n_n.lhsIdx_val_of_single rfl _ _).trans hk)
  have er : dot_S2000x256_S256x512_S2000x512_1_0_0_1_n_n.rhsIdx (ix2 p q)
      ((contrEquiv1 dot_S2000x256_S256x512_S2000x512_1_0_0_1_n_n 256 rfl rfl).symm k) = ix2 k q :=
    funext fun d => Fin.ext (by
      match d with
      | ⟨0, _⟩ => exact (dot_S2000x256_S256x512_S2000x512_1_0_0_1_n_n.rhsIdx_val_of_single rfl _ _).trans hk
      | ⟨1, _⟩ => exact mm3_rhs_col _ _)
  rw [el, er]

/-- The bias row broadcast down the 2000 rows, at entry `(p, q)`: the row's entry `q`. -/
theorem bias3_apply (r : S1x512.Idx → EReal) (p : Fin 2000) (q : Fin 512) :
    broadcastTo S2000x512 r broadcasts_S1x512_S2000x512 (ix2 p q) = r (ix2 0 q) :=
  broadcastTo_apply r broadcasts_S1x512_S2000x512 (ix2 p q) (ix2 0 q) (fun d => match d with
    | ⟨0, _⟩ => by show 0 = if (1 : Nat) = 1 then 0 else _; rw [if_pos rfl]
    | ⟨1, _⟩ => by show q.val = if (512 : Nat) = 1 then 0 else q.val; rw [if_neg (by decide)])

/-- What the body stores, at entry `(p, q)` of the block: row `p` of the left block times column `q` of the
    right one, plus the bias row's entry `q`. -/
theorem pay3_apply (x0 : Vec Ideal S2000x256 .bf16) (x1 : Vec Ideal S256x512 .bf16) (x2 : Vec Ideal S1x512 .f32)
    (p : Fin 2000) (q : Fin 512) :
    k3_pay1 (F := Ideal) x0 x1 x2 (ix2 p q) = (∑ k : Fin 256, (x0 (ix2 p k) : EReal) * x1 (ix2 k q)) + x2 (ix2 0 q) := by
  unfold k3_pay1
  simp only [shapeCast_self]
  refine (addf_apply _ _ (ix2 p q)).trans ?_
  exact congrArg₂ (· + ·) (mm3_apply x0 x1 p q) (bias3_apply x2 p q)

/-- So a stored entry is the function's value at an array index `i`, as soon as row `p` of the left block is row
    `i 0` of `a`, column `q` of the right block is column `i 1` of `b`, and the bias block's entry `q` is
    the bias row's entry `i 1`. -/
theorem pay3_eq_G (A : S200000x256.Idx → EReal) (B : S256x512.Idx → EReal) (R : S1x512.Idx → EReal)
    (x0 : Vec Ideal S2000x256 .bf16) (x1 : Vec Ideal S256x512 .bf16) (x2 : Vec Ideal S1x512 .f32)
    (i : S200000x512.Idx) (p : Fin 2000) (q : Fin 512)
    (h0 : ∀ k : Fin 256, x0 (ix2 p k) = A (ix2 (i 0 : Fin 200000) k))
    (h1 : ∀ k : Fin 256, x1 (ix2 k q) = B (ix2 k (i 1 : Fin 512)))
    (h2 : x2 (ix2 0 q) = R (ix2 (0 : Fin 1) (i 1 : Fin 512))) :
    k3_pay1 (F := Ideal) x0 x1 x2 (ix2 p q) = G3 A B R i := by
  refine (pay3_apply x0 x1 x2 p q).trans ?_
  exact congrArg₂ (· + ·) (Finset.sum_congr rfl fun k _ => congrArg₂ (· * ·) (h0 k) (h1 k)) h2

/-! ## From blocks to the array -/

variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the grid: at point `t` the left operand's and the output's blocks are
    row block `t`; the right operand and the bias row are always their one block. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the function of the arrays as the region finds them: an element of
    a block sits, on each axis, at block index × block size + its coordinate inside the block. -/
theorem flushed3_eq (c : Dev nD) (t : Fin cfg3.N) :
    (Rg.dat3 V c).flushed 3 t
      = ((cfg3.win 3).blk t).view.read (Elt Ideal) (G3 (V c main_v14) (V c main_v43) (V c main_v45)) := by
  show (cfg3.win 3).cut (grid3.coords t) ((Rg.dat3 V c).after 3 t) = _
  rw [Rg.after3_3]
  unfold Rg.out3_3
  rw [View.canon_unit_zero hz3]
  simp only [View.ld_unit_zero (S := S2000x256) hz3, View.ld_unit_zero (S := S256x512) hz3, View.ld_unit_zero (S := S1x512) hz3]
  obtain ⟨e0, e1, e2, e3, e4, e5, e6, e7⟩ := idx_facts3 t
  funext j
  obtain ⟨p, q, rfl⟩ : ∃ (p : Fin 2000) (q : Fin 512), j = ix2 p q := ⟨j 0, j 1, eq_ix2 j⟩
  show k3_pay1 (F := Ideal) (Rg.iblk3 V c 0 t) (Rg.iblk3 V c 1 t) (Rg.iblk3 V c 2 t) (ix2 p q)
    = G3 (V c main_v14) (V c main_v43) (V c main_v45) (((cfg3.win 3).blk t).view.emb (ix2 p q))
  refine pay3_eq_G (V c main_v14) (V c main_v43) (V c main_v45) (Rg.iblk3 V c 0 t) (Rg.iblk3 V c 1 t) (Rg.iblk3 V c 2 t)
    (((cfg3.win 3).blk t).view.emb (ix2 p q)) p q (fun k => ?_) (fun k => ?_) ?_
  · show V c main_v14 (((cfg3.win 0).blk t).view.emb (ix2 p k)) = V c main_v14 _
    refine congrArg (V c main_v14) (funext fun d => Fin.ext ?_)
    match d with
    | ⟨0, _⟩ => show win3_0.index t (0 : Fin 2) * 2000 + 1 * p.val = win3_3.index t (0 : Fin 2) * 2000 + 1 * p.val; omega
    | ⟨1, _⟩ => show win3_0.index t (1 : Fin 2) * 256 + 1 * k.val = k.val; omega
  · show V c main_v43 (((cfg3.win 1).blk t).view.emb (ix2 k q)) = V c main_v43 _
    refine congrArg (V c main_v43) (funext fun d => Fin.ext ?_)
    match d with
    | ⟨0, _⟩ => show win3_1.index t (0 : Fin 2) * 256 + 1 * k.val = k.val; omega
    | ⟨1, _⟩ => show win3_1.index t (1 : Fin 2) * 512 + 1 * q.val = win3_3.index t (1 : Fin 2) * 512 + 1 * q.val; omega
  · show V c main_v45 (((cfg3.win 2).blk t).view.emb (ix2 0 q)) = V c main_v45 _
    refine congrArg (V c main_v45) (funext fun d => Fin.ext ?_)
    match d with
    | ⟨0, _⟩ => show win3_2.index t (0 : Fin 2) * 1 + 1 * 0 = 0; omega
    | ⟨1, _⟩ => show win3_2.index t (1 : Fin 2) * 512 + 1 * q.val = win3_3.index t (1 : Fin 2) * 512 + 1 * q.val; omega

/-- An index of the array is in point `t`'s block iff each coordinate is in the block's range on its axis. -/
theorem mem_blk3 (t : Fin cfg3.N) (i : S200000x512.Idx) :
    i ∈ ((cfg3.win 3).blk t).view.set ↔ ∀ a : Fin 2, win3_3.index t a * S2000x512.size a ≤ (i a).val ∧ (i a).val < win3_3.index t a * S2000x512.size a + S2000x512.size a := by
  show i ∈ ((View.whole main_v46).slice (win3_3.rect t)).set ↔ _
  rw [View.set_slice_whole, Rect.mem_set_unit]
  exact Iff.rfl

/-- Every index of the array is in some point's block: row `r` is in row block `r / 2000`. -/
theorem cover3 (i : S200000x512.Idx) : ∃ t : Fin cfg3.N, (cfg3.win 3).flush t = true ∧ i ∈ ((cfg3.win 3).blk t).view.set := by
  have hi0 : (i 0).val < 200000 := (i 0).isLt
  have hi1 : (i 1).val < 512 := (i 1).isLt
  have hN : cfg3.N = 100 := N_3
  refine ⟨⟨(i 0).val / 2000, by rw [hN]; omega⟩, flush3_3 _, ?_⟩
  obtain ⟨e0, e1, e2, e3, e4, e5, e6, e7⟩ := idx_facts3 ⟨(i 0).val / 2000, by rw [hN]; omega⟩
  rw [mem_blk3]
  intro a
  match a with
  | ⟨0, _⟩ => show win3_3.index _ (0 : Fin 2) * 2000 ≤ (i 0).val ∧ (i 0).val < win3_3.index _ (0 : Fin 2) * 2000 + 2000; rw [e6]; show (i 0).val / 2000 * 2000 ≤ (i 0).val ∧ (i 0).val < (i 0).val / 2000 * 2000 + 2000; omega
  | ⟨1, _⟩ => show win3_3.index _ (1 : Fin 2) * 512 ≤ (i 1).val ∧ (i 1).val < win3_3.index _ (1 : Fin 2) * 512 + 512; rw [e7]; omega

/-- The array the region leaves in its output window: `a · b + bias` of the arrays it found, entry by entry. -/
theorem final3 (c : Dev nD) :
    (Rg.dat3 V c).arrAt 3 cfg3.N = G3 (V c main_v14) (V c main_v43) (V c main_v45) :=
  (Rg.dat3 V c).arrAt_eq_of_cover 3 (G3 (V c main_v14) (V c main_v43) (V c main_v45))
    (fun t _ => flushed3_eq V c t) cover3

end Cert.KernelIdeal.Val

end
-- ==== Proof.KI.Value5.lean ====
import proofs.«149463_j13572096656012_1_alg».proof.Proof.KI.Region5
import Idealize.ShloMosaic.Lib.Pipeline.Value
import Idealize.ShloMosaic.Lib.ValueIdx
import Idealize.ShloMosaic.PureOps.Ideal.Laws

/-!
# Region 5: the array it leaves, as one function of the arrays it found

The region computes `out = a · b + bias` over blocks of 2000 rows of `a` ([20000, 256]) against the whole of `b`
([256, 1024]) and the bias row ([1, 1024]).  At the exact values every entry of the result is
`out[r, q] = (∑ k, a[r, k] · b[k, q]) + bias[0, q]`: an entry of a block product only reads row `r` of the left block
and column `q` of `b`, the row blocks tile the rows of `a` (row `r` lies in block `r / 2000` at offset `r % 2000`), and
every point writes its own block back, so the 10 write-backs together leave that one function of the three arrays.
-/

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- `out[r, q] = (∑ k, a[r, k] · b[k, q]) + bias[0, q]`, entry by entry, over the whole arrays. -/
abbrev G5 (a : S20000x256.Idx → EReal) (b : S256x1024.Idx → EReal) (bias : S1x1024.Idx → EReal) : S20000x1024.Idx → EReal :=
  fun i => (∑ k : Fin 256, a (ix2 (i 0 : Fin 20000) k) * b (ix2 k (i 1 : Fin 1024))) + bias (ix2 (0 : Fin 1) (i 1 : Fin 1024))

/-! ## One entry of a block product plus the bias row -/

/-- The product's left operand at output entry `(p, q)` and contraction index `k` is read in row `p`, -/
theorem mm5_lhs_row (j : S2000x1024.Idx) (k : dot_S2000x256_S256x1024_S2000x1024_1_0_0_1_n_n.contr.Idx) :
    (dot_S2000x256_S256x1024_S2000x1024_1_0_0_1_n_n.lhsIdx j k 0).val = (j 0).val := by
  unfold DotDims.lhsIdx
  rw [dif_neg (show ¬(0 : Fin S2000x256.rank) ∈ dot_S2000x256_S256x1024_S2000x1024_1_0_0_1_n_n.lhsBatch by decide),
    dif_pos (show (0 : Fin S2000x256.rank) ∈ dot_S2000x256_S256x1024_S2000x1024_1_0_0_1_n_n.lhsNonContracting by decide)]
  rfl

/-- and the right operand in column `q`. -/
theorem mm5_rhs_col (j : S2000x1024.Idx) (k : dot_S2000x256_S256x1024_S2000x1024_1_0_0_1_n_n.contr.Idx) :
    (dot_S2000x256_S256x1024_S2000x1024_1_0_0_1_n_n.rhsIdx j k 1).val = (j 1).val := by
  unfold DotDims.rhsIdx
  rw [dif_neg (show ¬(1 : Fin S256x1024.rank) ∈ dot_S2000x256_S256x1024_S2000x1024_1_0_0_1_n_n.rhsBatch by decide),
    dif_pos (show (1 : Fin S256x1024.rank) ∈ dot_S2000x256_S256x1024_S2000x1024_1_0_0_1_n_n.rhsNonContracting by decide)]
  rfl

/-- The block product into the zero accumulator, at entry `(p, q)`: the sum over the 256 contraction indices of
    row `p` of the left block times column `q` of the right one (the contraction shape has one axis: the sum over
    it is re-indexed by its one coordinate). -/
theorem mm5_apply (a : FVec Ideal S2000x256 .bf16) (b : FVec Ideal S256x1024 .bf16) (p : Fin 2000) (q : Fin 1024) :
    matmul dot_S2000x256_S256x1024_S2000x1024_1_0_0_1_n_n none a b (constant (F := Ideal) S2000x1024 .f32 0x00000000#32) (ix2 p q)
      = ∑ k : Fin 256, a (ix2 p k) * b (ix2 k q) := by
  simp only [matmul]
  rw [Ideal.matmul_constant_zero_apply,
    ← Equiv.sum_comp (contrEquiv1 dot_S2000x256_S256x1024_S2000x1024_1_0_0_1_n_n 256 rfl rfl).symm]
  refine Finset.sum_congr rfl fun k _ => ?_
  have hk := contrEquiv1_symm_val dot_S2000x256_S256x1024_S2000x1024_1_0_0_1_n_n 256 rfl rfl k
  have el : dot_S2000x256_S256x1024_S2000x1024_1_0_0_1_n_n.lhsIdx (ix2 p q)
      ((contrEquiv1 dot_S2000x256_S256x1024_S2000x1024_1_0_0_1_n_n 256 rfl rfl).symm k) = ix2 p k :=
    funext fun d => Fin.ext (by
      match d with
      | ⟨0, _⟩ => exact mm5_lhs_row _ _
      | ⟨1, _⟩ => exact (dot_S2000x256_S256x1024_S2000x1024_1_0_0_1_n_n.lhsIdx_val_of_single rfl _ _).trans hk)
  have er : dot_S2000x256_S256x1024_S2000x1024_1_0_0_1_n_n.rhsIdx (ix2 p q)
      ((contrEquiv1 dot_S2000x256_S256x1024_S2000x1024_1_0_0_1_n_n 256 rfl rfl).symm k) = ix2 k q :=
    funext fun d => Fin.ext (by
      match d with
      | ⟨0, _⟩ => exact (dot_S2000x256_S256x1024_S2000x1024_1_0_0_1_n_n.rhsIdx_val_of_single rfl _ _).trans hk
      | ⟨1, _⟩ => exact mm5_rhs_col _ _)
  rw [el, er]

/-- The bias row broadcast down the 2000 rows, at entry `(p, q)`: the row's entry `q`. -/
theorem bias5_apply (r : S1x1024.Idx → EReal) (p : Fin 2000) (q : Fin 1024) :
    broadcastTo S2000x1024 r broadcasts_S1x1024_S2000x1024 (ix2 p q) = r (ix2 0 q) :=
  broadcastTo_apply r broadcasts_S1x1024_S2000x1024 (ix2 p q) (ix2 0 q) (fun d => match d with
    | ⟨0, _⟩ => by show 0 = if (1 : Nat) = 1 then 0 else _; rw [if_pos rfl]
    | ⟨1, _⟩ => by show q.val = if (1024 : Nat) = 1 then 0 else q.val; rw [if_neg (by decide)])

/-- What the body stores, at entry `(p, q)` of the block: row `p` of the left block times column `q` of the
    right one, plus the bias row's entry `q`. -/
theorem pay5_apply (x0 : Vec Ideal S2000x256 .bf16) (x1 : Vec Ideal S256x1024 .bf16) (x2 : Vec Ideal S1x1024 .f32)
    (p : Fin 2000) (q : Fin 1024) :
    k5_pay1 (F := Ideal) x0 x1 x2 (ix2 p q) = (∑ k : Fin 256, (x0 (ix2 p k) : EReal) * x1 (ix2 k q)) + x2 (ix2 0 q) := by
  unfold k5_pay1
  simp only [shapeCast_self]
  refine (addf_apply _ _ (ix2 p q)).trans ?_
  exact congrArg₂ (· + ·) (mm5_apply x0 x1 p q) (bias5_apply x2 p q)

/-- So a stored entry is the function's value at an array index `i`, as soon as row `p` of the left block is row
    `i 0` of `a`, column `q` of the right block is column `i 1` of `b`, and the bias block's entry `q` is
    the bias row's entry `i 1`. -/
theorem pay5_eq_G (A : S20000x256.Idx → EReal) (B : S256x1024.Idx → EReal) (R : S1x1024.Idx → EReal)
    (x0 : Vec Ideal S2000x256 .bf16) (x1 : Vec Ideal S256x1024 .bf16) (x2 : Vec Ideal S1x1024 .f32)
    (i : S20000x1024.Idx) (p : Fin 2000) (q : Fin 1024)
    (h0 : ∀ k : Fin 256, x0 (ix2 p k) = A (ix2 (i 0 : Fin 20000) k))
    (h1 : ∀ k : Fin 256, x1 (ix2 k q) = B (ix2 k (i 1 : Fin 1024)))
    (h2 : x2 (ix2 0 q) = R (ix2 (0 : Fin 1) (i 1 : Fin 1024))) :
    k5_pay1 (F := Ideal) x0 x1 x2 (ix2 p q) = G5 A B R i := by
  refine (pay5_apply x0 x1 x2 p q).trans ?_
  exact congrArg₂ (· + ·) (Finset.sum_congr rfl fun k _ => congrArg₂ (· * ·) (h0 k) (h1 k)) h2

/-! ## From blocks to the array -/

variable (V : (c : Dev nD) → (b : Ref sig .tc) → Buf (Elt Ideal) ((c : Thread nD τ).loc b))

theorem hz5 : (![0, 0] : Fin 2 → Nat) = fun _ => 0 := funext fun a => by fin_cases a <;> rfl

/-- The printed index maps, decided over the grid: at point `t` the left operand's and the output's blocks are
    row block `t`; the right operand and the bias row are always their one block. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is block `t` of the function of the arrays as the region finds them: an element of
    a block sits, on each axis, at block index × block size + its coordinate inside the block. -/
theorem flushed5_eq (c : Dev nD) (t : Fin cfg5.N) :
    (Rg.dat5 V c).flushed 3 t
      = ((cfg5.win 3).blk t).view.read (Elt Ideal) (G5 (V c main_v119) (V c main_v117) (V c main_v120)) := by
  show (cfg5.win 3).cut (grid5.coords t) ((Rg.dat5 V c).after 3 t) = _
  rw [Rg.after5_3]
  unfold Rg.out5_3
  rw [View.canon_unit_zero hz5]
  simp only [View.ld_unit_zero (S := S2000x256) hz5, View.ld_unit_zero (S := S256x1024) hz5, View.ld_unit_zero (S := S1x1024) hz5]
  obtain ⟨e0, e1, e2, e3, e4, e5, e6, e7⟩ := idx_facts5 t
  funext j
  obtain ⟨p, q, rfl⟩ : ∃ (p : Fin 2000) (q : Fin 1024), j = ix2 p q := ⟨j 0, j 1, eq_ix2 j⟩
  show k5_pay1 (F := Ideal) (Rg.iblk5 V c 0 t) (Rg.iblk5 V c 1 t) (Rg.iblk5 V c 2 t) (ix2 p q)
    = G5 (V c main_v119) (V c main_v117) (V c main_v120) (((cfg5.win 3).blk t).view.emb (ix2 p q))
  refine pay5_eq_G (V c main_v119) (V c main_v117) (V c main_v120) (Rg.iblk5 V c 0 t) (Rg.iblk5 V c 1 t) (Rg.iblk5 V c 2 t)
    (((cfg5.win 3).blk t).view.emb (ix2 p q)) p q (fun k => ?_) (fun k => ?_) ?_
  · show V c main_v119 (((cfg5.win 0).blk t).view.emb (ix2 p k)) = V c main_v119 _
    refine congrArg (V c main_v119) (funext fun d => Fin.ext ?_)
    match d with
    | ⟨0, _⟩ => show win5_0.index t (0 : Fin 2) * 2000 + 1 * p.val = win5_3.index t (0 : Fin 2) * 2000 + 1 * p.val; omega
    | ⟨1, _⟩ => show win5_0.index t (1 : Fin 2) * 256 + 1 * k.val = k.val; omega
  · show V c main_v117 (((cfg5.win 1).blk t).view.emb (ix2 k q)) = V c main_v117 _
    refine congrArg (V c main_v117) (funext fun d => Fin.ext ?_)
    match d with
    | ⟨0, _⟩ => show win5_1.index t (0 : Fin 2) * 256 + 1 * k.val = k.val; omega
    | ⟨1, _⟩ => show win5_1.index t (1 : Fin 2) * 1024 + 1 * q.val = win5_3.index t (1 : Fin 2) * 1024 + 1 * q.val; omega
  · show V c main_v120 (((cfg5.win 2).blk t).view.emb (ix2 0 q)) = V c main_v120 _
    refine congrArg (V c main_v120) (funext fun d => Fin.ext ?_)
    match d with
    | ⟨0, _⟩ => show win5_2.index t (0 : Fin 2) * 1 + 1 * 0 = 0; omega
    | ⟨1, _⟩ => show win5_2.index t (1 : Fin 2) * 1024 + 1 * q.val = win5_3.index t (1 : Fin 2) * 1024 + 1 * q.val; omega

/-- An index of the array is in point `t`'s block iff each coordinate is in the block's range on its axis. -/
theorem mem_blk5 (t : Fin cfg5.N) (i : S20000x1024.Idx) :
    i ∈ ((cfg5.win 3).blk t).view.set ↔ ∀ a : Fin 2, win5_3.index t a * S2000x1024.size a ≤ (i a).val ∧ (i a).val < win5_3.index t a * S2000x1024.size a + S2000x1024.size a := by
  show i ∈ ((View.whole main_v121).slice (win5_3.rect t)).set ↔ _
  rw [View.set_slice_whole, Rect.mem_set_unit]
  exact Iff.rfl

/-- Every index of the array is in some point's block: row `r` is in row block `r / 2000`. -/
theorem cover5 (i : S20000x1024.Idx) : ∃ t : Fin cfg5.N, (cfg5.win 3).flush t = true ∧ i ∈ ((cfg5.win 3).blk t).view.set := by
  have hi0 : (i 0).val < 20000 := (i 0).isLt
  have hi1 : (i 1).val < 1024 := (i 1).isLt
  have hN : cfg5.N = 10 := N_5
  refine ⟨⟨(i 0).val / 2000, by rw [hN]; omega⟩, flush5_3 _, ?_⟩
  obtain ⟨e0, e1, e2, e3, e4, e5, e6, e7⟩ := idx_facts5 ⟨(i 0).val / 2000, by rw [hN]; omega⟩
  rw [mem_blk5]
  intro a
  match a with
  | ⟨0, _⟩ => show win5_3.index _ (0 : Fin 2) * 2000 ≤ (i 0).val ∧ (i 0).val < win5_3.index _ (0 : Fin 2) * 2000 + 2000; rw [e6]; show (i 0).val / 2000 * 2000 ≤ (i 0).val ∧ (i 0).val < (i 0).val / 2000 * 2000 + 2000; omega
  | ⟨1, _⟩ => show win5_3.index _ (1 : Fin 2) * 1024 ≤ (i 1).val ∧ (i 1).val < win5_3.index _ (1 : Fin 2) * 1024 + 1024; rw [e7]; omega

/-- The array the region leaves in its output window: `a · b + bias` of the arrays it found, entry by entry. -/
theorem final5 (c : Dev nD) :
    (Rg.dat5 V c).arrAt 3 cfg5.N = G5 (V c main_v119) (V c main_v117) (V c main_v120) :=
  (Rg.dat5 V c).arrAt_eq_of_cover 3 (G5 (V c main_v119) (V c main_v117) (V c main_v120))
    (fun t _ => flushed5_eq V c t) cover5

end Cert.KernelIdeal.Val

end
-- ==== Proof.KI.Value6.lean ====
import proofs.«149463_j13572096656012_1_alg».proof.Proof.KI.Region6
import Idealize.ShloMosaic.Lib.Pipeline.Value
import Idealize.ShloMosaic.Lib.ValueIdx
import Idealize.ShloMosaic.PureOps.Ideal.Laws

/-!
# Region 6: the array it leaves, as one function of the arrays it found

The region computes `out = a · b + bias` over blocks of 2000 rows of `a` ([200000, 256]) against the whole of `b`
([256, 512]) and the bias row ([1, 512]).  At the exact values every entry of the result is
`out[r, q] = (∑ k, a[r, k] · b[k, q]) + bias[0, q]`: an entry of a block product only reads row `r` of the left block
and column `q` of `b`, the row blocks tile the rows of `a` (row `r` lies in block `r / 2000` at offset `r % 2000`), and
every point writes its own block back, so the 100 write-backs together leave that one function of the three arrays.
-/

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- `out[r, q] = (∑ k, a[r, k] · b[k, q]) + bias[0, q]`, entry by entry, over the whole arrays. -/
abbrev G6 (a : S200000x256.Idx → EReal) (b : S256x512.Idx → EReal) (bias : S1x512.Idx → EReal) : S200000x512.Idx → EReal :=
  fun i => (∑ k : Fin 256, a (ix2 (i 0 : Fin 200000) k) * b (ix2 k (i 1 : Fin 512))) + bias (ix2 (0 : Fin 1) (i 1 : Fin 512))

/-! ## One entry of a block product plus the bias row -/

/-- The product's left operand at output entry `(p, q)` and contraction index `k` is read in row `p`, -/
theorem mm6_lhs_row (j : S2000x512.Idx) (k : dot_S2000x256_S256x512_S2000x512_1_0_0_1_n_n.contr.Idx) :
    (dot_S2000x256_S256x512_S2000x512_1_0_0_1_n_n.lhsIdx j k 0).val = (j 0).val := by
  unfold DotDims.lhsIdx
  rw [dif_neg (show ¬(0 : Fin S2000x256.rank) ∈ dot_S2000x256_S256x512_S2000x512_1_0_0_1_n_n.lhsBatch by decide),
    dif_pos (show (0 : Fin S2000x256.rank) ∈ dot_S2000x256_S256x512_S2000x512_1_0_0_1_n_n.lhsNonContracting by decide)]
  rfl

/-- and the right operand in column `q`. -/
theorem mm6_rhs_col (j : S2000x512.Idx) (k : dot_S2000x256_S256x512_S2000x512_1_0_0_1_n_n.contr.Idx) :
    (dot_S2000x256_S256x512_S2000x512_1_0_0_1_n_n.rhsIdx j k 1).val = (j 1).val := by
  unfold DotDims.rhsIdx
  rw [dif_neg (show ¬(1 : Fin S256x512.rank) ∈ dot_S2000x256_S256x512_S2000x512_1_0_0_1_n_n.rhsBatch by decide),
    dif_pos (show (1 : Fin S256x512.rank) ∈ dot_S2000x256_S256x512_S2000x512_1_0_0_1_n_n.rhsNonContracting by decide)]
  rfl

/-- The block product into the zero accumulator, at entry `(p, q)`: the sum over the 256 contraction indices of
    row `p` of the left block times column `q` of the right one (the contraction shape has one axis: the sum over
    it is re-indexed by its one coordinate). -/
theorem mm6_apply (a : FVec Ideal S2000x256 .bf16) (b : FVec Ideal S256x512 .bf16) (p : Fin 2000) (q : Fin 512) :
    matmul dot_S2000x256_S256x512_S2000x512_1_0_0_1_n_n none a b (constant (F := Ideal) S2000x512 .f32 0x00000000#32) (ix2 p q)
      = ∑ k : Fin 256, a (ix2 p k) * b (ix2 k q) := by
  simp only [matmul]
  rw [Ideal.matmul_constant_zero_apply,
    ← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 p q)
      ((contrEquiv1 dot_S2000x256_S256x512_S2000x512_1_0_0_1_n_n 256 rfl rfl).symm k) = ix2 p k :=
    funext fun d => Fin.ext (by
      match d with
      | ⟨0, _⟩ => exact mm6_lhs_row _ _
      | ⟨1, _⟩ => exact (dot_S2000x256_S256x512_S2000x512_1_0_0_1_n_n.lhsIdx_val_of_single rfl _ _).trans hk)
  have er : dot_S2000x256_S256x512_S2000x512_1_0_0_1_n_n.rhsIdx (ix2 p q)
      ((contrEquiv1 dot_S2000x256_S256x512_S2000x512_1_0_0_1_n_n 256 rfl rfl).symm k) = ix2 k q :=
    funext fun d => Fin.ext (by
      match d with
      | ⟨0, _⟩ => exact (dot_S2000x256_S256x512_S2000x512_1_0_0_1_n_n.rhsIdx_val_of_single rfl _ _).trans hk
      | ⟨1, _⟩ => exact mm6_rhs_col _ _)
  rw [el, er]

/-- The bias row broadcast down the 2000 rows, at entry `(p, q)`: the row's entry `q`. -/
theorem bias6_apply (r : S1x512.Idx → EReal) (p : Fin 2000) (q : Fin 512) :
    broadcastTo S2000x512 r broadcasts_S1x512_S2000x512 (ix2 p q) = r (ix2 0 q) :=
  broadcastTo_apply r broadcasts_S1x512_S2000x512 (ix2 p q) (ix2 0 q) (fun d => match d with
    | ⟨0, _⟩ => by show 0 = if (1 : Nat) = 1 then 0 else _; rw [if_pos rfl]
    | ⟨1, _⟩ => by show q.val = if (512 : Nat) = 1 then 0 else q.val; rw [if_neg (by decide)])

/-- What the body stores, at entry `(p, q)` of the block: row `p` of the left block times column `q` of the
    right one, plus the bias row's entry `q`. -/
theorem pay6_apply (x0 : Vec Ideal S2000x256 .bf16) (x1 : Vec Ideal S256x512 .bf16) (x2 : Vec Ideal S1x512 .f32)
    (p : Fin 2000) (q : Fin 512) :
    k6_pay1 (F := Ideal) x0 x1 x2 (ix2 p q) = (∑ k : Fin 256, (x0 (ix2 p k) : EReal) * x1 (ix2 k q)) + x2 (ix2 0 q) := by
  unfold k6_pay1
  simp only [shapeCast_self]
  refine (addf_apply _ _ (ix2 p q)).trans ?_
  exact congrArg₂ (· + ·) (mm6_apply x0 x1 p q) (bias6_apply x2 p q)

/-- So a stored entry is the function's value at an array index `i`, as soon as row `p` of the left block is row
    `i 0` of `a`, column `q` of the right block is column `i 1` of `b`, and the bias block's entry `q` is
    the bias row's entry `i 1`. -/
theorem pay6_eq_G (A : S200000x256.Idx → EReal) (B : S256x512.Idx → EReal) (R : S1x512.Idx → EReal)
    (x0 : Vec Ideal S2000x256 .bf16) (x1 : Vec Ideal S256x512 .bf16) (x2 : Vec Ideal S1x512 .f32)
    (i : S200000x512.Idx) (p : Fin 2000) (q : Fin 512)
    (h0 : ∀ k : Fin 256, x0 (ix2 p k) = A (ix2 (i 0 : Fin 200000) k))
    (h1 : ∀ k : Fin 256, x1 (ix2 k q) = B (ix2 k (i 1 : Fin 512)))
    (h2 : x2 (ix2 0 q) = R (ix2 (0 : Fin 1) (i 1 : Fin 512))) :
    k6_pay1 (F := Ideal) x0 x1 x2 (ix2 p q) = G6 A B R i := by
  refine (pay6_apply x0 x1 x2 p q).trans ?_
  exact congrArg₂ (· + ·) (Finset.sum_congr rfl fun k _ => congrArg₂ (· * ·) (h0 k) (h1 k)) h2

/-! ## From blocks to the array -/

variable (V : (c : Dev nD) → (b : Ref sig .tc) → Buf (Elt Ideal) ((c : Thread nD τ).loc b))

theorem hz6 : (![0, 0] : Fin 2 → Nat) = fun _ => 0 := funext fun a => by fin_cases a <;> rfl

/-- The printed index maps, decided over the grid: at point `t` the left operand's and the output's blocks are
    row block `t`; the right operand and the bias row are always their one block. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of the function of the arrays as the region finds them: an element of
    a block sits, on each axis, at block index × block size + its coordinate inside the block. -/
theorem flushed6_eq (c : Dev nD) (t : Fin cfg6.N) :
    (Rg.dat6 V c).flushed 3 t
      = ((cfg6.win 3).blk t).view.read (Elt Ideal) (G6 (V c main_v14) (V c main_v124) (V c main_v126)) := by
  show (cfg6.win 3).cut (grid6.coords t) ((Rg.dat6 V c).after 3 t) = _
  rw [Rg.after6_3]
  unfold Rg.out6_3
  rw [View.canon_unit_zero hz6]
  simp only [View.ld_unit_zero (S := S2000x256) hz6, View.ld_unit_zero (S := S256x512) hz6, View.ld_unit_zero (S := S1x512) hz6]
  obtain ⟨e0, e1, e2, e3, e4, e5, e6, e7⟩ := idx_facts6 t
  funext j
  obtain ⟨p, q, rfl⟩ : ∃ (p : Fin 2000) (q : Fin 512), j = ix2 p q := ⟨j 0, j 1, eq_ix2 j⟩
  show k6_pay1 (F := Ideal) (Rg.iblk6 V c 0 t) (Rg.iblk6 V c 1 t) (Rg.iblk6 V c 2 t) (ix2 p q)
    = G6 (V c main_v14) (V c main_v124) (V c main_v126) (((cfg6.win 3).blk t).view.emb (ix2 p q))
  refine pay6_eq_G (V c main_v14) (V c main_v124) (V c main_v126) (Rg.iblk6 V c 0 t) (Rg.iblk6 V c 1 t) (Rg.iblk6 V c 2 t)
    (((cfg6.win 3).blk t).view.emb (ix2 p q)) p q (fun k => ?_) (fun k => ?_) ?_
  · show V c main_v14 (((cfg6.win 0).blk t).view.emb (ix2 p k)) = V c main_v14 _
    refine congrArg (V c main_v14) (funext fun d => Fin.ext ?_)
    match d with
    | ⟨0, _⟩ => show win6_0.index t (0 : Fin 2) * 2000 + 1 * p.val = win6_3.index t (0 : Fin 2) * 2000 + 1 * p.val; omega
    | ⟨1, _⟩ => show win6_0.index t (1 : Fin 2) * 256 + 1 * k.val = k.val; omega
  · show V c main_v124 (((cfg6.win 1).blk t).view.emb (ix2 k q)) = V c main_v124 _
    refine congrArg (V c main_v124) (funext fun d => Fin.ext ?_)
    match d with
    | ⟨0, _⟩ => show win6_1.index t (0 : Fin 2) * 256 + 1 * k.val = k.val; omega
    | ⟨1, _⟩ => show win6_1.index t (1 : Fin 2) * 512 + 1 * q.val = win6_3.index t (1 : Fin 2) * 512 + 1 * q.val; omega
  · show V c main_v126 (((cfg6.win 2).blk t).view.emb (ix2 0 q)) = V c main_v126 _
    refine congrArg (V c main_v126) (funext fun d => Fin.ext ?_)
    match d with
    | ⟨0, _⟩ => show win6_2.index t (0 : Fin 2) * 1 + 1 * 0 = 0; omega
    | ⟨1, _⟩ => show win6_2.index t (1 : Fin 2) * 512 + 1 * q.val = win6_3.index t (1 : Fin 2) * 512 + 1 * q.val; omega

/-- An index of the array is in point `t`'s block iff each coordinate is in the block's range on its axis. -/
theorem mem_blk6 (t : Fin cfg6.N) (i : S200000x512.Idx) :
    i ∈ ((cfg6.win 3).blk t).view.set ↔ ∀ a : Fin 2, win6_3.index t a * S2000x512.size a ≤ (i a).val ∧ (i a).val < win6_3.index t a * S2000x512.size a + S2000x512.size a := by
  show i ∈ ((View.whole main_v127).slice (win6_3.rect t)).set ↔ _
  rw [View.set_slice_whole, Rect.mem_set_unit]
  exact Iff.rfl

/-- Every index of the array is in some point's block: row `r` is in row block `r / 2000`. -/
theorem cover6 (i : S200000x512.Idx) : ∃ t : Fin cfg6.N, (cfg6.win 3).flush t = true ∧ i ∈ ((cfg6.win 3).blk t).view.set := by
  have hi0 : (i 0).val < 200000 := (i 0).isLt
  have hi1 : (i 1).val < 512 := (i 1).isLt
  have hN : cfg6.N = 100 := N_6
  refine ⟨⟨(i 0).val / 2000, by rw [hN]; omega⟩, flush6_3 _, ?_⟩
  obtain ⟨e0, e1, e2, e3, e4, e5, e6, e7⟩ := idx_facts6 ⟨(i 0).val / 2000, by rw [hN]; omega⟩
  rw [mem_blk6]
  intro a
  match a with
  | ⟨0, _⟩ => show win6_3.index _ (0 : Fin 2) * 2000 ≤ (i 0).val ∧ (i 0).val < win6_3.index _ (0 : Fin 2) * 2000 + 2000; rw [e6]; show (i 0).val / 2000 * 2000 ≤ (i 0).val ∧ (i 0).val < (i 0).val / 2000 * 2000 + 2000; omega
  | ⟨1, _⟩ => show win6_3.index _ (1 : Fin 2) * 512 ≤ (i 1).val ∧ (i 1).val < win6_3.index _ (1 : Fin 2) * 512 + 512; rw [e7]; omega

/-- The array the region leaves in its output window: `a · b + bias` of the arrays it found, entry by entry. -/
theorem final6 (c : Dev nD) :
    (Rg.dat6 V c).arrAt 3 cfg6.N = G6 (V c main_v14) (V c main_v124) (V c main_v126) :=
  (Rg.dat6 V c).arrAt_eq_of_cover 3 (G6 (V c main_v14) (V c main_v124) (V c main_v126))
    (fun t _ => flushed6_eq V c t) cover6

end Cert.KernelIdeal.Val

end
-- ==== Proof.Spec.Dense.lean ====
import Idealize.ShloMosaic.Lib.ValueIdx

/-! The dense layer as one function of arrays: `out = x · wᵀ + b`, entry by entry.

`out[n, q] = (∑ k, x[n, k] · w[q, k]) + b[q]` for an input `x` of `M` rows and `K` columns, a weight `w` of `N` rows and `K`
columns and a bias vector `b` of `N` entries, over the extended reals. Both programs' embeddings are stated as this function
of their arguments. -/

noncomputable section

namespace Cert.Spec

open Idealize.ShloMosaic Idealize.ShloMosaic.ValueIdx

/-- `x · wᵀ + b`, entry by entry. -/
abbrev denseT (M K N : Nat) (x : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => (∑ k : Fin K, x (ix2 (i 0 : Fin M) k) * w (ix2 (i 1 : Fin N) k)) + b (ix1 (i 1 : Fin N))

end Cert.Spec

end
-- ==== Proof.Ref.EmbAt.lean ====
import proofs.«149463_j13572096656012_1_alg».proof.Proof.Ref.Stages
import proofs.«149463_j13572096656012_1_alg».proof.Proof.Spec.Dense
import Idealize.ShloMosaic.Lib.Pipeline.Value
import Idealize.ShloMosaic.Lib.ValueIdx
import Idealize.ShloMosaic.Lib.ValueLayout
import Idealize.ShloMosaic.PureOps.Ideal.Laws

/-! The reference's two embeddings read entry by entry: each is the dense layer `x · wᵀ + b` of its arguments. -/

noncomputable section

namespace Cert.Bridge.Ref

open Cert.Bridge Cert.ReferenceIdeal Cert.ReferenceIdeal.Gen Idealize.ShloMosaic Idealize.ShloMosaic.TcCoe Idealize.SL.Sem
open Idealize.ShloMosaic.ValueIdx

/-! ## The node embedding -/

/-- The product's left operand at output entry `(n, q)` and contraction index `k` is read in row `n`, -/
theorem nodeEmb_lhs_row (j : S20000x256.Idx) (k : dot_S20000x256_S256x256_S20000x256_1_0_0_1_n_n.contr.Idx) : (dot_S20000x256_S256x256_S20000x256_1_0_0_1_n_n.lhsIdx j k 0).val = (j 0).val := by
  unfold DotDims.lhsIdx
  rw [dif_neg (show ¬(0 : Fin S20000x256.rank) ∈ dot_S20000x256_S256x256_S20000x256_1_0_0_1_n_n.lhsBatch by decide),
    dif_pos (show (0 : Fin S20000x256.rank) ∈ dot_S20000x256_S256x256_S20000x256_1_0_0_1_n_n.lhsNonContracting by decide)]
  rfl
/-- and the right operand in column `q`. -/
theorem nodeEmb_rhs_col (j : S20000x256.Idx) (k : dot_S20000x256_S256x256_S20000x256_1_0_0_1_n_n.contr.Idx) : (dot_S20000x256_S256x256_S20000x256_1_0_0_1_n_n.rhsIdx j k 1).val = (j 1).val := by
  unfold DotDims.rhsIdx
  rw [dif_neg (show ¬(1 : Fin S256x256.rank) ∈ dot_S20000x256_S256x256_S20000x256_1_0_0_1_n_n.rhsBatch by decide),
    dif_pos (show (1 : Fin S256x256.rank) ∈ dot_S20000x256_S256x256_S20000x256_1_0_0_1_n_n.rhsNonContracting by decide)]
  rfl

/-- The host's product at entry `(n, q)`: the sum over the 256 contraction indices of row `n` of the left operand
    times column `q` of the right one. -/
theorem nodeEmb_dot_apply (x : FVec Ideal S20000x256 .f32) (y : FVec Ideal S256x256 .f32) (n : Fin 20000) (q : Fin 256) :
    Host.dotGeneral dot_S20000x256_S256x256_S20000x256_1_0_0_1_n_n none x y (ix2 n q) = ∑ k : Fin 256, x (ix2 n k) * y (ix2 k q) := by
  simp only [Host.dotGeneral]
  rw [Ideal.dotGeneral_apply, ← Equiv.sum_comp (contrEquiv1 dot_S20000x256_S256x256_S20000x256_1_0_0_1_n_n 256 rfl rfl).symm]
  refine Finset.sum_congr rfl fun k _ => ?_
  have hk := contrEquiv1_symm_val dot_S20000x256_S256x256_S20000x256_1_0_0_1_n_n 256 rfl rfl k
  have el : dot_S20000x256_S256x256_S20000x256_1_0_0_1_n_n.lhsIdx (ix2 n q) ((contrEquiv1 dot_S20000x256_S256x256_S20000x256_1_0_0_1_n_n 256 rfl rfl).symm k) = ix2 n k :=
    funext fun d => Fin.ext (by
      match d with
      | ⟨0, _⟩ => exact nodeEmb_lhs_row _ _
      | ⟨1, _⟩ => exact (dot_S20000x256_S256x256_S20000x256_1_0_0_1_n_n.lhsIdx_val_of_single rfl _ _).trans hk)
  have er : dot_S20000x256_S256x256_S20000x256_1_0_0_1_n_n.rhsIdx (ix2 n q) ((contrEquiv1 dot_S20000x256_S256x256_S20000x256_1_0_0_1_n_n 256 rfl rfl).symm k) = ix2 k q :=
    funext fun d => Fin.ext (by
      match d with
      | ⟨0, _⟩ => exact (dot_S20000x256_S256x256_S20000x256_1_0_0_1_n_n.rhsIdx_val_of_single rfl _ _).trans hk
      | ⟨1, _⟩ => exact nodeEmb_rhs_col _ _)
  rw [el, er]

/-- The reference's embedding is the dense layer of its arguments: the product against the transposed weight reads the
    weight's row `q`, and the bias vector broadcast to a row and then down the rows reads its entry `q`. -/
theorem nodeEmb_eq (x : FVec Ideal S20000x256 .f32) (w : FVec Ideal S256x256 .f32) (b : FVec Ideal S256 .f32) :
    nodeEmb (F := Ideal) x w b = Cert.Spec.denseT 20000 256 256 x w b := by
  funext i
  obtain ⟨n, q, rfl⟩ : ∃ (n : Fin 20000) (q : Fin 256), i = ix2 n q := ⟨i 0, i 1, eq_ix2 i⟩
  unfold nodeEmb
  refine (addf_apply _ _ (ix2 n q)).trans ?_
  refine congrArg₂ (fun (u v : EReal) => u + v) ?_ ?_
  · exact (nodeEmb_dot_apply x _ n q).trans
      (Finset.sum_congr rfl fun k _ => congrArg (fun v : EReal => x (ix2 n k) * v) (transpose_ix2_apply w transposes_S256x256_S256x256_1_0 k q))
  · refine (broadcastInDim_apply ![0, 1] bcast_S1x256_S20000x256_0_1 _ (ix2 n q) (ix2 (0 : Fin 1) q) (fun a => match a with
      | ⟨0, _⟩ => by show 0 = if (1 : Nat) = 1 then 0 else _; rw [if_pos rfl]
      | ⟨1, _⟩ => by show q.val = if (256 : Nat) = 1 then 0 else q.val; rw [if_neg (by decide)])).trans ?_
    exact broadcastInDim_apply ![1] bcast_S256_S1x256_1 b (ix2 (0 : Fin 1) q) (ix1 q) (fun a => match a with
      | ⟨0, _⟩ => by show q.val = if (256 : Nat) = 1 then 0 else q.val; rw [if_neg (by decide)])

/-! ## The edge embedding -/

/-- The product's left operand at output entry `(n, q)` and contraction index `k` is read in row `n`, -/
theorem edgeEmb_lhs_row (j : S200000x256.Idx) (k : dot_S200000x128_S128x256_S200000x256_1_0_0_1_n_n.contr.Idx) : (dot_S200000x128_S128x256_S200000x256_1_0_0_1_n_n.lhsIdx j k 0).val = (j 0).val := by
  unfold DotDims.lhsIdx
  rw [dif_neg (show ¬(0 : Fin S200000x128.rank) ∈ dot_S200000x128_S128x256_S200000x256_1_0_0_1_n_n.lhsBatch by decide),
    dif_pos (show (0 : Fin S200000x128.rank) ∈ dot_S200000x128_S128x256_S200000x256_1_0_0_1_n_n.lhsNonContracting by decide)]
  rfl
/-- and the right operand in column `q`. -/
theorem edgeEmb_rhs_col (j : S200000x256.Idx) (k : dot_S200000x128_S128x256_S200000x256_1_0_0_1_n_n.contr.Idx) : (dot_S200000x128_S128x256_S200000x256_1_0_0_1_n_n.rhsIdx j k 1).val = (j 1).val := by
  unfold DotDims.rhsIdx
  rw [dif_neg (show ¬(1 : Fin S128x256.rank) ∈ dot_S200000x128_S128x256_S200000x256_1_0_0_1_n_n.rhsBatch by decide),
    dif_pos (show (1 : Fin S128x256.rank) ∈ dot_S200000x128_S128x256_S200000x256_1_0_0_1_n_n.rhsNonContracting by decide)]
  rfl

/-- The host's product at entry `(n, q)`: the sum over the 128 contraction indices of row `n` of the left operand
    times column `q` of the right one. -/
theorem edgeEmb_dot_apply (x : FVec Ideal S200000x128 .f32) (y : FVec Ideal S128x256 .f32) (n : Fin 200000) (q : Fin 256) :
    Host.dotGeneral dot_S200000x128_S128x256_S200000x256_1_0_0_1_n_n none x y (ix2 n q) = ∑ k : Fin 128, x (ix2 n k) * y (ix2 k q) := by
  simp only [Host.dotGeneral]
  rw [Ideal.dotGeneral_apply, ← Equiv.sum_comp (contrEquiv1 dot_S200000x128_S128x256_S200000x256_1_0_0_1_n_n 128 rfl rfl).symm]
  refine Finset.sum_congr rfl fun k _ => ?_
  have hk := contrEquiv1_symm_val dot_S200000x128_S128x256_S200000x256_1_0_0_1_n_n 128 rfl rfl k
  have el : dot_S200000x128_S128x256_S200000x256_1_0_0_1_n_n.lhsIdx (ix2 n q) ((contrEquiv1 dot_S200000x128_S128x256_S200000x256_1_0_0_1_n_n 128 rfl rfl).symm k) = ix2 n k :=
    funext fun d => Fin.ext (by
      match d with
      | ⟨0, _⟩ => exact edgeEmb_lhs_row _ _
      | ⟨1, _⟩ => exact (dot_S200000x128_S128x256_S200000x256_1_0_0_1_n_n.lhsIdx_val_of_single rfl _ _).trans hk)
  have er : dot_S200000x128_S128x256_S200000x256_1_0_0_1_n_n.rhsIdx (ix2 n q) ((contrEquiv1 dot_S200000x128_S128x256_S200000x256_1_0_0_1_n_n 128 rfl rfl).symm k) = ix2 k q :=
    funext fun d => Fin.ext (by
      match d with
      | ⟨0, _⟩ => exact (dot_S200000x128_S128x256_S200000x256_1_0_0_1_n_n.rhsIdx_val_of_single rfl _ _).trans hk
      | ⟨1, _⟩ => exact edgeEmb_rhs_col _ _)
  rw [el, er]

/-- The reference's embedding is the dense layer of its arguments: the product against the transposed weight reads the
    weight's row `q`, and the bias vector broadcast to a row and then down the rows reads its entry `q`. -/
theorem edgeEmb_eq (x : FVec Ideal S200000x128 .f32) (w : FVec Ideal S256x128 .f32) (b : FVec Ideal S256 .f32) :
    edgeEmb (F := Ideal) x w b = Cert.Spec.denseT 200000 128 256 x w b := by
  funext i
  obtain ⟨n, q, rfl⟩ : ∃ (n : Fin 200000) (q : Fin 256), i = ix2 n q := ⟨i 0, i 1, eq_ix2 i⟩
  unfold edgeEmb
  refine (addf_apply _ _ (ix2 n q)).trans ?_
  refine congrArg₂ (fun (u v : EReal) => u + v) ?_ ?_
  · exact (edgeEmb_dot_apply x _ n q).trans
      (Finset.sum_congr rfl fun k _ => congrArg (fun v : EReal => x (ix2 n k) * v) (transpose_ix2_apply w transposes_S256x128_S128x256_1_0 k q))
  · refine (broadcastInDim_apply ![0, 1] bcast_S1x256_S200000x256_0_1 _ (ix2 n q) (ix2 (0 : Fin 1) q) (fun a => match a with
      | ⟨0, _⟩ => by show 0 = if (1 : Nat) = 1 then 0 else _; rw [if_pos rfl]
      | ⟨1, _⟩ => by show q.val = if (256 : Nat) = 1 then 0 else q.val; rw [if_neg (by decide)])).trans ?_
    exact broadcastInDim_apply ![1] bcast_S256_S1x256_1 b (ix2 (0 : Fin 1) q) (ix1 q) (fun a => match a with
      | ⟨0, _⟩ => by show q.val = if (256 : Nat) = 1 then 0 else q.val; rw [if_neg (by decide)])

end Cert.Bridge.Ref

end
-- ==== Proof.KI.StageDense.lean ====
import proofs.«149463_j13572096656012_1_alg».proof.Proof.KI.Run
import proofs.«149463_j13572096656012_1_alg».proof.Proof.KI.Value0
import proofs.«149463_j13572096656012_1_alg».proof.Proof.KI.Value1
import proofs.«149463_j13572096656012_1_alg».proof.Proof.KI.Value2
import proofs.«149463_j13572096656012_1_alg».proof.Proof.KI.Value3
import proofs.«149463_j13572096656012_1_alg».proof.Proof.KI.Value5
import proofs.«149463_j13572096656012_1_alg».proof.Proof.KI.Value6
import proofs.«149463_j13572096656012_1_alg».proof.Proof.Ref.EmbAt
import proofs.«149463_j13572096656012_1_alg».proof.Proof.Spec.Dense
import Idealize.ShloMosaic.Lib.Pipeline.Value
import Idealize.ShloMosaic.Lib.ValueIdx
import Idealize.ShloMosaic.Lib.ValueLayout
import Idealize.ShloMosaic.PureOps.Ideal.Laws

/-!
# The six product regions as functions of what feeds them

Each of the six regions leaves `a · b + bias` of the three arrays it finds. The host operations before a region make those
arrays out of earlier buffers: the left operand is an earlier array rounded to the narrow format (at the exact values, that
array); the right operand is a weight — or several bands of the stacked per-layer weights put one under the other —
transposed; the bias row is a bias vector, or all zero. Read entry by entry, at any contents `W` of the buffers before those
host operations:

* the two embeddings are the dense layer `x · wᵀ + b` of the arguments;
* a layer's node-side product has four bands of 256 columns: the layer's input against the target-node and source-node bands
  (columns `0 + k` and `256 + k`) of its two stacked weights;
* its edge-side product has two: the edge embedding against the edge bands (columns `512 + k`) of the two weights.
-/

set_option maxRecDepth 16384

noncomputable section

namespace Cert.KernelIdeal.Stage

open Cert.KernelIdeal Cert.KernelIdeal.Gen Idealize.ShloMosaic Idealize.ShloMosaic.TcCoe Idealize.SL.Sem
open Idealize.ShloMosaic.StableHlo
open Idealize.ShloMosaic.ValueIdx

variable (W : Valuation τ sig (Elt Ideal))

/-! ## The node embedding (region 0 after the first host operations) -/

/-- The left operand the region finds is the argument rounded to the narrow format: at the exact values, the argument. -/
theorem h0_lhs (x : S20000x256.Idx → EReal) (hx : x = W main_arg0) (n : Fin 20000) (k : Fin 256) :
    @Eq EReal ((StableHlo.after hostOps0 W main_v4 : S20000x256.Idx → EReal) (ix2 n k)) (x (ix2 n k)) := by
  have e : @Eq (S20000x256.Idx → EReal) (StableHlo.after hostOps0 W main_v4) (truncf (F := Ideal) .bf16 x bitsLt_bf16_f32) := by
    subst hx; dsimp only [hostOps0]; after_results; try rfl
  rw [e]; rfl

/-- The right operand is the weight transposed (then rounded): its entry `(k, q)` is the weight's `(q, k)`. -/
theorem h0_rhs (w : S256x256.Idx → EReal) (hw : w = W main_arg4) (k : Fin 256) (q : Fin 256) :
    @Eq EReal ((StableHlo.after hostOps0 W main_v6 : S256x256.Idx → EReal) (ix2 k q)) (w (ix2 q k)) := by
  have e : @Eq (S256x256.Idx → EReal) (StableHlo.after hostOps0 W main_v6)
      (truncf (F := Ideal) .bf16 (transpose S256x256 [1, 0] w transposes_S256x256_S256x256_1_0) bitsLt_bf16_f32) := by
    subst hw; dsimp only [hostOps0]; after_results; try rfl
  rw [e]
  exact transpose_ix2_apply w transposes_S256x256_S256x256_1_0 k q

/-- The bias row is the bias vector given a leading unit axis. -/
theorem h0_bias (b : S256.Idx → EReal) (hb : b = W main_arg5) (q : Fin 256) :
    @Eq EReal ((StableHlo.after hostOps0 W main_v7 : S1x256.Idx → EReal) (ix2 (0 : Fin 1) q)) (b (ix1 q)) := by
  have e : @Eq (S1x256.Idx → EReal) (StableHlo.after hostOps0 W main_v7) (shapeCast S1x256 b shapeCasts_S256_S1x256) := by
    subst hb; dsimp only [hostOps0]; after_results; try rfl
  rw [e]
  exact shapeCast_a_1a_apply b shapeCasts_S256_S1x256 0 q

/-- So the region's result is the dense layer `x · wᵀ + b` of the arguments the host operations before it read. -/
theorem h0_stage :
    Val.G0 (StableHlo.after hostOps0 W main_v4) (StableHlo.after hostOps0 W main_v6) (StableHlo.after hostOps0 W main_v7)
      = Cert.Spec.denseT 20000 256 256 (W main_arg0) (W main_arg4) (W main_arg5) := by
  funext i
  exact congrArg₂ (· + ·)
    (Finset.sum_congr rfl fun k _ => congrArg₂ (· * ·) (h0_lhs W _ rfl (i 0) k) (h0_rhs W _ rfl k (i 1)))
    (h0_bias W _ rfl (i 1))

/-! ## The edge embedding (region 1 after its host operations) -/

/-- The left operand the region finds is the argument rounded to the narrow format: at the exact values, the argument. -/
theorem e0_lhs (x : S200000x128.Idx → EReal) (hx : x = W main_arg2) (n : Fin 200000) (k : Fin 128) :
    @Eq EReal ((StableHlo.after hostOps1 W main_v9 : S200000x128.Idx → EReal) (ix2 n k)) (x (ix2 n k)) := by
  have e : @Eq (S200000x128.Idx → EReal) (StableHlo.after hostOps1 W main_v9) (truncf (F := Ideal) .bf16 x bitsLt_bf16_f32) := by
    subst hx; dsimp only [hostOps1]; after_results; try rfl
  rw [e]; rfl

/-- The right operand is the weight transposed (then rounded): its entry `(k, q)` is the weight's `(q, k)`. -/
theorem e0_rhs (w : S256x128.Idx → EReal) (hw : w = W main_arg6) (k : Fin 128) (q : Fin 256) :
    @Eq EReal ((StableHlo.after hostOps1 W main_v11 : S128x256.Idx → EReal) (ix2 k q)) (w (ix2 q k)) := by
  have e : @Eq (S128x256.Idx → EReal) (StableHlo.after hostOps1 W main_v11)
      (truncf (F := Ideal) .bf16 (transpose S128x256 [1, 0] w transposes_S256x128_S128x256_1_0) bitsLt_bf16_f32) := by
    subst hw; dsimp only [hostOps1]; after_results; try rfl
  rw [e]
  exact transpose_ix2_apply w transposes_S256x128_S128x256_1_0 k q

/-- The bias row is the bias vector given a leading unit axis. -/
theorem e0_bias (b : S256.Idx → EReal) (hb : b = W main_arg7) (q : Fin 256) :
    @Eq EReal ((StableHlo.after hostOps1 W main_v12 : S1x256.Idx → EReal) (ix2 (0 : Fin 1) q)) (b (ix1 q)) := by
  have e : @Eq (S1x256.Idx → EReal) (StableHlo.after hostOps1 W main_v12) (shapeCast S1x256 b shapeCasts_S256_S1x256) := by
    subst hb; dsimp only [hostOps1]; after_results; try rfl
  rw [e]
  exact shapeCast_a_1a_apply b shapeCasts_S256_S1x256 0 q

/-- So the region's result is the dense layer `x · wᵀ + b` of the arguments the host operations before it read. -/
theorem e0_stage :
    Val.G1 (StableHlo.after hostOps1 W main_v9) (StableHlo.after hostOps1 W main_v11) (StableHlo.after hostOps1 W main_v12)
      = Cert.Spec.denseT 200000 128 256 (W main_arg2) (W main_arg6) (W main_arg7) := by
  funext i
  exact congrArg₂ (· + ·)
    (Finset.sum_congr rfl fun k _ => congrArg₂ (· * ·) (e0_lhs W _ rfl (i 0) k) (e0_rhs W _ rfl k (i 1)))
    (e0_bias W _ rfl (i 1))

/-! ## The stacked weights read at an index -/

/-- Column `o + k` of a 768-column weight, for a band of 256 columns starting at `o`. -/
abbrev col768 (o : Nat) (ho : o + 256 ≤ 768) (k : Fin 256) : Fin 768 := ⟨o + k.val, by have := k.isLt; omega⟩

/-- Layer 0's [256, 768] weight out of the stacked [2, 256, 768] array, -/
abbrev slab0 (A : S2x256x768.Idx → EReal) : S256x768.Idx → EReal :=
  shapeCast S256x768 (extractStridedSlice S1x256x768 ![0, 0, 0] A slices_S2x256x768_S1x256x768_0_0_0) shapeCasts_S1x256x768_S256x768
/-- and layer 1's. -/
abbrev slab1 (A : S2x256x768.Idx → EReal) : S256x768.Idx → EReal :=
  shapeCast S256x768 (extractStridedSlice S1x256x768 ![1, 0, 0] A slices_S2x256x768_S1x256x768_1_0_0) shapeCasts_S1x256x768_S256x768
/-- The three bands of 256 columns of a [256, 768] weight: the part applied to the target node, to the source node, to the edge. -/
abbrev bandA (B : S256x768.Idx → EReal) : S256x256.Idx → EReal := extractStridedSlice S256x256 ![0, 0] B slices_S256x768_S256x256_0_0
abbrev bandB (B : S256x768.Idx → EReal) : S256x256.Idx → EReal := extractStridedSlice S256x256 ![0, 256] B slices_S256x768_S256x256_0_256
abbrev bandC (B : S256x768.Idx → EReal) : S256x256.Idx → EReal := extractStridedSlice S256x256 ![0, 512] B slices_S256x768_S256x256_0_512

theorem slab0_apply (A : S2x256x768.Idx → EReal) (r : Fin 256) (c : Fin 768) : slab0 A (ix2 r c) = A (ix3 (0 : Fin 2) r c) :=
  (shapeCast_1ab_ab_apply _ shapeCasts_S1x256x768_S256x768 r c).trans
    (extractStridedSlice_apply ![0, 0, 0] A slices_S2x256x768_S1x256x768_0_0_0 (ix3 (0 : Fin 1) r c) (ix3 (0 : Fin 2) r c)
      (fun a => match a with
        | ⟨0, _⟩ => rfl
        | ⟨1, _⟩ => (Nat.zero_add _).symm
        | ⟨2, _⟩ => (Nat.zero_add _).symm))
theorem slab1_apply (A : S2x256x768.Idx → EReal) (r : Fin 256) (c : Fin 768) : slab1 A (ix2 r c) = A (ix3 (1 : Fin 2) r c) :=
  (shapeCast_1ab_ab_apply _ shapeCasts_S1x256x768_S256x768 r c).trans
    (extractStridedSlice_apply ![1, 0, 0] A slices_S2x256x768_S1x256x768_1_0_0 (ix3 (0 : Fin 1) r c) (ix3 (1 : Fin 2) r c)
      (fun a => match a with
        | ⟨0, _⟩ => rfl
        | ⟨1, _⟩ => (Nat.zero_add _).symm
        | ⟨2, _⟩ => (Nat.zero_add _).symm))
theorem bandA_apply (B : S256x768.Idx → EReal) (r k : Fin 256) : bandA B (ix2 r k) = B (ix2 r (col768 0 (by decide) k)) :=
  slice2_axis1_apply 0 B slices_S256x768_S256x256_0_0 r k (col768 0 (by decide) k) rfl
theorem bandB_apply (B : S256x768.Idx → EReal) (r k : Fin 256) : bandB B (ix2 r k) = B (ix2 r (col768 256 (by decide) k)) :=
  slice2_axis1_apply 256 B slices_S256x768_S256x256_0_256 r k (col768 256 (by decide) k) rfl
theorem bandC_apply (B : S256x768.Idx → EReal) (r k : Fin 256) : bandC B (ix2 r k) = B (ix2 r (col768 512 (by decide) k)) :=
  slice2_axis1_apply 512 B slices_S256x768_S256x256_0_512 r k (col768 512 (by decide) k) rfl

/-! ## Weights stacked along the rows, read at an index -/

/-- Four [256, 256] weights stacked along the rows: row `256 q + r` is row `r` of the `q`-th. -/
theorem stack4_0 (x0 x1 x2 x3 : S256x256.Idx → EReal) (j : Fin 1024) (r c : Fin 256) (hj : j.val = r.val) :
    concatenate S1024x256 0 [⟨S256x256, x0⟩, ⟨S256x256, x1⟩, ⟨S256x256, x2⟩, ⟨S256x256, x3⟩] concatenates_S256x256_S256x256_S256x256_S256x256_S1024x256_d0 (ix2 j c) = x0 (ix2 r c) :=
  concatenate_apply_piece (0 : Fin S1024x256.rank) ([⟨S256x256, x0⟩, ⟨S256x256, x1⟩, ⟨S256x256, x2⟩, ⟨S256x256, x3⟩] : List ((s : Shape) × (s.Idx → EReal))) concatenates_S256x256_S256x256_S256x256_S256x256_S1024x256_d0 (ix2 j c) 0 (by show (0 : ℕ) < 4; omega) S256x256 x0 rfl rfl 0 rfl (ix2 r c)
    (fun b hb => match b, hb with
      | ⟨0, _⟩, hb => absurd rfl hb
      | ⟨1, _⟩, _ => rfl)
    (by show 0 + r.val = j.val; omega)
theorem stack4_1 (x0 x1 x2 x3 : S256x256.Idx → EReal) (j : Fin 1024) (r c : Fin 256) (hj : j.val = 256 + r.val) :
    concatenate S1024x256 0 [⟨S256x256, x0⟩, ⟨S256x256, x1⟩, ⟨S256x256, x2⟩, ⟨S256x256, x3⟩] concatenates_S256x256_S256x256_S256x256_S256x256_S1024x256_d0 (ix2 j c) = x1 (ix2 r c) :=
  concatenate_apply_piece (0 : Fin S1024x256.rank) ([⟨S256x256, x0⟩, ⟨S256x256, x1⟩, ⟨S256x256, x2⟩, ⟨S256x256, x3⟩] : List ((s : Shape) × (s.Idx → EReal))) concatenates_S256x256_S256x256_S256x256_S256x256_S1024x256_d0 (ix2 j c) 1 (by show (1 : ℕ) < 4; omega) S256x256 x1 rfl rfl 256 rfl (ix2 r c)
    (fun b hb => match b, hb with
      | ⟨0, _⟩, hb => absurd rfl hb
      | ⟨1, _⟩, _ => rfl)
    (by show 256 + r.val = j.val; omega)
theorem stack4_2 (x0 x1 x2 x3 : S256x256.Idx → EReal) (j : Fin 1024) (r c : Fin 256) (hj : j.val = 512 + r.val) :
    concatenate S1024x256 0 [⟨S256x256, x0⟩, ⟨S256x256, x1⟩, ⟨S256x256, x2⟩, ⟨S256x256, x3⟩] concatenates_S256x256_S256x256_S256x256_S256x256_S1024x256_d0 (ix2 j c) = x2 (ix2 r c) :=
  concatenate_apply_piece (0 : Fin S1024x256.rank) ([⟨S256x256, x0⟩, ⟨S256x256, x1⟩, ⟨S256x256, x2⟩, ⟨S256x256, x3⟩] : List ((s : Shape) × (s.Idx → EReal))) concatenates_S256x256_S256x256_S256x256_S256x256_S1024x256_d0 (ix2 j c) 2 (by show (2 : ℕ) < 4; omega) S256x256 x2 rfl rfl 512 rfl (ix2 r c)
    (fun b hb => match b, hb with
      | ⟨0, _⟩, hb => absurd rfl hb
      | ⟨1, _⟩, _ => rfl)
    (by show 512 + r.val = j.val; omega)
theorem stack4_3 (x0 x1 x2 x3 : S256x256.Idx → EReal) (j : Fin 1024) (r c : Fin 256) (hj : j.val = 768 + r.val) :
    concatenate S1024x256 0 [⟨S256x256, x0⟩, ⟨S256x256, x1⟩, ⟨S256x256, x2⟩, ⟨S256x256, x3⟩] concatenates_S256x256_S256x256_S256x256_S256x256_S1024x256_d0 (ix2 j c) = x3 (ix2 r c) :=
  concatenate_apply_piece (0 : Fin S1024x256.rank) ([⟨S256x256, x0⟩, ⟨S256x256, x1⟩, ⟨S256x256, x2⟩, ⟨S256x256, x3⟩] : List ((s : Shape) × (s.Idx → EReal))) concatenates_S256x256_S256x256_S256x256_S256x256_S1024x256_d0 (ix2 j c) 3 (by show (3 : ℕ) < 4; omega) S256x256 x3 rfl rfl 768 rfl (ix2 r c)
    (fun b hb => match b, hb with
      | ⟨0, _⟩, hb => absurd rfl hb
      | ⟨1, _⟩, _ => rfl)
    (by show 768 + r.val = j.val; omega)
/-- Two stacked along the rows. -/
theorem stack2_0 (x0 x1 : S256x256.Idx → EReal) (j : Fin 512) (r c : Fin 256) (hj : j.val = r.val) :
    concatenate S512x256 0 [⟨S256x256, x0⟩, ⟨S256x256, x1⟩] concatenates_S256x256_S256x256_S512x256_d0 (ix2 j c) = x0 (ix2 r c) :=
  concatenate_apply_piece (0 : Fin S512x256.rank) ([⟨S256x256, x0⟩, ⟨S256x256, x1⟩] : List ((s : Shape) × (s.Idx → EReal))) concatenates_S256x256_S256x256_S512x256_d0 (ix2 j c) 0 (by show (0 : ℕ) < 2; omega) S256x256 x0 rfl rfl 0 rfl (ix2 r c)
    (fun b hb => match b, hb with
      | ⟨0, _⟩, hb => absurd rfl hb
      | ⟨1, _⟩, _ => rfl)
    (by show 0 + r.val = j.val; omega)
theorem stack2_1 (x0 x1 : S256x256.Idx → EReal) (j : Fin 512) (r c : Fin 256) (hj : j.val = 256 + r.val) :
    concatenate S512x256 0 [⟨S256x256, x0⟩, ⟨S256x256, x1⟩] concatenates_S256x256_S256x256_S512x256_d0 (ix2 j c) = x1 (ix2 r c) :=
  concatenate_apply_piece (0 : Fin S512x256.rank) ([⟨S256x256, x0⟩, ⟨S256x256, x1⟩] : List ((s : Shape) × (s.Idx → EReal))) concatenates_S256x256_S256x256_S512x256_d0 (ix2 j c) 1 (by show (1 : ℕ) < 2; omega) S256x256 x1 rfl rfl 256 rfl (ix2 r c)
    (fun b hb => match b, hb with
      | ⟨0, _⟩, hb => absurd rfl hb
      | ⟨1, _⟩, _ => rfl)
    (by show 256 + r.val = j.val; omega)

/-! ## The all-zero bias rows -/

theorem zrow1024 (q : Fin 1024) :
    shapeCast S1x1024 (broadcastInDim S1024 ![] bcast_S_S1024 (constant (F := Ideal) S_ .f32 0x00000000#32)) shapeCasts_S1024_S1x1024 (ix2 (0 : Fin 1) q) = (0 : EReal) :=
  (shapeCast_a_1a_apply _ shapeCasts_S1024_S1x1024 0 q).trans
    ((broadcastInDim_apply ![] bcast_S_S1024 (constant (F := Ideal) S_ .f32 0x00000000#32) (ix1 q) ix0 (fun a => a.elim0)).trans
      Ideal.ofBits_zero_f32)
theorem zrow512 (q : Fin 512) :
    shapeCast S1x512 (broadcastInDim S512 ![] bcast_S_S512 (constant (F := Ideal) S_ .f32 0x00000000#32)) shapeCasts_S512_S1x512 (ix2 (0 : Fin 1) q) = (0 : EReal) :=
  (shapeCast_a_1a_apply _ shapeCasts_S512_S1x512 0 q).trans
    ((broadcastInDim_apply ![] bcast_S_S512 (constant (F := Ideal) S_ .f32 0x00000000#32) (ix1 q) ix0 (fun a => a.elim0)).trans
      Ideal.ofBits_zero_f32)

/-! ## Layer 0: the node-side products (region 2) -/

/-- The left operand the region finds is the layer's input rounded to the narrow format: at the exact values, the input. -/
theorem node0_lhs (h : S20000x256.Idx → EReal) (hh : h = W main_v8) (n : Fin 20000) (k : Fin 256) :
    @Eq EReal ((StableHlo.after hostOps2 W main_v38 : S20000x256.Idx → EReal) (ix2 n k)) (h (ix2 n k)) := by
  have e : @Eq (S20000x256.Idx → EReal) (StableHlo.after hostOps2 W main_v38) (truncf (F := Ideal) .bf16 h bitsLt_bf16_f32) := by
    subst hh; dsimp only [hostOps2]; after_results; try rfl
  rw [e]; rfl

/-- The right operand is the four bands stacked along the rows, transposed (then rounded). -/
theorem node0_rhs_eq (wf ws : S2x256x768.Idx → EReal) (hwf : wf = W main_arg8) (hws : ws = W main_arg10) :
    @Eq (S256x1024.Idx → EReal) (StableHlo.after hostOps2 W main_v36)
      (truncf (F := Ideal) .bf16 (transpose S256x1024 [1, 0]
        (concatenate S1024x256 0 [⟨S256x256, bandA (slab0 wf)⟩, ⟨S256x256, bandA (slab0 ws)⟩, ⟨S256x256, bandB (slab0 wf)⟩, ⟨S256x256, bandB (slab0 ws)⟩]
          concatenates_S256x256_S256x256_S256x256_S256x256_S1024x256_d0) transposes_S1024x256_S256x1024_1_0) bitsLt_bf16_f32) := by
  subst hwf hws; dsimp only [hostOps2]; after_results; try rfl

/-- The bias row is all zero. -/
theorem node0_bias (q : Fin 1024) : @Eq EReal ((StableHlo.after hostOps2 W main_v39 : S1x1024.Idx → EReal) (ix2 (0 : Fin 1) q)) 0 := by
  have e : @Eq (S1x1024.Idx → EReal) (StableHlo.after hostOps2 W main_v39)
      (shapeCast S1x1024 (broadcastInDim S1024 ![] bcast_S_S1024 (constant (F := Ideal) S_ .f32 0x00000000#32)) shapeCasts_S1024_S1x1024) := by
    dsimp only [hostOps2]; after_results; try rfl
  rw [e]; exact zrow1024 q

/-- Columns `0 + r` of the region's result: the input's rows against the first weight's target-node band. -/
theorem node0_q0 (h : S20000x256.Idx → EReal) (hh : h = W main_v8) (wf ws : S2x256x768.Idx → EReal) (hwf : wf = W main_arg8) (hws : ws = W main_arg10)
    (n : Fin 20000) (j : Fin 1024) (r : Fin 256) (hj : j.val = 0 + r.val) :
    @Eq EReal (Val.G2 (StableHlo.after hostOps2 W main_v38) (StableHlo.after hostOps2 W main_v36) (StableHlo.after hostOps2 W main_v39) (ix2 n j))
      (∑ k : Fin 256, h (ix2 n k) * wf (ix3 (0 : Fin 2) r (col768 0 (by decide) k))) := by
  refine (congrArg₂ (fun (u v : EReal) => u + v) (Finset.sum_congr rfl fun k _ => congrArg₂ (fun (u v : EReal) => u * v) (node0_lhs W h hh n k) ?_) (node0_bias W j)).trans (add_zero _)
  show @Eq EReal ((StableHlo.after hostOps2 W main_v36 : S256x1024.Idx → EReal) (ix2 k j)) _
  rw [node0_rhs_eq W wf ws hwf hws]
  refine (truncf_apply _ bitsLt_bf16_f32 (ix2 k j)).trans ?_
  refine (transpose_ix2_apply _ transposes_S1024x256_S256x1024_1_0 k j).trans ?_
  refine (stack4_0 _ _ _ _ j r k (by omega)).trans ?_
  exact (bandA_apply _ r k).trans (slab0_apply _ r _)

/-- Columns `256 + r` of the region's result: the input's rows against the second weight's target-node band. -/
theorem node0_q1 (h : S20000x256.Idx → EReal) (hh : h = W main_v8) (wf ws : S2x256x768.Idx → EReal) (hwf : wf = W main_arg8) (hws : ws = W main_arg10)
    (n : Fin 20000) (j : Fin 1024) (r : Fin 256) (hj : j.val = 256 + r.val) :
    @Eq EReal (Val.G2 (StableHlo.after hostOps2 W main_v38) (StableHlo.after hostOps2 W main_v36) (StableHlo.after hostOps2 W main_v39) (ix2 n j))
      (∑ k : Fin 256, h (ix2 n k) * ws (ix3 (0 : Fin 2) r (col768 0 (by decide) k))) := by
  refine (congrArg₂ (fun (u v : EReal) => u + v) (Finset.sum_congr rfl fun k _ => congrArg₂ (fun (u v : EReal) => u * v) (node0_lhs W h hh n k) ?_) (node0_bias W j)).trans (add_zero _)
  show @Eq EReal ((StableHlo.after hostOps2 W main_v36 : S256x1024.Idx → EReal) (ix2 k j)) _
  rw [node0_rhs_eq W wf ws hwf hws]
  refine (truncf_apply _ bitsLt_bf16_f32 (ix2 k j)).trans ?_
  refine (transpose_ix2_apply _ transposes_S1024x256_S256x1024_1_0 k j).trans ?_
  refine (stack4_1 _ _ _ _ j r k (by omega)).trans ?_
  exact (bandA_apply _ r k).trans (slab0_apply _ r _)

/-- Columns `512 + r` of the region's result: the input's rows against the first weight's source-node band. -/
theorem node0_q2 (h : S20000x256.Idx → EReal) (hh : h = W main_v8) (wf ws : S2x256x768.Idx → EReal) (hwf : wf = W main_arg8) (hws : ws = W main_arg10)
    (n : Fin 20000) (j : Fin 1024) (r : Fin 256) (hj : j.val = 512 + r.val) :
    @Eq EReal (Val.G2 (StableHlo.after hostOps2 W main_v38) (StableHlo.after hostOps2 W main_v36) (StableHlo.after hostOps2 W main_v39) (ix2 n j))
      (∑ k : Fin 256, h (ix2 n k) * wf (ix3 (0 : Fin 2) r (col768 256 (by decide) k))) := by
  refine (congrArg₂ (fun (u v : EReal) => u + v) (Finset.sum_congr rfl fun k _ => congrArg₂ (fun (u v : EReal) => u * v) (node0_lhs W h hh n k) ?_) (node0_bias W j)).trans (add_zero _)
  show @Eq EReal ((StableHlo.after hostOps2 W main_v36 : S256x1024.Idx → EReal) (ix2 k j)) _
  rw [node0_rhs_eq W wf ws hwf hws]
  refine (truncf_apply _ bitsLt_bf16_f32 (ix2 k j)).trans ?_
  refine (transpose_ix2_apply _ transposes_S1024x256_S256x1024_1_0 k j).trans ?_
  refine (stack4_2 _ _ _ _ j r k (by omega)).trans ?_
  exact (bandB_apply _ r k).trans (slab0_apply _ r _)

/-- Columns `768 + r` of the region's result: the input's rows against the second weight's source-node band. -/
theorem node0_q3 (h : S20000x256.Idx → EReal) (hh : h = W main_v8) (wf ws : S2x256x768.Idx → EReal) (hwf : wf = W main_arg8) (hws : ws = W main_arg10)
    (n : Fin 20000) (j : Fin 1024) (r : Fin 256) (hj : j.val = 768 + r.val) :
    @Eq EReal (Val.G2 (StableHlo.after hostOps2 W main_v38) (StableHlo.after hostOps2 W main_v36) (StableHlo.after hostOps2 W main_v39) (ix2 n j))
      (∑ k : Fin 256, h (ix2 n k) * ws (ix3 (0 : Fin 2) r (col768 256 (by decide) k))) := by
  refine (congrArg₂ (fun (u v : EReal) => u + v) (Finset.sum_congr rfl fun k _ => congrArg₂ (fun (u v : EReal) => u * v) (node0_lhs W h hh n k) ?_) (node0_bias W j)).trans (add_zero _)
  show @Eq EReal ((StableHlo.after hostOps2 W main_v36 : S256x1024.Idx → EReal) (ix2 k j)) _
  rw [node0_rhs_eq W wf ws hwf hws]
  refine (truncf_apply _ bitsLt_bf16_f32 (ix2 k j)).trans ?_
  refine (transpose_ix2_apply _ transposes_S1024x256_S256x1024_1_0 k j).trans ?_
  refine (stack4_3 _ _ _ _ j r k (by omega)).trans ?_
  exact (bandB_apply _ r k).trans (slab0_apply _ r _)

/-! ## Layer 0: the edge-side products (region 3) -/

/-- The left operand is the edge embedding as the region finds it (no host operation before the region writes it). -/
theorem edge0_lhs (e : S200000x256.Idx → EReal) (he : e = W main_v14) (n : Fin 200000) (k : Fin 256) :
    @Eq EReal ((StableHlo.after hostOps3 W main_v14 : S200000x256.Idx → EReal) (ix2 n k)) (e (ix2 n k)) := by
  have e' : @Eq (S200000x256.Idx → EReal) (StableHlo.after hostOps3 W main_v14) e := by
    subst he; dsimp only [hostOps3]; after_results; try rfl
  rw [e']

/-- The right operand is the two edge bands stacked along the rows, transposed (then rounded). -/
theorem edge0_rhs_eq (a b : S256x256.Idx → EReal) (ha : a = W main_v30) (hb : b = W main_v33) :
    @Eq (S256x512.Idx → EReal) (StableHlo.after hostOps3 W main_v43)
      (truncf (F := Ideal) .bf16 (transpose S256x512 [1, 0]
        (concatenate S512x256 0 [⟨S256x256, a⟩, ⟨S256x256, b⟩] concatenates_S256x256_S256x256_S512x256_d0) transposes_S512x256_S256x512_1_0) bitsLt_bf16_f32) := by
  subst ha hb; dsimp only [hostOps3]; after_results; try rfl

/-- The bias row is all zero. -/
theorem edge0_bias (q : Fin 512) : @Eq EReal ((StableHlo.after hostOps3 W main_v45 : S1x512.Idx → EReal) (ix2 (0 : Fin 1) q)) 0 := by
  have e : @Eq (S1x512.Idx → EReal) (StableHlo.after hostOps3 W main_v45)
      (shapeCast S1x512 (broadcastInDim S512 ![] bcast_S_S512 (constant (F := Ideal) S_ .f32 0x00000000#32)) shapeCasts_S512_S1x512) := by
    dsimp only [hostOps3]; after_results; try rfl
  rw [e]; exact zrow512 q

/-- Columns `r` of the region's result: the edge embedding's rows against the first stacked band; -/
theorem edge0_q0 (e : S200000x256.Idx → EReal) (he : e = W main_v14) (a b : S256x256.Idx → EReal) (ha : a = W main_v30) (hb : b = W main_v33)
    (n : Fin 200000) (j : Fin 512) (r : Fin 256) (hj : j.val = r.val) :
    @Eq EReal (Val.G3 (StableHlo.after hostOps3 W main_v14) (StableHlo.after hostOps3 W main_v43) (StableHlo.after hostOps3 W main_v45) (ix2 n j))
      (∑ k : Fin 256, e (ix2 n k) * a (ix2 r k)) := by
  refine (congrArg₂ (fun (u v : EReal) => u + v) (Finset.sum_congr rfl fun k _ => congrArg₂ (fun (u v : EReal) => u * v) (edge0_lhs W e he n k) ?_) (edge0_bias W j)).trans (add_zero _)
  show @Eq EReal ((StableHlo.after hostOps3 W main_v43 : S256x512.Idx → EReal) (ix2 k j)) _
  rw [edge0_rhs_eq W a b ha hb]
  refine (truncf_apply _ bitsLt_bf16_f32 (ix2 k j)).trans ?_
  refine (transpose_ix2_apply _ transposes_S512x256_S256x512_1_0 k j).trans ?_
  exact stack2_0 _ _ j r k hj
/-- columns `256 + r`: against the second. -/
theorem edge0_q1 (e : S200000x256.Idx → EReal) (he : e = W main_v14) (a b : S256x256.Idx → EReal) (ha : a = W main_v30) (hb : b = W main_v33)
    (n : Fin 200000) (j : Fin 512) (r : Fin 256) (hj : j.val = 256 + r.val) :
    @Eq EReal (Val.G3 (StableHlo.after hostOps3 W main_v14) (StableHlo.after hostOps3 W main_v43) (StableHlo.after hostOps3 W main_v45) (ix2 n j))
      (∑ k : Fin 256, e (ix2 n k) * b (ix2 r k)) := by
  refine (congrArg₂ (fun (u v : EReal) => u + v) (Finset.sum_congr rfl fun k _ => congrArg₂ (fun (u v : EReal) => u * v) (edge0_lhs W e he n k) ?_) (edge0_bias W j)).trans (add_zero _)
  show @Eq EReal ((StableHlo.after hostOps3 W main_v43 : S256x512.Idx → EReal) (ix2 k j)) _
  rw [edge0_rhs_eq W a b ha hb]
  refine (truncf_apply _ bitsLt_bf16_f32 (ix2 k j)).trans ?_
  refine (transpose_ix2_apply _ transposes_S512x256_S256x512_1_0 k j).trans ?_
  exact stack2_1 _ _ j r k hj

/-- The two edge bands, as the host operations before region 2 leave them: the edge columns `512 + k` of layer 0's two weights. -/
theorem edge0_band_f (wf : S2x256x768.Idx → EReal) (hwf : wf = W main_arg8) (r k : Fin 256) :
    @Eq EReal ((StableHlo.after hostOps2 W main_v30 : S256x256.Idx → EReal) (ix2 r k)) (wf (ix3 (0 : Fin 2) r (col768 512 (by decide) k))) := by
  have e : @Eq (S256x256.Idx → EReal) (StableHlo.after hostOps2 W main_v30) (bandC (slab0 wf)) := by
    subst hwf; dsimp only [hostOps2]; after_results; try rfl
  rw [e]; exact (bandC_apply _ r k).trans (slab0_apply _ r _)
theorem edge0_band_s (ws : S2x256x768.Idx → EReal) (hws : ws = W main_arg10) (r k : Fin 256) :
    @Eq EReal ((StableHlo.after hostOps2 W main_v33 : S256x256.Idx → EReal) (ix2 r k)) (ws (ix3 (0 : Fin 2) r (col768 512 (by decide) k))) := by
  have e : @Eq (S256x256.Idx → EReal) (StableHlo.after hostOps2 W main_v33) (bandC (slab0 ws)) := by
    subst hws; dsimp only [hostOps2]; after_results; try rfl
  rw [e]; exact (bandC_apply _ r k).trans (slab0_apply _ r _)

/-! ## Layer 1: the node-side products (region 5) -/

/-- The left operand the region finds is the layer's input rounded to the narrow format: at the exact values, the input. -/
theorem node1_lhs (h : S20000x256.Idx → EReal) (hh : h = StableHlo.after hostOps5 W main_v104) (n : Fin 20000) (k : Fin 256) :
    @Eq EReal ((StableHlo.after hostOps5 W main_v119 : S20000x256.Idx → EReal) (ix2 n k)) (h (ix2 n k)) := by
  have e : @Eq (S20000x256.Idx → EReal) (StableHlo.after hostOps5 W main_v119)
      (truncf (F := Ideal) .bf16 (StableHlo.after hostOps5 W main_v104 : S20000x256.Idx → EReal) bitsLt_bf16_f32) := by
    have hs : (hostOps5 : List (HloOp τ sig (Elt Ideal))) = hostOps5.take 56 ++ hostOps5.drop 56 := (List.take_append_drop 56 _).symm
    rw [hs, StableHlo.after_append]
    generalize StableHlo.after (List.take 56 (hostOps5 : List (HloOp τ sig (Elt Ideal)))) W = V
    simp only [hostOps5, List.drop_succ_cons, List.drop_zero]; after_results; try rfl
  subst hh; rw [e]; rfl

/-- The right operand is the four bands stacked along the rows, transposed (then rounded). -/
theorem node1_rhs_eq (wf ws : S2x256x768.Idx → EReal) (hwf : wf = W main_arg8) (hws : ws = W main_arg10) :
    @Eq (S256x1024.Idx → EReal) (StableHlo.after hostOps5 W main_v117)
      (truncf (F := Ideal) .bf16 (transpose S256x1024 [1, 0]
        (concatenate S1024x256 0 [⟨S256x256, bandA (slab1 wf)⟩, ⟨S256x256, bandA (slab1 ws)⟩, ⟨S256x256, bandB (slab1 wf)⟩, ⟨S256x256, bandB (slab1 ws)⟩]
          concatenates_S256x256_S256x256_S256x256_S256x256_S1024x256_d0) transposes_S1024x256_S256x1024_1_0) bitsLt_bf16_f32) := by
  subst hwf hws; dsimp only [hostOps5]; after_results_simp; try rfl

/-- The bias row is all zero. -/
theorem node1_bias (q : Fin 1024) : @Eq EReal ((StableHlo.after hostOps5 W main_v120 : S1x1024.Idx → EReal) (ix2 (0 : Fin 1) q)) 0 := by
  have e : @Eq (S1x1024.Idx → EReal) (StableHlo.after hostOps5 W main_v120)
      (shapeCast S1x1024 (broadcastInDim S1024 ![] bcast_S_S1024 (constant (F := Ideal) S_ .f32 0x00000000#32)) shapeCasts_S1024_S1x1024) := by
    dsimp only [hostOps5]; after_results_simp; try rfl
  rw [e]; exact zrow1024 q

/-- Columns `0 + r` of the region's result: the input's rows against the first weight's target-node band. -/
theorem node1_q0 (h : S20000x256.Idx → EReal) (hh : h = StableHlo.after hostOps5 W main_v104) (wf ws : S2x256x768.Idx → EReal) (hwf : wf = W main_arg8) (hws : ws = W main_arg10)
    (n : Fin 20000) (j : Fin 1024) (r : Fin 256) (hj : j.val = 0 + r.val) :
    @Eq EReal (Val.G5 (StableHlo.after hostOps5 W main_v119) (StableHlo.after hostOps5 W main_v117) (StableHlo.after hostOps5 W main_v120) (ix2 n j))
      (∑ k : Fin 256, h (ix2 n k) * wf (ix3 (1 : Fin 2) r (col768 0 (by decide) k))) := by
  refine (congrArg₂ (fun (u v : EReal) => u + v) (Finset.sum_congr rfl fun k _ => congrArg₂ (fun (u v : EReal) => u * v) (node1_lhs W h hh n k) ?_) (node1_bias W j)).trans (add_zero _)
  show @Eq EReal ((StableHlo.after hostOps5 W main_v117 : S256x1024.Idx → EReal) (ix2 k j)) _
  rw [node1_rhs_eq W wf ws hwf hws]
  refine (truncf_apply _ bitsLt_bf16_f32 (ix2 k j)).trans ?_
  refine (transpose_ix2_apply _ transposes_S1024x256_S256x1024_1_0 k j).trans ?_
  refine (stack4_0 _ _ _ _ j r k (by omega)).trans ?_
  exact (bandA_apply _ r k).trans (slab1_apply _ r _)

/-- Columns `256 + r` of the region's result: the input's rows against the second weight's target-node band. -/
theorem node1_q1 (h : S20000x256.Idx → EReal) (hh : h = StableHlo.after hostOps5 W main_v104) (wf ws : S2x256x768.Idx → EReal) (hwf : wf = W main_arg8) (hws : ws = W main_arg10)
    (n : Fin 20000) (j : Fin 1024) (r : Fin 256) (hj : j.val = 256 + r.val) :
    @Eq EReal (Val.G5 (StableHlo.after hostOps5 W main_v119) (StableHlo.after hostOps5 W main_v117) (StableHlo.after hostOps5 W main_v120) (ix2 n j))
      (∑ k : Fin 256, h (ix2 n k) * ws (ix3 (1 : Fin 2) r (col768 0 (by decide) k))) := by
  refine (congrArg₂ (fun (u v : EReal) => u + v) (Finset.sum_congr rfl fun k _ => congrArg₂ (fun (u v : EReal) => u * v) (node1_lhs W h hh n k) ?_) (node1_bias W j)).trans (add_zero _)
  show @Eq EReal ((StableHlo.after hostOps5 W main_v117 : S256x1024.Idx → EReal) (ix2 k j)) _
  rw [node1_rhs_eq W wf ws hwf hws]
  refine (truncf_apply _ bitsLt_bf16_f32 (ix2 k j)).trans ?_
  refine (transpose_ix2_apply _ transposes_S1024x256_S256x1024_1_0 k j).trans ?_
  refine (stack4_1 _ _ _ _ j r k (by omega)).trans ?_
  exact (bandA_apply _ r k).trans (slab1_apply _ r _)

/-- Columns `512 + r` of the region's result: the input's rows against the first weight's source-node band. -/
theorem node1_q2 (h : S20000x256.Idx → EReal) (hh : h = StableHlo.after hostOps5 W main_v104) (wf ws : S2x256x768.Idx → EReal) (hwf : wf = W main_arg8) (hws : ws = W main_arg10)
    (n : Fin 20000) (j : Fin 1024) (r : Fin 256) (hj : j.val = 512 + r.val) :
    @Eq EReal (Val.G5 (StableHlo.after hostOps5 W main_v119) (StableHlo.after hostOps5 W main_v117) (StableHlo.after hostOps5 W main_v120) (ix2 n j))
      (∑ k : Fin 256, h (ix2 n k) * wf (ix3 (1 : Fin 2) r (col768 256 (by decide) k))) := by
  refine (congrArg₂ (fun (u v : EReal) => u + v) (Finset.sum_congr rfl fun k _ => congrArg₂ (fun (u v : EReal) => u * v) (node1_lhs W h hh n k) ?_) (node1_bias W j)).trans (add_zero _)
  show @Eq EReal ((StableHlo.after hostOps5 W main_v117 : S256x1024.Idx → EReal) (ix2 k j)) _
  rw [node1_rhs_eq W wf ws hwf hws]
  refine (truncf_apply _ bitsLt_bf16_f32 (ix2 k j)).trans ?_
  refine (transpose_ix2_apply _ transposes_S1024x256_S256x1024_1_0 k j).trans ?_
  refine (stack4_2 _ _ _ _ j r k (by omega)).trans ?_
  exact (bandB_apply _ r k).trans (slab1_apply _ r _)

/-- Columns `768 + r` of the region's result: the input's rows against the second weight's source-node band. -/
theorem node1_q3 (h : S20000x256.Idx → EReal) (hh : h = StableHlo.after hostOps5 W main_v104) (wf ws : S2x256x768.Idx → EReal) (hwf : wf = W main_arg8) (hws : ws = W main_arg10)
    (n : Fin 20000) (j : Fin 1024) (r : Fin 256) (hj : j.val = 768 + r.val) :
    @Eq EReal (Val.G5 (StableHlo.after hostOps5 W main_v119) (StableHlo.after hostOps5 W main_v117) (StableHlo.after hostOps5 W main_v120) (ix2 n j))
      (∑ k : Fin 256, h (ix2 n k) * ws (ix3 (1 : Fin 2) r (col768 256 (by decide) k))) := by
  refine (congrArg₂ (fun (u v : EReal) => u + v) (Finset.sum_congr rfl fun k _ => congrArg₂ (fun (u v : EReal) => u * v) (node1_lhs W h hh n k) ?_) (node1_bias W j)).trans (add_zero _)
  show @Eq EReal ((StableHlo.after hostOps5 W main_v117 : S256x1024.Idx → EReal) (ix2 k j)) _
  rw [node1_rhs_eq W wf ws hwf hws]
  refine (truncf_apply _ bitsLt_bf16_f32 (ix2 k j)).trans ?_
  refine (transpose_ix2_apply _ transposes_S1024x256_S256x1024_1_0 k j).trans ?_
  refine (stack4_3 _ _ _ _ j r k (by omega)).trans ?_
  exact (bandB_apply _ r k).trans (slab1_apply _ r _)

/-! ## Layer 1: the edge-side products (region 6) -/

/-- The left operand is the edge embedding as the region finds it (no host operation before the region writes it). -/
theorem edge1_lhs (e : S200000x256.Idx → EReal) (he : e = W main_v14) (n : Fin 200000) (k : Fin 256) :
    @Eq EReal ((StableHlo.after hostOps6 W main_v14 : S200000x256.Idx → EReal) (ix2 n k)) (e (ix2 n k)) := by
  have e' : @Eq (S200000x256.Idx → EReal) (StableHlo.after hostOps6 W main_v14) e := by
    subst he; dsimp only [hostOps6]; after_results; try rfl
  rw [e']

/-- The right operand is the two edge bands stacked along the rows, transposed (then rounded). -/
theorem edge1_rhs_eq (a b : S256x256.Idx → EReal) (ha : a = W main_v111) (hb : b = W main_v114) :
    @Eq (S256x512.Idx → EReal) (StableHlo.after hostOps6 W main_v124)
      (truncf (F := Ideal) .bf16 (transpose S256x512 [1, 0]
        (concatenate S512x256 0 [⟨S256x256, a⟩, ⟨S256x256, b⟩] concatenates_S256x256_S256x256_S512x256_d0) transposes_S512x256_S256x512_1_0) bitsLt_bf16_f32) := by
  subst ha hb; dsimp only [hostOps6]; after_results; try rfl

/-- The bias row is all zero. -/
theorem edge1_bias (q : Fin 512) : @Eq EReal ((StableHlo.after hostOps6 W main_v126 : S1x512.Idx → EReal) (ix2 (0 : Fin 1) q)) 0 := by
  have e : @Eq (S1x512.Idx → EReal) (StableHlo.after hostOps6 W main_v126)
      (shapeCast S1x512 (broadcastInDim S512 ![] bcast_S_S512 (constant (F := Ideal) S_ .f32 0x00000000#32)) shapeCasts_S512_S1x512) := by
    dsimp only [hostOps6]; after_results; try rfl
  rw [e]; exact zrow512 q

/-- Columns `r` of the region's result: the edge embedding's rows against the first stacked band; -/
theorem edge1_q0 (e : S200000x256.Idx → EReal) (he : e = W main_v14) (a b : S256x256.Idx → EReal) (ha : a = W main_v111) (hb : b = W main_v114)
    (n : Fin 200000) (j : Fin 512) (r : Fin 256) (hj : j.val = r.val) :
    @Eq EReal (Val.G6 (StableHlo.after hostOps6 W main_v14) (StableHlo.after hostOps6 W main_v124) (StableHlo.after hostOps6 W main_v126) (ix2 n j))
      (∑ k : Fin 256, e (ix2 n k) * a (ix2 r k)) := by
  refine (congrArg₂ (fun (u v : EReal) => u + v) (Finset.sum_congr rfl fun k _ => congrArg₂ (fun (u v : EReal) => u * v) (edge1_lhs W e he n k) ?_) (edge1_bias W j)).trans (add_zero _)
  show @Eq EReal ((StableHlo.after hostOps6 W main_v124 : S256x512.Idx → EReal) (ix2 k j)) _
  rw [edge1_rhs_eq W a b ha hb]
  refine (truncf_apply _ bitsLt_bf16_f32 (ix2 k j)).trans ?_
  refine (transpose_ix2_apply _ transposes_S512x256_S256x512_1_0 k j).trans ?_
  exact stack2_0 _ _ j r k hj
/-- columns `256 + r`: against the second. -/
theorem edge1_q1 (e : S200000x256.Idx → EReal) (he : e = W main_v14) (a b : S256x256.Idx → EReal) (ha : a = W main_v111) (hb : b = W main_v114)
    (n : Fin 200000) (j : Fin 512) (r : Fin 256) (hj : j.val = 256 + r.val) :
    @Eq EReal (Val.G6 (StableHlo.after hostOps6 W main_v14) (StableHlo.after hostOps6 W main_v124) (StableHlo.after hostOps6 W main_v126) (ix2 n j))
      (∑ k : Fin 256, e (ix2 n k) * b (ix2 r k)) := by
  refine (congrArg₂ (fun (u v : EReal) => u + v) (Finset.sum_congr rfl fun k _ => congrArg₂ (fun (u v : EReal) => u * v) (edge1_lhs W e he n k) ?_) (edge1_bias W j)).trans (add_zero _)
  show @Eq EReal ((StableHlo.after hostOps6 W main_v124 : S256x512.Idx → EReal) (ix2 k j)) _
  rw [edge1_rhs_eq W a b ha hb]
  refine (truncf_apply _ bitsLt_bf16_f32 (ix2 k j)).trans ?_
  refine (transpose_ix2_apply _ transposes_S512x256_S256x512_1_0 k j).trans ?_
  exact stack2_1 _ _ j r k hj

/-- The two edge bands, as the host operations before region 5 leave them: the edge columns `512 + k` of layer 1's two weights. -/
theorem edge1_band_f (wf : S2x256x768.Idx → EReal) (hwf : wf = W main_arg8) (r k : Fin 256) :
    @Eq EReal ((StableHlo.after hostOps5 W main_v111 : S256x256.Idx → EReal) (ix2 r k)) (wf (ix3 (1 : Fin 2) r (col768 512 (by decide) k))) := by
  have e : @Eq (S256x256.Idx → EReal) (StableHlo.after hostOps5 W main_v111) (bandC (slab1 wf)) := by
    subst hwf; dsimp only [hostOps5]; after_results_simp; try rfl
  rw [e]; exact (bandC_apply _ r k).trans (slab1_apply _ r _)
theorem edge1_band_s (ws : S2x256x768.Idx → EReal) (hws : ws = W main_arg10) (r k : Fin 256) :
    @Eq EReal ((StableHlo.after hostOps5 W main_v114 : S256x256.Idx → EReal) (ix2 r k)) (ws (ix3 (1 : Fin 2) r (col768 512 (by decide) k))) := by
  have e : @Eq (S256x256.Idx → EReal) (StableHlo.after hostOps5 W main_v114) (bandC (slab1 ws)) := by
    subst hws; dsimp only [hostOps5]; after_results_simp; try rfl
  rw [e]; exact (bandC_apply _ r k).trans (slab1_apply _ r _)

/-! ## The two embeddings as the reference's functions of the arguments -/

variable (m : (ℓ : Loc nD τ sig) → Buf (Elt Ideal) ℓ) (c : Dev nD)

/-- What region 0 leaves is the reference's node embedding of the arguments: the region's array is `a · b + bias` of what it
    finds, which the host operations before it make the dense layer of the arguments; the reference's is the same dense layer. -/
theorem T_h0 : Rg.out0 m c = Cert.Bridge.Ref.nodeEmb (F := Ideal) (m ((c : Thread nD τ).loc main_arg0)) (m ((c : Thread nD τ).loc main_arg4)) (m ((c : Thread nD τ).loc main_arg5)) := by
  unfold Rg.out0
  rw [Val.final0 (Rg.atTc (Rg.Vin0 m)) c, Cert.Bridge.Ref.nodeEmb_eq]
  exact h0_stage (Gen.V0 m c)

/-- What region 1 leaves is the reference's edge embedding of the arguments. -/
theorem T_e : Rg.out1 m c = Cert.Bridge.Ref.edgeEmb (F := Ideal) (m ((c : Thread nD τ).loc main_arg2)) (m ((c : Thread nD τ).loc main_arg6)) (m ((c : Thread nD τ).loc main_arg7)) := by
  unfold Rg.out1
  rw [Val.final1 (Rg.atTc (Rg.Vin1 m)) c, Cert.Bridge.Ref.edgeEmb_eq]
  exact e0_stage (Gen.V2 m (Rg.outsUpTo0 m) c)

end Cert.KernelIdeal.Stage

end
-- ==== Proof.KI.PayMsg.lean ====
import proofs.«149463_j13572096656012_1_alg».proof.Proof.Gen.KernelIdeal.Skeleton
import Idealize.ShloMosaic.Lib.ValueLayout

/-!
# The gated message at one entry

The message bodies of regions 4 and 7 store, at row `p` and column `q` of a block, the product
`σ(g) · sp(s)` of the logistic function of the gate sum `g = gd(p, q) + gs(p, q) + ee(p, q) + bf(0, q)` and the
softplus of the value sum `s = gd(p, 256 + q) + gs(p, 256 + q) + ee(p, 256 + q) + bs(0, q)`: the three 512-column
blocks are read in their left half for the gate and in their right half for the value, and each bias row is read at
the column.  The softplus is the stable form `max(x, 0) + log1p(exp(0 - |x - 0|))`, with `x + 0` returned where
`x - 0` is unordered with itself.  Stated at any float instance: every operation of the payload but the two column
cuts and the row broadcast is pointwise.
-/

noncomputable section

namespace Cert.KernelIdeal.Val

open Cert.KernelIdeal Cert.KernelIdeal.Gen
open Idealize.ShloMosaic Idealize.ShloMosaic.ValueIdx

variable {F : FTy → Type} [FloatOps F]

/-- The softplus as the bodies compute it, on one number. -/
def msgSoftplus (x : F .f32) : F .f32 :=
  Scalar.select
    (FloatOps.cmpf .one (FloatOps.subf x (Scalar.ofBits .f32 0x00000000#32)) (FloatOps.subf x (Scalar.ofBits .f32 0x00000000#32)))
    (FloatOps.addf x (Scalar.ofBits .f32 0x00000000#32))
    (FloatOps.addf (FloatOps.maximumf x (Scalar.ofBits .f32 0x00000000#32))
      (FloatOps.log1p (FloatOps.exp (FloatOps.subf (Scalar.ofBits .f32 0x00000000#32)
        (FloatOps.absf (FloatOps.subf x (Scalar.ofBits .f32 0x00000000#32)))))))

/-- One entry of the message: the logistic of the gate sum times the softplus of the value sum, each sum of the
    three inputs' entries and the bias entry, added left to right. -/
def msgAt (gdL gsL eeL bf gdR gsR eeR bs : F .f32) : F .f32 :=
  FloatOps.mulf
    (FloatOps.logistic (FloatOps.addf (FloatOps.addf (FloatOps.addf gdL gsL) eeL) bf))
    (msgSoftplus (FloatOps.addf (FloatOps.addf (FloatOps.addf gdR gsR) eeR) bs))

/-- Column `q` of the left half of a 512-column block, -/
abbrev msgColL (q : Fin 256) : Fin 512 := ⟨q.val, Nat.lt_trans q.isLt (by decide)⟩
/-- and of its right half. -/
abbrev msgColR (q : Fin 256) : Fin 512 := ⟨256 + q.val, by have := q.isLt; omega⟩

/-- The left cut of a block read at `(p, q)` is the block at `(p, q)`, -/
theorem msgCutL_apply (X : Vec F S1600x512 .f32) (p : Fin 1600) (q : Fin 256) :
    extractStridedSlice S1600x256 ![0, 0] (shapeCast S1600x512 X shapeCasts_S1600x512_S1600x512) slices_S1600x512_o0_0_S1600x256 (ix2 p q)
      = X (ix2 p (msgColL q)) := by
  rw [shapeCast_self]
  exact slice2_axis1_apply 0 X _ p q (msgColL q) (Nat.zero_add _).symm

/-- the right cut the block at `(p, 256 + q)`, -/
theorem msgCutR_apply (X : Vec F S1600x512 .f32) (p : Fin 1600) (q : Fin 256) :
    extractStridedSlice S1600x256 ![0, 256] (shapeCast S1600x512 X shapeCasts_S1600x512_S1600x512) slices_S1600x512_o0_256_S1600x256 (ix2 p q)
      = X (ix2 p (msgColR q)) := by
  rw [shapeCast_self]
  exact slice2_axis1_apply 256 X _ p q (msgColR q) rfl

/-- and a bias row broadcast down the block reads the row at the column. -/
theorem msgBias_apply (b : Vec F S1x256 .f32) (p : Fin 1600) (q : Fin 256) :
    broadcastTo S1600x256 (shapeCast S1x256 b shapeCasts_S1x256_S1x256) broadcasts_S1x256_S1600x256 (ix2 p q)
      = b (ix2 (0 : Fin 1) q) := by
  rw [shapeCast_self]
  exact broadcastTo_1b_ab_apply b _ p q

/-- Region 4's stored value at `(p, q)`. -/
theorem pay4_apply (x0 x1 x2 : Vec F S1600x512 .f32) (x3 x4 : Vec F S1x256 .f32) (p : Fin 1600) (q : Fin 256) :
    k4_pay1 x0 x1 x2 x3 x4 (ix2 p q)
      = msgAt (x0 (ix2 p (msgColL q))) (x1 (ix2 p (msgColL q))) (x2 (ix2 p (msgColL q))) (x3 (ix2 (0 : Fin 1) q))
          (x0 (ix2 p (msgColR q))) (x1 (ix2 p (msgColR q))) (x2 (ix2 p (msgColR q))) (x4 (ix2 (0 : Fin 1) q)) := by
  rw [← msgCutL_apply x0 p q, ← msgCutL_apply x1 p q, ← msgCutL_apply x2 p q, ← msgCutR_apply x0 p q, ← msgCutR_apply x1 p q,
    ← msgCutR_apply x2 p q, ← msgBias_apply x3 p q, ← msgBias_apply x4 p q]
  rfl

/-- Region 7's stored value at `(p, q)`: the same function of its blocks. -/
theorem pay7_apply (x0 x1 x2 : Vec F S1600x512 .f32) (x3 x4 : Vec F S1x256 .f32) (p : Fin 1600) (q : Fin 256) :
    k7_pay1 x0 x1 x2 x3 x4 (ix2 p q)
      = msgAt (x0 (ix2 p (msgColL q))) (x1 (ix2 p (msgColL q))) (x2 (ix2 p (msgColL q))) (x3 (ix2 (0 : Fin 1) q))
          (x0 (ix2 p (msgColR q))) (x1 (ix2 p (msgColR q))) (x2 (ix2 p (msgColR q))) (x4 (ix2 (0 : Fin 1) q)) := by
  rw [← msgCutL_apply x0 p q, ← msgCutL_apply x1 p q, ← msgCutL_apply x2 p q, ← msgCutR_apply x0 p q, ← msgCutR_apply x1 p q,
    ← msgCutR_apply x2 p q, ← msgBias_apply x3 p q, ← msgBias_apply x4 p q]
  rfl

end Cert.KernelIdeal.Val

end
-- ==== Proof.KI.Value4.lean ====
import proofs.«149463_j13572096656012_1_alg».proof.Proof.KI.Region4
import proofs.«149463_j13572096656012_1_alg».proof.Proof.KI.PayMsg
import Idealize.ShloMosaic.Lib.Pipeline.Value

/-!
# Region 4: the output array after the region

Each of the 125 points writes back one block of 1600 rows of the output, and row `r` lies in the block of point
`r / 1600`, so the blocks tile the 200000 rows.  Point `t` reads rows `1600 t …` of the three 512-column inputs
and the whole of each bias row, so what it writes back is the block of one function of the five input arrays:
entry `(e, j)` is the gated message of row `e` of the inputs at columns `j` and `256 + j` and of the two bias rows
at column `j`.  Hence the output array ends holding that function, whatever the buffers held when the region was
entered.
-/

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- The message array of five input arrays: entry `(e, j)` from row `e` of the three inputs, read at column `j` for
    the gate and at column `256 + j` for the value, and from the two bias rows at column `j`. -/
def msgArr4 (gd gs ee : S200000x512.Idx → Elt F .f32) (bf bs : S1x256.Idx → Elt F .f32) : S200000x256.Idx → Elt F .f32 :=
  fun i => msgAt (gd (ix2 (i 0) (msgColL (i 1)))) (gs (ix2 (i 0) (msgColL (i 1)))) (ee (ix2 (i 0) (msgColL (i 1)))) (bf (ix2 (0 : Fin 1) (i 1)))
    (gd (ix2 (i 0) (msgColR (i 1)))) (gs (ix2 (i 0) (msgColR (i 1)))) (ee (ix2 (i 0) (msgColR (i 1)))) (bs (ix2 (0 : Fin 1) (i 1)))

-- the buffers' contents when the region is entered
variable (V : (c : Dev nD) → (b : Ref sig .tc) → Buf (Elt F) ((c : Thread nD τ).loc b))

theorem zeroOff4 : (![0, 0] : Fin 2 → Nat) = fun _ => 0 := funext fun a => by fin_cases a <;> rfl

/-- The windows' block indices at point `t`, decided over the 125 points: the three inputs and the output are on
    row block `t`, the bias rows on their one block. -/
theorem blockIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 1600000 in
/-- What point `t` writes back is block `t` of the message array of the input arrays as the region finds them. -/
theorem flushed4_eq (c : Dev nD) (t : Fin cfg4.N) :
    (Rg.dat4 V c).flushed 5 t = ((cfg4.win 5).blk t).view.read (Elt F) (msgArr4 (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((Rg.dat4 V c).after 5 t) = _
  rw [Rg.after4_5]
  unfold Rg.out4_5
  rw [View.canon_unit_zero zeroOff4]
  simp only [View.ld_unit_zero (S := S1600x512) zeroOff4, View.ld_unit_zero (S := S1x256) zeroOff4]
  obtain ⟨e00, e01, e10, e11, e20, e21, e30, e31, e40, e41, e50, e51⟩ := blockIdx4 t
  funext y
  obtain ⟨p, q, rfl⟩ : ∃ (p : Fin 1600) (q : Fin 256), y = ix2 p q := ⟨y 0, y 1, eq_ix2 y⟩
  show k4_pay1 (Rg.iblk4 V c 0 t) (Rg.iblk4 V c 1 t) (Rg.iblk4 V c 2 t) (Rg.iblk4 V c 3 t) (Rg.iblk4 V c 4 t) (ix2 p q)
    = msgArr4 (V c (Pipeline.arrRef spec4 0)) (V c (Pipeline.arrRef spec4 1)) (V c (Pipeline.arrRef spec4 2)) (V c (Pipeline.arrRef spec4 3)) (V c (Pipeline.arrRef spec4 4)) (((cfg4.win 5).blk t).view.emb (ix2 p q))
  rw [pay4_apply]
  unfold msgArr4
  have a0L : Rg.iblk4 V c 0 t (ix2 p (msgColL q)) = V c (Pipeline.arrRef spec4 0) (ix2 ((((cfg4.win 5).blk t).view.emb (ix2 p q)) 0) (msgColL ((((cfg4.win 5).blk t).view.emb (ix2 p q)) 1))) := by
    show V c (Pipeline.arrRef spec4 0) (((cfg4.win 0).blk t).view.emb (ix2 p (msgColL q))) = _
    refine congrArg _ (funext fun a => Fin.ext ?_)
    match a with
    | ⟨0, _⟩ => show win4_0.index t (0 : Fin 2) * 1600 + 1 * p.val = win4_5.index t (0 : Fin 2) * 1600 + 1 * p.val; omega
    | ⟨1, _⟩ => show win4_0.index t (1 : Fin 2) * 512 + 1 * q.val = win4_5.index t (1 : Fin 2) * 256 + 1 * q.val; omega
  have a1L : Rg.iblk4 V c 1 t (ix2 p (msgColL q)) = V c (Pipeline.arrRef spec4 1) (ix2 ((((cfg4.win 5).blk t).view.emb (ix2 p q)) 0) (msgColL ((((cfg4.win 5).blk t).view.emb (ix2 p q)) 1))) := by
    show V c (Pipeline.arrRef spec4 1) (((cfg4.win 1).blk t).view.emb (ix2 p (msgColL q))) = _
    refine congrArg _ (funext fun a => Fin.ext ?_)
    match a with
    | ⟨0, _⟩ => show win4_1.index t (0 : Fin 2) * 1600 + 1 * p.val = win4_5.index t (0 : Fin 2) * 1600 + 1 * p.val; omega
    | ⟨1, _⟩ => show win4_1.index t (1 : Fin 2) * 512 + 1 * q.val = win4_5.index t (1 : Fin 2) * 256 + 1 * q.val; omega
  have a2L : Rg.iblk4 V c 2 t (ix2 p (msgColL q)) = V c (Pipeline.arrRef spec4 2) (ix2 ((((cfg4.win 5).blk t).view.emb (ix2 p q)) 0) (msgColL ((((cfg4.win 5).blk t).view.emb (ix2 p q)) 1))) := by
    show V c (Pipeline.arrRef spec4 2) (((cfg4.win 2).blk t).view.emb (ix2 p (msgColL q))) = _
    refine congrArg _ (funext fun a => Fin.ext ?_)
    match a with
    | ⟨0, _⟩ => show win4_2.index t (0 : Fin 2) * 1600 + 1 * p.val = win4_5.index t (0 : Fin 2) * 1600 + 1 * p.val; omega
    | ⟨1, _⟩ => show win4_2.index t (1 : Fin 2) * 512 + 1 * q.val = win4_5.index t (1 : Fin 2) * 256 + 1 * q.val; omega
  have a0R : Rg.iblk4 V c 0 t (ix2 p (msgColR q)) = V c (Pipeline.arrRef spec4 0) (ix2 ((((cfg4.win 5).blk t).view.emb (ix2 p q)) 0) (msgColR ((((cfg4.win 5).blk t).view.emb (ix2 p q)) 1))) := by
    show V c (Pipeline.arrRef spec4 0) (((cfg4.win 0).blk t).view.emb (ix2 p (msgColR q))) = _
    refine congrArg _ (funext fun a => Fin.ext ?_)
    match a with
    | ⟨0, _⟩ => show win4_0.index t (0 : Fin 2) * 1600 + 1 * p.val = win4_5.index t (0 : Fin 2) * 1600 + 1 * p.val; omega
    | ⟨1, _⟩ => show win4_0.index t (1 : Fin 2) * 512 + 1 * (256 + q.val) = 256 + (win4_5.index t (1 : Fin 2) * 256 + 1 * q.val); omega
  have a1R : Rg.iblk4 V c 1 t (ix2 p (msgColR q)) = V c (Pipeline.arrRef spec4 1) (ix2 ((((cfg4.win 5).blk t).view.emb (ix2 p q)) 0) (msgColR ((((cfg4.win 5).blk t).view.emb (ix2 p q)) 1))) := by
    show V c (Pipeline.arrRef spec4 1) (((cfg4.win 1).blk t).view.emb (ix2 p (msgColR q))) = _
    refine congrArg _ (funext fun a => Fin.ext ?_)
    match a with
    | ⟨0, _⟩ => show win4_1.index t (0 : Fin 2) * 1600 + 1 * p.val = win4_5.index t (0 : Fin 2) * 1600 + 1 * p.val; omega
    | ⟨1, _⟩ => show win4_1.index t (1 : Fin 2) * 512 + 1 * (256 + q.val) = 256 + (win4_5.index t (1 : Fin 2) * 256 + 1 * q.val); omega
  have a2R : Rg.iblk4 V c 2 t (ix2 p (msgColR q)) = V c (Pipeline.arrRef spec4 2) (ix2 ((((cfg4.win 5).blk t).view.emb (ix2 p q)) 0) (msgColR ((((cfg4.win 5).blk t).view.emb (ix2 p q)) 1))) := by
    show V c (Pipeline.arrRef spec4 2) (((cfg4.win 2).blk t).view.emb (ix2 p (msgColR q))) = _
    refine congrArg _ (funext fun a => Fin.ext ?_)
    match a with
    | ⟨0, _⟩ => show win4_2.index t (0 : Fin 2) * 1600 + 1 * p.val = win4_5.index t (0 : Fin 2) * 1600 + 1 * p.val; omega
    | ⟨1, _⟩ => show win4_2.index t (1 : Fin 2) * 512 + 1 * (256 + q.val) = 256 + (win4_5.index t (1 : Fin 2) * 256 + 1 * q.val); omega
  have a3 : Rg.iblk4 V c 3 t (ix2 (0 : Fin 1) q) = V c (Pipeline.arrRef spec4 3) (ix2 (0 : Fin 1) ((((cfg4.win 5).blk t).view.emb (ix2 p q)) 1)) := by
    show V c (Pipeline.arrRef spec4 3) (((cfg4.win 3).blk t).view.emb (ix2 (0 : Fin 1) q)) = _
    refine congrArg _ (funext fun a => Fin.ext ?_)
    match a with
    | ⟨0, _⟩ => show win4_3.index t (0 : Fin 2) * 1 + 1 * 0 = 0; omega
    | ⟨1, _⟩ => show win4_3.index t (1 : Fin 2) * 256 + 1 * q.val = win4_5.index t (1 : Fin 2) * 256 + 1 * q.val; omega
  have a4 : Rg.iblk4 V c 4 t (ix2 (0 : Fin 1) q) = V c (Pipeline.arrRef spec4 4) (ix2 (0 : Fin 1) ((((cfg4.win 5).blk t).view.emb (ix2 p q)) 1)) := by
    show V c (Pipeline.arrRef spec4 4) (((cfg4.win 4).blk t).view.emb (ix2 (0 : Fin 1) q)) = _
    refine congrArg _ (funext fun a => Fin.ext ?_)
    match a with
    | ⟨0, _⟩ => show win4_4.index t (0 : Fin 2) * 1 + 1 * 0 = 0; omega
    | ⟨1, _⟩ => show win4_4.index t (1 : Fin 2) * 256 + 1 * q.val = win4_5.index t (1 : Fin 2) * 256 + 1 * q.val; omega
  rw [a0L, a1L, a2L, a0R, a1R, a2R, a3, a4]

/-- An index of the output array is in point `t`'s block iff each coordinate is in the block's range on its axis. -/
theorem mem_blk4 (t : Fin cfg4.N) (i : S200000x256.Idx) :
    i ∈ ((cfg4.win 5).blk t).view.set ↔ ∀ a : Fin 2, win4_5.index t a * S1600x256.size a ≤ (i a).val ∧ (i a).val < win4_5.index t a * S1600x256.size a + S1600x256.size a := by
  show i ∈ ((View.whole main_v69).slice (win4_5.rect t)).set ↔ _
  rw [View.set_slice_whole, Rect.mem_set_unit]
  exact Iff.rfl

/-- Every index of the output array is in the block of the point its row falls in. -/
theorem cover4 (i : S200000x256.Idx) :
    ∃ t : Fin cfg4.N, (cfg4.win 5).flush t = true ∧ i ∈ ((cfg4.win 5).blk t).view.set := by
  have hi0 : (i 0).val < 200000 := idx2_lt0 i
  have hi1 : (i 1).val < 256 := idx2_lt1 i
  have hN : cfg4.N = 125 := N_4
  have hlt : (i 0).val / 1600 < cfg4.N := by rw [hN]; omega
  obtain ⟨-, -, -, -, -, -, -, -, -, -, e50, e51⟩ := blockIdx4 ⟨(i 0).val / 1600, hlt⟩
  refine ⟨⟨(i 0).val / 1600, hlt⟩, flush4_5 _, ?_⟩
  rw [mem_blk4]
  intro a
  match a with
  | ⟨0, _⟩ =>
    show win4_5.index ⟨(i 0).val / 1600, hlt⟩ (0 : Fin 2) * 1600 ≤ (i 0).val ∧ (i 0).val < win4_5.index ⟨(i 0).val / 1600, hlt⟩ (0 : Fin 2) * 1600 + 1600
    rw [e50]; show (i 0).val / 1600 * 1600 ≤ (i 0).val ∧ (i 0).val < (i 0).val / 1600 * 1600 + 1600; omega
  | ⟨1, _⟩ =>
    show win4_5.index ⟨(i 0).val / 1600, hlt⟩ (1 : Fin 2) * 256 ≤ (i 1).val ∧ (i 1).val < win4_5.index ⟨(i 0).val / 1600, hlt⟩ (1 : Fin 2) * 256 + 256
    rw [e51]; omega

/-- The output array after the region: the message array of the input arrays as the region finds them. -/
theorem arr4_5 (c : Dev nD) :
    (Rg.dat4 V c).arrAt 5 cfg4.N = msgArr4 (V c (Pipeline.arrRef spec4 0)) (V c (Pipeline.arrRef spec4 1)) (V c (Pipeline.arrRef spec4 2)) (V c (Pipeline.arrRef spec4 3)) (V c (Pipeline.arrRef spec4 4)) :=
  (Rg.dat4 V c).arrAt_eq_of_cover 5 _ (fun t _ => flushed4_eq V c t) cover4

end Cert.KernelIdeal.Val

end
-- ==== Proof.KI.Value7.lean ====
import proofs.«149463_j13572096656012_1_alg».proof.Proof.KI.Region7
import proofs.«149463_j13572096656012_1_alg».proof.Proof.KI.PayMsg
import Idealize.ShloMosaic.Lib.Pipeline.Value

/-!
# Region 7: the output array after the region

Each of the 125 points writes back one block of 1600 rows of the output, and row `r` lies in the block of point
`r / 1600`, so the blocks tile the 200000 rows.  Point `t` reads rows `1600 t …` of the three 512-column inputs
and the whole of each bias row, so what it writes back is the block of one function of the five input arrays:
entry `(e, j)` is the gated message of row `e` of the inputs at columns `j` and `256 + j` and of the two bias rows
at column `j`.  Hence the output array ends holding that function, whatever the buffers held when the region was
entered.
-/

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- The message array of five input arrays: entry `(e, j)` from row `e` of the three inputs, read at column `j` for
    the gate and at column `256 + j` for the value, and from the two bias rows at column `j`. -/
def msgArr7 (gd gs ee : S200000x512.Idx → Elt F .f32) (bf bs : S1x256.Idx → Elt F .f32) : S200000x256.Idx → Elt F .f32 :=
  fun i => msgAt (gd (ix2 (i 0) (msgColL (i 1)))) (gs (ix2 (i 0) (msgColL (i 1)))) (ee (ix2 (i 0) (msgColL (i 1)))) (bf (ix2 (0 : Fin 1) (i 1)))
    (gd (ix2 (i 0) (msgColR (i 1)))) (gs (ix2 (i 0) (msgColR (i 1)))) (ee (ix2 (i 0) (msgColR (i 1)))) (bs (ix2 (0 : Fin 1) (i 1)))

-- the buffers' contents when the region is entered
variable (V : (c : Dev nD) → (b : Ref sig .tc) → Buf (Elt F) ((c : Thread nD τ).loc b))

theorem zeroOff7 : (![0, 0] : Fin 2 → Nat) = fun _ => 0 := funext fun a => by fin_cases a <;> rfl

/-- The windows' block indices at point `t`, decided over the 125 points: the three inputs and the output are on
    row block `t`, the bias rows on their one block. -/
theorem blockIdx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

set_option maxHeartbeats 1600000 in
/-- What point `t` writes back is block `t` of the message array of the input arrays as the region finds them. -/
theorem flushed7_eq (c : Dev nD) (t : Fin cfg7.N) :
    (Rg.dat7 V c).flushed 5 t = ((cfg7.win 5).blk t).view.read (Elt F) (msgArr7 (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((Rg.dat7 V c).after 5 t) = _
  rw [Rg.after7_5]
  unfold Rg.out7_5
  rw [View.canon_unit_zero zeroOff7]
  simp only [View.ld_unit_zero (S := S1600x512) zeroOff7, View.ld_unit_zero (S := S1x256) zeroOff7]
  obtain ⟨e00, e01, e10, e11, e20, e21, e30, e31, e40, e41, e50, e51⟩ := blockIdx7 t
  funext y
  obtain ⟨p, q, rfl⟩ : ∃ (p : Fin 1600) (q : Fin 256), y = ix2 p q := ⟨y 0, y 1, eq_ix2 y⟩
  show k7_pay1 (Rg.iblk7 V c 0 t) (Rg.iblk7 V c 1 t) (Rg.iblk7 V c 2 t) (Rg.iblk7 V c 3 t) (Rg.iblk7 V c 4 t) (ix2 p q)
    = msgArr7 (V c (Pipeline.arrRef spec7 0)) (V c (Pipeline.arrRef spec7 1)) (V c (Pipeline.arrRef spec7 2)) (V c (Pipeline.arrRef spec7 3)) (V c (Pipeline.arrRef spec7 4)) (((cfg7.win 5).blk t).view.emb (ix2 p q))
  rw [pay7_apply]
  unfold msgArr7
  have a0L : Rg.iblk7 V c 0 t (ix2 p (msgColL q)) = V c (Pipeline.arrRef spec7 0) (ix2 ((((cfg7.win 5).blk t).view.emb (ix2 p q)) 0) (msgColL ((((cfg7.win 5).blk t).view.emb (ix2 p q)) 1))) := by
    show V c (Pipeline.arrRef spec7 0) (((cfg7.win 0).blk t).view.emb (ix2 p (msgColL q))) = _
    refine congrArg _ (funext fun a => Fin.ext ?_)
    match a with
    | ⟨0, _⟩ => show win7_0.index t (0 : Fin 2) * 1600 + 1 * p.val = win7_5.index t (0 : Fin 2) * 1600 + 1 * p.val; omega
    | ⟨1, _⟩ => show win7_0.index t (1 : Fin 2) * 512 + 1 * q.val = win7_5.index t (1 : Fin 2) * 256 + 1 * q.val; omega
  have a1L : Rg.iblk7 V c 1 t (ix2 p (msgColL q)) = V c (Pipeline.arrRef spec7 1) (ix2 ((((cfg7.win 5).blk t).view.emb (ix2 p q)) 0) (msgColL ((((cfg7.win 5).blk t).view.emb (ix2 p q)) 1))) := by
    show V c (Pipeline.arrRef spec7 1) (((cfg7.win 1).blk t).view.emb (ix2 p (msgColL q))) = _
    refine congrArg _ (funext fun a => Fin.ext ?_)
    match a with
    | ⟨0, _⟩ => show win7_1.index t (0 : Fin 2) * 1600 + 1 * p.val = win7_5.index t (0 : Fin 2) * 1600 + 1 * p.val; omega
    | ⟨1, _⟩ => show win7_1.index t (1 : Fin 2) * 512 + 1 * q.val = win7_5.index t (1 : Fin 2) * 256 + 1 * q.val; omega
  have a2L : Rg.iblk7 V c 2 t (ix2 p (msgColL q)) = V c (Pipeline.arrRef spec7 2) (ix2 ((((cfg7.win 5).blk t).view.emb (ix2 p q)) 0) (msgColL ((((cfg7.win 5).blk t).view.emb (ix2 p q)) 1))) := by
    show V c (Pipeline.arrRef spec7 2) (((cfg7.win 2).blk t).view.emb (ix2 p (msgColL q))) = _
    refine congrArg _ (funext fun a => Fin.ext ?_)
    match a with
    | ⟨0, _⟩ => show win7_2.index t (0 : Fin 2) * 1600 + 1 * p.val = win7_5.index t (0 : Fin 2) * 1600 + 1 * p.val; omega
    | ⟨1, _⟩ => show win7_2.index t (1 : Fin 2) * 512 + 1 * q.val = win7_5.index t (1 : Fin 2) * 256 + 1 * q.val; omega
  have a0R : Rg.iblk7 V c 0 t (ix2 p (msgColR q)) = V c (Pipeline.arrRef spec7 0) (ix2 ((((cfg7.win 5).blk t).view.emb (ix2 p q)) 0) (msgColR ((((cfg7.win 5).blk t).view.emb (ix2 p q)) 1))) := by
    show V c (Pipeline.arrRef spec7 0) (((cfg7.win 0).blk t).view.emb (ix2 p (msgColR q))) = _
    refine congrArg _ (funext fun a => Fin.ext ?_)
    match a with
    | ⟨0, _⟩ => show win7_0.index t (0 : Fin 2) * 1600 + 1 * p.val = win7_5.index t (0 : Fin 2) * 1600 + 1 * p.val; omega
    | ⟨1, _⟩ => show win7_0.index t (1 : Fin 2) * 512 + 1 * (256 + q.val) = 256 + (win7_5.index t (1 : Fin 2) * 256 + 1 * q.val); omega
  have a1R : Rg.iblk7 V c 1 t (ix2 p (msgColR q)) = V c (Pipeline.arrRef spec7 1) (ix2 ((((cfg7.win 5).blk t).view.emb (ix2 p q)) 0) (msgColR ((((cfg7.win 5).blk t).view.emb (ix2 p q)) 1))) := by
    show V c (Pipeline.arrRef spec7 1) (((cfg7.win 1).blk t).view.emb (ix2 p (msgColR q))) = _
    refine congrArg _ (funext fun a => Fin.ext ?_)
    match a with
    | ⟨0, _⟩ => show win7_1.index t (0 : Fin 2) * 1600 + 1 * p.val = win7_5.index t (0 : Fin 2) * 1600 + 1 * p.val; omega
    | ⟨1, _⟩ => show win7_1.index t (1 : Fin 2) * 512 + 1 * (256 + q.val) = 256 + (win7_5.index t (1 : Fin 2) * 256 + 1 * q.val); omega
  have a2R : Rg.iblk7 V c 2 t (ix2 p (msgColR q)) = V c (Pipeline.arrRef spec7 2) (ix2 ((((cfg7.win 5).blk t).view.emb (ix2 p q)) 0) (msgColR ((((cfg7.win 5).blk t).view.emb (ix2 p q)) 1))) := by
    show V c (Pipeline.arrRef spec7 2) (((cfg7.win 2).blk t).view.emb (ix2 p (msgColR q))) = _
    refine congrArg _ (funext fun a => Fin.ext ?_)
    match a with
    | ⟨0, _⟩ => show win7_2.index t (0 : Fin 2) * 1600 + 1 * p.val = win7_5.index t (0 : Fin 2) * 1600 + 1 * p.val; omega
    | ⟨1, _⟩ => show win7_2.index t (1 : Fin 2) * 512 + 1 * (256 + q.val) = 256 + (win7_5.index t (1 : Fin 2) * 256 + 1 * q.val); omega
  have a3 : Rg.iblk7 V c 3 t (ix2 (0 : Fin 1) q) = V c (Pipeline.arrRef spec7 3) (ix2 (0 : Fin 1) ((((cfg7.win 5).blk t).view.emb (ix2 p q)) 1)) := by
    show V c (Pipeline.arrRef spec7 3) (((cfg7.win 3).blk t).view.emb (ix2 (0 : Fin 1) q)) = _
    refine congrArg _ (funext fun a => Fin.ext ?_)
    match a with
    | ⟨0, _⟩ => show win7_3.index t (0 : Fin 2) * 1 + 1 * 0 = 0; omega
    | ⟨1, _⟩ => show win7_3.index t (1 : Fin 2) * 256 + 1 * q.val = win7_5.index t (1 : Fin 2) * 256 + 1 * q.val; omega
  have a4 : Rg.iblk7 V c 4 t (ix2 (0 : Fin 1) q) = V c (Pipeline.arrRef spec7 4) (ix2 (0 : Fin 1) ((((cfg7.win 5).blk t).view.emb (ix2 p q)) 1)) := by
    show V c (Pipeline.arrRef spec7 4) (((cfg7.win 4).blk t).view.emb (ix2 (0 : Fin 1) q)) = _
    refine congrArg _ (funext fun a => Fin.ext ?_)
    match a with
    | ⟨0, _⟩ => show win7_4.index t (0 : Fin 2) * 1 + 1 * 0 = 0; omega
    | ⟨1, _⟩ => show win7_4.index t (1 : Fin 2) * 256 + 1 * q.val = win7_5.index t (1 : Fin 2) * 256 + 1 * q.val; omega
  rw [a0L, a1L, a2L, a0R, a1R, a2R, a3, a4]

/-- An index of the output array is in point `t`'s block iff each coordinate is in the block's range on its axis. -/
theorem mem_blk7 (t : Fin cfg7.N) (i : S200000x256.Idx) :
    i ∈ ((cfg7.win 5).blk t).view.set ↔ ∀ a : Fin 2, win7_5.index t a * S1600x256.size a ≤ (i a).val ∧ (i a).val < win7_5.index t a * S1600x256.size a + S1600x256.size a := by
  show i ∈ ((View.whole main_v150).slice (win7_5.rect t)).set ↔ _
  rw [View.set_slice_whole, Rect.mem_set_unit]
  exact Iff.rfl

/-- Every index of the output array is in the block of the point its row falls in. -/
theorem cover7 (i : S200000x256.Idx) :
    ∃ t : Fin cfg7.N, (cfg7.win 5).flush t = true ∧ i ∈ ((cfg7.win 5).blk t).view.set := by
  have hi0 : (i 0).val < 200000 := idx2_lt0 i
  have hi1 : (i 1).val < 256 := idx2_lt1 i
  have hN : cfg7.N = 125 := N_7
  have hlt : (i 0).val / 1600 < cfg7.N := by rw [hN]; omega
  obtain ⟨-, -, -, -, -, -, -, -, -, -, e50, e51⟩ := blockIdx7 ⟨(i 0).val / 1600, hlt⟩
  refine ⟨⟨(i 0).val / 1600, hlt⟩, flush7_5 _, ?_⟩
  rw [mem_blk7]
  intro a
  match a with
  | ⟨0, _⟩ =>
    show win7_5.index ⟨(i 0).val / 1600, hlt⟩ (0 : Fin 2) * 1600 ≤ (i 0).val ∧ (i 0).val < win7_5.index ⟨(i 0).val / 1600, hlt⟩ (0 : Fin 2) * 1600 + 1600
    rw [e50]; show (i 0).val / 1600 * 1600 ≤ (i 0).val ∧ (i 0).val < (i 0).val / 1600 * 1600 + 1600; omega
  | ⟨1, _⟩ =>
    show win7_5.index ⟨(i 0).val / 1600, hlt⟩ (1 : Fin 2) * 256 ≤ (i 1).val ∧ (i 1).val < win7_5.index ⟨(i 0).val / 1600, hlt⟩ (1 : Fin 2) * 256 + 256
    rw [e51]; omega

/-- The output array after the region: the message array of the input arrays as the region finds them. -/
theorem arr7_5 (c : Dev nD) :
    (Rg.dat7 V c).arrAt 5 cfg7.N = msgArr7 (V c (Pipeline.arrRef spec7 0)) (V c (Pipeline.arrRef spec7 1)) (V c (Pipeline.arrRef spec7 2)) (V c (Pipeline.arrRef spec7 3)) (V c (Pipeline.arrRef spec7 4)) :=
  (Rg.dat7 V c).arrAt_eq_of_cover 5 _ (fun t _ => flushed7_eq V c t) cover7

end Cert.KernelIdeal.Val

end
-- ==== Proof.KI.StageMsgOps.lean ====
import proofs.«149463_j13572096656012_1_alg».proof.Proof.Gen.KernelIdeal.Launch
import Idealize.ShloMosaic.Lib.ValueLayout
import Idealize.ShloMosaic.Lib.StableHlo.Run

/-!
# What feeds the message regions

Between the two product regions of a layer and its message region the host cuts the node product `[20000, 1024]`
into its left and right halves of 512 columns, wraps each negative node index of the target row and of the source
row once (`d + 20000` where `d < 0`), and gathers: row `e` of the first operand is the left half's row at the
target node of edge `e`, row `e` of the second the right half's row at its source node, the node index clamped to
`[0, 19999]`.  The two bias rows are the layer's rows of the `[2, 256]` parameters.  The edge product is not
touched.  Stated for any contents `W` of the buffers before these host operations, entry by entry.
-/

-- reading a buffer's type off the program's table of 335 references takes most of the default budget by itself
set_option maxHeartbeats 4000000

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-! ## A row gather read at an entry -/

/-- The dimension numbers of the two row gathers. -/
abbrev rowDims : GatherDims S20000x512 S200000x1 S200000x512 := gather_S20000x512_S200000x1_S200000x512_1_0_n_n_0_1_1512

/-- The gather at `(e, k)`: the operand's row at start index `e`, read signed and clamped to `[0, 19999]`, at
    column `k`. -/
theorem rowGather_apply {α : Type} (x : S20000x512.Idx → α) (idx : IVec S200000x1 32) (e : Fin 200000) (k : Fin 512) :
    Host.gather rowDims x idx (ix2 e k)
      = x (ix2 (⟨min (idx (ix2 e (0 : Fin 1))).toInt.toNat 19999, by omega⟩ : Fin 20000) k) := by
  unfold Host.gather
  refine congrArg x (funext fun a => Fin.ext ?_)
  match a with
  | ⟨0, _⟩ =>
    show rowDims.start (ix2 e k) idx (0 : Fin 2) + rowDims.batchCoord (ix2 e k) (0 : Fin 2) + rowDims.offCoord (ix2 e k) (0 : Fin 2)
      = min (idx (ix2 e (0 : Fin 1))).toInt.toNat 19999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowDims.startIndexMap from List.mem_singleton.mpr rfl)]
    have hsi : rowDims.siIdx (ix2 e k) ⟨List.idxOf (0 : Fin 2) rowDims.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show rowDims.start (ix2 e k) idx (1 : Fin 2) + rowDims.batchCoord (ix2 e k) (1 : Fin 2) + rowDims.offCoord (ix2 e k) (1 : Fin 2) = k.val
    rw [GatherDims.batchCoord_eq_zero _ _ _ List.not_mem_nil]
    unfold GatherDims.start GatherDims.offCoord
    rw [dif_neg (show (1 : Fin 2) ∉ rowDims.startIndexMap by decide), dif_pos (show (1 : Fin 2) ∈ rowDims.sKept by decide)]
    simp only [Nat.zero_add, Nat.add_zero]
    rfl

/-! ## The node an edge's row is read at -/

/-- A row of node indices with each negative one wrapped once. -/
def wrapRow (d : (⟨S200000, .i32⟩ : BufTy).Contents (Elt F)) : (⟨S200000, .i32⟩ : BufTy).Contents (Elt F) :=
  select (cmpi .slt d (broadcastInDim S200000 ![] bcast_S_S200000 (constantI S_ 32 0#32)))
    (addi d (broadcastInDim S200000 ![] bcast_S_S200000 (constantI S_ 32 20000#32))) d

/-- The node whose row edge `e` reads: its wrapped index, read signed and clamped to `[0, 19999]`. -/
def nodeOf (d : (⟨S200000, .i32⟩ : BufTy).Contents (Elt F)) (e : Fin 200000) : Fin 20000 :=
  ⟨min ((wrapRow d (ix1 e) : BitVec 32)).toInt.toNat 19999, by omega⟩

/-- Column `k` of the left half of the node product, -/
abbrev nodeColL (k : Fin 512) : Fin 1024 := ⟨k.val, Nat.lt_trans k.isLt (by decide)⟩
/-- and of its right half. -/
abbrev nodeColR (k : Fin 512) : Fin 1024 := ⟨512 + k.val, by have := k.isLt; omega⟩

/-- The column of start indices made of a row of node indices, read at edge `e`. -/
theorem idxCol_apply (v : (⟨S200000, .i32⟩ : BufTy).Contents (Elt F)) (e : Fin 200000) :
    broadcastInDim S200000x1 ![0] bcast_S200000_S200000x1_0 v (ix2 e (0 : Fin 1)) = v (ix1 e) :=
  broadcastInDim_apply _ _ v (ix2 e (0 : Fin 1)) (ix1 e) fun a => by
    match a with
    | ⟨0, _⟩ => rfl

/-! ## Layer 0: after `hostOps4` -/

section Layer0
variable (W : Valuation τ sig (Elt F))

/-- The first operand at `(e, k)`: the node product's left half at the target node of edge `e`. -/
theorem gd0_apply (e : Fin 200000) (k : Fin 512) :
    StableHlo.after hostOps4 W main_v55 (ix2 e k) = W main_v40 (ix2 (nodeOf (W main_v3) e) (nodeColL k)) := by
  have h : StableHlo.after hostOps4 W main_v55
      = Host.gather rowDims (extractStridedSlice S20000x512 ![0, 0] (W main_v40) slices_S20000x1024_S20000x512_0_0)
          (broadcastInDim S200000x1 ![0] bcast_S200000_S200000x1_0 (wrapRow (W main_v3))) := by
    after_results
    all_goals rfl
  rw [h, rowGather_apply]
  have hn : (⟨min ((broadcastInDim S200000x1 ![0] bcast_S200000_S200000x1_0 (wrapRow (W main_v3)) (ix2 e (0 : Fin 1)) : BitVec 32)).toInt.toNat 19999, by omega⟩ : Fin 20000)
      = nodeOf (W main_v3) e :=
    Fin.ext (by show min _ 19999 = min _ 19999; rw [idxCol_apply])
  rw [hn]
  exact slice2_axis1_apply 0 (W main_v40) _ (nodeOf (W main_v3) e) k (nodeColL k) (Nat.zero_add _).symm

/-- The second operand at `(e, k)`: the node product's right half at the source node of edge `e`. -/
theorem gs0_apply (e : Fin 200000) (k : Fin 512) :
    StableHlo.after hostOps4 W main_v62 (ix2 e k) = W main_v40 (ix2 (nodeOf (W main_v1) e) (nodeColR k)) := by
  have h : StableHlo.after hostOps4 W main_v62
      = Host.gather rowDims (extractStridedSlice S20000x512 ![0, 512] (W main_v40) slices_S20000x1024_S20000x512_0_512)
          (broadcastInDim S200000x1 ![0] bcast_S200000_S200000x1_0 (wrapRow (W main_v1))) := by
    after_results
    all_goals rfl
  rw [h, rowGather_apply]
  have hn : (⟨min ((broadcastInDim S200000x1 ![0] bcast_S200000_S200000x1_0 (wrapRow (W main_v1)) (ix2 e (0 : Fin 1)) : BitVec 32)).toInt.toNat 19999, by omega⟩ : Fin 20000)
      = nodeOf (W main_v1) e :=
    Fin.ext (by show min _ 19999 = min _ 19999; rw [idxCol_apply])
  rw [hn]
  exact slice2_axis1_apply 512 (W main_v40) _ (nodeOf (W main_v1) e) k (nodeColR k) rfl

/-- The edge product is as it was. -/
theorem ee0_eq : StableHlo.after hostOps4 W main_v46 = W main_v46 := by
  after_results
  all_goals rfl

/-- The gate's bias row at column `q`: the layer's row of the `[2, 256]` parameter. -/
theorem bf0_apply (q : Fin 256) :
    StableHlo.after hostOps4 W main_v67 (ix2 (0 : Fin 1) q) = W main_arg9 (ix2 (0 : Fin 2) q) := by
  have h : StableHlo.after hostOps4 W main_v67
      = shapeCast S1x256 (shapeCast S256 (extractStridedSlice S1x256 ![0, 0] (W main_arg9) slices_S2x256_S1x256_0_0) shapeCasts_S1x256_S256) shapeCasts_S256_S1x256 := by
    after_results
    all_goals rfl
  rw [h, shapeCast_shapeCast]
  exact slice2_axis0_apply 0 (W main_arg9) _ (0 : Fin 1) q (0 : Fin 2) rfl

/-- The value's bias row at column `q`. -/
theorem bs0_apply (q : Fin 256) :
    StableHlo.after hostOps4 W main_v68 (ix2 (0 : Fin 1) q) = W main_arg11 (ix2 (0 : Fin 2) q) := by
  have h : StableHlo.after hostOps4 W main_v68
      = shapeCast S1x256 (shapeCast S256 (extractStridedSlice S1x256 ![0, 0] (W main_arg11) slices_S2x256_S1x256_0_0) shapeCasts_S1x256_S256) shapeCasts_S256_S1x256 := by
    after_results
    all_goals rfl
  rw [h, shapeCast_shapeCast]
  exact slice2_axis0_apply 0 (W main_arg11) _ (0 : Fin 1) q (0 : Fin 2) rfl

end Layer0

/-! ## Layer 1: after `hostOps7` -/

section Layer1
variable (W : Valuation τ sig (Elt F))

/-- The first operand at `(e, k)`: the node product's left half at the target node of edge `e`. -/
theorem gd1_apply (e : Fin 200000) (k : Fin 512) :
    StableHlo.after hostOps7 W main_v136 (ix2 e k) = W main_v121 (ix2 (nodeOf (W main_v3) e) (nodeColL k)) := by
  have h : StableHlo.after hostOps7 W main_v136
      = Host.gather rowDims (extractStridedSlice S20000x512 ![0, 0] (W main_v121) slices_S20000x1024_S20000x512_0_0)
          (broadcastInDim S200000x1 ![0] bcast_S200000_S200000x1_0 (wrapRow (W main_v3))) := by
    after_results
    all_goals rfl
  rw [h, rowGather_apply]
  have hn : (⟨min ((broadcastInDim S200000x1 ![0] bcast_S200000_S200000x1_0 (wrapRow (W main_v3)) (ix2 e (0 : Fin 1)) : BitVec 32)).toInt.toNat 19999, by omega⟩ : Fin 20000)
      = nodeOf (W main_v3) e :=
    Fin.ext (by show min _ 19999 = min _ 19999; rw [idxCol_apply])
  rw [hn]
  exact slice2_axis1_apply 0 (W main_v121) _ (nodeOf (W main_v3) e) k (nodeColL k) (Nat.zero_add _).symm

/-- The second operand at `(e, k)`: the node product's right half at the source node of edge `e`. -/
theorem gs1_apply (e : Fin 200000) (k : Fin 512) :
    StableHlo.after hostOps7 W main_v143 (ix2 e k) = W main_v121 (ix2 (nodeOf (W main_v1) e) (nodeColR k)) := by
  have h : StableHlo.after hostOps7 W main_v143
      = Host.gather rowDims (extractStridedSlice S20000x512 ![0, 512] (W main_v121) slices_S20000x1024_S20000x512_0_512)
          (broadcastInDim S200000x1 ![0] bcast_S200000_S200000x1_0 (wrapRow (W main_v1))) := by
    after_results
    all_goals rfl
  rw [h, rowGather_apply]
  have hn : (⟨min ((broadcastInDim S200000x1 ![0] bcast_S200000_S200000x1_0 (wrapRow (W main_v1)) (ix2 e (0 : Fin 1)) : BitVec 32)).toInt.toNat 19999, by omega⟩ : Fin 20000)
      = nodeOf (W main_v1) e :=
    Fin.ext (by show min _ 19999 = min _ 19999; rw [idxCol_apply])
  rw [hn]
  exact slice2_axis1_apply 512 (W main_v121) _ (nodeOf (W main_v1) e) k (nodeColR k) rfl

/-- The edge product is as it was. -/
theorem ee1_eq : StableHlo.after hostOps7 W main_v127 = W main_v127 := by
  after_results
  all_goals rfl

/-- The gate's bias row at column `q`: the layer's row of the `[2, 256]` parameter. -/
theorem bf1_apply (q : Fin 256) :
    StableHlo.after hostOps7 W main_v148 (ix2 (0 : Fin 1) q) = W main_arg9 (ix2 (1 : Fin 2) q) := by
  have h : StableHlo.after hostOps7 W main_v148
      = shapeCast S1x256 (shapeCast S256 (extractStridedSlice S1x256 ![1, 0] (W main_arg9) slices_S2x256_S1x256_1_0) shapeCasts_S1x256_S256) shapeCasts_S256_S1x256 := by
    after_results
    all_goals rfl
  rw [h, shapeCast_shapeCast]
  exact slice2_axis0_apply 1 (W main_arg9) _ (0 : Fin 1) q (1 : Fin 2) rfl

/-- The value's bias row at column `q`. -/
theorem bs1_apply (q : Fin 256) :
    StableHlo.after hostOps7 W main_v149 (ix2 (0 : Fin 1) q) = W main_arg11 (ix2 (1 : Fin 2) q) := by
  have h : StableHlo.after hostOps7 W main_v149
      = shapeCast S1x256 (shapeCast S256 (extractStridedSlice S1x256 ![1, 0] (W main_arg11) slices_S2x256_S1x256_1_0) shapeCasts_S1x256_S256) shapeCasts_S256_S1x256 := by
    after_results
    all_goals rfl
  rw [h, shapeCast_shapeCast]
  exact slice2_axis0_apply 1 (W main_arg11) _ (0 : Fin 1) q (1 : Fin 2) rfl

end Layer1

end Cert.KernelIdeal.Stage

end
-- ==== Proof.LibEdgeIndex.lean ====
/-
  A row gather and a row scatter of StableHLO, read at coordinates.

  For an operand of N rows (of C columns, or of scalars) and a column of E integer start indices, the gather's
  result row e is the operand's row at the e-th start index, read as a signed integer and clamped into [0, N − 1];
  and the e-th update row of a scatter lands on operand row n exactly when the e-th index, read as a signed
  integer, IS n (no clamp: an index outside [0, N − 1] drops the update), column for column.
  Joined: an index that reads n with 0 ≤ n < N is left alone by the wrap of negative indices (add N below zero) and by
  the gather's clamp, so the gather through both reads row n. And the updates that land on one operand element are
  one per update row whose index reads that element's row, so a sum over them is a sum over those rows.
-/
import Idealize.ShloMosaic.Lib.ValueIdx
import Idealize.ShloMosaic.PureOps.Ideal

open scoped BigOperators

namespace Cert.Lib.EdgeIndex

open Idealize.ShloMosaic Idealize.ShloMosaic.ValueIdx

/-! ## The gather -/

section Gather
variable {α : Type}

/-- The dimension numbers of a gather of whole rows: operand [N, C], start indices [E, 1] (one row number each),
    result [E, C]. -/
abbrev gatherRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of scalars: operand [N], start indices [E, 1], result [E]. -/
abbrev gatherElts (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- On the row axis the operand index of result element (e, c) is the e-th start index, read signed and clamped
    into [0, N − 1]: no batching axis, and the row axis is collapsed, so it carries no offset. -/
theorem gatherRows_operandIdx_row {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 0).val
      = min (idx (ix2 (y 0) ⟨0, Nat.one_pos⟩)).toInt.toNat (N - 1) := by
  show (gatherRows N E C wf).start y idx 0 + (gatherRows N E C wf).batchCoord y 0 + (gatherRows N E C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N E C wf).startIndexMap from List.mem_singleton.mpr rfl)]
  have hsi : (gatherRows N E C wf).siIdx y ⟨List.idxOf (0 : Fin 2) (gatherRows N E C wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

/-- On the column axis the operand index of result element (e, c) is c: the start index does not name that axis,
    and the whole row is the slice, so the offset is the result's column. -/
theorem gatherRows_operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 1).val = (y 1).val := by
  show (gatherRows N E C wf).start y idx 1 + (gatherRows N E C wf).batchCoord y 1 + (gatherRows N E C wf).offCoord y 1 = _
  rw [GatherDims.batchCoord_eq_zero _ _ _ List.not_mem_nil]
  have h10 : (1 : Fin 2) ∉ ([0] : List (Fin 2)) := by decide
  have hs : (gatherRows N E C wf).start y idx 1 = 0 := by
    unfold GatherDims.start
    rw [dif_neg (show (1 : Fin 2) ∉ (gatherRows N E C wf).startIndexMap from h10)]
  rw [hs]
  simp only [Nat.add_zero, Nat.zero_add]
  unfold GatherDims.offCoord
  rw [dif_pos (show (1 : Fin 2) ∈ (gatherRows N E C wf).sKept from
    (GatherDims.mem_sKept _ _).mpr ⟨h10, List.not_mem_nil⟩)]
  rfl

/-- THE ROW GATHER READ AT (e, c): the operand's element in column c of the row whose number is the e-th start
    index, read signed and clamped into [0, N − 1]. -/
theorem gatherRows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (gatherRows N E C wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ => exact gatherRows_operandIdx_row wf idx y
  | ⟨1, _⟩ => exact gatherRows_operandIdx_col wf idx y

/-- THE SCALAR GATHER READ AT e: the operand's element whose number is the e-th start index, read signed and
    clamped into [0, N − 1]. -/
theorem gatherElts_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gatherElts N E wf) x idx y
      = x (ix1 ⟨min (idx (ix2 (y 0) ⟨0, Nat.one_pos⟩)).toInt.toNat (N - 1), by omega⟩) := by
  unfold Host.gather
  congr 1
  funext a
  obtain rfl : a = 0 := Subsingleton.elim _ _
  refine Fin.ext ?_
  show (gatherElts N E wf).start y idx 0 + (gatherElts N E wf).batchCoord y 0 + (gatherElts N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherElts N E wf).startIndexMap from List.mem_singleton.mpr rfl)]
  have hsi : (gatherElts N E wf).siIdx y ⟨List.idxOf (0 : Fin 1) (gatherElts N E wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

end Gather

/-! ## The scatter -/

section Scatter

/-- The dimension numbers of a scatter of whole rows: operand [N, C], scatter indices [E, 1] (one row number each),
    updates [E, C]. -/
abbrev scatterRows (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of scalars: operand [N], scatter indices [E, 1], updates [E]. -/
abbrev scatterElts (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (j : (⟨2, ![E, C]⟩ : Shape).Idx)

/-- The window of update row e starts, on the row axis, at the e-th scatter index read signed (not clamped). -/
theorem scatterRows_start_row :
    (scatterRows N E C wf).start j idx 0 = (idx (ix2 (j 0) ⟨0, Nat.one_pos⟩)).toInt := by
  unfold ScatterDims.start
  rw [dif_pos (show (0 : Fin 2) ∈ (scatterRows N E C wf).scatterDimsToOperandDims from List.mem_singleton.mpr rfl)]
  have hsi : (scatterRows N E C wf).siIdx j ⟨List.idxOf (0 : Fin 2) (scatterRows N E C wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the column axis, which the scatter index does not name, it starts at 0. -/
theorem scatterRows_start_col : (scatterRows N E C wf).start j idx 1 = 0 := by
  have h10 : (1 : Fin 2) ∉ ([0] : List (Fin 2)) := by decide
  unfold ScatterDims.start
  rw [dif_neg (show (1 : Fin 2) ∉ (scatterRows N E C wf).scatterDimsToOperandDims from h10)]

/-- The row axis is inserted: no window coordinate on it. -/
theorem scatterRows_window_row : (scatterRows N E C wf).window j 0 = 0 := by
  unfold ScatterDims.window
  rw [dif_neg (show (0 : Fin 2) ∉ (scatterRows N E C wf).sKept by
    simp [ScatterDims.sKept, Shape.kept, List.mem_filter])]

/-- The window coordinate on the column axis is the update's column. -/
theorem scatterRows_window_col : (scatterRows N E C wf).window j 1 = (j 1).val := by
  have h10 : (1 : Fin 2) ∉ ([0] : List (Fin 2)) := by decide
  unfold ScatterDims.window
  rw [dif_pos (show (1 : Fin 2) ∈ (scatterRows N E C wf).sKept from
    List.mem_filter.mpr ⟨List.mem_finRange _, by simpa using h10⟩)]
  rfl

/-- WHERE A ROW SCATTER'S UPDATE LANDS: update element (e, c) lands on operand element (n, c') exactly when the
    e-th scatter index, read as a signed integer, is n, and c = c'. -/
theorem scatterRows_resultIdx?_eq_some_iff (i : (⟨2, ![N, C]⟩ : Shape).Idx) :
    (scatterRows N E C wf).resultIdx? j idx = some i ↔
      ((idx (ix2 (j 0) ⟨0, Nat.one_pos⟩)).toInt = ((i 0).val : Int) ∧ (j 1).val = (i 1).val) := by
  have e0 : (scatterRows N E C wf).start j idx 0 + (((scatterRows N E C wf).window j 0 : Nat) : Int)
      = (idx (ix2 (j 0) ⟨0, Nat.one_pos⟩)).toInt := by
    rw [scatterRows_start_row, scatterRows_window_row]; simp
  have e1 : (scatterRows N E C wf).start j idx 1 + (((scatterRows N E C wf).window j 1 : Nat) : Int)
      = ((j 1).val : Int) := by
    rw [scatterRows_start_col, scatterRows_window_col]; simp
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hi := Option.some.inj h
      have c0 : ((scatterRows N E C wf).start j idx 0 + (((scatterRows N E C wf).window j 0 : Nat) : Int)).toNat
          = (i 0).val := congrArg Fin.val (congrFun hi 0)
      have c1 : ((scatterRows N E C wf).start j idx 1 + (((scatterRows N E C wf).window j 1 : Nat) : Int)).toNat
          = (i 1).val := congrArg Fin.val (congrFun hi 1)
      have b0 := (hc 0).1
      rw [e0] at c0 b0
      rw [e1] at c1
      constructor <;> omega
    · exact absurd h (by simp)
  · rintro ⟨h0, h1⟩
    have hc : ∀ a, 0 ≤ (scatterRows N E C wf).start j idx a + (((scatterRows N E C wf).window j a : Nat) : Int) ∧
        (scatterRows N E C wf).start j idx a + (((scatterRows N E C wf).window j a : Nat) : Int)
          < (((⟨2, ![N, C]⟩ : Shape).size a : Nat) : Int) := by
      intro a
      match a with
      | ⟨0, _⟩ =>
        show 0 ≤ (scatterRows N E C wf).start j idx 0 + (((scatterRows N E C wf).window j 0 : Nat) : Int) ∧
          (scatterRows N E C wf).start j idx 0 + (((scatterRows N E C wf).window j 0 : Nat) : Int) < (N : Int)
        rw [e0]; omega
      | ⟨1, _⟩ =>
        show 0 ≤ (scatterRows N E C wf).start j idx 1 + (((scatterRows N E C wf).window j 1 : Nat) : Int) ∧
          (scatterRows N E C wf).start j idx 1 + (((scatterRows N E C wf).window j 1 : Nat) : Int) < (C : Int)
        rw [e1]; omega
    rw [dif_pos hc]
    congr 1
    funext a
    refine Fin.ext ?_
    match a with
    | ⟨0, _⟩ =>
      show ((scatterRows N E C wf).start j idx 0 + (((scatterRows N E C wf).window j 0 : Nat) : Int)).toNat = (i 0).val
      rw [e0]; omega
    | ⟨1, _⟩ =>
      show ((scatterRows N E C wf).start j idx 1 + (((scatterRows N E C wf).window j 1 : Nat) : Int)).toNat = (i 1).val
      rw [e1]; omega

end Rows

section Elts
variable {N E w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window of update e starts at the e-th scatter index read signed (not clamped). -/
theorem scatterElts_start :
    (scatterElts N E wf).start j idx 0 = (idx (ix2 (j 0) ⟨0, Nat.one_pos⟩)).toInt := by
  unfold ScatterDims.start
  rw [dif_pos (show (0 : Fin 1) ∈ (scatterElts N E wf).scatterDimsToOperandDims from List.mem_singleton.mpr rfl)]
  have hsi : (scatterElts N E wf).siIdx j ⟨List.idxOf (0 : Fin 1) (scatterElts N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- The operand's one axis is inserted: no window coordinate on it. -/
theorem scatterElts_window : (scatterElts N E wf).window j 0 = 0 := by
  unfold ScatterDims.window
  rw [dif_neg (show (0 : Fin 1) ∉ (scatterElts N E wf).sKept by
    simp [ScatterDims.sKept, Shape.kept, List.mem_filter])]

/-- WHERE A SCALAR SCATTER'S UPDATE LANDS: update e lands on operand element n exactly when the e-th scatter
    index, read as a signed integer, is n. -/
theorem scatterElts_resultIdx?_eq_some_iff (i : (⟨1, ![N]⟩ : Shape).Idx) :
    (scatterElts N E wf).resultIdx? j idx = some i ↔
      (idx (ix2 (j 0) ⟨0, Nat.one_pos⟩)).toInt = ((i 0).val : Int) := by
  have e0 : (scatterElts N E wf).start j idx 0 + (((scatterElts N E wf).window j 0 : Nat) : Int)
      = (idx (ix2 (j 0) ⟨0, Nat.one_pos⟩)).toInt := by
    rw [scatterElts_start, scatterElts_window]; simp
  have hi0 : (i 0).val < N := (i 0).isLt
  unfold ScatterDims.resultIdx?
  constructor
  · intro h
    split at h
    · rename_i hc
      have hi := Option.some.inj h
      have c0 : ((scatterElts N E wf).start j idx 0 + (((scatterElts N E wf).window j 0 : Nat) : Int)).toNat
          = (i 0).val := congrArg Fin.val (congrFun hi 0)
      have b0 := (hc 0).1
      rw [e0] at c0 b0
      omega
    · exact absurd h (by simp)
  · intro h0
    have hc : ∀ a, 0 ≤ (scatterElts N E wf).start j idx a + (((scatterElts N E wf).window j a : Nat) : Int) ∧
        (scatterElts N E wf).start j idx a + (((scatterElts N E wf).window j a : Nat) : Int)
          < (((⟨1, ![N]⟩ : Shape).size a : Nat) : Int) := by
      intro a
      obtain rfl : a = 0 := Subsingleton.elim _ _
      show 0 ≤ (scatterElts N E wf).start j idx 0 + (((scatterElts N E wf).window j 0 : Nat) : Int) ∧
        (scatterElts N E wf).start j idx 0 + (((scatterElts N E wf).window j 0 : Nat) : Int) < (N : Int)
      rw [e0]; omega
    rw [dif_pos hc]
    congr 1
    funext a
    obtain rfl : a = 0 := Subsingleton.elim _ _
    refine Fin.ext ?_
    show ((scatterElts N E wf).start j idx 0 + (((scatterElts N E wf).window j 0 : Nat) : Int)).toNat = (i 0).val
    rw [e0]; omega

end Elts

end Scatter

/-! ## An update that lands on row n is, read back through the gather, row n

A scatter lands update e on row n when the e-th index read signed IS n, with 0 ≤ n < N. Read back, the same index
first goes through the wrap of negative indices (add N to an index below zero, leave the others), which leaves it
alone, and then through the gather's clamp into [0, N − 1], which leaves it alone too. -/

section Landed
variable {w : Nat}

/-- A word whose signed value is n < N is not moved by the clamp into [0, N − 1]. -/
theorem clamp_of_toInt_eq (b : BitVec w) {n N : Nat} (h : b.toInt = (n : Int)) (hn : n < N) :
    min b.toInt.toNat (N - 1) = n := by
  rw [h, Int.toNat_natCast]; omega

/-- The wrap of negative indices, as a function of one word: c (the number of rows, as a word) is added to a word
    that reads below zero. -/
def wrapNeg (c b : BitVec w) : BitVec w := if b.toInt < 0 then b + c else b

/-- It leaves a word that reads at least zero alone. -/
theorem wrapNeg_of_nonneg (c b : BitVec w) (hb : 0 ≤ b.toInt) : wrapNeg c b = b := by
  unfold wrapNeg; rw [if_neg (by omega)]

/-- In particular one whose signed value is a natural number. -/
theorem wrapNeg_of_toInt_eq (c b : BitVec w) {n : Nat} (h : b.toInt = (n : Int)) : wrapNeg c b = b :=
  wrapNeg_of_nonneg c b (by omega)

/-- The signed comparison "b < 0" of a word that reads at least zero is the bit 0 … -/
theorem cmpi_slt_zero_of_nonneg (b : BitVec w) (hb : 0 ≤ b.toInt) : IntOp.cmpi .slt b 0#w = 0#1 := by
  have : b.slt 0#w = false := by
    rw [BitVec.slt_eq_decide, BitVec.toInt_zero]; simpa using hb
  simp [IntOp.cmpi, this]

/-- … and of one that reads below zero the bit 1. -/
theorem cmpi_slt_zero_of_neg (b : BitVec w) (hb : b.toInt < 0) : IntOp.cmpi .slt b 0#w = 1#1 := by
  have : b.slt 0#w = true := by
    rw [BitVec.slt_eq_decide, BitVec.toInt_zero]; simpa using hb
  simp [IntOp.cmpi, this]

/-- So the select on that comparison is the wrap: the program's own spelling of it, at one element. -/
theorem select_slt_zero_eq_wrapNeg (c b : BitVec w) :
    Scalar.select (IntOp.cmpi .slt b 0#w) (IntOp.addi b c) b = wrapNeg c b := by
  unfold wrapNeg
  by_cases hb : b.toInt < 0
  · rw [if_pos hb, cmpi_slt_zero_of_neg b hb, select_one]; rfl
  · rw [if_neg hb, cmpi_slt_zero_of_nonneg b (by omega), select_zero]

/-- A select on "b < 0" at a word that reads at least zero is its second operand, whatever the operands are. -/
theorem select_slt_zero_of_nonneg {α : Type} (b : BitVec w) (hb : 0 ≤ b.toInt) (a₁ a₂ : α) :
    Scalar.select (IntOp.cmpi .slt b 0#w) a₁ a₂ = a₂ := by
  rw [cmpi_slt_zero_of_nonneg b hb, select_zero]

variable {α : Type}

/-- THE ROW GATHER AT A START INDEX THAT IS A ROW NUMBER: if the e-th start index reads n < N, result element (e, c)
    is the operand's element (n, c). -/
theorem gatherRows_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx)
    {n : Nat} (hn : n < N) (h : (idx (ix2 (y 0) ⟨0, Nat.one_pos⟩)).toInt = (n : Int)) :
    Host.gather (gatherRows N E C wf) x idx y = x (ix2 ⟨n, hn⟩ (y 1)) := by
  rw [gatherRows_apply (by omega) wf x idx y]
  congr 2
  exact Fin.ext (clamp_of_toInt_eq _ h hn)

/-- The same through the wrap of negative indices applied to every start index first. -/
theorem gatherRows_wrapNeg_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (c : BitVec w) (y : (⟨2, ![E, C]⟩ : Shape).Idx)
    {n : Nat} (hn : n < N) (h : (idx (ix2 (y 0) ⟨0, Nat.one_pos⟩)).toInt = (n : Int)) :
    Host.gather (gatherRows N E C wf) x (fun k => wrapNeg c (idx k)) y = x (ix2 ⟨n, hn⟩ (y 1)) :=
  gatherRows_apply_of_toInt_eq wf x _ y hn (by rw [wrapNeg_of_toInt_eq c _ h]; exact h)

/-- THE SCALAR GATHER AT A START INDEX THAT IS AN ELEMENT NUMBER. -/
theorem gatherElts_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx)
    {n : Nat} (hn : n < N) (h : (idx (ix2 (y 0) ⟨0, Nat.one_pos⟩)).toInt = (n : Int)) :
    Host.gather (gatherElts N E wf) x idx y = x (ix1 ⟨n, hn⟩) := by
  rw [gatherElts_apply (by omega) wf x idx y]
  congr 2
  exact Fin.ext (clamp_of_toInt_eq _ h hn)

/-- The same through the wrap of negative indices. -/
theorem gatherElts_wrapNeg_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (c : BitVec w) (y : (⟨1, ![E]⟩ : Shape).Idx)
    {n : Nat} (hn : n < N) (h : (idx (ix2 (y 0) ⟨0, Nat.one_pos⟩)).toInt = (n : Int)) :
    Host.gather (gatherElts N E wf) x (fun k => wrapNeg c (idx k)) y = x (ix1 ⟨n, hn⟩) :=
  gatherElts_apply_of_toInt_eq wf x _ y hn (by rw [wrapNeg_of_toInt_eq c _ h]; exact h)

end Landed

/-! ## The updates that land on one operand element, as a set and under a sum

The update elements (e, c') that land on operand element (n, c) are the (e, c) with e among the update rows whose
index reads n: one per such row. So a sum over them is a sum over those rows. -/

section Landing
variable {N E C w : Nat}

/-- Update row e ↦ update element (e, c): injective. -/
def colEmb (E C : Nat) (c : Fin C) : Fin E ↪ (⟨2, ![E, C]⟩ : Shape).Idx where
  toFun e := ix2 e c
  inj' a b h := congrFun h 0

@[simp] theorem colEmb_apply (c : Fin C) (e : Fin E) : colEmb E C c e = ix2 e c := rfl

/-- Update row e ↦ update element e of a rank-1 array of updates: injective. -/
def eltEmb (E : Nat) : Fin E ↪ (⟨1, ![E]⟩ : Shape).Idx where
  toFun e := ix1 e
  inj' a b h := congrFun h 0

@[simp] theorem eltEmb_apply (e : Fin E) : eltEmb E e = ix1 e := rfl

/-- THE LANDING SET OF A ROW SCATTER: the update elements that land on operand element i = (n, c) are the elements
    (e, c) of the update rows e whose scatter index reads n. -/
theorem scatterRows_landing_eq_map (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i] :
    Finset.univ.filter (fun j => (scatterRows N E C wf).resultIdx? j idx = some i)
      = (Finset.univ.filter (fun e : Fin E => (idx (ix2 e ⟨0, Nat.one_pos⟩)).toInt = ((i 0).val : Int))).map
          (colEmb E C (i 1)) := by
  ext j
  simp only [Finset.mem_filter, Finset.mem_univ, true_and, Finset.mem_map, colEmb_apply,
    scatterRows_resultIdx?_eq_some_iff]
  constructor
  · rintro ⟨h0, h1⟩
    refine ⟨j 0, h0, ?_⟩
    conv_rhs => rw [eq_ix2 j]
    have : i 1 = j 1 := Fin.ext h1.symm
    rw [this]
    rfl
  · rintro ⟨e, he, rfl⟩
    exact ⟨he, rfl⟩

/-- A SUM OVER THE UPDATES THAT LAND ON ONE OPERAND ELEMENT of a row scatter is the sum over the update rows whose
    scatter index reads that element's row, each taken at that element's column. -/
theorem scatterRows_sum_landing {M : Type*} [AddCommMonoid M]
    (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i]
    (f : (⟨2, ![E, C]⟩ : Shape).Idx → M) :
    ∑ j ∈ Finset.univ.filter (fun j => (scatterRows N E C wf).resultIdx? j idx = some i), f j
      = ∑ e ∈ Finset.univ.filter (fun e : Fin E => (idx (ix2 e ⟨0, Nat.one_pos⟩)).toInt = ((i 0).val : Int)),
          f (ix2 e (i 1)) := by
  rw [scatterRows_landing_eq_map, Finset.sum_map]
  rfl

/-- THE LANDING SET OF A SCALAR SCATTER: the updates that land on operand element n are the e whose scatter index
    reads n. -/
theorem scatterElts_landing_eq_map (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i] :
    Finset.univ.filter (fun j => (scatterElts N E wf).resultIdx? j idx = some i)
      = (Finset.univ.filter (fun e : Fin E => (idx (ix2 e ⟨0, Nat.one_pos⟩)).toInt = ((i 0).val : Int))).map
          (eltEmb E) := by
  ext j
  simp only [Finset.mem_filter, Finset.mem_univ, true_and, Finset.mem_map, eltEmb_apply,
    scatterElts_resultIdx?_eq_some_iff]
  constructor
  · intro h0
    exact ⟨j 0, h0, (eq_ix1 j).symm⟩
  · rintro ⟨e, he, rfl⟩
    exact he

/-- A SUM OVER THE UPDATES THAT LAND ON ONE OPERAND ELEMENT of a scalar scatter is the sum over the updates whose
    scatter index reads that element's number. -/
theorem scatterElts_sum_landing {M : Type*} [AddCommMonoid M]
    (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i]
    (f : (⟨1, ![E]⟩ : Shape).Idx → M) :
    ∑ j ∈ Finset.univ.filter (fun j => (scatterElts N E wf).resultIdx? j idx = some i), f j
      = ∑ e ∈ Finset.univ.filter (fun e : Fin E => (idx (ix2 e ⟨0, Nat.one_pos⟩)).toInt = ((i 0).val : Int)),
          f (ix1 e) := by
  rw [scatterElts_landing_eq_map, Finset.sum_map]
  rfl

end Landing

end Cert.Lib.EdgeIndex
-- ==== Proof.Ref.MessageAt.lean ====
import proofs.«149463_j13572096656012_1_alg».proof.Proof.Ref.Stages
import proofs.«149463_j13572096656012_1_alg».proof.Proof.LibEdgeIndex
import Idealize.ShloMosaic.Lib.Pipeline.Value
import Idealize.ShloMosaic.Lib.ValueIdx
import Idealize.ShloMosaic.Lib.IdealHost
import Idealize.ShloMosaic.PureOps.Ideal.Laws

/-! The reference's message on an edge, entry by entry, on the extended reals.

At entry `(e, j)` the pre-activation is `((∑ₖ h[d e, k] W[j, k]) + (∑ₖ h[s e, k] W[j, 256 + k])) + (∑ₖ ee[e, k] W[j, 512 + k])) + b[j]`,
where `d e` and `s e` are the rows the two gathers read (the edge's target and source node, wrapped once if negative, read
signed and clamped into the table); the gate is `1 / (1 + exp (-z))` and the second factor `max z 0 + log1p (exp (-|z|))`,
spelt as the reference spells it (with its `z - 0`, `z + 0` and its select on `z ≠ z`). -/

open scoped BigOperators

noncomputable section

namespace Cert.Bridge.Ref

open Cert.Bridge Cert.ReferenceIdeal Cert.ReferenceIdeal.Gen Idealize.ShloMosaic Idealize.ShloMosaic.TcCoe Idealize.SL.Sem Idealize.ShloMosaic.StableHlo
open Idealize.ShloMosaic.ValueIdx

/-! ## The two matrix products at an entry -/

theorem lhsN_0 (i : S20000x256.Idx) (q : dot_S20000x256_S256x256_S20000x256_1_0_0_1_n_n.contr.Idx) : (dot_S20000x256_S256x256_S20000x256_1_0_0_1_n_n.lhsIdx i q 0).val = (i 0).val := by
  unfold DotDims.lhsIdx
  rw [dif_neg (show ¬(0 : Fin S20000x256.rank) ∈ dot_S20000x256_S256x256_S20000x256_1_0_0_1_n_n.lhsBatch by decide), dif_pos (show (0 : Fin S20000x256.rank) ∈ dot_S20000x256_S256x256_S20000x256_1_0_0_1_n_n.lhsNonContracting by decide)]
  rfl
theorem lhsN_1 (i : S20000x256.Idx) (q : dot_S20000x256_S256x256_S20000x256_1_0_0_1_n_n.contr.Idx) : (dot_S20000x256_S256x256_S20000x256_1_0_0_1_n_n.lhsIdx i q 1).val = (q ⟨0, by decide⟩).val :=
  dot_S20000x256_S256x256_S20000x256_1_0_0_1_n_n.lhsIdx_val_of_single rfl i q
theorem rhsN_0 (i : S20000x256.Idx) (q : dot_S20000x256_S256x256_S20000x256_1_0_0_1_n_n.contr.Idx) : (dot_S20000x256_S256x256_S20000x256_1_0_0_1_n_n.rhsIdx i q 0).val = (q ⟨0, by decide⟩).val :=
  dot_S20000x256_S256x256_S20000x256_1_0_0_1_n_n.rhsIdx_val_of_single rfl i q
theorem rhsN_1 (i : S20000x256.Idx) (q : dot_S20000x256_S256x256_S20000x256_1_0_0_1_n_n.contr.Idx) : (dot_S20000x256_S256x256_S20000x256_1_0_0_1_n_n.rhsIdx i q 1).val = (i 1).val := by
  unfold DotDims.rhsIdx
  rw [dif_neg (show ¬(1 : Fin S256x256.rank) ∈ dot_S20000x256_S256x256_S20000x256_1_0_0_1_n_n.rhsBatch by decide), dif_pos (show (1 : Fin S256x256.rank) ∈ dot_S20000x256_S256x256_S20000x256_1_0_0_1_n_n.rhsNonContracting by decide)]
  rfl
/-- The product at an entry: the sum over the contracted axis. -/
theorem dotN_apply (l : FVec Ideal S20000x256 .f32) (r : FVec Ideal S256x256 .f32) (a : Fin 20000) (j : Fin 256) :
    Host.dotGeneral dot_S20000x256_S256x256_S20000x256_1_0_0_1_n_n none l r (ix2 a j) = ∑ k : Fin 256, l (ix2 a k) * r (ix2 k j) := by
  simp only [Host.dotGeneral]
  rw [Ideal.dotGeneral_apply, ← Equiv.sum_comp (ValueIdx.contrEquiv1 dot_S20000x256_S256x256_S20000x256_1_0_0_1_n_n 256 rfl rfl).symm]
  refine Finset.sum_congr rfl fun k _ => ?_
  have hk := ValueIdx.contrEquiv1_symm_val dot_S20000x256_S256x256_S20000x256_1_0_0_1_n_n 256 rfl rfl k
  have el : dot_S20000x256_S256x256_S20000x256_1_0_0_1_n_n.lhsIdx (ix2 a j) ((ValueIdx.contrEquiv1 dot_S20000x256_S256x256_S20000x256_1_0_0_1_n_n 256 rfl rfl).symm k) = ix2 a k := funext fun b => Fin.ext (by
    match b with
    | ⟨0, _⟩ => exact lhsN_0 _ _
    | ⟨1, _⟩ => exact (lhsN_1 _ _).trans hk)
  have er : dot_S20000x256_S256x256_S20000x256_1_0_0_1_n_n.rhsIdx (ix2 a j) ((ValueIdx.contrEquiv1 dot_S20000x256_S256x256_S20000x256_1_0_0_1_n_n 256 rfl rfl).symm k) = ix2 k j := funext fun b => Fin.ext (by
    match b with
    | ⟨0, _⟩ => exact (rhsN_0 _ _).trans hk
    | ⟨1, _⟩ => exact rhsN_1 _ _)
  rw [el, er]

theorem lhsE_0 (i : S200000x256.Idx) (q : dot_S200000x256_S256x256_S200000x256_1_0_0_1_n_n.contr.Idx) : (dot_S200000x256_S256x256_S200000x256_1_0_0_1_n_n.lhsIdx i q 0).val = (i 0).val := by
  unfold DotDims.lhsIdx
  rw [dif_neg (show ¬(0 : Fin S200000x256.rank) ∈ dot_S200000x256_S256x256_S200000x256_1_0_0_1_n_n.lhsBatch by decide), dif_pos (show (0 : Fin S200000x256.rank) ∈ dot_S200000x256_S256x256_S200000x256_1_0_0_1_n_n.lhsNonContracting by decide)]
  rfl
theorem lhsE_1 (i : S200000x256.Idx) (q : dot_S200000x256_S256x256_S200000x256_1_0_0_1_n_n.contr.Idx) : (dot_S200000x256_S256x256_S200000x256_1_0_0_1_n_n.lhsIdx i q 1).val = (q ⟨0, by decide⟩).val :=
  dot_S200000x256_S256x256_S200000x256_1_0_0_1_n_n.lhsIdx_val_of_single rfl i q
theorem rhsE_0 (i : S200000x256.Idx) (q : dot_S200000x256_S256x256_S200000x256_1_0_0_1_n_n.contr.Idx) : (dot_S200000x256_S256x256_S200000x256_1_0_0_1_n_n.rhsIdx i q 0).val = (q ⟨0, by decide⟩).val :=
  dot_S200000x256_S256x256_S200000x256_1_0_0_1_n_n.rhsIdx_val_of_single rfl i q
theorem rhsE_1 (i : S200000x256.Idx) (q : dot_S200000x256_S256x256_S200000x256_1_0_0_1_n_n.contr.Idx) : (dot_S200000x256_S256x256_S200000x256_1_0_0_1_n_n.rhsIdx i q 1).val = (i 1).val := by
  unfold DotDims.rhsIdx
  rw [dif_neg (show ¬(1 : Fin S256x256.rank) ∈ dot_S200000x256_S256x256_S200000x256_1_0_0_1_n_n.rhsBatch by decide), dif_pos (show (1 : Fin S256x256.rank) ∈ dot_S200000x256_S256x256_S200000x256_1_0_0_1_n_n.rhsNonContracting by decide)]
  rfl
/-- The product at an entry: the sum over the contracted axis. -/
theorem dotE_apply (l : FVec Ideal S200000x256 .f32) (r : FVec Ideal S256x256 .f32) (a : Fin 200000) (j : Fin 256) :
    Host.dotGeneral dot_S200000x256_S256x256_S200000x256_1_0_0_1_n_n none l r (ix2 a j) = ∑ k : Fin 256, l (ix2 a k) * r (ix2 k j) := by
  simp only [Host.dotGeneral]
  rw [Ideal.dotGeneral_apply, ← Equiv.sum_comp (ValueIdx.contrEquiv1 dot_S200000x256_S256x256_S200000x256_1_0_0_1_n_n 256 rfl rfl).symm]
  refine Finset.sum_congr rfl fun k _ => ?_
  have hk := ValueIdx.contrEquiv1_symm_val dot_S200000x256_S256x256_S200000x256_1_0_0_1_n_n 256 rfl rfl k
  have el : dot_S200000x256_S256x256_S200000x256_1_0_0_1_n_n.lhsIdx (ix2 a j) ((ValueIdx.contrEquiv1 dot_S200000x256_S256x256_S200000x256_1_0_0_1_n_n 256 rfl rfl).symm k) = ix2 a k := funext fun b => Fin.ext (by
    match b with
    | ⟨0, _⟩ => exact lhsE_0 _ _
    | ⟨1, _⟩ => exact (lhsE_1 _ _).trans hk)
  have er : dot_S200000x256_S256x256_S200000x256_1_0_0_1_n_n.rhsIdx (ix2 a j) ((ValueIdx.contrEquiv1 dot_S200000x256_S256x256_S200000x256_1_0_0_1_n_n 256 rfl rfl).symm k) = ix2 k j := funext fun b => Fin.ext (by
    match b with
    | ⟨0, _⟩ => exact (rhsE_0 _ _).trans hk
    | ⟨1, _⟩ => exact rhsE_1 _ _)
  rw [el, er]

/-! ## Layout operations at an entry -/

/-- A transposed `256 × 256` block at `(k, j)` is the block at `(j, k)`. -/
theorem transpose_at (W : FVec Ideal S256x256 .f32) (k j : Fin 256) :
    transpose S256x256 [1, 0] W transposes_S256x256_S256x256_1_0 (ix2 k j) = W (ix2 j k) :=
  transpose_apply [1, 0] W transposes_S256x256_S256x256_1_0 (ix2 k j) (ix2 j k) (fun b => match b with
    | ⟨0, _⟩ => rfl
    | ⟨1, _⟩ => rfl)

/-- Column `k` of the first, second and third `256`-column block of a `768`-column row. -/
abbrev colI (k : Fin 256) : Fin 768 := ⟨k.val, by omega⟩
abbrev colJ (k : Fin 256) : Fin 768 := ⟨256 + k.val, by omega⟩
abbrev colE (k : Fin 256) : Fin 768 := ⟨512 + k.val, by omega⟩

theorem sliceI_at (W : FVec Ideal S256x768 .f32) (j k : Fin 256) :
    extractStridedSlice S256x256 ![0, 0] W slices_S256x768_S256x256_0_0 (ix2 j k) = W (ix2 j (colI k)) :=
  extractStridedSlice_apply ![0, 0] W slices_S256x768_S256x256_0_0 (ix2 j k) (ix2 j (colI k)) (fun a => match a with
    | ⟨0, _⟩ => by show j.val = 0 + j.val; omega
    | ⟨1, _⟩ => by show k.val = 0 + k.val; omega)
theorem sliceJ_at (W : FVec Ideal S256x768 .f32) (j k : Fin 256) :
    extractStridedSlice S256x256 ![0, 256] W slices_S256x768_S256x256_0_256 (ix2 j k) = W (ix2 j (colJ k)) :=
  extractStridedSlice_apply ![0, 256] W slices_S256x768_S256x256_0_256 (ix2 j k) (ix2 j (colJ k)) (fun a => match a with
    | ⟨0, _⟩ => by show j.val = 0 + j.val; omega
    | ⟨1, _⟩ => by show 256 + k.val = 256 + k.val; rfl)
theorem sliceE_at (W : FVec Ideal S256x768 .f32) (j k : Fin 256) :
    extractStridedSlice S256x256 ![0, 512] W slices_S256x768_S256x256_0_512 (ix2 j k) = W (ix2 j (colE k)) :=
  extractStridedSlice_apply ![0, 512] W slices_S256x768_S256x256_0_512 (ix2 j k) (ix2 j (colE k)) (fun a => match a with
    | ⟨0, _⟩ => by show j.val = 0 + j.val; omega
    | ⟨1, _⟩ => by show 512 + k.val = 512 + k.val; rfl)

/-- A bias row laid along every edge, at `(e, j)`. -/
theorem biasE_at (b : FVec Ideal S256 .f32) (e : Fin 200000) (j : Fin 256) :
    broadcastInDim S200000x256 ![0, 1] bcast_S1x256_S200000x256_0_1 (broadcastInDim S1x256 ![1] bcast_S256_S1x256_1 b) (ix2 e j) = b (ix1 j) := by
  rw [broadcastInDim_apply _ bcast_S1x256_S200000x256_0_1 _ (ix2 e j) (ix2 (⟨0, Nat.one_pos⟩ : Fin 1) j) (fun a => match a with
    | ⟨0, _⟩ => by show 0 = if (1 : Nat) = 1 then 0 else e.val; rw [if_pos rfl]
    | ⟨1, _⟩ => by show j.val = if (256 : Nat) = 1 then 0 else j.val; rw [if_neg (by decide)])]
  exact broadcastInDim_apply _ bcast_S256_S1x256_1 b (ix2 (⟨0, Nat.one_pos⟩ : Fin 1) j) (ix1 j) (fun a => match a with
    | ⟨0, _⟩ => by show j.val = if (256 : Nat) = 1 then 0 else j.val; rw [if_neg (by decide)])

/-! ## The gathers and the projections -/

/-- The row of a `20000`-row table that entry `e` of a column of start indices names: read signed, clamped. -/
def gRow (ix : IVec S200000x1 32) (e : Fin 200000) : Fin 20000 :=
  ⟨min (ix (ix2 e ⟨0, Nat.one_pos⟩)).toInt.toNat (20000 - 1), by omega⟩

theorem gatherRows_at (t : FVec Ideal S20000x256 .f32) (ix : IVec S200000x1 32) (e : Fin 200000) (j : Fin 256) :
    gatherRows (F := Ideal) t ix (ix2 e j) = t (ix2 (gRow ix e) j) := by
  unfold gatherRows
  exact Cert.Lib.EdgeIndex.gatherRows_apply (N := 20000) (E := 200000) (C := 256) (by omega)
    gather_S20000x256_S200000x1_S200000x256_1_0_n_n_0_1_1256_wf t ix (ix2 e j)

theorem proj_at (h : FVec Ideal S20000x256 .f32) (W : FVec Ideal S256x256 .f32) (a : Fin 20000) (j : Fin 256) :
    proj (F := Ideal) h W (ix2 a j) = ∑ k : Fin 256, h (ix2 a k) * W (ix2 j k) := by
  unfold proj
  rw [dotN_apply]
  exact Finset.sum_congr rfl fun k _ => by rw [transpose_at]

/-- `h Wᵢᵀ`, `h Wⱼᵀ` and `ee Wₑᵀ` for the three `256`-column blocks of a `256 × 768` weight, at an entry. -/
theorem projI_at (h : FVec Ideal S20000x256 .f32) (W : FVec Ideal S256x768 .f32) (a : Fin 20000) (j : Fin 256) :
    proj (F := Ideal) h (extractStridedSlice S256x256 ![0, 0] W slices_S256x768_S256x256_0_0) (ix2 a j)
      = ∑ k : Fin 256, h (ix2 a k) * W (ix2 j (colI k)) := by
  rw [proj_at]
  exact Finset.sum_congr rfl fun k _ => by rw [sliceI_at]
theorem projJ_at (h : FVec Ideal S20000x256 .f32) (W : FVec Ideal S256x768 .f32) (a : Fin 20000) (j : Fin 256) :
    proj (F := Ideal) h (extractStridedSlice S256x256 ![0, 256] W slices_S256x768_S256x256_0_256) (ix2 a j)
      = ∑ k : Fin 256, h (ix2 a k) * W (ix2 j (colJ k)) := by
  rw [proj_at]
  exact Finset.sum_congr rfl fun k _ => by rw [sliceJ_at]
theorem edot_at (ee : FVec Ideal S200000x256 .f32) (W : FVec Ideal S256x768 .f32) (e : Fin 200000) (j : Fin 256) :
    Host.dotGeneral dot_S200000x256_S256x256_S200000x256_1_0_0_1_n_n none ee
        (transpose S256x256 [1, 0] (extractStridedSlice S256x256 ![0, 512] W slices_S256x768_S256x256_0_512) transposes_S256x256_S256x256_1_0) (ix2 e j)
      = ∑ k : Fin 256, ee (ix2 e k) * W (ix2 j (colE k)) := by
  rw [dotE_apply]
  exact Finset.sum_congr rfl fun k _ => by rw [transpose_at, sliceE_at]

/-! ## The pre-activation, the gate, the softplus and the message at an entry -/

/-- THE PRE-ACTIVATION AT `(e, j)`. -/
theorem pre_at (h : FVec Ideal S20000x256 .f32) (ee : FVec Ideal S200000x256 .f32) (W : FVec Ideal S256x768 .f32) (b : FVec Ideal S256 .f32)
    (dst src : IVec S200000 32) (e : Fin 200000) (j : Fin 256) :
    pre (F := Ideal) h ee W b dst src (ix2 e j)
      = (((∑ k : Fin 256, h (ix2 (gRow (wrapIdx (F := Ideal) dst) e) k) * W (ix2 j (colI k)))
            + (∑ k : Fin 256, h (ix2 (gRow (wrapIdx (F := Ideal) src) e) k) * W (ix2 j (colJ k))))
          + (∑ k : Fin 256, ee (ix2 e k) * W (ix2 j (colE k))))
        + b (ix1 j) := by
  unfold pre
  rw [addf_apply, addf_apply, addf_apply, gatherRows_at, gatherRows_at, projI_at, projJ_at, edot_at, biasE_at]

/-- The reference's gate at a value: `1 / (1 + exp (-z))`. -/
def gateAt (z : Ideal .f32) : Ideal .f32 :=
  FloatOps.hostDivf (Ideal.ofBits .f32 0x3F800000#32) (FloatOps.addf (Ideal.ofBits .f32 0x3F800000#32) (FloatOps.hostUnary .exp (FloatOps.hostNegf z)))
/-- The reference's softplus at a value, as it spells it. -/
def softplusAt (z : Ideal .f32) : Ideal .f32 :=
  Scalar.select (FloatOps.cmpf .une (FloatOps.subf z (Ideal.ofBits .f32 0x00000000#32)) (FloatOps.subf z (Ideal.ofBits .f32 0x00000000#32)))
    (FloatOps.addf z (Ideal.ofBits .f32 0x00000000#32))
    (FloatOps.addf (FloatOps.maximumf z (Ideal.ofBits .f32 0x00000000#32))
      (FloatOps.hostUnary .log1p (FloatOps.hostUnary .exp (FloatOps.hostNegf (FloatOps.hostAbsf (FloatOps.subf z (Ideal.ofBits .f32 0x00000000#32)))))))

theorem sigm_at (z : FVec Ideal S200000x256 .f32) (i : S200000x256.Idx) : sigm (F := Ideal) z i = gateAt (z i) := rfl
theorem softplusE_at (z : FVec Ideal S200000x256 .f32) (i : S200000x256.Idx) : softplusE (F := Ideal) z i = softplusAt (z i) := rfl

/-- The gate is the logistic function. -/
theorem gateAt_eq_logistic (z : Ideal .f32) : gateAt z = FloatOps.logistic z := by
  unfold gateAt
  rw [Ideal.ofBits_one_f32]
  rfl

/-- THE MESSAGE AT AN ENTRY: the gate of the first pre-activation times the softplus of the second. -/
theorem message_at (h : FVec Ideal S20000x256 .f32) (ee : FVec Ideal S200000x256 .f32) (Wf : FVec Ideal S256x768 .f32) (bf : FVec Ideal S256 .f32)
    (Ws : FVec Ideal S256x768 .f32) (bs : FVec Ideal S256 .f32) (dst src : IVec S200000 32) (i : S200000x256.Idx) :
    message (F := Ideal) h ee Wf bf Ws bs dst src i
      = FloatOps.mulf (gateAt (pre (F := Ideal) h ee Wf bf dst src i)) (softplusAt (pre (F := Ideal) h ee Ws bs dst src i)) := rfl

end Cert.Bridge.Ref

end
-- ==== Proof.KI.StageMsg.lean ====
import proofs.«149463_j13572096656012_1_alg».proof.Proof.KI.Run
import proofs.«149463_j13572096656012_1_alg».proof.Proof.KI.Chunks
import proofs.«149463_j13572096656012_1_alg».proof.Proof.KI.Value4
import proofs.«149463_j13572096656012_1_alg».proof.Proof.KI.Value7
import proofs.«149463_j13572096656012_1_alg».proof.Proof.KI.StageMsgOps
import proofs.«149463_j13572096656012_1_alg».proof.Proof.KI.StageDense
import proofs.«149463_j13572096656012_1_alg».proof.Proof.Ref.MessageAt

/-!
# The message regions leave the reference's messages

A message region's output, entry `(e, q)`, is `σ(z_f) · sp(z_s)` with `z = gd + gs + ee + b` read in the left
(`f`) or right (`s`) half of the three 512-column operands.  Read back through the host operations and the two
product regions before it: `gd(e, ·)` is the node product's row at the target node of edge `e`, `gs(e, ·)` its row at
the source node, `ee` the edge product; and the node product's four bands of 256 columns are the layer's input
against the target-node and source-node bands of the two weights, the edge product's two bands the edge embedding
against their edge bands — all with an all-zero bias row, which adds nothing.  So
`z_f(e, q) = ∑ₖ h(dst e, k) Wf(q, k) + ∑ₖ h(src e, k) Wf(q, 256 + k) + ∑ₖ E(e, k) Wf(q, 512 + k) + bf(q)` and the same
with `Ws`, `bs` — the reference's pre-activations.  The logistic function is `1 / (1 + exp(-z))`, and the two
spellings of the softplus differ only in `0 - |y|` against `-|y|` (at the exact values the two "is it unordered with
itself" tests are one and the same comparison).
-/

set_option maxRecDepth 16384
-- reading a buffer's type off the program's table of 335 references takes most of the default budget by itself
set_option maxHeartbeats 4000000

noncomputable section

namespace Cert.KernelIdeal.Stage

open Cert.KernelIdeal Cert.KernelIdeal.Gen Cert.KernelIdeal.Rg Idealize.ShloMosaic Idealize.ShloMosaic.TcCoe Idealize.SL.Sem Idealize.ShloMosaic.StableHlo
open Cert.Bridge Cert.Bridge.Ref
open Idealize.ShloMosaic.ValueIdx

/-! ## The two spellings of the softplus -/

/-- The reference's softplus at a value is the message body's. -/
theorem softplusAt_eq (z : Ideal .f32) : softplusAt z = Val.msgSoftplus (F := Ideal) z := by
  have key : ∀ y : EReal, -y = (Ideal.ofBits .f32 0x00000000#32 : EReal) - y := fun y => by
    rw [Ideal.ofBits_zero_f32, zero_sub]
  unfold softplusAt Val.msgSoftplus
  exact congrArg (fun t : EReal => Scalar.select
      (FloatOps.cmpf .une (FloatOps.subf z (Ideal.ofBits .f32 0x00000000#32)) (FloatOps.subf z (Ideal.ofBits .f32 0x00000000#32)))
      (FloatOps.addf z (Ideal.ofBits .f32 0x00000000#32))
      (FloatOps.addf (FloatOps.maximumf z (Ideal.ofBits .f32 0x00000000#32)) (FloatOps.log1p (FloatOps.exp t))))
    (key (FloatOps.hostAbsf (FloatOps.subf z (Ideal.ofBits .f32 0x00000000#32))))

/-! ## Rows, weights and columns in the two spellings -/

/-- The node an edge's row is read at is the row the reference's gather names. -/
theorem nodeOf_eq_gRow (d : IVec S200000 32) (e : Fin 200000) : nodeOf (F := Ideal) d e = gRow (wrapIdx (F := Ideal) d) e :=
  Fin.ext (by
    show min ((wrapRow (F := Ideal) d (ix1 e) : BitVec 32)).toInt.toNat 19999
      = min ((wrapIdx (F := Ideal) d (ix2 e ⟨0, Nat.one_pos⟩) : BitVec 32)).toInt.toNat (20000 - 1)
    rw [show wrapIdx (F := Ideal) d (ix2 e ⟨0, Nat.one_pos⟩) = wrapRow (F := Ideal) d (ix1 e) from idxCol_apply (wrapRow d) e])

theorem mat0_at (A : S2x256x768.Idx → EReal) (r : Fin 256) (j : Fin 768) : mat0 (F := Ideal) A (ix2 r j) = A (ix3 (0 : Fin 2) r j) :=
  slab0_apply A r j
theorem mat1_at (A : S2x256x768.Idx → EReal) (r : Fin 256) (j : Fin 768) : mat1 (F := Ideal) A (ix2 r j) = A (ix3 (1 : Fin 2) r j) :=
  slab1_apply A r j
theorem row0_at (b : S2x256.Idx → EReal) (q : Fin 256) : row0 (F := Ideal) b (ix1 q) = b (ix2 (0 : Fin 2) q) :=
  (shapeCast_1a_a_apply _ _ q).trans (slice2_axis0_apply 0 b _ (0 : Fin 1) q (0 : Fin 2) rfl)
theorem row1_at (b : S2x256.Idx → EReal) (q : Fin 256) : row1 (F := Ideal) b (ix1 q) = b (ix2 (1 : Fin 2) q) :=
  (shapeCast_1a_a_apply _ _ q).trans (slice2_axis0_apply 1 b _ (0 : Fin 1) q (1 : Fin 2) rfl)

/-- Column `0 + k` is column `k`. -/
theorem col0_eq (k : Fin 256) : col768 0 (by decide) k = colI k := Fin.ext (Nat.zero_add _)

/-- The edge embedding narrowed for the edge products, as the host operations before region 2 leave it. -/
theorem e16_read (W : Valuation τ sig (Elt Ideal)) :
    @Eq (S200000x256.Idx → EReal) (StableHlo.after hostOps2 W main_v14)
      (truncf (F := Ideal) .bf16 (W main_v13 : S200000x256.Idx → EReal) bitsLt_bf16_f32) := by
  dsimp only [hostOps2]; after_results; try rfl

variable (m : (ℓ : Loc nD τ sig) → Buf (Elt Ideal) ℓ) (c : Dev nD)

/-! ## Layer 0 -/

section Layer0

/-! ### Buffers carried unchanged to where they are read -/

theorem arg8_at4 : (Gen.V4 m (outs m) c) main_arg8 = (m ((c : Thread nD τ).loc main_arg8)) := ((Gen.V4_of m (outs m) c main_arg8 (by decide)).trans ((Gen.V3_of m (outs m) c main_arg8 (by decide)).trans ((Gen.V2_of m (outs m) c main_arg8 (by decide)).trans (Gen.V1_of m c main_arg8 (by decide)))))
theorem arg10_at4 : (Gen.V4 m (outs m) c) main_arg10 = (m ((c : Thread nD τ).loc main_arg10)) := ((Gen.V4_of m (outs m) c main_arg10 (by decide)).trans ((Gen.V3_of m (outs m) c main_arg10 (by decide)).trans ((Gen.V2_of m (outs m) c main_arg10 (by decide)).trans (Gen.V1_of m c main_arg10 (by decide)))))
theorem arg9_at8 : (Gen.V8 m (outs m) c) main_arg9 = (m ((c : Thread nD τ).loc main_arg9)) := ((Gen.V8_of m (outs m) c main_arg9 (by decide)).trans ((Gen.V7_of m (outs m) c main_arg9 (by decide)).trans ((Gen.V6_of m (outs m) c main_arg9 (by decide)).trans ((Gen.V5_of m (outs m) c main_arg9 (by decide)).trans ((Gen.V4_of m (outs m) c main_arg9 (by decide)).trans ((Gen.V3_of m (outs m) c main_arg9 (by decide)).trans ((Gen.V2_of m (outs m) c main_arg9 (by decide)).trans (Gen.V1_of m c main_arg9 (by decide)))))))))
theorem arg11_at8 : (Gen.V8 m (outs m) c) main_arg11 = (m ((c : Thread nD τ).loc main_arg11)) := ((Gen.V8_of m (outs m) c main_arg11 (by decide)).trans ((Gen.V7_of m (outs m) c main_arg11 (by decide)).trans ((Gen.V6_of m (outs m) c main_arg11 (by decide)).trans ((Gen.V5_of m (outs m) c main_arg11 (by decide)).trans ((Gen.V4_of m (outs m) c main_arg11 (by decide)).trans ((Gen.V3_of m (outs m) c main_arg11 (by decide)).trans ((Gen.V2_of m (outs m) c main_arg11 (by decide)).trans (Gen.V1_of m c main_arg11 (by decide)))))))))
theorem dst_at8 : (Gen.V8 m (outs m) c) main_v3 = (dstRow (F := Ideal) (m ((c : Thread nD τ).loc main_arg1))) := (((Gen.V8_of m (outs m) c main_v3 (by decide)).trans ((Gen.V7_of m (outs m) c main_v3 (by decide)).trans ((Gen.V6_of m (outs m) c main_v3 (by decide)).trans ((Gen.V5_of m (outs m) c main_v3 (by decide)).trans ((Gen.V4_of m (outs m) c main_v3 (by decide)).trans ((Gen.V3_of m (outs m) c main_v3 (by decide)).trans (Gen.V2_of m (outs m) c main_v3 (by decide))))))))).trans (dst_read (Gen.V0 m c))
theorem src_at8 : (Gen.V8 m (outs m) c) main_v1 = (srcRow (F := Ideal) (m ((c : Thread nD τ).loc main_arg1))) := (((Gen.V8_of m (outs m) c main_v1 (by decide)).trans ((Gen.V7_of m (outs m) c main_v1 (by decide)).trans ((Gen.V6_of m (outs m) c main_v1 (by decide)).trans ((Gen.V5_of m (outs m) c main_v1 (by decide)).trans ((Gen.V4_of m (outs m) c main_v1 (by decide)).trans ((Gen.V3_of m (outs m) c main_v1 (by decide)).trans (Gen.V2_of m (outs m) c main_v1 (by decide))))))))).trans (src_read (Gen.V0 m c))

/-- The node product where the gathers read it: what region 2 left, the product of its operands. -/
theorem node0_at (n : Fin 20000) (j : Fin 1024) :
    @Eq EReal (((Gen.V8 m (outs m) c) main_v40 : S20000x1024.Idx → EReal) (ix2 n j))
      (Val.G2 ((Gen.V5 m (outs m) c) main_v38) ((Gen.V5 m (outs m) c) main_v36) ((Gen.V5 m (outs m) c) main_v39) (ix2 n j)) := by
  have h1 : (Gen.V8 m (outs m) c) main_v40 = (Gen.V6 m (outs m) c) main_v40 := ((Gen.V8_of m (outs m) c main_v40 (by decide)).trans (Gen.V7_of m (outs m) c main_v40 (by decide)))
  have h2 : (Gen.V6 m (outs m) c) main_v40 = out2 m c := by rw [Vout2_eq]; unfold Vout2; rw [Function.update_self]
  rw [h1, h2]
  exact congrFun (Val.final2 (atTc (Vin2 m)) c) (ix2 n j)

/-- The edge product where the message region reads it: what region 3 left. -/
theorem edge0_at (e : Fin 200000) (j : Fin 512) :
    @Eq EReal (((Gen.V8 m (outs m) c) main_v46 : S200000x512.Idx → EReal) (ix2 e j))
      (Val.G3 ((Gen.V7 m (outs m) c) main_v14) ((Gen.V7 m (outs m) c) main_v43) ((Gen.V7 m (outs m) c) main_v45) (ix2 e j)) := by
  have h2 : (Gen.V8 m (outs m) c) main_v46 = out3 m c := by rw [Vout3_eq]; unfold Vout3; rw [Function.update_self]
  rw [h2]
  exact congrFun (Val.final3 (atTc (Vin3 m)) c) (ix2 e j)

/-- The edge product's left operand is the edge embedding (its narrowing is the identity at the exact values). -/
theorem e16_at0 (e : Fin 200000) (k : Fin 256) :
    @Eq EReal (((Gen.V6 m (outs m) c) main_v14 : S200000x256.Idx → EReal) (ix2 e k)) (((Gen.V4 m (outs m) c) main_v13 : S200000x256.Idx → EReal) (ix2 e k)) := by
  have h1 : (Gen.V6 m (outs m) c) main_v14 = (Gen.V5 m (outs m) c) main_v14 := (Gen.V6_of m (outs m) c main_v14 (by decide))
  rw [h1]
  exact congrFun (e16_read (Gen.V4 m (outs m) c)) (ix2 e k)

/-! ### The eight entries the message reads -/

theorem gdL0 (e : Fin 200000) (q : Fin 256) :
    @Eq EReal (((Gen.V9 m (outs m) c) main_v55 : S200000x512.Idx → EReal) (ix2 e (Val.msgColL q))) (∑ k : Fin 256, @HMul.hMul EReal EReal EReal instHMul (((Gen.V4 m (outs m) c) main_v8 : S20000x256.Idx → EReal) (ix2 (gRow (wrapIdx (F := Ideal) (dstRow (F := Ideal) (m ((c : Thread nD τ).loc main_arg1)))) e) k)) (mat0 (F := Ideal) (m ((c : Thread nD τ).loc main_arg8)) (ix2 q (colI k)))) := by
  refine (gd0_apply (Gen.V8 m (outs m) c) e (Val.msgColL q)).trans ?_
  rw [dst_at8 m c, nodeOf_eq_gRow]
  refine (node0_at m c _ _).trans ?_
  refine (node0_q0 (Gen.V4 m (outs m) c) ((Gen.V4 m (outs m) c) main_v8 : S20000x256.Idx → EReal) rfl _ _ rfl rfl _ (nodeColL (Val.msgColL q)) q (Nat.zero_add _).symm).trans ?_
  refine Finset.sum_congr rfl fun k _ => congrArg₂ (fun (u v : EReal) => u * v) rfl ?_
  rw [arg8_at4 m c, col0_eq]
  exact (mat0_at _ q _).symm

theorem gdR0 (e : Fin 200000) (q : Fin 256) :
    @Eq EReal (((Gen.V9 m (outs m) c) main_v55 : S200000x512.Idx → EReal) (ix2 e (Val.msgColR q))) (∑ k : Fin 256, @HMul.hMul EReal EReal EReal instHMul (((Gen.V4 m (outs m) c) main_v8 : S20000x256.Idx → EReal) (ix2 (gRow (wrapIdx (F := Ideal) (dstRow (F := Ideal) (m ((c : Thread nD τ).loc main_arg1)))) e) k)) (mat0 (F := Ideal) (m ((c : Thread nD τ).loc main_arg10)) (ix2 q (colI k)))) := by
  refine (gd0_apply (Gen.V8 m (outs m) c) e (Val.msgColR q)).trans ?_
  rw [dst_at8 m c, nodeOf_eq_gRow]
  refine (node0_at m c _ _).trans ?_
  refine (node0_q1 (Gen.V4 m (outs m) c) ((Gen.V4 m (outs m) c) main_v8 : S20000x256.Idx → EReal) rfl _ _ rfl rfl _ (nodeColL (Val.msgColR q)) q rfl).trans ?_
  refine Finset.sum_congr rfl fun k _ => congrArg₂ (fun (u v : EReal) => u * v) rfl ?_
  rw [arg10_at4 m c, col0_eq]
  exact (mat0_at _ q _).symm

theorem gsL0 (e : Fin 200000) (q : Fin 256) :
    @Eq EReal (((Gen.V9 m (outs m) c) main_v62 : S200000x512.Idx → EReal) (ix2 e (Val.msgColL q))) (∑ k : Fin 256, @HMul.hMul EReal EReal EReal instHMul (((Gen.V4 m (outs m) c) main_v8 : S20000x256.Idx → EReal) (ix2 (gRow (wrapIdx (F := Ideal) (srcRow (F := Ideal) (m ((c : Thread nD τ).loc main_arg1)))) e) k)) (mat0 (F := Ideal) (m ((c : Thread nD τ).loc main_arg8)) (ix2 q (colJ k)))) := by
  refine (gs0_apply (Gen.V8 m (outs m) c) e (Val.msgColL q)).trans ?_
  rw [src_at8 m c, nodeOf_eq_gRow]
  refine (node0_at m c _ _).trans ?_
  refine (node0_q2 (Gen.V4 m (outs m) c) ((Gen.V4 m (outs m) c) main_v8 : S20000x256.Idx → EReal) rfl _ _ rfl rfl _ (nodeColR (Val.msgColL q)) q rfl).trans ?_
  refine Finset.sum_congr rfl fun k _ => congrArg₂ (fun (u v : EReal) => u * v) rfl ?_
  rw [arg8_at4 m c]
  exact (mat0_at _ q _).symm

theorem gsR0 (e : Fin 200000) (q : Fin 256) :
    @Eq EReal (((Gen.V9 m (outs m) c) main_v62 : S200000x512.Idx → EReal) (ix2 e (Val.msgColR q))) (∑ k : Fin 256, @HMul.hMul EReal EReal EReal instHMul (((Gen.V4 m (outs m) c) main_v8 : S20000x256.Idx → EReal) (ix2 (gRow (wrapIdx (F := Ideal) (srcRow (F := Ideal) (m ((c : Thread nD τ).loc main_arg1)))) e) k)) (mat0 (F := Ideal) (m ((c : Thread nD τ).loc main_arg10)) (ix2 q (colJ k)))) := by
  refine (gs0_apply (Gen.V8 m (outs m) c) e (Val.msgColR q)).trans ?_
  rw [src_at8 m c, nodeOf_eq_gRow]
  refine (node0_at m c _ _).trans ?_
  refine (node0_q3 (Gen.V4 m (outs m) c) ((Gen.V4 m (outs m) c) main_v8 : S20000x256.Idx → EReal) rfl _ _ rfl rfl _ (nodeColR (Val.msgColR q)) q (by show 512 + (256 + q.val) = 768 + q.val; omega)).trans ?_
  refine Finset.sum_congr rfl fun k _ => congrArg₂ (fun (u v : EReal) => u * v) rfl ?_
  rw [arg10_at4 m c]
  exact (mat0_at _ q _).symm

theorem eeL0 (e : Fin 200000) (q : Fin 256) :
    @Eq EReal (((Gen.V9 m (outs m) c) main_v46 : S200000x512.Idx → EReal) (ix2 e (Val.msgColL q))) (∑ k : Fin 256, @HMul.hMul EReal EReal EReal instHMul (((Gen.V4 m (outs m) c) main_v13 : S200000x256.Idx → EReal) (ix2 e k)) (mat0 (F := Ideal) (m ((c : Thread nD τ).loc main_arg8)) (ix2 q (colE k)))) := by
  refine (congrFun (ee0_eq (Gen.V8 m (outs m) c)) (ix2 e (Val.msgColL q))).trans ?_
  refine (edge0_at m c _ _).trans ?_
  refine (edge0_q0 (Gen.V6 m (outs m) c) _ rfl _ _ rfl rfl e (Val.msgColL q) q rfl).trans ?_
  refine Finset.sum_congr rfl fun k _ => congrArg₂ (fun (u v : EReal) => u * v) (e16_at0 m c e k) ?_
  refine (congrFun ((Gen.V6_of m (outs m) c main_v30 (by decide)) : @Eq (S256x256.Idx → EReal) ((Gen.V6 m (outs m) c) main_v30) ((Gen.V5 m (outs m) c) main_v30)) (ix2 q k)).trans ?_
  refine (edge0_band_f (Gen.V4 m (outs m) c) _ rfl q k).trans ?_
  rw [arg8_at4 m c]
  exact (mat0_at _ q _).symm

theorem eeR0 (e : Fin 200000) (q : Fin 256) :
    @Eq EReal (((Gen.V9 m (outs m) c) main_v46 : S200000x512.Idx → EReal) (ix2 e (Val.msgColR q))) (∑ k : Fin 256, @HMul.hMul EReal EReal EReal instHMul (((Gen.V4 m (outs m) c) main_v13 : S200000x256.Idx → EReal) (ix2 e k)) (mat0 (F := Ideal) (m ((c : Thread nD τ).loc main_arg10)) (ix2 q (colE k)))) := by
  refine (congrFun (ee0_eq (Gen.V8 m (outs m) c)) (ix2 e (Val.msgColR q))).trans ?_
  refine (edge0_at m c _ _).trans ?_
  refine (edge0_q1 (Gen.V6 m (outs m) c) _ rfl _ _ rfl rfl e (Val.msgColR q) q rfl).trans ?_
  refine Finset.sum_congr rfl fun k _ => congrArg₂ (fun (u v : EReal) => u * v) (e16_at0 m c e k) ?_
  refine (congrFun ((Gen.V6_of m (outs m) c main_v33 (by decide)) : @Eq (S256x256.Idx → EReal) ((Gen.V6 m (outs m) c) main_v33) ((Gen.V5 m (outs m) c) main_v33)) (ix2 q k)).trans ?_
  refine (edge0_band_s (Gen.V4 m (outs m) c) _ rfl q k).trans ?_
  rw [arg10_at4 m c]
  exact (mat0_at _ q _).symm

theorem bfAt0 (q : Fin 256) :
    @Eq EReal (((Gen.V9 m (outs m) c) main_v67 : S1x256.Idx → EReal) (ix2 (0 : Fin 1) q)) (row0 (F := Ideal) (m ((c : Thread nD τ).loc main_arg9)) (ix1 q)) := by
  refine (bf0_apply (Gen.V8 m (outs m) c) q).trans ?_
  rw [arg9_at8 m c]
  exact (row0_at _ q).symm

theorem bsAt0 (q : Fin 256) :
    @Eq EReal (((Gen.V9 m (outs m) c) main_v68 : S1x256.Idx → EReal) (ix2 (0 : Fin 1) q)) (row0 (F := Ideal) (m ((c : Thread nD τ).loc main_arg11)) (ix1 q)) := by
  refine (bs0_apply (Gen.V8 m (outs m) c) q).trans ?_
  rw [arg11_at8 m c]
  exact (row0_at _ q).symm

/-! ### The region's output is the reference's message -/

/-- What the message region leaves, entry by entry, over the reference's own sums. -/
theorem msg0_kernel_at (e : Fin 200000) (q : Fin 256) :
    @Eq EReal ((out4 m c : S200000x256.Idx → EReal) (ix2 e q))
      (Val.msgAt (F := Ideal) (∑ k : Fin 256, @HMul.hMul EReal EReal EReal instHMul (((Gen.V4 m (outs m) c) main_v8 : S20000x256.Idx → EReal) (ix2 (gRow (wrapIdx (F := Ideal) (dstRow (F := Ideal) (m ((c : Thread nD τ).loc main_arg1)))) e) k)) (mat0 (F := Ideal) (m ((c : Thread nD τ).loc main_arg8)) (ix2 q (colI k)))) (∑ k : Fin 256, @HMul.hMul EReal EReal EReal instHMul (((Gen.V4 m (outs m) c) main_v8 : S20000x256.Idx → EReal) (ix2 (gRow (wrapIdx (F := Ideal) (srcRow (F := Ideal) (m ((c : Thread nD τ).loc main_arg1)))) e) k)) (mat0 (F := Ideal) (m ((c : Thread nD τ).loc main_arg8)) (ix2 q (colJ k)))) (∑ k : Fin 256, @HMul.hMul EReal EReal EReal instHMul (((Gen.V4 m (outs m) c) main_v13 : S200000x256.Idx → EReal) (ix2 e k)) (mat0 (F := Ideal) (m ((c : Thread nD τ).loc main_arg8)) (ix2 q (colE k)))) (row0 (F := Ideal) (m ((c : Thread nD τ).loc main_arg9)) (ix1 q))
        (∑ k : Fin 256, @HMul.hMul EReal EReal EReal instHMul (((Gen.V4 m (outs m) c) main_v8 : S20000x256.Idx → EReal) (ix2 (gRow (wrapIdx (F := Ideal) (dstRow (F := Ideal) (m ((c : Thread nD τ).loc main_arg1)))) e) k)) (mat0 (F := Ideal) (m ((c : Thread nD τ).loc main_arg10)) (ix2 q (colI k)))) (∑ k : Fin 256, @HMul.hMul EReal EReal EReal instHMul (((Gen.V4 m (outs m) c) main_v8 : S20000x256.Idx → EReal) (ix2 (gRow (wrapIdx (F := Ideal) (srcRow (F := Ideal) (m ((c : Thread nD τ).loc main_arg1)))) e) k)) (mat0 (F := Ideal) (m ((c : Thread nD τ).loc main_arg10)) (ix2 q (colJ k)))) (∑ k : Fin 256, @HMul.hMul EReal EReal EReal instHMul (((Gen.V4 m (outs m) c) main_v13 : S200000x256.Idx → EReal) (ix2 e k)) (mat0 (F := Ideal) (m ((c : Thread nD τ).loc main_arg10)) (ix2 q (colE k)))) (row0 (F := Ideal) (m ((c : Thread nD τ).loc main_arg11)) (ix1 q))) := by
  have h0 : @Eq (S200000x256.Idx → EReal) (out4 m c)
      (Val.msgArr4 ((Gen.V9 m (outs m) c) main_v55) ((Gen.V9 m (outs m) c) main_v62) ((Gen.V9 m (outs m) c) main_v46) ((Gen.V9 m (outs m) c) main_v67) ((Gen.V9 m (outs m) c) main_v68)) :=
    Val.arr4_5 (atTc (Vin4 m)) c
  rw [h0]
  show Val.msgAt (F := Ideal)
      (((Gen.V9 m (outs m) c) main_v55 : S200000x512.Idx → EReal) (ix2 e (Val.msgColL q))) (((Gen.V9 m (outs m) c) main_v62 : S200000x512.Idx → EReal) (ix2 e (Val.msgColL q)))
      (((Gen.V9 m (outs m) c) main_v46 : S200000x512.Idx → EReal) (ix2 e (Val.msgColL q))) (((Gen.V9 m (outs m) c) main_v67 : S1x256.Idx → EReal) (ix2 (0 : Fin 1) q))
      (((Gen.V9 m (outs m) c) main_v55 : S200000x512.Idx → EReal) (ix2 e (Val.msgColR q))) (((Gen.V9 m (outs m) c) main_v62 : S200000x512.Idx → EReal) (ix2 e (Val.msgColR q)))
      (((Gen.V9 m (outs m) c) main_v46 : S200000x512.Idx → EReal) (ix2 e (Val.msgColR q))) (((Gen.V9 m (outs m) c) main_v68 : S1x256.Idx → EReal) (ix2 (0 : Fin 1) q)) = _
  rw [gdL0 m c e q, gsL0 m c e q, eeL0 m c e q, bfAt0 m c q, gdR0 m c e q, gsR0 m c e q, eeR0 m c e q, bsAt0 m c q]

theorem T_msg0 : out4 m c = message (F := Ideal) ((Gen.V4 m (outs m) c) main_v8) ((Gen.V4 m (outs m) c) main_v13) (mat0 (m ((c : Thread nD τ).loc main_arg8))) (row0 (m ((c : Thread nD τ).loc main_arg9))) (mat0 (m ((c : Thread nD τ).loc main_arg10))) (row0 (m ((c : Thread nD τ).loc main_arg11))) (dstRow (m ((c : Thread nD τ).loc main_arg1))) (srcRow (m ((c : Thread nD τ).loc main_arg1))) := by
  funext i
  obtain ⟨e, q, rfl⟩ : ∃ (e : Fin 200000) (q : Fin 256), i = ix2 e q := ⟨i 0, i 1, eq_ix2 i⟩
  refine (msg0_kernel_at m c e q).trans ?_
  rw [message_at, pre_at, pre_at, gateAt_eq_logistic, softplusAt_eq]
  rfl

end Layer0

/-! ## Layer 1 -/

section Layer1

/-! ### Buffers carried unchanged to where they are read -/

theorem arg8_at10 : (Gen.V10 m (outs m) c) main_arg8 = (m ((c : Thread nD τ).loc main_arg8)) := ((Gen.V10_of m (outs m) c main_arg8 (by decide)).trans ((Gen.V9_of m (outs m) c main_arg8 (by decide)).trans ((Gen.V8_of m (outs m) c main_arg8 (by decide)).trans ((Gen.V7_of m (outs m) c main_arg8 (by decide)).trans ((Gen.V6_of m (outs m) c main_arg8 (by decide)).trans ((Gen.V5_of m (outs m) c main_arg8 (by decide)).trans ((Gen.V4_of m (outs m) c main_arg8 (by decide)).trans ((Gen.V3_of m (outs m) c main_arg8 (by decide)).trans ((Gen.V2_of m (outs m) c main_arg8 (by decide)).trans (Gen.V1_of m c main_arg8 (by decide)))))))))))
theorem arg10_at10 : (Gen.V10 m (outs m) c) main_arg10 = (m ((c : Thread nD τ).loc main_arg10)) := ((Gen.V10_of m (outs m) c main_arg10 (by decide)).trans ((Gen.V9_of m (outs m) c main_arg10 (by decide)).trans ((Gen.V8_of m (outs m) c main_arg10 (by decide)).trans ((Gen.V7_of m (outs m) c main_arg10 (by decide)).trans ((Gen.V6_of m (outs m) c main_arg10 (by decide)).trans ((Gen.V5_of m (outs m) c main_arg10 (by decide)).trans ((Gen.V4_of m (outs m) c main_arg10 (by decide)).trans ((Gen.V3_of m (outs m) c main_arg10 (by decide)).trans ((Gen.V2_of m (outs m) c main_arg10 (by decide)).trans (Gen.V1_of m c main_arg10 (by decide)))))))))))
theorem arg9_at14 : (Gen.V14 m (outs m) c) main_arg9 = (m ((c : Thread nD τ).loc main_arg9)) := ((Gen.V14_of m (outs m) c main_arg9 (by decide)).trans ((Gen.V13_of m (outs m) c main_arg9 (by decide)).trans ((Gen.V12_of m (outs m) c main_arg9 (by decide)).trans ((Gen.V11_of m (outs m) c main_arg9 (by decide)).trans ((Gen.V10_of m (outs m) c main_arg9 (by decide)).trans ((Gen.V9_of m (outs m) c main_arg9 (by decide)).trans ((Gen.V8_of m (outs m) c main_arg9 (by decide)).trans ((Gen.V7_of m (outs m) c main_arg9 (by decide)).trans ((Gen.V6_of m (outs m) c main_arg9 (by decide)).trans ((Gen.V5_of m (outs m) c main_arg9 (by decide)).trans ((Gen.V4_of m (outs m) c main_arg9 (by decide)).trans ((Gen.V3_of m (outs m) c main_arg9 (by decide)).trans ((Gen.V2_of m (outs m) c main_arg9 (by decide)).trans (Gen.V1_of m c main_arg9 (by decide)))))))))))))))
theorem arg11_at14 : (Gen.V14 m (outs m) c) main_arg11 = (m ((c : Thread nD τ).loc main_arg11)) := ((Gen.V14_of m (outs m) c main_arg11 (by decide)).trans ((Gen.V13_of m (outs m) c main_arg11 (by decide)).trans ((Gen.V12_of m (outs m) c main_arg11 (by decide)).trans ((Gen.V11_of m (outs m) c main_arg11 (by decide)).trans ((Gen.V10_of m (outs m) c main_arg11 (by decide)).trans ((Gen.V9_of m (outs m) c main_arg11 (by decide)).trans ((Gen.V8_of m (outs m) c main_arg11 (by decide)).trans ((Gen.V7_of m (outs m) c main_arg11 (by decide)).trans ((Gen.V6_of m (outs m) c main_arg11 (by decide)).trans ((Gen.V5_of m (outs m) c main_arg11 (by decide)).trans ((Gen.V4_of m (outs m) c main_arg11 (by decide)).trans ((Gen.V3_of m (outs m) c main_arg11 (by decide)).trans ((Gen.V2_of m (outs m) c main_arg11 (by decide)).trans (Gen.V1_of m c main_arg11 (by decide)))))))))))))))
theorem dst_at14 : (Gen.V14 m (outs m) c) main_v3 = (dstRow (F := Ideal) (m ((c : Thread nD τ).loc main_arg1))) := (((Gen.V14_of m (outs m) c main_v3 (by decide)).trans ((Gen.V13_of m (outs m) c main_v3 (by decide)).trans ((Gen.V12_of m (outs m) c main_v3 (by decide)).trans ((Gen.V11_of m (outs m) c main_v3 (by decide)).trans ((Gen.V10_of m (outs m) c main_v3 (by decide)).trans ((Gen.V9_of m (outs m) c main_v3 (by decide)).trans ((Gen.V8_of m (outs m) c main_v3 (by decide)).trans ((Gen.V7_of m (outs m) c main_v3 (by decide)).trans ((Gen.V6_of m (outs m) c main_v3 (by decide)).trans ((Gen.V5_of m (outs m) c main_v3 (by decide)).trans ((Gen.V4_of m (outs m) c main_v3 (by decide)).trans ((Gen.V3_of m (outs m) c main_v3 (by decide)).trans (Gen.V2_of m (outs m) c main_v3 (by decide))))))))))))))).trans (dst_read (Gen.V0 m c))
theorem src_at14 : (Gen.V14 m (outs m) c) main_v1 = (srcRow (F := Ideal) (m ((c : Thread nD τ).loc main_arg1))) := (((Gen.V14_of m (outs m) c main_v1 (by decide)).trans ((Gen.V13_of m (outs m) c main_v1 (by decide)).trans ((Gen.V12_of m (outs m) c main_v1 (by decide)).trans ((Gen.V11_of m (outs m) c main_v1 (by decide)).trans ((Gen.V10_of m (outs m) c main_v1 (by decide)).trans ((Gen.V9_of m (outs m) c main_v1 (by decide)).trans ((Gen.V8_of m (outs m) c main_v1 (by decide)).trans ((Gen.V7_of m (outs m) c main_v1 (by decide)).trans ((Gen.V6_of m (outs m) c main_v1 (by decide)).trans ((Gen.V5_of m (outs m) c main_v1 (by decide)).trans ((Gen.V4_of m (outs m) c main_v1 (by decide)).trans ((Gen.V3_of m (outs m) c main_v1 (by decide)).trans (Gen.V2_of m (outs m) c main_v1 (by decide))))))))))))))).trans (src_read (Gen.V0 m c))

/-- The node product where the gathers read it: what region 5 left, the product of its operands. -/
theorem node1_at (n : Fin 20000) (j : Fin 1024) :
    @Eq EReal (((Gen.V14 m (outs m) c) main_v121 : S20000x1024.Idx → EReal) (ix2 n j))
      (Val.G5 ((Gen.V11 m (outs m) c) main_v119) ((Gen.V11 m (outs m) c) main_v117) ((Gen.V11 m (outs m) c) main_v120) (ix2 n j)) := by
  have h1 : (Gen.V14 m (outs m) c) main_v121 = (Gen.V12 m (outs m) c) main_v121 := ((Gen.V14_of m (outs m) c main_v121 (by decide)).trans (Gen.V13_of m (outs m) c main_v121 (by decide)))
  have h2 : (Gen.V12 m (outs m) c) main_v121 = out5 m c := by rw [Vout5_eq]; unfold Vout5; rw [Function.update_self]
  rw [h1, h2]
  exact congrFun (Val.final5 (atTc (Vin5 m)) c) (ix2 n j)

/-- The edge product where the message region reads it: what region 6 left. -/
theorem edge1_at (e : Fin 200000) (j : Fin 512) :
    @Eq EReal (((Gen.V14 m (outs m) c) main_v127 : S200000x512.Idx → EReal) (ix2 e j))
      (Val.G6 ((Gen.V13 m (outs m) c) main_v14) ((Gen.V13 m (outs m) c) main_v124) ((Gen.V13 m (outs m) c) main_v126) (ix2 e j)) := by
  have h2 : (Gen.V14 m (outs m) c) main_v127 = out6 m c := by rw [Vout6_eq]; unfold Vout6; rw [Function.update_self]
  rw [h2]
  exact congrFun (Val.final6 (atTc (Vin6 m)) c) (ix2 e j)

/-- The edge product's left operand is the edge embedding (its narrowing is the identity at the exact values). -/
theorem e16_at1 (e : Fin 200000) (k : Fin 256) :
    @Eq EReal (((Gen.V12 m (outs m) c) main_v14 : S200000x256.Idx → EReal) (ix2 e k)) (((Gen.V4 m (outs m) c) main_v13 : S200000x256.Idx → EReal) (ix2 e k)) := by
  have h1 : (Gen.V12 m (outs m) c) main_v14 = (Gen.V5 m (outs m) c) main_v14 := ((Gen.V12_of m (outs m) c main_v14 (by decide)).trans ((Gen.V11_of m (outs m) c main_v14 (by decide)).trans ((Gen.V10_of m (outs m) c main_v14 (by decide)).trans ((Gen.V9_of m (outs m) c main_v14 (by decide)).trans ((Gen.V8_of m (outs m) c main_v14 (by decide)).trans ((Gen.V7_of m (outs m) c main_v14 (by decide)).trans (Gen.V6_of m (outs m) c main_v14 (by decide))))))))
  rw [h1]
  exact congrFun (e16_read (Gen.V4 m (outs m) c)) (ix2 e k)

/-! ### The eight entries the message reads -/

theorem gdL1 (e : Fin 200000) (q : Fin 256) :
    @Eq EReal (((Gen.V15 m (outs m) c) main_v136 : S200000x512.Idx → EReal) (ix2 e (Val.msgColL q))) (∑ k : Fin 256, @HMul.hMul EReal EReal EReal instHMul (((Gen.V11 m (outs m) c) main_v104 : S20000x256.Idx → EReal) (ix2 (gRow (wrapIdx (F := Ideal) (dstRow (F := Ideal) (m ((c : Thread nD τ).loc main_arg1)))) e) k)) (mat1 (F := Ideal) (m ((c : Thread nD τ).loc main_arg8)) (ix2 q (colI k)))) := by
  refine (gd1_apply (Gen.V14 m (outs m) c) e (Val.msgColL q)).trans ?_
  rw [dst_at14 m c, nodeOf_eq_gRow]
  refine (node1_at m c _ _).trans ?_
  refine (node1_q0 (Gen.V10 m (outs m) c) ((Gen.V11 m (outs m) c) main_v104 : S20000x256.Idx → EReal) rfl _ _ rfl rfl _ (nodeColL (Val.msgColL q)) q (Nat.zero_add _).symm).trans ?_
  refine Finset.sum_congr rfl fun k _ => congrArg₂ (fun (u v : EReal) => u * v) rfl ?_
  rw [arg8_at10 m c, col0_eq]
  exact (mat1_at _ q _).symm

theorem gdR1 (e : Fin 200000) (q : Fin 256) :
    @Eq EReal (((Gen.V15 m (outs m) c) main_v136 : S200000x512.Idx → EReal) (ix2 e (Val.msgColR q))) (∑ k : Fin 256, @HMul.hMul EReal EReal EReal instHMul (((Gen.V11 m (outs m) c) main_v104 : S20000x256.Idx → EReal) (ix2 (gRow (wrapIdx (F := Ideal) (dstRow (F := Ideal) (m ((c : Thread nD τ).loc main_arg1)))) e) k)) (mat1 (F := Ideal) (m ((c : Thread nD τ).loc main_arg10)) (ix2 q (colI k)))) := by
  refine (gd1_apply (Gen.V14 m (outs m) c) e (Val.msgColR q)).trans ?_
  rw [dst_at14 m c, nodeOf_eq_gRow]
  refine (node1_at m c _ _).trans ?_
  refine (node1_q1 (Gen.V10 m (outs m) c) ((Gen.V11 m (outs m) c) main_v104 : S20000x256.Idx → EReal) rfl _ _ rfl rfl _ (nodeColL (Val.msgColR q)) q rfl).trans ?_
  refine Finset.sum_congr rfl fun k _ => congrArg₂ (fun (u v : EReal) => u * v) rfl ?_
  rw [arg10_at10 m c, col0_eq]
  exact (mat1_at _ q _).symm

theorem gsL1 (e : Fin 200000) (q : Fin 256) :
    @Eq EReal (((Gen.V15 m (outs m) c) main_v143 : S200000x512.Idx → EReal) (ix2 e (Val.msgColL q))) (∑ k : Fin 256, @HMul.hMul EReal EReal EReal instHMul (((Gen.V11 m (outs m) c) main_v104 : S20000x256.Idx → EReal) (ix2 (gRow (wrapIdx (F := Ideal) (srcRow (F := Ideal) (m ((c : Thread nD τ).loc main_arg1)))) e) k)) (mat1 (F := Ideal) (m ((c : Thread nD τ).loc main_arg8)) (ix2 q (colJ k)))) := by
  refine (gs1_apply (Gen.V14 m (outs m) c) e (Val.msgColL q)).trans ?_
  rw [src_at14 m c, nodeOf_eq_gRow]
  refine (node1_at m c _ _).trans ?_
  refine (node1_q2 (Gen.V10 m (outs m) c) ((Gen.V11 m (outs m) c) main_v104 : S20000x256.Idx → EReal) rfl _ _ rfl rfl _ (nodeColR (Val.msgColL q)) q rfl).trans ?_
  refine Finset.sum_congr rfl fun k _ => congrArg₂ (fun (u v : EReal) => u * v) rfl ?_
  rw [arg8_at10 m c]
  exact (mat1_at _ q _).symm

theorem gsR1 (e : Fin 200000) (q : Fin 256) :
    @Eq EReal (((Gen.V15 m (outs m) c) main_v143 : S200000x512.Idx → EReal) (ix2 e (Val.msgColR q))) (∑ k : Fin 256, @HMul.hMul EReal EReal EReal instHMul (((Gen.V11 m (outs m) c) main_v104 : S20000x256.Idx → EReal) (ix2 (gRow (wrapIdx (F := Ideal) (srcRow (F := Ideal) (m ((c : Thread nD τ).loc main_arg1)))) e) k)) (mat1 (F := Ideal) (m ((c : Thread nD τ).loc main_arg10)) (ix2 q (colJ k)))) := by
  refine (gs1_apply (Gen.V14 m (outs m) c) e (Val.msgColR q)).trans ?_
  rw [src_at14 m c, nodeOf_eq_gRow]
  refine (node1_at m c _ _).trans ?_
  refine (node1_q3 (Gen.V10 m (outs m) c) ((Gen.V11 m (outs m) c) main_v104 : S20000x256.Idx → EReal) rfl _ _ rfl rfl _ (nodeColR (Val.msgColR q)) q (by show 512 + (256 + q.val) = 768 + q.val; omega)).trans ?_
  refine Finset.sum_congr rfl fun k _ => congrArg₂ (fun (u v : EReal) => u * v) rfl ?_
  rw [arg10_at10 m c]
  exact (mat1_at _ q _).symm

theorem eeL1 (e : Fin 200000) (q : Fin 256) :
    @Eq EReal (((Gen.V15 m (outs m) c) main_v127 : S200000x512.Idx → EReal) (ix2 e (Val.msgColL q))) (∑ k : Fin 256, @HMul.hMul EReal EReal EReal instHMul (((Gen.V4 m (outs m) c) main_v13 : S200000x256.Idx → EReal) (ix2 e k)) (mat1 (F := Ideal) (m ((c : Thread nD τ).loc main_arg8)) (ix2 q (colE k)))) := by
  refine (congrFun (ee1_eq (Gen.V14 m (outs m) c)) (ix2 e (Val.msgColL q))).trans ?_
  refine (edge1_at m c _ _).trans ?_
  refine (edge1_q0 (Gen.V12 m (outs m) c) _ rfl _ _ rfl rfl e (Val.msgColL q) q rfl).trans ?_
  refine Finset.sum_congr rfl fun k _ => congrArg₂ (fun (u v : EReal) => u * v) (e16_at1 m c e k) ?_
  refine (congrFun ((Gen.V12_of m (outs m) c main_v111 (by decide)) : @Eq (S256x256.Idx → EReal) ((Gen.V12 m (outs m) c) main_v111) ((Gen.V11 m (outs m) c) main_v111)) (ix2 q k)).trans ?_
  refine (edge1_band_f (Gen.V10 m (outs m) c) _ rfl q k).trans ?_
  rw [arg8_at10 m c]
  exact (mat1_at _ q _).symm

theorem eeR1 (e : Fin 200000) (q : Fin 256) :
    @Eq EReal (((Gen.V15 m (outs m) c) main_v127 : S200000x512.Idx → EReal) (ix2 e (Val.msgColR q))) (∑ k : Fin 256, @HMul.hMul EReal EReal EReal instHMul (((Gen.V4 m (outs m) c) main_v13 : S200000x256.Idx → EReal) (ix2 e k)) (mat1 (F := Ideal) (m ((c : Thread nD τ).loc main_arg10)) (ix2 q (colE k)))) := by
  refine (congrFun (ee1_eq (Gen.V14 m (outs m) c)) (ix2 e (Val.msgColR q))).trans ?_
  refine (edge1_at m c _ _).trans ?_
  refine (edge1_q1 (Gen.V12 m (outs m) c) _ rfl _ _ rfl rfl e (Val.msgColR q) q rfl).trans ?_
  refine Finset.sum_congr rfl fun k _ => congrArg₂ (fun (u v : EReal) => u * v) (e16_at1 m c e k) ?_
  refine (congrFun ((Gen.V12_of m (outs m) c main_v114 (by decide)) : @Eq (S256x256.Idx → EReal) ((Gen.V12 m (outs m) c) main_v114) ((Gen.V11 m (outs m) c) main_v114)) (ix2 q k)).trans ?_
  refine (edge1_band_s (Gen.V10 m (outs m) c) _ rfl q k).trans ?_
  rw [arg10_at10 m c]
  exact (mat1_at _ q _).symm

theorem bfAt1 (q : Fin 256) :
    @Eq EReal (((Gen.V15 m (outs m) c) main_v148 : S1x256.Idx → EReal) (ix2 (0 : Fin 1) q)) (row1 (F := Ideal) (m ((c : Thread nD τ).loc main_arg9)) (ix1 q)) := by
  refine (bf1_apply (Gen.V14 m (outs m) c) q).trans ?_
  rw [arg9_at14 m c]
  exact (row1_at _ q).symm

theorem bsAt1 (q : Fin 256) :
    @Eq EReal (((Gen.V15 m (outs m) c) main_v149 : S1x256.Idx → EReal) (ix2 (0 : Fin 1) q)) (row1 (F := Ideal) (m ((c : Thread nD τ).loc main_arg11)) (ix1 q)) := by
  refine (bs1_apply (Gen.V14 m (outs m) c) q).trans ?_
  rw [arg11_at14 m c]
  exact (row1_at _ q).symm

/-! ### The region's output is the reference's message -/

/-- What the message region leaves, entry by entry, over the reference's own sums. -/
theorem msg1_kernel_at (e : Fin 200000) (q : Fin 256) :
    @Eq EReal ((out7 m c : S200000x256.Idx → EReal) (ix2 e q))
      (Val.msgAt (F := Ideal) (∑ k : Fin 256, @HMul.hMul EReal EReal EReal instHMul (((Gen.V11 m (outs m) c) main_v104 : S20000x256.Idx → EReal) (ix2 (gRow (wrapIdx (F := Ideal) (dstRow (F := Ideal) (m ((c : Thread nD τ).loc main_arg1)))) e) k)) (mat1 (F := Ideal) (m ((c : Thread nD τ).loc main_arg8)) (ix2 q (colI k)))) (∑ k : Fin 256, @HMul.hMul EReal EReal EReal instHMul (((Gen.V11 m (outs m) c) main_v104 : S20000x256.Idx → EReal) (ix2 (gRow (wrapIdx (F := Ideal) (srcRow (F := Ideal) (m ((c : Thread nD τ).loc main_arg1)))) e) k)) (mat1 (F := Ideal) (m ((c : Thread nD τ).loc main_arg8)) (ix2 q (colJ k)))) (∑ k : Fin 256, @HMul.hMul EReal EReal EReal instHMul (((Gen.V4 m (outs m) c) main_v13 : S200000x256.Idx → EReal) (ix2 e k)) (mat1 (F := Ideal) (m ((c : Thread nD τ).loc main_arg8)) (ix2 q (colE k)))) (row1 (F := Ideal) (m ((c : Thread nD τ).loc main_arg9)) (ix1 q))
        (∑ k : Fin 256, @HMul.hMul EReal EReal EReal instHMul (((Gen.V11 m (outs m) c) main_v104 : S20000x256.Idx → EReal) (ix2 (gRow (wrapIdx (F := Ideal) (dstRow (F := Ideal) (m ((c : Thread nD τ).loc main_arg1)))) e) k)) (mat1 (F := Ideal) (m ((c : Thread nD τ).loc main_arg10)) (ix2 q (colI k)))) (∑ k : Fin 256, @HMul.hMul EReal EReal EReal instHMul (((Gen.V11 m (outs m) c) main_v104 : S20000x256.Idx → EReal) (ix2 (gRow (wrapIdx (F := Ideal) (srcRow (F := Ideal) (m ((c : Thread nD τ).loc main_arg1)))) e) k)) (mat1 (F := Ideal) (m ((c : Thread nD τ).loc main_arg10)) (ix2 q (colJ k)))) (∑ k : Fin 256, @HMul.hMul EReal EReal EReal instHMul (((Gen.V4 m (outs m) c) main_v13 : S200000x256.Idx → EReal) (ix2 e k)) (mat1 (F := Ideal) (m ((c : Thread nD τ).loc main_arg10)) (ix2 q (colE k)))) (row1 (F := Ideal) (m ((c : Thread nD τ).loc main_arg11)) (ix1 q))) := by
  have h0 : @Eq (S200000x256.Idx → EReal) (out7 m c)
      (Val.msgArr7 ((Gen.V15 m (outs m) c) main_v136) ((Gen.V15 m (outs m) c) main_v143) ((Gen.V15 m (outs m) c) main_v127) ((Gen.V15 m (outs m) c) main_v148) ((Gen.V15 m (outs m) c) main_v149)) :=
    Val.arr7_5 (atTc (Vin7 m)) c
  rw [h0]
  show Val.msgAt (F := Ideal)
      (((Gen.V15 m (outs m) c) main_v136 : S200000x512.Idx → EReal) (ix2 e (Val.msgColL q))) (((Gen.V15 m (outs m) c) main_v143 : S200000x512.Idx → EReal) (ix2 e (Val.msgColL q)))
      (((Gen.V15 m (outs m) c) main_v127 : S200000x512.Idx → EReal) (ix2 e (Val.msgColL q))) (((Gen.V15 m (outs m) c) main_v148 : S1x256.Idx → EReal) (ix2 (0 : Fin 1) q))
      (((Gen.V15 m (outs m) c) main_v136 : S200000x512.Idx → EReal) (ix2 e (Val.msgColR q))) (((Gen.V15 m (outs m) c) main_v143 : S200000x512.Idx → EReal) (ix2 e (Val.msgColR q)))
      (((Gen.V15 m (outs m) c) main_v127 : S200000x512.Idx → EReal) (ix2 e (Val.msgColR q))) (((Gen.V15 m (outs m) c) main_v149 : S1x256.Idx → EReal) (ix2 (0 : Fin 1) q)) = _
  rw [gdL1 m c e q, gsL1 m c e q, eeL1 m c e q, bfAt1 m c q, gdR1 m c e q, gsR1 m c e q, eeR1 m c e q, bsAt1 m c q]

theorem T_msg1 : out7 m c = message (F := Ideal) ((Gen.V11 m (outs m) c) main_v104) ((Gen.V4 m (outs m) c) main_v13) (mat1 (m ((c : Thread nD τ).loc main_arg8))) (row1 (m ((c : Thread nD τ).loc main_arg9))) (mat1 (m ((c : Thread nD τ).loc main_arg10))) (row1 (m ((c : Thread nD τ).loc main_arg11))) (dstRow (m ((c : Thread nD τ).loc main_arg1))) (srcRow (m ((c : Thread nD τ).loc main_arg1))) := by
  funext i
  obtain ⟨e, q, rfl⟩ : ∃ (e : Fin 200000) (q : Fin 256), i = ix2 e q := ⟨i 0, i 1, eq_ix2 i⟩
  refine (msg1_kernel_at m c e q).trans ?_
  rw [message_at, pre_at, pre_at, gateAt_eq_logistic, softplusAt_eq]
  rfl

end Layer1

end Cert.KernelIdeal.Stage

end
-- ==== Proof.Ref.Windows.lean ====
import Idealize.ShloMosaic.Lib.StableHlo.Run
import proofs.«149463_j13572096656012_1_alg».proof.Proof.Ref.Stages

/-! The reference's 348 operations cut into six windows at the values that later operations read several times (the embeddings
and the inverse degree; layer 0's messages; the nodes after layer 0; layer 1's messages; the nodes after layer 1; the readout),
and the fold of each window's results: from any contents `V0`, each window's live results are the stage functions of
`Ref/Stages.lean` applied to the arguments' contents; the arguments are never written. -/

noncomputable section

namespace Cert.Bridge.Ref

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- One operation's written buffer is in the window's list. -/
local macro "wr" : tactic =>
  `(tactic| (simp only [nullary_writes, unary_writes, binary_writes, ternary_writes, quaternary_writes, reshape_writes, binaryIndexed_writes,
      nary_writes, unaryIndexed_writes, Finset.singleton_subset_iff, List.mem_toFinset]; exact List.mem_map_of_mem (by decide)))

/-! ## The windows -/

/-- Operations 0–26: the embeddings, the edge list's rows and the inverse degree. -/
abbrev part0 : List (HloOp τ sig (Elt F)) :=
  [ unary main_arg1 main_v0 ((extractStridedSlice S1x200000 ![0, 0] · slices_S2x200000_S1x200000_0_0) : (⟨S2x200000, .i32⟩ : BufTy).Contents (Elt F) → (⟨S1x200000, .i32⟩ : BufTy).Contents (Elt F)),
    reshape main_v0 main_v1 rfl shapeCasts_S1x200000_S200000,
    unary main_arg1 main_v2 ((extractStridedSlice S1x200000 ![1, 0] · slices_S2x200000_S1x200000_1_0) : (⟨S2x200000, .i32⟩ : BufTy).Contents (Elt F) → (⟨S1x200000, .i32⟩ : BufTy).Contents (Elt F)),
    reshape main_v2 main_v3 rfl shapeCasts_S1x200000_S200000,
    unary main_arg4 main_v4 ((transpose S256x256 [1, 0] · transposes_S256x256_S256x256_1_0) : (⟨S256x256, .f32⟩ : BufTy).Contents (Elt F) → (⟨S256x256, .f32⟩ : BufTy).Contents (Elt F)),
    binary main_arg0 main_v4 main_v5 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg5 main_v6 (broadcastInDim S1x256 ![1] bcast_S256_S1x256_1 : (⟨S256, .f32⟩ : BufTy).Contents (Elt F) → (⟨S1x256, .f32⟩ : BufTy).Contents (Elt F)),
    unary main_v6 main_v7 (broadcastInDim S20000x256 ![0, 1] bcast_S1x256_S20000x256_0_1 : (⟨S1x256, .f32⟩ : BufTy).Contents (Elt F) → (⟨S20000x256, .f32⟩ : BufTy).Contents (Elt F)),
    binary main_v5 main_v7 main_v8 (addf : (⟨S20000x256, .f32⟩ : BufTy).Contents (Elt F) → (⟨S20000x256, .f32⟩ : BufTy).Contents (Elt F) → (⟨S20000x256, .f32⟩ : BufTy).Contents (Elt F)),
    unary main_arg6 main_v9 ((transpose S128x256 [1, 0] · transposes_S256x128_S128x256_1_0) : (⟨S256x128, .f32⟩ : BufTy).Contents (Elt F) → (⟨S128x256, .f32⟩ : BufTy).Contents (Elt F)),
    binary main_arg2 main_v9 main_v10 ((fun l r => Host.dotGeneral dot_S200000x128_S128x256_S200000x256_1_0_0_1_n_n none l r) : (⟨S200000x128, .f32⟩ : BufTy).Contents (Elt F) → (⟨S128x256, .f32⟩ : BufTy).Contents (Elt F) → (⟨S200000x256, .f32⟩ : BufTy).Contents (Elt F)),
    unary main_arg7 main_v11 (broadcastInDim S1x256 ![1] bcast_S256_S1x256_1 : (⟨S256, .f32⟩ : BufTy).Contents (Elt F) → (⟨S1x256, .f32⟩ : BufTy).Contents (Elt F)),
    unary main_v11 main_v12 (broadcastInDim S200000x256 ![0, 1] bcast_S1x256_S200000x256_0_1 : (⟨S1x256, .f32⟩ : BufTy).Contents (Elt F) → (⟨S200000x256, .f32⟩ : BufTy).Contents (Elt F)),
    binary main_v10 main_v12 main_v13 (addf : (⟨S200000x256, .f32⟩ : BufTy).Contents (Elt F) → (⟨S200000x256, .f32⟩ : BufTy).Contents (Elt F) → (⟨S200000x256, .f32⟩ : BufTy).Contents (Elt F)),
    nullary main_cst (constant S_ .f32 0x3F800000#32),
    unary main_cst main_v14 (broadcastInDim S200000 ![] bcast_S_S200000 : (⟨S_, .f32⟩ : BufTy).Contents (Elt F) → (⟨S200000, .f32⟩ : BufTy).Contents (Elt F)),
    nullary main_cst_0 (constant S_ .f32 0x00000000#32),
    unary main_cst_0 main_v15 (broadcastInDim S20000 ![] bcast_S_S20000 : (⟨S_, .f32⟩ : BufTy).Contents (Elt F) → (⟨S20000, .f32⟩ : BufTy).Contents (Elt F)),
    unary main_v3 main_v16 (broadcastInDim S200000x1 ![0] bcast_S200000_S200000x1_0 : (⟨S200000, .i32⟩ : BufTy).Contents (Elt F) → (⟨S200000x1, .i32⟩ : BufTy).Contents (Elt F)),
    ternary main_v15 main_v16 main_v14 main_v17 ((fun x i u => Host.scatterAdd scatter_S20000_S200000x1_S200000_n_0_0_1 x i u) : (⟨S20000, .f32⟩ : BufTy).Contents (Elt F) → (⟨S200000x1, .i32⟩ : BufTy).Contents (Elt F) → (⟨S200000, .f32⟩ : BufTy).Contents (Elt F) → (⟨S20000, .f32⟩ : BufTy).Contents (Elt F)),
    nullary main_cst_1 (constant S_ .f32 0x3F800000#32),
    unary main_cst_1 main_v18 (broadcastInDim S20000 ![] bcast_S_S20000 : (⟨S_, .f32⟩ : BufTy).Contents (Elt F) → (⟨S20000, .f32⟩ : BufTy).Contents (Elt F)),
    binary main_v17 main_v18 main_v19 (maximumf : (⟨S20000, .f32⟩ : BufTy).Contents (Elt F) → (⟨S20000, .f32⟩ : BufTy).Contents (Elt F) → (⟨S20000, .f32⟩ : BufTy).Contents (Elt F)),
    nullary main_cst_2 (constant S_ .f32 0x3F800000#32),
    unary main_cst_2 main_v20 (broadcastInDim S20000 ![] bcast_S_S20000 : (⟨S_, .f32⟩ : BufTy).Contents (Elt F) → (⟨S20000, .f32⟩ : BufTy).Contents (Elt F)),
    binary main_v20 main_v19 main_v21 (Host.divf : (⟨S20000, .f32⟩ : BufTy).Contents (Elt F) → (⟨S20000, .f32⟩ : BufTy).Contents (Elt F) → (⟨S20000, .f32⟩ : BufTy).Contents (Elt F)),
    unary main_v21 main_v22 (broadcastInDim S20000x1 ![0] bcast_S20000_S20000x1_0 : (⟨S20000, .f32⟩ : BufTy).Contents (Elt F) → (⟨S20000x1, .f32⟩ : BufTy).Contents (Elt F)) ]

/-- Operations 27–121: layer 0's messages. -/
abbrev part1 : List (HloOp τ sig (Elt F)) :=
  [ unary main_arg8 main_v23 ((extractStridedSlice S1x256x768 ![0, 0, 0] · slices_S2x256x768_S1x256x768_0_0_0) : (⟨S2x256x768, .f32⟩ : BufTy).Contents (Elt F) → (⟨S1x256x768, .f32⟩ : BufTy).Contents (Elt F)),
    reshape main_v23 main_v24 rfl shapeCasts_S1x256x768_S256x768,
    unary main_arg9 main_v25 ((extractStridedSlice S1x256 ![0, 0] · slices_S2x256_S1x256_0_0) : (⟨S2x256, .f32⟩ : BufTy).Contents (Elt F) → (⟨S1x256, .f32⟩ : BufTy).Contents (Elt F)),
    reshape main_v25 main_v26 rfl shapeCasts_S1x256_S256,
    unary main_arg10 main_v27 ((extractStridedSlice S1x256x768 ![0, 0, 0] · slices_S2x256x768_S1x256x768_0_0_0) : (⟨S2x256x768, .f32⟩ : BufTy).Contents (Elt F) → (⟨S1x256x768, .f32⟩ : BufTy).Contents (Elt F)),
    reshape main_v27 main_v28 rfl shapeCasts_S1x256x768_S256x768,
    unary main_arg11 main_v29 ((extractStridedSlice S1x256 ![0, 0] · slices_S2x256_S1x256_0_0) : (⟨S2x256, .f32⟩ : BufTy).Contents (Elt F) → (⟨S1x256, .f32⟩ : BufTy).Contents (Elt F)),
    reshape main_v29 main_v30 rfl shapeCasts_S1x256_S256,
    unary main_v24 main_v31 ((extractStridedSlice S256x256 ![0, 0] · slices_S256x768_S256x256_0_0) : (⟨S256x768, .f32⟩ : BufTy).Contents (Elt F) → (⟨S256x256, .f32⟩ : BufTy).Contents (Elt F)),
    unary main_v24 main_v32 ((extractStridedSlice S256x256 ![0, 256] · slices_S256x768_S256x256_0_256) : (⟨S256x768, .f32⟩ : BufTy).Contents (Elt F) → (⟨S256x256, .f32⟩ : BufTy).Contents (Elt F)),
    unary main_v24 main_v33 ((extractStridedSlice S256x256 ![0, 512] · slices_S256x768_S256x256_0_512) : (⟨S256x768, .f32⟩ : BufTy).Contents (Elt F) → (⟨S256x256, .f32⟩ : BufTy).Contents (Elt F)),
    unary main_v31 main_v34 ((transpose S256x256 [1, 0] · transposes_S256x256_S256x256_1_0) : (⟨S256x256, .f32⟩ : BufTy).Contents (Elt F) → (⟨S256x256, .f32⟩ : BufTy).Contents (Elt F)),
    binary main_v8 main_v34 main_v35 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_c (constantI S_ 32 0#32),
    unary main_c main_v36 (broadcastInDim S200000 ![] bcast_S_S200000 : (⟨S_, .i32⟩ : BufTy).Contents (Elt F) → (⟨S200000, .i32⟩ : BufTy).Contents (Elt F)),
    binary main_v3 main_v36 main_v37 (cmpi .slt : (⟨S200000, .i32⟩ : BufTy).Contents (Elt F) → (⟨S200000, .i32⟩ : BufTy).Contents (Elt F) → (⟨S200000, .i1⟩ : BufTy).Contents (Elt F)),
    nullary main_c_3 (constantI S_ 32 20000#32),
    unary main_c_3 main_v38 (broadcastInDim S200000 ![] bcast_S_S200000 : (⟨S_, .i32⟩ : BufTy).Contents (Elt F) → (⟨S200000, .i32⟩ : BufTy).Contents (Elt F)),
    binary main_v3 main_v38 main_v39 (addi : (⟨S200000, .i32⟩ : BufTy).Contents (Elt F) → (⟨S200000, .i32⟩ : BufTy).Contents (Elt F) → (⟨S200000, .i32⟩ : BufTy).Contents (Elt F)),
    ternary main_v37 main_v39 main_v3 main_v40 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v40 main_v41 (broadcastInDim S200000x1 ![0] bcast_S200000_S200000x1_0 : (⟨S200000, .i32⟩ : BufTy).Contents (Elt F) → (⟨S200000x1, .i32⟩ : BufTy).Contents (Elt F)),
    binary main_v35 main_v41 main_v42 ((fun x i => Host.gather gather_S20000x256_S200000x1_S200000x256_1_0_n_n_0_1_1256 x i) : (⟨S20000x256, .f32⟩ : BufTy).Contents (Elt F) → (⟨S200000x1, .i32⟩ : BufTy).Contents (Elt F) → (⟨S200000x256, .f32⟩ : BufTy).Contents (Elt F)),
    unary main_v32 main_v43 ((transpose S256x256 [1, 0] · transposes_S256x256_S256x256_1_0) : (⟨S256x256, .f32⟩ : BufTy).Contents (Elt F) → (⟨S256x256, .f32⟩ : BufTy).Contents (Elt F)),
    binary main_v8 main_v43 main_v44 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_c_4 (constantI S_ 32 0#32),
    unary main_c_4 main_v45 (broadcastInDim S200000 ![] bcast_S_S200000 : (⟨S_, .i32⟩ : BufTy).Contents (Elt F) → (⟨S200000, .i32⟩ : BufTy).Contents (Elt F)),
    binary main_v1 main_v45 main_v46 (cmpi .slt : (⟨S200000, .i32⟩ : BufTy).Contents (Elt F) → (⟨S200000, .i32⟩ : BufTy).Contents (Elt F) → (⟨S200000, .i1⟩ : BufTy).Contents (Elt F)),
    nullary main_c_5 (constantI S_ 32 20000#32),
    unary main_c_5 main_v47 (broadcastInDim S200000 ![] bcast_S_S200000 : (⟨S_, .i32⟩ : BufTy).Contents (Elt F) → (⟨S200000, .i32⟩ : BufTy).Contents (Elt F)),
    binary main_v1 main_v47 main_v48 (addi : (⟨S200000, .i32⟩ : BufTy).Contents (Elt F) → (⟨S200000, .i32⟩ : BufTy).Contents (Elt F) → (⟨S200000, .i32⟩ : BufTy).Contents (Elt F)),
    ternary main_v46 main_v48 main_v1 main_v49 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v49 main_v50 (broadcastInDim S200000x1 ![0] bcast_S200000_S200000x1_0 : (⟨S200000, .i32⟩ : BufTy).Contents (Elt F) → (⟨S200000x1, .i32⟩ : BufTy).Contents (Elt F)),
    binary main_v44 main_v50 main_v51 ((fun x i => Host.gather gather_S20000x256_S200000x1_S200000x256_1_0_n_n_0_1_1256 x i) : (⟨S20000x256, .f32⟩ : BufTy).Contents (Elt F) → (⟨S200000x1, .i32⟩ : BufTy).Contents (Elt F) → (⟨S200000x256, .f32⟩ : BufTy).Contents (Elt F)),
    binary main_v42 main_v51 main_v52 (addf : (⟨S200000x256, .f32⟩ : BufTy).Contents (Elt F) → (⟨S200000x256, .f32⟩ : BufTy).Contents (Elt F) → (⟨S200000x256, .f32⟩ : BufTy).Contents (Elt F)),
    unary main_v33 main_v53 ((transpose S256x256 [1, 0] · transposes_S256x256_S256x256_1_0) : (⟨S256x256, .f32⟩ : BufTy).Contents (Elt F) → (⟨S256x256, .f32⟩ : BufTy).Contents (Elt F)),
    binary main_v13 main_v53 main_v54 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    binary main_v52 main_v54 main_v55 (addf : (⟨S200000x256, .f32⟩ : BufTy).Contents (Elt F) → (⟨S200000x256, .f32⟩ : BufTy).Contents (Elt F) → (⟨S200000x256, .f32⟩ : BufTy).Contents (Elt F)),
    unary main_v26 main_v56 (broadcastInDim S1x256 ![1] bcast_S256_S1x256_1 : (⟨S256, .f32⟩ : BufTy).Contents (Elt F) → (⟨S1x256, .f32⟩ : BufTy).Contents (Elt F)),
    unary main_v56 main_v57 (broadcastInDim S200000x256 ![0, 1] bcast_S1x256_S200000x256_0_1 : (⟨S1x256, .f32⟩ : BufTy).Contents (Elt F) → (⟨S200000x256, .f32⟩ : BufTy).Contents (Elt F)),
    binary main_v55 main_v57 main_v58 (addf : (⟨S200000x256, .f32⟩ : BufTy).Contents (Elt F) → (⟨S200000x256, .f32⟩ : BufTy).Contents (Elt F) → (⟨S200000x256, .f32⟩ : BufTy).Contents (Elt F)),
    unary main_v58 main_v59 (Host.negf : (⟨S200000x256, .f32⟩ : BufTy).Contents (Elt F) → (⟨S200000x256, .f32⟩ : BufTy).Contents (Elt F)),
    unary main_v59 main_v60 (Host.exp : (⟨S200000x256, .f32⟩ : BufTy).Contents (Elt F) → (⟨S200000x256, .f32⟩ : BufTy).Contents (Elt F)),
    nullary main_cst_6 (constant S_ .f32 0x3F800000#32),
    unary main_cst_6 main_v61 (broadcastInDim S200000x256 ![] bcast_S_S200000x256 : (⟨S_, .f32⟩ : BufTy).Contents (Elt F) → (⟨S200000x256, .f32⟩ : BufTy).Contents (Elt F)),
    binary main_v61 main_v60 main_v62 (addf : (⟨S200000x256, .f32⟩ : BufTy).Contents (Elt F) → (⟨S200000x256, .f32⟩ : BufTy).Contents (Elt F) → (⟨S200000x256, .f32⟩ : BufTy).Contents (Elt F)),
    nullary main_cst_7 (constant S_ .f32 0x3F800000#32),
    unary main_cst_7 main_v63 (broadcastInDim S200000x256 ![] bcast_S_S200000x256 : (⟨S_, .f32⟩ : BufTy).Contents (Elt F) → (⟨S200000x256, .f32⟩ : BufTy).Contents (Elt F)),
    binary main_v63 main_v62 main_v64 (Host.divf : (⟨S200000x256, .f32⟩ : BufTy).Contents (Elt F) → (⟨S200000x256, .f32⟩ : BufTy).Contents (Elt F) → (⟨S200000x256, .f32⟩ : BufTy).Contents (Elt F)),
    unary main_v28 main_v65 ((extractStridedSlice S256x256 ![0, 0] · slices_S256x768_S256x256_0_0) : (⟨S256x768, .f32⟩ : BufTy).Contents (Elt F) → (⟨S256x256, .f32⟩ : BufTy).Contents (Elt F)),
    unary main_v28 main_v66 ((extractStridedSlice S256x256 ![0, 256] · slices_S256x768_S256x256_0_256) : (⟨S256x768, .f32⟩ : BufTy).Contents (Elt F) → (⟨S256x256, .f32⟩ : BufTy).Contents (Elt F)),
    unary main_v28 main_v67 ((extractStridedSlice S256x256 ![0, 512] · slices_S256x768_S256x256_0_512) : (⟨S256x768, .f32⟩ : BufTy).Contents (Elt F) → (⟨S256x256, .f32⟩ : BufTy).Contents (Elt F)),
    unary main_v65 main_v68 ((transpose S256x256 [1, 0] · transposes_S256x256_S256x256_1_0) : (⟨S256x256, .f32⟩ : BufTy).Contents (Elt F) → (⟨S256x256, .f32⟩ : BufTy).Contents (Elt F)),
    binary main_v8 main_v68 main_v69 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_c_8 (constantI S_ 32 0#32),
    unary main_c_8 main_v70 (broadcastInDim S200000 ![] bcast_S_S200000 : (⟨S_, .i32⟩ : BufTy).Contents (Elt F) → (⟨S200000, .i32⟩ : BufTy).Contents (Elt F)),
    binary main_v3 main_v70 main_v71 (cmpi .slt : (⟨S200000, .i32⟩ : BufTy).Contents (Elt F) → (⟨S200000, .i32⟩ : BufTy).Contents (Elt F) → (⟨S200000, .i1⟩ : BufTy).Contents (Elt F)),
    nullary main_c_9 (constantI S_ 32 20000#32),
    unary main_c_9 main_v72 (broadcastInDim S200000 ![] bcast_S_S200000 : (⟨S_, .i32⟩ : BufTy).Contents (Elt F) → (⟨S200000, .i32⟩ : BufTy).Contents (Elt F)),
    binary main_v3 main_v72 main_v73 (addi : (⟨S200000, .i32⟩ : BufTy).Contents (Elt F) → (⟨S200000, .i32⟩ : BufTy).Contents (Elt F) → (⟨S200000, .i32⟩ : BufTy).Contents (Elt F)),
    ternary main_v71 main_v73 main_v3 main_v74 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v74 main_v75 (broadcastInDim S200000x1 ![0] bcast_S200000_S200000x1_0 : (⟨S200000, .i32⟩ : BufTy).Contents (Elt F) → (⟨S200000x1, .i32⟩ : BufTy).Contents (Elt F)),
    binary main_v69 main_v75 main_v76 ((fun x i => Host.gather gather_S20000x256_S200000x1_S200000x256_1_0_n_n_0_1_1256 x i) : (⟨S20000x256, .f32⟩ : BufTy).Contents (Elt F) → (⟨S200000x1, .i32⟩ : BufTy).Contents (Elt F) → (⟨S200000x256, .f32⟩ : BufTy).Contents (Elt F)),
    unary main_v66 main_v77 ((transpose S256x256 [1, 0] · transposes_S256x256_S256x256_1_0) : (⟨S256x256, .f32⟩ : BufTy).Contents (Elt F) → (⟨S256x256, .f32⟩ : BufTy).Contents (Elt F)),
    binary main_v8 main_v77 main_v78 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_c_10 (constantI S_ 32 0#32),
    unary main_c_10 main_v79 (broadcastInDim S200000 ![] bcast_S_S200000 : (⟨S_, .i32⟩ : BufTy).Contents (Elt F) → (⟨S200000, .i32⟩ : BufTy).Contents (Elt F)),
    binary main_v1 main_v79 main_v80 (cmpi .slt : (⟨S200000, .i32⟩ : BufTy).Contents (Elt F) → (⟨S200000, .i32⟩ : BufTy).Contents (Elt F) → (⟨S200000, .i1⟩ : BufTy).Contents (Elt F)),
    nullary main_c_11 (constantI S_ 32 20000#32),
    unary main_c_11 main_v81 (broadcastInDim S200000 ![] bcast_S_S200000 : (⟨S_, .i32⟩ : BufTy).Contents (Elt F) → (⟨S200000, .i32⟩ : BufTy).Contents (Elt F)),
    binary main_v1 main_v81 main_v82 (addi : (⟨S200000, .i32⟩ : BufTy).Contents (Elt F) → (⟨S200000, .i32⟩ : BufTy).Contents (Elt F) → (⟨S200000, .i32⟩ : BufTy).Contents (Elt F)),
    ternary main_v80 main_v82 main_v1 main_v83 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v83 main_v84 (broadcastInDim S200000x1 ![0] bcast_S200000_S200000x1_0 : (⟨S200000, .i32⟩ : BufTy).Contents (Elt F) → (⟨S200000x1, .i32⟩ : BufTy).Contents (Elt F)),
    binary main_v78 main_v84 main_v85 ((fun x i => Host.gather gather_S20000x256_S200000x1_S200000x256_1_0_n_n_0_1_1256 x i) : (⟨S20000x256, .f32⟩ : BufTy).Contents (Elt F) → (⟨S200000x1, .i32⟩ : BufTy).Contents (Elt F) → (⟨S200000x256, .f32⟩ : BufTy).Contents (Elt F)),
    binary main_v76 main_v85 main_v86 (addf : (⟨S200000x256, .f32⟩ : BufTy).Contents (Elt F) → (⟨S200000x256, .f32⟩ : BufTy).Contents (Elt F) → (⟨S200000x256, .f32⟩ : BufTy).Contents (Elt F)),
    unary main_v67 main_v87 ((transpose S256x256 [1, 0] · transposes_S256x256_S256x256_1_0) : (⟨S256x256, .f32⟩ : BufTy).Contents (Elt F) → (⟨S256x256, .f32⟩ : BufTy).Contents (Elt F)),
    binary main_v13 main_v87 main_v88 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    binary main_v86 main_v88 main_v89 (addf : (⟨S200000x256, .f32⟩ : BufTy).Contents (Elt F) → (⟨S200000x256, .f32⟩ : BufTy).Contents (Elt F) → (⟨S200000x256, .f32⟩ : BufTy).Contents (Elt F)),
    unary main_v30 main_v90 (broadcastInDim S1x256 ![1] bcast_S256_S1x256_1 : (⟨S256, .f32⟩ : BufTy).Contents (Elt F) → (⟨S1x256, .f32⟩ : BufTy).Contents (Elt F)),
    unary main_v90 main_v91 (broadcastInDim S200000x256 ![0, 1] bcast_S1x256_S200000x256_0_1 : (⟨S1x256, .f32⟩ : BufTy).Contents (Elt F) → (⟨S200000x256, .f32⟩ : BufTy).Contents (Elt F)),
    binary main_v89 main_v91 main_v92 (addf : (⟨S200000x256, .f32⟩ : BufTy).Contents (Elt F) → (⟨S200000x256, .f32⟩ : BufTy).Contents (Elt F) → (⟨S200000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S200000x256, .f32⟩) main_call0_v0) (broadcastInDim S200000x256 ![] bcast_S_S200000x256),
    TRef.binary (TRef.of (T := ⟨S200000x256, .f32⟩) main_v92) (TRef.of (T := ⟨S200000x256, .f32⟩) main_call0_v0) (TRef.of (T := ⟨S200000x256, .f32⟩) main_call0_v1) maximumf,
    TRef.unary (TRef.of (T := ⟨S_, .f32⟩) main_call0_cst) (TRef.of (T := ⟨S200000x256, .f32⟩) main_call0_v2) (broadcastInDim S200000x256 ![] bcast_S_S200000x256),
    TRef.binary (TRef.of (T := ⟨S200000x256, .f32⟩) main_v92) (TRef.of (T := ⟨S200000x256, .f32⟩) main_call0_v2) (TRef.of (T := ⟨S200000x256, .f32⟩) main_call0_v3) subf,
    TRef.binary (TRef.of (T := ⟨S200000x256, .f32⟩) main_call0_v3) (TRef.of (T := ⟨S200000x256, .f32⟩) main_call0_v3) (TRef.of (T := ⟨S200000x256, .i1⟩) main_call0_v4) (cmpf .une),
    TRef.unary (TRef.of (T := ⟨S_, .f32⟩) main_call0_cst) (TRef.of (T := ⟨S200000x256, .f32⟩) main_call0_v5) (broadcastInDim S200000x256 ![] bcast_S_S200000x256),
    TRef.binary (TRef.of (T := ⟨S200000x256, .f32⟩) main_v92) (TRef.of (T := ⟨S200000x256, .f32⟩) main_call0_v5) (TRef.of (T := ⟨S200000x256, .f32⟩) main_call0_v6) addf,
    TRef.unary (TRef.of (T := ⟨S200000x256, .f32⟩) main_call0_v3) (TRef.of (T := ⟨S200000x256, .f32⟩) main_call0_v7) Host.absf,
    TRef.unary (TRef.of (T := ⟨S200000x256, .f32⟩) main_call0_v7) (TRef.of (T := ⟨S200000x256, .f32⟩) main_call0_v8) Host.negf,
    TRef.unary (TRef.of (T := ⟨S200000x256, .f32⟩) main_call0_v8) (TRef.of (T := ⟨S200000x256, .f32⟩) main_call0_v9) Host.exp,
    TRef.unary (TRef.of (T := ⟨S200000x256, .f32⟩) main_call0_v9) (TRef.of (T := ⟨S200000x256, .f32⟩) main_call0_v10) Host.log1p,
    TRef.binary (TRef.of (T := ⟨S200000x256, .f32⟩) main_call0_v1) (TRef.of (T := ⟨S200000x256, .f32⟩) main_call0_v10) (TRef.of (T := ⟨S200000x256, .f32⟩) main_call0_v11) addf,
    TRef.ternary (TRef.of (T := ⟨S200000x256, .i1⟩) main_call0_v4) (TRef.of (T := ⟨S200000x256, .f32⟩) main_call0_v6) (TRef.of (T := ⟨S200000x256, .f32⟩) main_call0_v11) (TRef.of (T := ⟨S200000x256, .f32⟩) main_v93) select,
    binary main_v64 main_v93 main_v94 (mulf : (⟨S200000x256, .f32⟩ : BufTy).Contents (Elt F) → (⟨S200000x256, .f32⟩ : BufTy).Contents (Elt F) → (⟨S200000x256, .f32⟩ : BufTy).Contents (Elt F)) ]

/-- Operations 122–162: the nodes after layer 0. -/
abbrev part2 : List (HloOp τ sig (Elt F)) :=
  [ nullary main_cst_12 (constant S_ .f32 0x00000000#32),
    unary main_cst_12 main_v95 (broadcastInDim S20000x256 ![] bcast_S_S20000x256 : (⟨S_, .f32⟩ : BufTy).Contents (Elt F) → (⟨S20000x256, .f32⟩ : BufTy).Contents (Elt F)),
    unary main_v3 main_v96 (broadcastInDim S200000x1 ![0] bcast_S200000_S200000x1_0 : (⟨S200000, .i32⟩ : BufTy).Contents (Elt F) → (⟨S200000x1, .i32⟩ : BufTy).Contents (Elt F)),
    ternary main_v95 main_v96 main_v94 main_v97 ((fun x i u => Host.scatterAdd scatter_S20000x256_S200000x1_S200000x256_1_0_0_1 x i u) : (⟨S20000x256, .f32⟩ : BufTy).Contents (Elt F) → (⟨S200000x1, .i32⟩ : BufTy).Contents (Elt F) → (⟨S200000x256, .f32⟩ : BufTy).Contents (Elt F) → (⟨S20000x256, .f32⟩ : BufTy).Contents (Elt F)),
    unary main_v22 main_v98 (broadcastInDim S20000x256 ![0, 1] bcast_S20000x1_S20000x256_0_1 : (⟨S20000x1, .f32⟩ : BufTy).Contents (Elt F) → (⟨S20000x256, .f32⟩ : BufTy).Contents (Elt F)),
    binary main_v97 main_v98 main_v99 (mulf : (⟨S20000x256, .f32⟩ : BufTy).Contents (Elt F) → (⟨S20000x256, .f32⟩ : BufTy).Contents (Elt F) → (⟨S20000x256, .f32⟩ : BufTy).Contents (Elt F)),
    binary main_v8 main_v99 main_v100 (addf : (⟨S20000x256, .f32⟩ : BufTy).Contents (Elt F) → (⟨S20000x256, .f32⟩ : BufTy).Contents (Elt F) → (⟨S20000x256, .f32⟩ : BufTy).Contents (Elt F)),
    unary main_arg12 main_v101 ((extractStridedSlice S1x256 ![0, 0] · slices_S2x256_S1x256_0_0) : (⟨S2x256, .f32⟩ : BufTy).Contents (Elt F) → (⟨S1x256, .f32⟩ : BufTy).Contents (Elt F)),
    reshape main_v101 main_v102 rfl shapeCasts_S1x256_S256,
    unary main_arg13 main_v103 ((extractStridedSlice S1x256 ![0, 0] · slices_S2x256_S1x256_0_0) : (⟨S2x256, .f32⟩ : BufTy).Contents (Elt F) → (⟨S1x256, .f32⟩ : BufTy).Contents (Elt F)),
    reshape main_v103 main_v104 rfl shapeCasts_S1x256_S256,
    nullary main_cst_13 (constant S_ .f32 0x00000000#32),
    binary main_v100 main_cst_13 main_v105 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_14 (constant S_ .f32 0x469C4000#32),
    unary main_cst_14 main_v106 (broadcastInDim S256 ![] bcast_S_S256 : (⟨S_, .f32⟩ : BufTy).Contents (Elt F) → (⟨S256, .f32⟩ : BufTy).Contents (Elt F)),
    binary main_v105 main_v106 main_v107 (Host.divf : (⟨S256, .f32⟩ : BufTy).Contents (Elt F) → (⟨S256, .f32⟩ : BufTy).Contents (Elt F) → (⟨S256, .f32⟩ : BufTy).Contents (Elt F)),
    unary main_v107 main_v108 (broadcastInDim S1x256 ![1] bcast_S256_S1x256_1 : (⟨S256, .f32⟩ : BufTy).Contents (Elt F) → (⟨S1x256, .f32⟩ : BufTy).Contents (Elt F)),
    unary main_v108 main_v109 (broadcastInDim S20000x256 ![0, 1] bcast_S1x256_S20000x256_0_1 : (⟨S1x256, .f32⟩ : BufTy).Contents (Elt F) → (⟨S20000x256, .f32⟩ : BufTy).Contents (Elt F)),
    binary main_v100 main_v109 main_v110 (subf : (⟨S20000x256, .f32⟩ : BufTy).Contents (Elt F) → (⟨S20000x256, .f32⟩ : BufTy).Contents (Elt F) → (⟨S20000x256, .f32⟩ : BufTy).Contents (Elt F)),
    binary main_v110 main_v110 main_v111 (mulf : (⟨S20000x256, .f32⟩ : BufTy).Contents (Elt F) → (⟨S20000x256, .f32⟩ : BufTy).Contents (Elt F) → (⟨S20000x256, .f32⟩ : BufTy).Contents (Elt F)),
    nullary main_cst_15 (constant S_ .f32 0x00000000#32),
    binary main_v111 main_cst_15 main_v112 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_16 (constant S_ .f32 0x469C4000#32),
    unary main_cst_16 main_v113 (broadcastInDim S256 ![] bcast_S_S256 : (⟨S_, .f32⟩ : BufTy).Contents (Elt F) → (⟨S256, .f32⟩ : BufTy).Contents (Elt F)),
    binary main_v112 main_v113 main_v114 (Host.divf : (⟨S256, .f32⟩ : BufTy).Contents (Elt F) → (⟨S256, .f32⟩ : BufTy).Contents (Elt F) → (⟨S256, .f32⟩ : BufTy).Contents (Elt F)),
    unary main_v107 main_v115 (broadcastInDim S1x256 ![1] bcast_S256_S1x256_1 : (⟨S256, .f32⟩ : BufTy).Contents (Elt F) → (⟨S1x256, .f32⟩ : BufTy).Contents (Elt F)),
    unary main_v115 main_v116 (broadcastInDim S20000x256 ![0, 1] bcast_S1x256_S20000x256_0_1 : (⟨S1x256, .f32⟩ : BufTy).Contents (Elt F) → (⟨S20000x256, .f32⟩ : BufTy).Contents (Elt F)),
    binary main_v100 main_v116 main_v117 (subf : (⟨S20000x256, .f32⟩ : BufTy).Contents (Elt F) → (⟨S20000x256, .f32⟩ : BufTy).Contents (Elt F) → (⟨S20000x256, .f32⟩ : BufTy).Contents (Elt F)),
    nullary main_cst_17 (constant S_ .f32 0x3727C5AC#32),
    unary main_cst_17 main_v118 (broadcastInDim S256 ![] bcast_S_S256 : (⟨S_, .f32⟩ : BufTy).Contents (Elt F) → (⟨S256, .f32⟩ : BufTy).Contents (Elt F)),
    binary main_v114 main_v118 main_v119 (addf : (⟨S256, .f32⟩ : BufTy).Contents (Elt F) → (⟨S256, .f32⟩ : BufTy).Contents (Elt F) → (⟨S256, .f32⟩ : BufTy).Contents (Elt F)),
    unary main_v119 main_v120 (Host.rsqrt : (⟨S256, .f32⟩ : BufTy).Contents (Elt F) → (⟨S256, .f32⟩ : BufTy).Contents (Elt F)),
    unary main_v120 main_v121 (broadcastInDim S1x256 ![1] bcast_S256_S1x256_1 : (⟨S256, .f32⟩ : BufTy).Contents (Elt F) → (⟨S1x256, .f32⟩ : BufTy).Contents (Elt F)),
    unary main_v121 main_v122 (broadcastInDim S20000x256 ![0, 1] bcast_S1x256_S20000x256_0_1 : (⟨S1x256, .f32⟩ : BufTy).Contents (Elt F) → (⟨S20000x256, .f32⟩ : BufTy).Contents (Elt F)),
    binary main_v117 main_v122 main_v123 (mulf : (⟨S20000x256, .f32⟩ : BufTy).Contents (Elt F) → (⟨S20000x256, .f32⟩ : BufTy).Contents (Elt F) → (⟨S20000x256, .f32⟩ : BufTy).Contents (Elt F)),
    unary main_v102 main_v124 (broadcastInDim S1x256 ![1] bcast_S256_S1x256_1 : (⟨S256, .f32⟩ : BufTy).Contents (Elt F) → (⟨S1x256, .f32⟩ : BufTy).Contents (Elt F)),
    unary main_v124 main_v125 (broadcastInDim S20000x256 ![0, 1] bcast_S1x256_S20000x256_0_1 : (⟨S1x256, .f32⟩ : BufTy).Contents (Elt F) → (⟨S20000x256, .f32⟩ : BufTy).Contents (Elt F)),
    binary main_v123 main_v125 main_v126 (mulf : (⟨S20000x256, .f32⟩ : BufTy).Contents (Elt F) → (⟨S20000x256, .f32⟩ : BufTy).Contents (Elt F) → (⟨S20000x256, .f32⟩ : BufTy).Contents (Elt F)),
    unary main_v104 main_v127 (broadcastInDim S1x256 ![1] bcast_S256_S1x256_1 : (⟨S256, .f32⟩ : BufTy).Contents (Elt F) → (⟨S1x256, .f32⟩ : BufTy).Contents (Elt F)),
    unary main_v127 main_v128 (broadcastInDim S20000x256 ![0, 1] bcast_S1x256_S20000x256_0_1 : (⟨S1x256, .f32⟩ : BufTy).Contents (Elt F) → (⟨S20000x256, .f32⟩ : BufTy).Contents (Elt F)),
    binary main_v126 main_v128 main_v129 (addf : (⟨S20000x256, .f32⟩ : BufTy).Contents (Elt F) → (⟨S20000x256, .f32⟩ : BufTy).Contents (Elt F) → (⟨S20000x256, .f32⟩ : BufTy).Contents (Elt F)) ]

/-- Operations 163–257: layer 1's messages. -/
abbrev part3 : List (HloOp τ sig (Elt F)) :=
  [ unary main_arg8 main_v130 ((extractStridedSlice S1x256x768 ![1, 0, 0] · slices_S2x256x768_S1x256x768_1_0_0) : (⟨S2x256x768, .f32⟩ : BufTy).Contents (Elt F) → (⟨S1x256x768, .f32⟩ : BufTy).Contents (Elt F)),
    reshape main_v130 main_v131 rfl shapeCasts_S1x256x768_S256x768,
    unary main_arg9 main_v132 ((extractStridedSlice S1x256 ![1, 0] · slices_S2x256_S1x256_1_0) : (⟨S2x256, .f32⟩ : BufTy).Contents (Elt F) → (⟨S1x256, .f32⟩ : BufTy).Contents (Elt F)),
    reshape main_v132 main_v133 rfl shapeCasts_S1x256_S256,
    unary main_arg10 main_v134 ((extractStridedSlice S1x256x768 ![1, 0, 0] · slices_S2x256x768_S1x256x768_1_0_0) : (⟨S2x256x768, .f32⟩ : BufTy).Contents (Elt F) → (⟨S1x256x768, .f32⟩ : BufTy).Contents (Elt F)),
    reshape main_v134 main_v135 rfl shapeCasts_S1x256x768_S256x768,
    unary main_arg11 main_v136 ((extractStridedSlice S1x256 ![1, 0] · slices_S2x256_S1x256_1_0) : (⟨S2x256, .f32⟩ : BufTy).Contents (Elt F) → (⟨S1x256, .f32⟩ : BufTy).Contents (Elt F)),
    reshape main_v136 main_v137 rfl shapeCasts_S1x256_S256,
    unary main_v131 main_v138 ((extractStridedSlice S256x256 ![0, 0] · slices_S256x768_S256x256_0_0) : (⟨S256x768, .f32⟩ : BufTy).Contents (Elt F) → (⟨S256x256, .f32⟩ : BufTy).Contents (Elt F)),
    unary main_v131 main_v139 ((extractStridedSlice S256x256 ![0, 256] · slices_S256x768_S256x256_0_256) : (⟨S256x768, .f32⟩ : BufTy).Contents (Elt F) → (⟨S256x256, .f32⟩ : BufTy).Contents (Elt F)),
    unary main_v131 main_v140 ((extractStridedSlice S256x256 ![0, 512] · slices_S256x768_S256x256_0_512) : (⟨S256x768, .f32⟩ : BufTy).Contents (Elt F) → (⟨S256x256, .f32⟩ : BufTy).Contents (Elt F)),
    unary main_v138 main_v141 ((transpose S256x256 [1, 0] · transposes_S256x256_S256x256_1_0) : (⟨S256x256, .f32⟩ : BufTy).Contents (Elt F) → (⟨S256x256, .f32⟩ : BufTy).Contents (Elt F)),
    binary main_v129 main_v141 main_v142 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_c_18 (constantI S_ 32 0#32),
    unary main_c_18 main_v143 (broadcastInDim S200000 ![] bcast_S_S200000 : (⟨S_, .i32⟩ : BufTy).Contents (Elt F) → (⟨S200000, .i32⟩ : BufTy).Contents (Elt F)),
    binary main_v3 main_v143 main_v144 (cmpi .slt : (⟨S200000, .i32⟩ : BufTy).Contents (Elt F) → (⟨S200000, .i32⟩ : BufTy).Contents (Elt F) → (⟨S200000, .i1⟩ : BufTy).Contents (Elt F)),
    nullary main_c_19 (constantI S_ 32 20000#32),
    unary main_c_19 main_v145 (broadcastInDim S200000 ![] bcast_S_S200000 : (⟨S_, .i32⟩ : BufTy).Contents (Elt F) → (⟨S200000, .i32⟩ : BufTy).Contents (Elt F)),
    binary main_v3 main_v145 main_v146 (addi : (⟨S200000, .i32⟩ : BufTy).Contents (Elt F) → (⟨S200000, .i32⟩ : BufTy).Contents (Elt F) → (⟨S200000, .i32⟩ : BufTy).Contents (Elt F)),
    ternary main_v144 main_v146 main_v3 main_v147 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v147 main_v148 (broadcastInDim S200000x1 ![0] bcast_S200000_S200000x1_0 : (⟨S200000, .i32⟩ : BufTy).Contents (Elt F) → (⟨S200000x1, .i32⟩ : BufTy).Contents (Elt F)),
    binary main_v142 main_v148 main_v149 ((fun x i => Host.gather gather_S20000x256_S200000x1_S200000x256_1_0_n_n_0_1_1256 x i) : (⟨S20000x256, .f32⟩ : BufTy).Contents (Elt F) → (⟨S200000x1, .i32⟩ : BufTy).Contents (Elt F) → (⟨S200000x256, .f32⟩ : BufTy).Contents (Elt F)),
    unary main_v139 main_v150 ((transpose S256x256 [1, 0] · transposes_S256x256_S256x256_1_0) : (⟨S256x256, .f32⟩ : BufTy).Contents (Elt F) → (⟨S256x256, .f32⟩ : BufTy).Contents (Elt F)),
    binary main_v129 main_v150 main_v151 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_c_20 (constantI S_ 32 0#32),
    unary main_c_20 main_v152 (broadcastInDim S200000 ![] bcast_S_S200000 : (⟨S_, .i32⟩ : BufTy).Contents (Elt F) → (⟨S200000, .i32⟩ : BufTy).Contents (Elt F)),
    binary main_v1 main_v152 main_v153 (cmpi .slt : (⟨S200000, .i32⟩ : BufTy).Contents (Elt F) → (⟨S200000, .i32⟩ : BufTy).Contents (Elt F) → (⟨S200000, .i1⟩ : BufTy).Contents (Elt F)),
    nullary main_c_21 (constantI S_ 32 20000#32),
    unary main_c_21 main_v154 (broadcastInDim S200000 ![] bcast_S_S200000 : (⟨S_, .i32⟩ : BufTy).Contents (Elt F) → (⟨S200000, .i32⟩ : BufTy).Contents (Elt F)),
    binary main_v1 main_v154 main_v155 (addi : (⟨S200000, .i32⟩ : BufTy).Contents (Elt F) → (⟨S200000, .i32⟩ : BufTy).Contents (Elt F) → (⟨S200000, .i32⟩ : BufTy).Contents (Elt F)),
    ternary main_v153 main_v155 main_v1 main_v156 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v156 main_v157 (broadcastInDim S200000x1 ![0] bcast_S200000_S200000x1_0 : (⟨S200000, .i32⟩ : BufTy).Contents (Elt F) → (⟨S200000x1, .i32⟩ : BufTy).Contents (Elt F)),
    binary main_v151 main_v157 main_v158 ((fun x i => Host.gather gather_S20000x256_S200000x1_S200000x256_1_0_n_n_0_1_1256 x i) : (⟨S20000x256, .f32⟩ : BufTy).Contents (Elt F) → (⟨S200000x1, .i32⟩ : BufTy).Contents (Elt F) → (⟨S200000x256, .f32⟩ : BufTy).Contents (Elt F)),
    binary main_v149 main_v158 main_v159 (addf : (⟨S200000x256, .f32⟩ : BufTy).Contents (Elt F) → (⟨S200000x256, .f32⟩ : BufTy).Contents (Elt F) → (⟨S200000x256, .f32⟩ : BufTy).Contents (Elt F)),
    unary main_v140 main_v160 ((transpose S256x256 [1, 0] · transposes_S256x256_S256x256_1_0) : (⟨S256x256, .f32⟩ : BufTy).Contents (Elt F) → (⟨S256x256, .f32⟩ : BufTy).Contents (Elt F)),
    binary main_v13 main_v160 main_v161 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    binary main_v159 main_v161 main_v162 (addf : (⟨S200000x256, .f32⟩ : BufTy).Contents (Elt F) → (⟨S200000x256, .f32⟩ : BufTy).Contents (Elt F) → (⟨S200000x256, .f32⟩ : BufTy).Contents (Elt F)),
    unary main_v133 main_v163 (broadcastInDim S1x256 ![1] bcast_S256_S1x256_1 : (⟨S256, .f32⟩ : BufTy).Contents (Elt F) → (⟨S1x256, .f32⟩ : BufTy).Contents (Elt F)),
    unary main_v163 main_v164 (broadcastInDim S200000x256 ![0, 1] bcast_S1x256_S200000x256_0_1 : (⟨S1x256, .f32⟩ : BufTy).Contents (Elt F) → (⟨S200000x256, .f32⟩ : BufTy).Contents (Elt F)),
    binary main_v162 main_v164 main_v165 (addf : (⟨S200000x256, .f32⟩ : BufTy).Contents (Elt F) → (⟨S200000x256, .f32⟩ : BufTy).Contents (Elt F) → (⟨S200000x256, .f32⟩ : BufTy).Contents (Elt F)),
    unary main_v165 main_v166 (Host.negf : (⟨S200000x256, .f32⟩ : BufTy).Contents (Elt F) → (⟨S200000x256, .f32⟩ : BufTy).Contents (Elt F)),
    unary main_v166 main_v167 (Host.exp : (⟨S200000x256, .f32⟩ : BufTy).Contents (Elt F) → (⟨S200000x256, .f32⟩ : BufTy).Contents (Elt F)),
    nullary main_cst_22 (constant S_ .f32 0x3F800000#32),
    unary main_cst_22 main_v168 (broadcastInDim S200000x256 ![] bcast_S_S200000x256 : (⟨S_, .f32⟩ : BufTy).Contents (Elt F) → (⟨S200000x256, .f32⟩ : BufTy).Contents (Elt F)),
    binary main_v168 main_v167 main_v169 (addf : (⟨S200000x256, .f32⟩ : BufTy).Contents (Elt F) → (⟨S200000x256, .f32⟩ : BufTy).Contents (Elt F) → (⟨S200000x256, .f32⟩ : BufTy).Contents (Elt F)),
    nullary main_cst_23 (constant S_ .f32 0x3F800000#32),
    unary main_cst_23 main_v170 (broadcastInDim S200000x256 ![] bcast_S_S200000x256 : (⟨S_, .f32⟩ : BufTy).Contents (Elt F) → (⟨S200000x256, .f32⟩ : BufTy).Contents (Elt F)),
    binary main_v170 main_v169 main_v171 (Host.divf : (⟨S200000x256, .f32⟩ : BufTy).Contents (Elt F) → (⟨S200000x256, .f32⟩ : BufTy).Contents (Elt F) → (⟨S200000x256, .f32⟩ : BufTy).Contents (Elt F)),
    unary main_v135 main_v172 ((extractStridedSlice S256x256 ![0, 0] · slices_S256x768_S256x256_0_0) : (⟨S256x768, .f32⟩ : BufTy).Contents (Elt F) → (⟨S256x256, .f32⟩ : BufTy).Contents (Elt F)),
    unary main_v135 main_v173 ((extractStridedSlice S256x256 ![0, 256] · slices_S256x768_S256x256_0_256) : (⟨S256x768, .f32⟩ : BufTy).Contents (Elt F) → (⟨S256x256, .f32⟩ : BufTy).Contents (Elt F)),
    unary main_v135 main_v174 ((extractStridedSlice S256x256 ![0, 512] · slices_S256x768_S256x256_0_512) : (⟨S256x768, .f32⟩ : BufTy).Contents (Elt F) → (⟨S256x256, .f32⟩ : BufTy).Contents (Elt F)),
    unary main_v172 main_v175 ((transpose S256x256 [1, 0] · transposes_S256x256_S256x256_1_0) : (⟨S256x256, .f32⟩ : BufTy).Contents (Elt F) → (⟨S256x256, .f32⟩ : BufTy).Contents (Elt F)),
    binary main_v129 main_v175 main_v176 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_c_24 (constantI S_ 32 0#32),
    unary main_c_24 main_v177 (broadcastInDim S200000 ![] bcast_S_S200000 : (⟨S_, .i32⟩ : BufTy).Contents (Elt F) → (⟨S200000, .i32⟩ : BufTy).Contents (Elt F)),
    binary main_v3 main_v177 main_v178 (cmpi .slt : (⟨S200000, .i32⟩ : BufTy).Contents (Elt F) → (⟨S200000, .i32⟩ : BufTy).Contents (Elt F) → (⟨S200000, .i1⟩ : BufTy).Contents (Elt F)),
    nullary main_c_25 (constantI S_ 32 20000#32),
    unary main_c_25 main_v179 (broadcastInDim S200000 ![] bcast_S_S200000 : (⟨S_, .i32⟩ : BufTy).Contents (Elt F) → (⟨S200000, .i32⟩ : BufTy).Contents (Elt F)),
    binary main_v3 main_v179 main_v180 (addi : (⟨S200000, .i32⟩ : BufTy).Contents (Elt F) → (⟨S200000, .i32⟩ : BufTy).Contents (Elt F) → (⟨S200000, .i32⟩ : BufTy).Contents (Elt F)),
    ternary main_v178 main_v180 main_v3 main_v181 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v181 main_v182 (broadcastInDim S200000x1 ![0] bcast_S200000_S200000x1_0 : (⟨S200000, .i32⟩ : BufTy).Contents (Elt F) → (⟨S200000x1, .i32⟩ : BufTy).Contents (Elt F)),
    binary main_v176 main_v182 main_v183 ((fun x i => Host.gather gather_S20000x256_S200000x1_S200000x256_1_0_n_n_0_1_1256 x i) : (⟨S20000x256, .f32⟩ : BufTy).Contents (Elt F) → (⟨S200000x1, .i32⟩ : BufTy).Contents (Elt F) → (⟨S200000x256, .f32⟩ : BufTy).Contents (Elt F)),
    unary main_v173 main_v184 ((transpose S256x256 [1, 0] · transposes_S256x256_S256x256_1_0) : (⟨S256x256, .f32⟩ : BufTy).Contents (Elt F) → (⟨S256x256, .f32⟩ : BufTy).Contents (Elt F)),
    binary main_v129 main_v184 main_v185 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_c_26 (constantI S_ 32 0#32),
    unary main_c_26 main_v186 (broadcastInDim S200000 ![] bcast_S_S200000 : (⟨S_, .i32⟩ : BufTy).Contents (Elt F) → (⟨S200000, .i32⟩ : BufTy).Contents (Elt F)),
    binary main_v1 main_v186 main_v187 (cmpi .slt : (⟨S200000, .i32⟩ : BufTy).Contents (Elt F) → (⟨S200000, .i32⟩ : BufTy).Contents (Elt F) → (⟨S200000, .i1⟩ : BufTy).Contents (Elt F)),
    nullary main_c_27 (constantI S_ 32 20000#32),
    unary main_c_27 main_v188 (broadcastInDim S200000 ![] bcast_S_S200000 : (⟨S_, .i32⟩ : BufTy).Contents (Elt F) → (⟨S200000, .i32⟩ : BufTy).Contents (Elt F)),
    binary main_v1 main_v188 main_v189 (addi : (⟨S200000, .i32⟩ : BufTy).Contents (Elt F) → (⟨S200000, .i32⟩ : BufTy).Contents (Elt F) → (⟨S200000, .i32⟩ : BufTy).Contents (Elt F)),
    ternary main_v187 main_v189 main_v1 main_v190 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v190 main_v191 (broadcastInDim S200000x1 ![0] bcast_S200000_S200000x1_0 : (⟨S200000, .i32⟩ : BufTy).Contents (Elt F) → (⟨S200000x1, .i32⟩ : BufTy).Contents (Elt F)),
    binary main_v185 main_v191 main_v192 ((fun x i => Host.gather gather_S20000x256_S200000x1_S200000x256_1_0_n_n_0_1_1256 x i) : (⟨S20000x256, .f32⟩ : BufTy).Contents (Elt F) → (⟨S200000x1, .i32⟩ : BufTy).Contents (Elt F) → (⟨S200000x256, .f32⟩ : BufTy).Contents (Elt F)),
    binary main_v183 main_v192 main_v193 (addf : (⟨S200000x256, .f32⟩ : BufTy).Contents (Elt F) → (⟨S200000x256, .f32⟩ : BufTy).Contents (Elt F) → (⟨S200000x256, .f32⟩ : BufTy).Contents (Elt F)),
    unary main_v174 main_v194 ((transpose S256x256 [1, 0] · transposes_S256x256_S256x256_1_0) : (⟨S256x256, .f32⟩ : BufTy).Contents (Elt F) → (⟨S256x256, .f32⟩ : BufTy).Contents (Elt F)),
    binary main_v13 main_v194 main_v195 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    binary main_v193 main_v195 main_v196 (addf : (⟨S200000x256, .f32⟩ : BufTy).Contents (Elt F) → (⟨S200000x256, .f32⟩ : BufTy).Contents (Elt F) → (⟨S200000x256, .f32⟩ : BufTy).Contents (Elt F)),
    unary main_v137 main_v197 (broadcastInDim S1x256 ![1] bcast_S256_S1x256_1 : (⟨S256, .f32⟩ : BufTy).Contents (Elt F) → (⟨S1x256, .f32⟩ : BufTy).Contents (Elt F)),
    unary main_v197 main_v198 (broadcastInDim S200000x256 ![0, 1] bcast_S1x256_S200000x256_0_1 : (⟨S1x256, .f32⟩ : BufTy).Contents (Elt F) → (⟨S200000x256, .f32⟩ : BufTy).Contents (Elt F)),
    binary main_v196 main_v198 main_v199 (addf : (⟨S200000x256, .f32⟩ : BufTy).Contents (Elt F) → (⟨S200000x256, .f32⟩ : BufTy).Contents (Elt F) → (⟨S200000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x256, .f32⟩) main_call1_v0) (broadcastInDim S200000x256 ![] bcast_S_S200000x256),
    TRef.binary (TRef.of (T := ⟨S200000x256, .f32⟩) main_v199) (TRef.of (T := ⟨S200000x256, .f32⟩) main_call1_v0) (TRef.of (T := ⟨S200000x256, .f32⟩) main_call1_v1) maximumf,
    TRef.unary (TRef.of (T := ⟨S_, .f32⟩) main_call1_cst) (TRef.of (T := ⟨S200000x256, .f32⟩) main_call1_v2) (broadcastInDim S200000x256 ![] bcast_S_S200000x256),
    TRef.binary (TRef.of (T := ⟨S200000x256, .f32⟩) main_v199) (TRef.of (T := ⟨S200000x256, .f32⟩) main_call1_v2) (TRef.of (T := ⟨S200000x256, .f32⟩) main_call1_v3) subf,
    TRef.binary (TRef.of (T := ⟨S200000x256, .f32⟩) main_call1_v3) (TRef.of (T := ⟨S200000x256, .f32⟩) main_call1_v3) (TRef.of (T := ⟨S200000x256, .i1⟩) main_call1_v4) (cmpf .une),
    TRef.unary (TRef.of (T := ⟨S_, .f32⟩) main_call1_cst) (TRef.of (T := ⟨S200000x256, .f32⟩) main_call1_v5) (broadcastInDim S200000x256 ![] bcast_S_S200000x256),
    TRef.binary (TRef.of (T := ⟨S200000x256, .f32⟩) main_v199) (TRef.of (T := ⟨S200000x256, .f32⟩) main_call1_v5) (TRef.of (T := ⟨S200000x256, .f32⟩) main_call1_v6) addf,
    TRef.unary (TRef.of (T := ⟨S200000x256, .f32⟩) main_call1_v3) (TRef.of (T := ⟨S200000x256, .f32⟩) main_call1_v7) Host.absf,
    TRef.unary (TRef.of (T := ⟨S200000x256, .f32⟩) main_call1_v7) (TRef.of (T := ⟨S200000x256, .f32⟩) main_call1_v8) Host.negf,
    TRef.unary (TRef.of (T := ⟨S200000x256, .f32⟩) main_call1_v8) (TRef.of (T := ⟨S200000x256, .f32⟩) main_call1_v9) Host.exp,
    TRef.unary (TRef.of (T := ⟨S200000x256, .f32⟩) main_call1_v9) (TRef.of (T := ⟨S200000x256, .f32⟩) main_call1_v10) Host.log1p,
    TRef.binary (TRef.of (T := ⟨S200000x256, .f32⟩) main_call1_v1) (TRef.of (T := ⟨S200000x256, .f32⟩) main_call1_v10) (TRef.of (T := ⟨S200000x256, .f32⟩) main_call1_v11) addf,
    TRef.ternary (TRef.of (T := ⟨S200000x256, .i1⟩) main_call1_v4) (TRef.of (T := ⟨S200000x256, .f32⟩) main_call1_v6) (TRef.of (T := ⟨S200000x256, .f32⟩) main_call1_v11) (TRef.of (T := ⟨S200000x256, .f32⟩) main_v200) select,
    binary main_v171 main_v200 main_v201 (mulf : (⟨S200000x256, .f32⟩ : BufTy).Contents (Elt F) → (⟨S200000x256, .f32⟩ : BufTy).Contents (Elt F) → (⟨S200000x256, .f32⟩ : BufTy).Contents (Elt F)) ]

/-- Operations 258–298: the nodes after layer 1. -/
abbrev part4 : List (HloOp τ sig (Elt F)) :=
  [ nullary main_cst_28 (constant S_ .f32 0x00000000#32),
    unary main_cst_28 main_v202 (broadcastInDim S20000x256 ![] bcast_S_S20000x256 : (⟨S_, .f32⟩ : BufTy).Contents (Elt F) → (⟨S20000x256, .f32⟩ : BufTy).Contents (Elt F)),
    unary main_v3 main_v203 (broadcastInDim S200000x1 ![0] bcast_S200000_S200000x1_0 : (⟨S200000, .i32⟩ : BufTy).Contents (Elt F) → (⟨S200000x1, .i32⟩ : BufTy).Contents (Elt F)),
    ternary main_v202 main_v203 main_v201 main_v204 ((fun x i u => Host.scatterAdd scatter_S20000x256_S200000x1_S200000x256_1_0_0_1 x i u) : (⟨S20000x256, .f32⟩ : BufTy).Contents (Elt F) → (⟨S200000x1, .i32⟩ : BufTy).Contents (Elt F) → (⟨S200000x256, .f32⟩ : BufTy).Contents (Elt F) → (⟨S20000x256, .f32⟩ : BufTy).Contents (Elt F)),
    unary main_v22 main_v205 (broadcastInDim S20000x256 ![0, 1] bcast_S20000x1_S20000x256_0_1 : (⟨S20000x1, .f32⟩ : BufTy).Contents (Elt F) → (⟨S20000x256, .f32⟩ : BufTy).Contents (Elt F)),
    binary main_v204 main_v205 main_v206 (mulf : (⟨S20000x256, .f32⟩ : BufTy).Contents (Elt F) → (⟨S20000x256, .f32⟩ : BufTy).Contents (Elt F) → (⟨S20000x256, .f32⟩ : BufTy).Contents (Elt F)),
    binary main_v129 main_v206 main_v207 (addf : (⟨S20000x256, .f32⟩ : BufTy).Contents (Elt F) → (⟨S20000x256, .f32⟩ : BufTy).Contents (Elt F) → (⟨S20000x256, .f32⟩ : BufTy).Contents (Elt F)),
    unary main_arg12 main_v208 ((extractStridedSlice S1x256 ![1, 0] · slices_S2x256_S1x256_1_0) : (⟨S2x256, .f32⟩ : BufTy).Contents (Elt F) → (⟨S1x256, .f32⟩ : BufTy).Contents (Elt F)),
    reshape main_v208 main_v209 rfl shapeCasts_S1x256_S256,
    unary main_arg13 main_v210 ((extractStridedSlice S1x256 ![1, 0] · slices_S2x256_S1x256_1_0) : (⟨S2x256, .f32⟩ : BufTy).Contents (Elt F) → (⟨S1x256, .f32⟩ : BufTy).Contents (Elt F)),
    reshape main_v210 main_v211 rfl shapeCasts_S1x256_S256,
    nullary main_cst_29 (constant S_ .f32 0x00000000#32),
    binary main_v207 main_cst_29 main_v212 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_30 (constant S_ .f32 0x469C4000#32),
    unary main_cst_30 main_v213 (broadcastInDim S256 ![] bcast_S_S256 : (⟨S_, .f32⟩ : BufTy).Contents (Elt F) → (⟨S256, .f32⟩ : BufTy).Contents (Elt F)),
    binary main_v212 main_v213 main_v214 (Host.divf : (⟨S256, .f32⟩ : BufTy).Contents (Elt F) → (⟨S256, .f32⟩ : BufTy).Contents (Elt F) → (⟨S256, .f32⟩ : BufTy).Contents (Elt F)),
    unary main_v214 main_v215 (broadcastInDim S1x256 ![1] bcast_S256_S1x256_1 : (⟨S256, .f32⟩ : BufTy).Contents (Elt F) → (⟨S1x256, .f32⟩ : BufTy).Contents (Elt F)),
    unary main_v215 main_v216 (broadcastInDim S20000x256 ![0, 1] bcast_S1x256_S20000x256_0_1 : (⟨S1x256, .f32⟩ : BufTy).Contents (Elt F) → (⟨S20000x256, .f32⟩ : BufTy).Contents (Elt F)),
    binary main_v207 main_v216 main_v217 (subf : (⟨S20000x256, .f32⟩ : BufTy).Contents (Elt F) → (⟨S20000x256, .f32⟩ : BufTy).Contents (Elt F) → (⟨S20000x256, .f32⟩ : BufTy).Contents (Elt F)),
    binary main_v217 main_v217 main_v218 (mulf : (⟨S20000x256, .f32⟩ : BufTy).Contents (Elt F) → (⟨S20000x256, .f32⟩ : BufTy).Contents (Elt F) → (⟨S20000x256, .f32⟩ : BufTy).Contents (Elt F)),
    nullary main_cst_31 (constant S_ .f32 0x00000000#32),
    binary main_v218 main_cst_31 main_v219 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_32 (constant S_ .f32 0x469C4000#32),
    unary main_cst_32 main_v220 (broadcastInDim S256 ![] bcast_S_S256 : (⟨S_, .f32⟩ : BufTy).Contents (Elt F) → (⟨S256, .f32⟩ : BufTy).Contents (Elt F)),
    binary main_v219 main_v220 main_v221 (Host.divf : (⟨S256, .f32⟩ : BufTy).Contents (Elt F) → (⟨S256, .f32⟩ : BufTy).Contents (Elt F) → (⟨S256, .f32⟩ : BufTy).Contents (Elt F)),
    unary main_v214 main_v222 (broadcastInDim S1x256 ![1] bcast_S256_S1x256_1 : (⟨S256, .f32⟩ : BufTy).Contents (Elt F) → (⟨S1x256, .f32⟩ : BufTy).Contents (Elt F)),
    unary main_v222 main_v223 (broadcastInDim S20000x256 ![0, 1] bcast_S1x256_S20000x256_0_1 : (⟨S1x256, .f32⟩ : BufTy).Contents (Elt F) → (⟨S20000x256, .f32⟩ : BufTy).Contents (Elt F)),
    binary main_v207 main_v223 main_v224 (subf : (⟨S20000x256, .f32⟩ : BufTy).Contents (Elt F) → (⟨S20000x256, .f32⟩ : BufTy).Contents (Elt F) → (⟨S20000x256, .f32⟩ : BufTy).Contents (Elt F)),
    nullary main_cst_33 (constant S_ .f32 0x3727C5AC#32),
    unary main_cst_33 main_v225 (broadcastInDim S256 ![] bcast_S_S256 : (⟨S_, .f32⟩ : BufTy).Contents (Elt F) → (⟨S256, .f32⟩ : BufTy).Contents (Elt F)),
    binary main_v221 main_v225 main_v226 (addf : (⟨S256, .f32⟩ : BufTy).Contents (Elt F) → (⟨S256, .f32⟩ : BufTy).Contents (Elt F) → (⟨S256, .f32⟩ : BufTy).Contents (Elt F)),
    unary main_v226 main_v227 (Host.rsqrt : (⟨S256, .f32⟩ : BufTy).Contents (Elt F) → (⟨S256, .f32⟩ : BufTy).Contents (Elt F)),
    unary main_v227 main_v228 (broadcastInDim S1x256 ![1] bcast_S256_S1x256_1 : (⟨S256, .f32⟩ : BufTy).Contents (Elt F) → (⟨S1x256, .f32⟩ : BufTy).Contents (Elt F)),
    unary main_v228 main_v229 (broadcastInDim S20000x256 ![0, 1] bcast_S1x256_S20000x256_0_1 : (⟨S1x256, .f32⟩ : BufTy).Contents (Elt F) → (⟨S20000x256, .f32⟩ : BufTy).Contents (Elt F)),
    binary main_v224 main_v229 main_v230 (mulf : (⟨S20000x256, .f32⟩ : BufTy).Contents (Elt F) → (⟨S20000x256, .f32⟩ : BufTy).Contents (Elt F) → (⟨S20000x256, .f32⟩ : BufTy).Contents (Elt F)),
    unary main_v209 main_v231 (broadcastInDim S1x256 ![1] bcast_S256_S1x256_1 : (⟨S256, .f32⟩ : BufTy).Contents (Elt F) → (⟨S1x256, .f32⟩ : BufTy).Contents (Elt F)),
    unary main_v231 main_v232 (broadcastInDim S20000x256 ![0, 1] bcast_S1x256_S20000x256_0_1 : (⟨S1x256, .f32⟩ : BufTy).Contents (Elt F) → (⟨S20000x256, .f32⟩ : BufTy).Contents (Elt F)),
    binary main_v230 main_v232 main_v233 (mulf : (⟨S20000x256, .f32⟩ : BufTy).Contents (Elt F) → (⟨S20000x256, .f32⟩ : BufTy).Contents (Elt F) → (⟨S20000x256, .f32⟩ : BufTy).Contents (Elt F)),
    unary main_v211 main_v234 (broadcastInDim S1x256 ![1] bcast_S256_S1x256_1 : (⟨S256, .f32⟩ : BufTy).Contents (Elt F) → (⟨S1x256, .f32⟩ : BufTy).Contents (Elt F)),
    unary main_v234 main_v235 (broadcastInDim S20000x256 ![0, 1] bcast_S1x256_S20000x256_0_1 : (⟨S1x256, .f32⟩ : BufTy).Contents (Elt F) → (⟨S20000x256, .f32⟩ : BufTy).Contents (Elt F)),
    binary main_v233 main_v235 main_v236 (addf : (⟨S20000x256, .f32⟩ : BufTy).Contents (Elt F) → (⟨S20000x256, .f32⟩ : BufTy).Contents (Elt F) → (⟨S20000x256, .f32⟩ : BufTy).Contents (Elt F)) ]

/-- Operations 299–347: the readout. -/
abbrev part5 : List (HloOp τ sig (Elt F)) :=
  [ nullary main_cst_34 (constant S_ .f32 0x3F800000#32),
    unary main_cst_34 main_v237 (broadcastInDim S20000 ![] bcast_S_S20000 : (⟨S_, .f32⟩ : BufTy).Contents (Elt F) → (⟨S20000, .f32⟩ : BufTy).Contents (Elt F)),
    nullary main_cst_35 (constant S_ .f32 0x00000000#32),
    unary main_cst_35 main_v238 (broadcastInDim S64 ![] bcast_S_S64 : (⟨S_, .f32⟩ : BufTy).Contents (Elt F) → (⟨S64, .f32⟩ : BufTy).Contents (Elt F)),
    unary main_arg3 main_v239 (broadcastInDim S20000x1 ![0] bcast_S20000_S20000x1_0 : (⟨S20000, .i32⟩ : BufTy).Contents (Elt F) → (⟨S20000x1, .i32⟩ : BufTy).Contents (Elt F)),
    ternary main_v238 main_v239 main_v237 main_v240 ((fun x i u => Host.scatterAdd scatter_S64_S20000x1_S20000_n_0_0_1 x i u) : (⟨S64, .f32⟩ : BufTy).Contents (Elt F) → (⟨S20000x1, .i32⟩ : BufTy).Contents (Elt F) → (⟨S20000, .f32⟩ : BufTy).Contents (Elt F) → (⟨S64, .f32⟩ : BufTy).Contents (Elt F)),
    nullary main_cst_36 (constant S_ .f32 0x00000000#32),
    unary main_cst_36 main_v241 (broadcastInDim S64x256 ![] bcast_S_S64x256 : (⟨S_, .f32⟩ : BufTy).Contents (Elt F) → (⟨S64x256, .f32⟩ : BufTy).Contents (Elt F)),
    unary main_arg3 main_v242 (broadcastInDim S20000x1 ![0] bcast_S20000_S20000x1_0 : (⟨S20000, .i32⟩ : BufTy).Contents (Elt F) → (⟨S20000x1, .i32⟩ : BufTy).Contents (Elt F)),
    ternary main_v241 main_v242 main_v236 main_v243 ((fun x i u => Host.scatterAdd scatter_S64x256_S20000x1_S20000x256_1_0_0_1 x i u) : (⟨S64x256, .f32⟩ : BufTy).Contents (Elt F) → (⟨S20000x1, .i32⟩ : BufTy).Contents (Elt F) → (⟨S20000x256, .f32⟩ : BufTy).Contents (Elt F) → (⟨S64x256, .f32⟩ : BufTy).Contents (Elt F)),
    nullary main_cst_37 (constant S_ .f32 0x3F800000#32),
    unary main_cst_37 main_v244 (broadcastInDim S64 ![] bcast_S_S64 : (⟨S_, .f32⟩ : BufTy).Contents (Elt F) → (⟨S64, .f32⟩ : BufTy).Contents (Elt F)),
    binary main_v240 main_v244 main_v245 (maximumf : (⟨S64, .f32⟩ : BufTy).Contents (Elt F) → (⟨S64, .f32⟩ : BufTy).Contents (Elt F) → (⟨S64, .f32⟩ : BufTy).Contents (Elt F)),
    unary main_v245 main_v246 (broadcastInDim S64x1 ![0] bcast_S64_S64x1_0 : (⟨S64, .f32⟩ : BufTy).Contents (Elt F) → (⟨S64x1, .f32⟩ : BufTy).Contents (Elt F)),
    unary main_v246 main_v247 (broadcastInDim S64x256 ![0, 1] bcast_S64x1_S64x256_0_1 : (⟨S64x1, .f32⟩ : BufTy).Contents (Elt F) → (⟨S64x256, .f32⟩ : BufTy).Contents (Elt F)),
    binary main_v243 main_v247 main_v248 (Host.divf : (⟨S64x256, .f32⟩ : BufTy).Contents (Elt F) → (⟨S64x256, .f32⟩ : BufTy).Contents (Elt F) → (⟨S64x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S64x256, .f32⟩) main_call2_v0) (broadcastInDim S64x256 ![] bcast_S_S64x256),
    TRef.binary (TRef.of (T := ⟨S64x256, .f32⟩) main_v248) (TRef.of (T := ⟨S64x256, .f32⟩) main_call2_v0) (TRef.of (T := ⟨S64x256, .f32⟩) main_call2_v1) maximumf,
    TRef.unary (TRef.of (T := ⟨S_, .f32⟩) main_call2_cst) (TRef.of (T := ⟨S64x256, .f32⟩) main_call2_v2) (broadcastInDim S64x256 ![] bcast_S_S64x256),
    TRef.binary (TRef.of (T := ⟨S64x256, .f32⟩) main_v248) (TRef.of (T := ⟨S64x256, .f32⟩) main_call2_v2) (TRef.of (T := ⟨S64x256, .f32⟩) main_call2_v3) subf,
    TRef.binary (TRef.of (T := ⟨S64x256, .f32⟩) main_call2_v3) (TRef.of (T := ⟨S64x256, .f32⟩) main_call2_v3) (TRef.of (T := ⟨S64x256, .i1⟩) main_call2_v4) (cmpf .une),
    TRef.unary (TRef.of (T := ⟨S_, .f32⟩) main_call2_cst) (TRef.of (T := ⟨S64x256, .f32⟩) main_call2_v5) (broadcastInDim S64x256 ![] bcast_S_S64x256),
    TRef.binary (TRef.of (T := ⟨S64x256, .f32⟩) main_v248) (TRef.of (T := ⟨S64x256, .f32⟩) main_call2_v5) (TRef.of (T := ⟨S64x256, .f32⟩) main_call2_v6) addf,
    TRef.unary (TRef.of (T := ⟨S64x256, .f32⟩) main_call2_v3) (TRef.of (T := ⟨S64x256, .f32⟩) main_call2_v7) Host.absf,
    TRef.unary (TRef.of (T := ⟨S64x256, .f32⟩) main_call2_v7) (TRef.of (T := ⟨S64x256, .f32⟩) main_call2_v8) Host.negf,
    TRef.unary (TRef.of (T := ⟨S64x256, .f32⟩) main_call2_v8) (TRef.of (T := ⟨S64x256, .f32⟩) main_call2_v9) Host.exp,
    TRef.unary (TRef.of (T := ⟨S64x256, .f32⟩) main_call2_v9) (TRef.of (T := ⟨S64x256, .f32⟩) main_call2_v10) Host.log1p,
    TRef.binary (TRef.of (T := ⟨S64x256, .f32⟩) main_call2_v1) (TRef.of (T := ⟨S64x256, .f32⟩) main_call2_v10) (TRef.of (T := ⟨S64x256, .f32⟩) main_call2_v11) addf,
    TRef.ternary (TRef.of (T := ⟨S64x256, .i1⟩) main_call2_v4) (TRef.of (T := ⟨S64x256, .f32⟩) main_call2_v6) (TRef.of (T := ⟨S64x256, .f32⟩) main_call2_v11) (TRef.of (T := ⟨S64x256, .f32⟩) main_v249) select,
    unary main_arg14 main_v250 ((transpose S256x256 [1, 0] · transposes_S256x256_S256x256_1_0) : (⟨S256x256, .f32⟩ : BufTy).Contents (Elt F) → (⟨S256x256, .f32⟩ : BufTy).Contents (Elt F)),
    binary main_v249 main_v250 main_v251 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    unary main_arg15 main_v252 (broadcastInDim S1x256 ![1] bcast_S256_S1x256_1 : (⟨S256, .f32⟩ : BufTy).Contents (Elt F) → (⟨S1x256, .f32⟩ : BufTy).Contents (Elt F)),
    unary main_v252 main_v253 (broadcastInDim S64x256 ![0, 1] bcast_S1x256_S64x256_0_1 : (⟨S1x256, .f32⟩ : BufTy).Contents (Elt F) → (⟨S64x256, .f32⟩ : BufTy).Contents (Elt F)),
    binary main_v251 main_v253 main_v254 (addf : (⟨S64x256, .f32⟩ : BufTy).Contents (Elt F) → (⟨S64x256, .f32⟩ : BufTy).Contents (Elt F) → (⟨S64x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x256, .f32⟩) main_call3_v0) (broadcastInDim S64x256 ![] bcast_S_S64x256),
    TRef.binary (TRef.of (T := ⟨S64x256, .f32⟩) main_v254) (TRef.of (T := ⟨S64x256, .f32⟩) main_call3_v0) (TRef.of (T := ⟨S64x256, .f32⟩) main_call3_v1) maximumf,
    TRef.unary (TRef.of (T := ⟨S_, .f32⟩) main_call3_cst) (TRef.of (T := ⟨S64x256, .f32⟩) main_call3_v2) (broadcastInDim S64x256 ![] bcast_S_S64x256),
    TRef.binary (TRef.of (T := ⟨S64x256, .f32⟩) main_v254) (TRef.of (T := ⟨S64x256, .f32⟩) main_call3_v2) (TRef.of (T := ⟨S64x256, .f32⟩) main_call3_v3) subf,
    TRef.binary (TRef.of (T := ⟨S64x256, .f32⟩) main_call3_v3) (TRef.of (T := ⟨S64x256, .f32⟩) main_call3_v3) (TRef.of (T := ⟨S64x256, .i1⟩) main_call3_v4) (cmpf .une),
    TRef.unary (TRef.of (T := ⟨S_, .f32⟩) main_call3_cst) (TRef.of (T := ⟨S64x256, .f32⟩) main_call3_v5) (broadcastInDim S64x256 ![] bcast_S_S64x256),
    TRef.binary (TRef.of (T := ⟨S64x256, .f32⟩) main_v254) (TRef.of (T := ⟨S64x256, .f32⟩) main_call3_v5) (TRef.of (T := ⟨S64x256, .f32⟩) main_call3_v6) addf,
    TRef.unary (TRef.of (T := ⟨S64x256, .f32⟩) main_call3_v3) (TRef.of (T := ⟨S64x256, .f32⟩) main_call3_v7) Host.absf,
    TRef.unary (TRef.of (T := ⟨S64x256, .f32⟩) main_call3_v7) (TRef.of (T := ⟨S64x256, .f32⟩) main_call3_v8) Host.negf,
    TRef.unary (TRef.of (T := ⟨S64x256, .f32⟩) main_call3_v8) (TRef.of (T := ⟨S64x256, .f32⟩) main_call3_v9) Host.exp,
    TRef.unary (TRef.of (T := ⟨S64x256, .f32⟩) main_call3_v9) (TRef.of (T := ⟨S64x256, .f32⟩) main_call3_v10) Host.log1p,
    TRef.binary (TRef.of (T := ⟨S64x256, .f32⟩) main_call3_v1) (TRef.of (T := ⟨S64x256, .f32⟩) main_call3_v10) (TRef.of (T := ⟨S64x256, .f32⟩) main_call3_v11) addf,
    TRef.ternary (TRef.of (T := ⟨S64x256, .i1⟩) main_call3_v4) (TRef.of (T := ⟨S64x256, .f32⟩) main_call3_v6) (TRef.of (T := ⟨S64x256, .f32⟩) main_call3_v11) (TRef.of (T := ⟨S64x256, .f32⟩) main_v255) select ]

/-! ## The arguments' launch contents -/

section Read

variable (V0 : Valuation τ sig (Elt F))

abbrev aX : Arr F S20000x256 .f32 := V0 (Proc.devRef .tc main_arg0)
abbrev aEi : Arr F S2x200000 .i32 := V0 (Proc.devRef .tc main_arg1)
abbrev aEa : Arr F S200000x128 .f32 := V0 (Proc.devRef .tc main_arg2)
abbrev aBatch : Arr F S20000 .i32 := V0 (Proc.devRef .tc main_arg3)
abbrev aWemb : Arr F S256x256 .f32 := V0 (Proc.devRef .tc main_arg4)
abbrev aBemb : Arr F S256 .f32 := V0 (Proc.devRef .tc main_arg5)
abbrev aWedge : Arr F S256x128 .f32 := V0 (Proc.devRef .tc main_arg6)
abbrev aBedge : Arr F S256 .f32 := V0 (Proc.devRef .tc main_arg7)
abbrev aWf : Arr F S2x256x768 .f32 := V0 (Proc.devRef .tc main_arg8)
abbrev aBf : Arr F S2x256 .f32 := V0 (Proc.devRef .tc main_arg9)
abbrev aWs : Arr F S2x256x768 .f32 := V0 (Proc.devRef .tc main_arg10)
abbrev aBs : Arr F S2x256 .f32 := V0 (Proc.devRef .tc main_arg11)
abbrev aGamma : Arr F S2x256 .f32 := V0 (Proc.devRef .tc main_arg12)
abbrev aBeta : Arr F S2x256 .f32 := V0 (Proc.devRef .tc main_arg13)
abbrev aWfc : Arr F S256x256 .f32 := V0 (Proc.devRef .tc main_arg14)
abbrev aBfc : Arr F S256 .f32 := V0 (Proc.devRef .tc main_arg15)

/-! ## The contents after each window -/

/-- The contents after the first window. -/
def val1 : Valuation τ sig (Elt F) := after part0 V0
/-- The contents after the first 2 windows. -/
def val2 : Valuation τ sig (Elt F) := after part1 (val1 V0)
/-- The contents after the first 3 windows. -/
def val3 : Valuation τ sig (Elt F) := after part2 (val2 V0)
/-- The contents after the first 4 windows. -/
def val4 : Valuation τ sig (Elt F) := after part3 (val3 V0)
/-- The contents after the first 5 windows. -/
def val5 : Valuation τ sig (Elt F) := after part4 (val4 V0)
/-- The contents after the first 6 windows. -/
def val6 : Valuation τ sig (Elt F) := after part5 (val5 V0)

/-- The buffers window 0 writes. -/
abbrev part0_W : List (Ref sig .tc) := [main_v0, main_v1, main_v2, main_v3, main_v4, main_v5, main_v6, main_v7, main_v8, main_v9, main_v10, main_v11, main_v12, main_v13, main_cst, main_v14, main_cst_0, main_v15, main_v16, main_v17, main_cst_1, main_v18, main_v19, main_cst_2, main_v20, main_v21, main_v22]
set_option maxRecDepth 8192 in
theorem part0_writes : (part0 : List (HloOp τ sig (Elt F))).Forall fun op => op.writes ⊆ (part0_W.map (Proc.devRef (τ := τ) .tc)).toFinset := by
  simp only [List.Forall]; exact ⟨by wr, by wr, by wr, by wr, by wr, by wr, by wr, by wr, by wr, by wr, by wr, by wr, by wr, by wr, by wr, by wr, by wr, by wr, by wr, by wr, by wr, by wr, by wr, by wr, by wr, by wr, by wr⟩
/-- A buffer window 0 does not write keeps its contents through it. -/
theorem val1_keep (r : Ref sig .tc) (h : r ∉ part0_W) : val1 V0 (Proc.devRef .tc r) = V0 (Proc.devRef .tc r) :=
  after_of_writes_sub part0 _ part0_writes h
theorem val1_arg8 : val1 V0 (no_index (Proc.devRef .tc main_arg8)) = aWf V0 :=
  val1_keep V0 main_arg8 (by decide)
theorem val1_arg9 : val1 V0 (no_index (Proc.devRef .tc main_arg9)) = aBf V0 :=
  val1_keep V0 main_arg9 (by decide)
theorem val1_arg10 : val1 V0 (no_index (Proc.devRef .tc main_arg10)) = aWs V0 :=
  val1_keep V0 main_arg10 (by decide)
theorem val1_arg11 : val1 V0 (no_index (Proc.devRef .tc main_arg11)) = aBs V0 :=
  val1_keep V0 main_arg11 (by decide)
set_option maxRecDepth 8192 in
set_option maxHeartbeats 2000000 in
theorem val1_v8 : val1 V0 (no_index (Proc.devRef .tc main_v8)) = nodeEmb (aX V0) (aWemb V0) (aBemb V0) := by
  unfold val1
  simp only [part0]
  after_results_simp
  rfl
set_option maxRecDepth 8192 in
set_option maxHeartbeats 2000000 in
theorem val1_v3 : val1 V0 (no_index (Proc.devRef .tc main_v3)) = dstRow (aEi V0) := by
  unfold val1
  simp only [part0]
  after_results_simp
  rfl
set_option maxRecDepth 8192 in
set_option maxHeartbeats 2000000 in
theorem val1_v1 : val1 V0 (no_index (Proc.devRef .tc main_v1)) = srcRow (aEi V0) := by
  unfold val1
  simp only [part0]
  after_results_simp
  rfl
set_option maxRecDepth 8192 in
set_option maxHeartbeats 2000000 in
theorem val1_v13 : val1 V0 (no_index (Proc.devRef .tc main_v13)) = edgeEmb (aEa V0) (aWedge V0) (aBedge V0) := by
  unfold val1
  simp only [part0]
  after_results_simp
  rfl
set_option maxRecDepth 8192 in
set_option maxHeartbeats 2000000 in
theorem val1_v22 : val1 V0 (no_index (Proc.devRef .tc main_v22)) = invDeg (dstRow (aEi V0)) := by
  unfold val1
  simp only [part0]
  after_results_simp
  rfl
theorem val1_arg12 : val1 V0 (no_index (Proc.devRef .tc main_arg12)) = aGamma V0 :=
  val1_keep V0 main_arg12 (by decide)
theorem val1_arg13 : val1 V0 (no_index (Proc.devRef .tc main_arg13)) = aBeta V0 :=
  val1_keep V0 main_arg13 (by decide)
theorem val1_arg3 : val1 V0 (no_index (Proc.devRef .tc main_arg3)) = aBatch V0 :=
  val1_keep V0 main_arg3 (by decide)
theorem val1_arg14 : val1 V0 (no_index (Proc.devRef .tc main_arg14)) = aWfc V0 :=
  val1_keep V0 main_arg14 (by decide)
theorem val1_arg15 : val1 V0 (no_index (Proc.devRef .tc main_arg15)) = aBfc V0 :=
  val1_keep V0 main_arg15 (by decide)

/-- The buffers window 1 writes. -/
abbrev part1_W : List (Ref sig .tc) := [main_v23, main_v24, main_v25, main_v26, main_v27, main_v28, main_v29, main_v30, main_v31, main_v32, main_v33, main_v34, main_v35, main_c, main_v36, main_v37, main_c_3, main_v38, main_v39, main_v40, main_v41, main_v42, main_v43, main_v44, main_c_4, main_v45, main_v46, main_c_5, main_v47, main_v48, main_v49, main_v50, main_v51, main_v52, main_v53, main_v54, main_v55, main_v56, main_v57, main_v58, main_v59, main_v60, main_cst_6, main_v61, main_v62, main_cst_7, main_v63, main_v64, main_v65, main_v66, main_v67, main_v68, main_v69, main_c_8, main_v70, main_v71, main_c_9, main_v72, main_v73, main_v74, main_v75, main_v76, main_v77, main_v78, main_c_10, main_v79, main_v80, main_c_11, main_v81, main_v82, main_v83, main_v84, main_v85, main_v86, main_v87, main_v88, main_v89, main_v90, main_v91, main_v92, main_call0_cst, main_call0_v0, main_call0_v1, main_call0_v2, main_call0_v3, main_call0_v4, main_call0_v5, main_call0_v6, main_call0_v7, main_call0_v8, main_call0_v9, main_call0_v10, main_call0_v11, main_v93, main_v94]
set_option maxRecDepth 8192 in
theorem part1_writes : (part1 : List (HloOp τ sig (Elt F))).Forall fun op => op.writes ⊆ (part1_W.map (Proc.devRef (τ := τ) .tc)).toFinset := by
  simp only [List.Forall]; exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer window 1 does not write keeps its contents through it. -/
theorem val2_keep (r : Ref sig .tc) (h : r ∉ part1_W) : val2 V0 (Proc.devRef .tc r) = val1 V0 (Proc.devRef .tc r) :=
  after_of_writes_sub part1 _ part1_writes h
theorem val2_v3 : val2 V0 (no_index (Proc.devRef .tc main_v3)) = dstRow (aEi V0) :=
  (val2_keep V0 main_v3 (by decide)).trans (val1_v3 V0)
set_option maxRecDepth 8192 in
set_option maxHeartbeats 2000000 in
theorem val2_v94 : val2 V0 (no_index (Proc.devRef .tc main_v94)) = msg1 (aX V0) (aEi V0) (aEa V0) (aWemb V0) (aBemb V0) (aWedge V0) (aBedge V0) (aWf V0) (aBf V0) (aWs V0) (aBs V0) := by
  unfold val2
  simp only [part1]
  after_results_simp
  simp only [val1_arg8, val1_arg9, val1_arg10, val1_arg11, val1_v8, val1_v3, val1_v1, val1_v13]
  rfl
theorem val2_v22 : val2 V0 (no_index (Proc.devRef .tc main_v22)) = invDeg (dstRow (aEi V0)) :=
  (val2_keep V0 main_v22 (by decide)).trans (val1_v22 V0)
theorem val2_v8 : val2 V0 (no_index (Proc.devRef .tc main_v8)) = nodeEmb (aX V0) (aWemb V0) (aBemb V0) :=
  (val2_keep V0 main_v8 (by decide)).trans (val1_v8 V0)
theorem val2_arg12 : val2 V0 (no_index (Proc.devRef .tc main_arg12)) = aGamma V0 :=
  (val2_keep V0 main_arg12 (by decide)).trans (val1_arg12 V0)
theorem val2_arg13 : val2 V0 (no_index (Proc.devRef .tc main_arg13)) = aBeta V0 :=
  (val2_keep V0 main_arg13 (by decide)).trans (val1_arg13 V0)
theorem val2_arg8 : val2 V0 (no_index (Proc.devRef .tc main_arg8)) = aWf V0 :=
  (val2_keep V0 main_arg8 (by decide)).trans (val1_arg8 V0)
theorem val2_arg9 : val2 V0 (no_index (Proc.devRef .tc main_arg9)) = aBf V0 :=
  (val2_keep V0 main_arg9 (by decide)).trans (val1_arg9 V0)
theorem val2_arg10 : val2 V0 (no_index (Proc.devRef .tc main_arg10)) = aWs V0 :=
  (val2_keep V0 main_arg10 (by decide)).trans (val1_arg10 V0)
theorem val2_arg11 : val2 V0 (no_index (Proc.devRef .tc main_arg11)) = aBs V0 :=
  (val2_keep V0 main_arg11 (by decide)).trans (val1_arg11 V0)
theorem val2_v1 : val2 V0 (no_index (Proc.devRef .tc main_v1)) = srcRow (aEi V0) :=
  (val2_keep V0 main_v1 (by decide)).trans (val1_v1 V0)
theorem val2_v13 : val2 V0 (no_index (Proc.devRef .tc main_v13)) = edgeEmb (aEa V0) (aWedge V0) (aBedge V0) :=
  (val2_keep V0 main_v13 (by decide)).trans (val1_v13 V0)
theorem val2_arg3 : val2 V0 (no_index (Proc.devRef .tc main_arg3)) = aBatch V0 :=
  (val2_keep V0 main_arg3 (by decide)).trans (val1_arg3 V0)
theorem val2_arg14 : val2 V0 (no_index (Proc.devRef .tc main_arg14)) = aWfc V0 :=
  (val2_keep V0 main_arg14 (by decide)).trans (val1_arg14 V0)
theorem val2_arg15 : val2 V0 (no_index (Proc.devRef .tc main_arg15)) = aBfc V0 :=
  (val2_keep V0 main_arg15 (by decide)).trans (val1_arg15 V0)

/-- The buffers window 2 writes. -/
abbrev part2_W : List (Ref sig .tc) := [main_cst_12, main_v95, main_v96, main_v97, main_v98, main_v99, main_v100, main_v101, main_v102, main_v103, main_v104, main_cst_13, main_v105, main_cst_14, main_v106, main_v107, main_v108, main_v109, main_v110, main_v111, main_cst_15, main_v112, main_cst_16, main_v113, main_v114, main_v115, main_v116, main_v117, main_cst_17, main_v118, main_v119, main_v120, main_v121, main_v122, main_v123, main_v124, main_v125, main_v126, main_v127, main_v128, main_v129]
set_option maxRecDepth 8192 in
theorem part2_writes : (part2 : List (HloOp τ sig (Elt F))).Forall fun op => op.writes ⊆ (part2_W.map (Proc.devRef (τ := τ) .tc)).toFinset := by
  simp only [List.Forall]; exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer window 2 does not write keeps its contents through it. -/
theorem val3_keep (r : Ref sig .tc) (h : r ∉ part2_W) : val3 V0 (Proc.devRef .tc r) = val2 V0 (Proc.devRef .tc r) :=
  after_of_writes_sub part2 _ part2_writes h
theorem val3_arg8 : val3 V0 (no_index (Proc.devRef .tc main_arg8)) = aWf V0 :=
  (val3_keep V0 main_arg8 (by decide)).trans (val2_arg8 V0)
theorem val3_arg9 : val3 V0 (no_index (Proc.devRef .tc main_arg9)) = aBf V0 :=
  (val3_keep V0 main_arg9 (by decide)).trans (val2_arg9 V0)
theorem val3_arg10 : val3 V0 (no_index (Proc.devRef .tc main_arg10)) = aWs V0 :=
  (val3_keep V0 main_arg10 (by decide)).trans (val2_arg10 V0)
theorem val3_arg11 : val3 V0 (no_index (Proc.devRef .tc main_arg11)) = aBs V0 :=
  (val3_keep V0 main_arg11 (by decide)).trans (val2_arg11 V0)
set_option maxRecDepth 8192 in
set_option maxHeartbeats 2000000 in
theorem val3_v129 : val3 V0 (no_index (Proc.devRef .tc main_v129)) = h1 (aX V0) (aEi V0) (aEa V0) (aWemb V0) (aBemb V0) (aWedge V0) (aBedge V0) (aWf V0) (aBf V0) (aWs V0) (aBs V0) (aGamma V0) (aBeta V0) := by
  unfold val3
  simp only [part2]
  after_results_simp
  simp only [val2_v3, val2_v94, val2_v22, val2_v8, val2_arg12, val2_arg13]
  rfl
theorem val3_v3 : val3 V0 (no_index (Proc.devRef .tc main_v3)) = dstRow (aEi V0) :=
  (val3_keep V0 main_v3 (by decide)).trans (val2_v3 V0)
theorem val3_v1 : val3 V0 (no_index (Proc.devRef .tc main_v1)) = srcRow (aEi V0) :=
  (val3_keep V0 main_v1 (by decide)).trans (val2_v1 V0)
theorem val3_v13 : val3 V0 (no_index (Proc.devRef .tc main_v13)) = edgeEmb (aEa V0) (aWedge V0) (aBedge V0) :=
  (val3_keep V0 main_v13 (by decide)).trans (val2_v13 V0)
theorem val3_v22 : val3 V0 (no_index (Proc.devRef .tc main_v22)) = invDeg (dstRow (aEi V0)) :=
  (val3_keep V0 main_v22 (by decide)).trans (val2_v22 V0)
theorem val3_arg12 : val3 V0 (no_index (Proc.devRef .tc main_arg12)) = aGamma V0 :=
  (val3_keep V0 main_arg12 (by decide)).trans (val2_arg12 V0)
theorem val3_arg13 : val3 V0 (no_index (Proc.devRef .tc main_arg13)) = aBeta V0 :=
  (val3_keep V0 main_arg13 (by decide)).trans (val2_arg13 V0)
theorem val3_arg3 : val3 V0 (no_index (Proc.devRef .tc main_arg3)) = aBatch V0 :=
  (val3_keep V0 main_arg3 (by decide)).trans (val2_arg3 V0)
theorem val3_arg14 : val3 V0 (no_index (Proc.devRef .tc main_arg14)) = aWfc V0 :=
  (val3_keep V0 main_arg14 (by decide)).trans (val2_arg14 V0)
theorem val3_arg15 : val3 V0 (no_index (Proc.devRef .tc main_arg15)) = aBfc V0 :=
  (val3_keep V0 main_arg15 (by decide)).trans (val2_arg15 V0)

/-- The buffers window 3 writes. -/
abbrev part3_W : List (Ref sig .tc) := [main_v130, main_v131, main_v132, main_v133, main_v134, main_v135, main_v136, main_v137, main_v138, main_v139, main_v140, main_v141, main_v142, main_c_18, main_v143, main_v144, main_c_19, main_v145, main_v146, main_v147, main_v148, main_v149, main_v150, main_v151, main_c_20, main_v152, main_v153, main_c_21, main_v154, main_v155, main_v156, main_v157, main_v158, main_v159, main_v160, main_v161, main_v162, main_v163, main_v164, main_v165, main_v166, main_v167, main_cst_22, main_v168, main_v169, main_cst_23, main_v170, main_v171, main_v172, main_v173, main_v174, main_v175, main_v176, main_c_24, main_v177, main_v178, main_c_25, main_v179, main_v180, main_v181, main_v182, main_v183, main_v184, main_v185, main_c_26, main_v186, main_v187, main_c_27, main_v188, main_v189, main_v190, main_v191, main_v192, main_v193, main_v194, main_v195, main_v196, main_v197, main_v198, main_v199, main_call1_cst, main_call1_v0, main_call1_v1, main_call1_v2, main_call1_v3, main_call1_v4, main_call1_v5, main_call1_v6, main_call1_v7, main_call1_v8, main_call1_v9, main_call1_v10, main_call1_v11, main_v200, main_v201]
set_option maxRecDepth 8192 in
theorem part3_writes : (part3 : List (HloOp τ sig (Elt F))).Forall fun op => op.writes ⊆ (part3_W.map (Proc.devRef (τ := τ) .tc)).toFinset := by
  simp only [List.Forall]; exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer window 3 does not write keeps its contents through it. -/
theorem val4_keep (r : Ref sig .tc) (h : r ∉ part3_W) : val4 V0 (Proc.devRef .tc r) = val3 V0 (Proc.devRef .tc r) :=
  after_of_writes_sub part3 _ part3_writes h
theorem val4_v3 : val4 V0 (no_index (Proc.devRef .tc main_v3)) = dstRow (aEi V0) :=
  (val4_keep V0 main_v3 (by decide)).trans (val3_v3 V0)
set_option maxRecDepth 8192 in
set_option maxHeartbeats 2000000 in
theorem val4_v201 : val4 V0 (no_index (Proc.devRef .tc main_v201)) = msg2 (aX V0) (aEi V0) (aEa V0) (aWemb V0) (aBemb V0) (aWedge V0) (aBedge V0) (aWf V0) (aBf V0) (aWs V0) (aBs V0) (aGamma V0) (aBeta V0) := by
  unfold val4
  simp only [part3]
  after_results_simp
  simp only [val3_arg8, val3_arg9, val3_arg10, val3_arg11, val3_v129, val3_v3, val3_v1, val3_v13]
  rfl
theorem val4_v22 : val4 V0 (no_index (Proc.devRef .tc main_v22)) = invDeg (dstRow (aEi V0)) :=
  (val4_keep V0 main_v22 (by decide)).trans (val3_v22 V0)
theorem val4_v129 : val4 V0 (no_index (Proc.devRef .tc main_v129)) = h1 (aX V0) (aEi V0) (aEa V0) (aWemb V0) (aBemb V0) (aWedge V0) (aBedge V0) (aWf V0) (aBf V0) (aWs V0) (aBs V0) (aGamma V0) (aBeta V0) :=
  (val4_keep V0 main_v129 (by decide)).trans (val3_v129 V0)
theorem val4_arg12 : val4 V0 (no_index (Proc.devRef .tc main_arg12)) = aGamma V0 :=
  (val4_keep V0 main_arg12 (by decide)).trans (val3_arg12 V0)
theorem val4_arg13 : val4 V0 (no_index (Proc.devRef .tc main_arg13)) = aBeta V0 :=
  (val4_keep V0 main_arg13 (by decide)).trans (val3_arg13 V0)
theorem val4_arg3 : val4 V0 (no_index (Proc.devRef .tc main_arg3)) = aBatch V0 :=
  (val4_keep V0 main_arg3 (by decide)).trans (val3_arg3 V0)
theorem val4_arg14 : val4 V0 (no_index (Proc.devRef .tc main_arg14)) = aWfc V0 :=
  (val4_keep V0 main_arg14 (by decide)).trans (val3_arg14 V0)
theorem val4_arg15 : val4 V0 (no_index (Proc.devRef .tc main_arg15)) = aBfc V0 :=
  (val4_keep V0 main_arg15 (by decide)).trans (val3_arg15 V0)

/-- The buffers window 4 writes. -/
abbrev part4_W : List (Ref sig .tc) := [main_cst_28, main_v202, main_v203, main_v204, main_v205, main_v206, main_v207, main_v208, main_v209, main_v210, main_v211, main_cst_29, main_v212, main_cst_30, main_v213, main_v214, main_v215, main_v216, main_v217, main_v218, main_cst_31, main_v219, main_cst_32, main_v220, main_v221, main_v222, main_v223, main_v224, main_cst_33, main_v225, main_v226, main_v227, main_v228, main_v229, main_v230, main_v231, main_v232, main_v233, main_v234, main_v235, main_v236]
set_option maxRecDepth 8192 in
theorem part4_writes : (part4 : List (HloOp τ sig (Elt F))).Forall fun op => op.writes ⊆ (part4_W.map (Proc.devRef (τ := τ) .tc)).toFinset := by
  simp only [List.Forall]; exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer window 4 does not write keeps its contents through it. -/
theorem val5_keep (r : Ref sig .tc) (h : r ∉ part4_W) : val5 V0 (Proc.devRef .tc r) = val4 V0 (Proc.devRef .tc r) :=
  after_of_writes_sub part4 _ part4_writes h
theorem val5_arg3 : val5 V0 (no_index (Proc.devRef .tc main_arg3)) = aBatch V0 :=
  (val5_keep V0 main_arg3 (by decide)).trans (val4_arg3 V0)
set_option maxRecDepth 8192 in
set_option maxHeartbeats 2000000 in
theorem val5_v236 : val5 V0 (no_index (Proc.devRef .tc main_v236)) = h2 (aX V0) (aEi V0) (aEa V0) (aWemb V0) (aBemb V0) (aWedge V0) (aBedge V0) (aWf V0) (aBf V0) (aWs V0) (aBs V0) (aGamma V0) (aBeta V0) := by
  unfold val5
  simp only [part4]
  after_results_simp
  simp only [val4_v3, val4_v201, val4_v22, val4_v129, val4_arg12, val4_arg13]
  rfl
theorem val5_arg14 : val5 V0 (no_index (Proc.devRef .tc main_arg14)) = aWfc V0 :=
  (val5_keep V0 main_arg14 (by decide)).trans (val4_arg14 V0)
theorem val5_arg15 : val5 V0 (no_index (Proc.devRef .tc main_arg15)) = aBfc V0 :=
  (val5_keep V0 main_arg15 (by decide)).trans (val4_arg15 V0)

/-- The buffers window 5 writes. -/
abbrev part5_W : List (Ref sig .tc) := [main_cst_34, main_v237, main_cst_35, main_v238, main_v239, main_v240, main_cst_36, main_v241, main_v242, main_v243, main_cst_37, main_v244, main_v245, main_v246, main_v247, main_v248, main_call2_cst, main_call2_v0, main_call2_v1, main_call2_v2, main_call2_v3, main_call2_v4, main_call2_v5, main_call2_v6, main_call2_v7, main_call2_v8, main_call2_v9, main_call2_v10, main_call2_v11, main_v249, main_v250, main_v251, main_v252, main_v253, main_v254, main_call3_cst, main_call3_v0, main_call3_v1, main_call3_v2, main_call3_v3, main_call3_v4, main_call3_v5, main_call3_v6, main_call3_v7, main_call3_v8, main_call3_v9, main_call3_v10, main_call3_v11, main_v255]
set_option maxRecDepth 8192 in
theorem part5_writes : (part5 : List (HloOp τ sig (Elt F))).Forall fun op => op.writes ⊆ (part5_W.map (Proc.devRef (τ := τ) .tc)).toFinset := by
  simp only [List.Forall]; exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer window 5 does not write keeps its contents through it. -/
theorem val6_keep (r : Ref sig .tc) (h : r ∉ part5_W) : val6 V0 (Proc.devRef .tc r) = val5 V0 (Proc.devRef .tc r) :=
  after_of_writes_sub part5 _ part5_writes h
set_option maxRecDepth 8192 in
set_option maxHeartbeats 2000000 in
theorem val6_v255 : val6 V0 (no_index (Proc.devRef .tc main_v255)) = out (aX V0) (aEi V0) (aEa V0) (aBatch V0) (aWemb V0) (aBemb V0) (aWedge V0) (aBedge V0) (aWf V0) (aBf V0) (aWs V0) (aBs V0) (aGamma V0) (aBeta V0) (aWfc V0) (aBfc V0) := by
  unfold val6
  simp only [part5]
  after_results_simp
  simp only [val5_arg3, val5_v236, val5_arg14, val5_arg15]
  rfl

end Read

end Cert.Bridge.Ref

end
-- ==== Proof.Ref.ReadBack.lean ====
import proofs.«149463_j13572096656012_1_alg».proof.Proof.RefRun
import proofs.«149463_j13572096656012_1_alg».proof.Proof.Ref.Windows

/-! The reference's run read back: its operation list is the six windows of `Ref/Windows.lean` in a row, so the fold of all its
operations' results over the launch contents has the result buffer at `out` of the arguments and every argument unchanged. -/

noncomputable section

namespace Cert.Bridge.Ref

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

set_option maxRecDepth 8192 in
set_option maxHeartbeats 4000000 in
theorem ops_eq : (ops : List (HloOp τ sig (Elt F))) = part0 ++ (part1 ++ (part2 ++ (part3 ++ (part4 ++ part5)))) := by chain_rfl

section Read

variable (V0 : Valuation τ sig (Elt F))

/-! ## The whole fold -/

/-- The reference's result buffer after all its operations is `out` of the arguments' launch contents. -/
theorem after_ops_result : after ops V0 (Proc.devRef .tc main_v255) = out (aX V0) (aEi V0) (aEa V0) (aBatch V0) (aWemb V0) (aBemb V0) (aWedge V0) (aBedge V0) (aWf V0) (aBf V0) (aWs V0) (aBs V0) (aGamma V0) (aBeta V0) (aWfc V0) (aBfc V0) := by
  rw [ops_eq]; simp only [after_app]; exact val6_v255 V0
/-- A buffer no window writes keeps its launch contents. -/
theorem after_ops_keep (r : Ref sig .tc) (h0 : r ∉ part0_W) (h1 : r ∉ part1_W) (h2 : r ∉ part2_W) (h3 : r ∉ part3_W) (h4 : r ∉ part4_W)
    (h5 : r ∉ part5_W) : after ops V0 (Proc.devRef .tc r) = V0 (Proc.devRef .tc r) := by
  rw [ops_eq]; simp only [after_app]
  rw [after_of_writes_sub part5 _ part5_writes h5, after_of_writes_sub part4 _ part4_writes h4, after_of_writes_sub part3 _ part3_writes h3,
    after_of_writes_sub part2 _ part2_writes h2, after_of_writes_sub part1 _ part1_writes h1, after_of_writes_sub part0 _ part0_writes h0]

end Read

/-- On every device, for any float values, from any memory with zero counters: every weakly fair execution of the reference's
    @main terminates with the result at `out` of the arguments' launch contents and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v255) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v255).trans (after_ops_result (launchContents m c)),
      (h c main_arg0).trans (after_ops_keep (launchContents m c) main_arg0 (by decide) (by decide) (by decide) (by decide) (by decide) (by decide)),
      (h c main_arg1).trans (after_ops_keep (launchContents m c) main_arg1 (by decide) (by decide) (by decide) (by decide) (by decide) (by decide)),
      (h c main_arg2).trans (after_ops_keep (launchContents m c) main_arg2 (by decide) (by decide) (by decide) (by decide) (by decide) (by decide)),
      (h c main_arg3).trans (after_ops_keep (launchContents m c) main_arg3 (by decide) (by decide) (by decide) (by decide) (by decide) (by decide)),
      (h c main_arg4).trans (after_ops_keep (launchContents m c) main_arg4 (by decide) (by decide) (by decide) (by decide) (by decide) (by decide)),
      (h c main_arg5).trans (after_ops_keep (launchContents m c) main_arg5 (by decide) (by decide) (by decide) (by decide) (by decide) (by decide)),
      (h c main_arg6).trans (after_ops_keep (launchContents m c) main_arg6 (by decide) (by decide) (by decide) (by decide) (by decide) (by decide)),
      (h c main_arg7).trans (after_ops_keep (launchContents m c) main_arg7 (by decide) (by decide) (by decide) (by decide) (by decide) (by decide)),
      (h c main_arg8).trans (after_ops_keep (launchContents m c) main_arg8 (by decide) (by decide) (by decide) (by decide) (by decide) (by decide)),
      (h c main_arg9).trans (after_ops_keep (launchContents m c) main_arg9 (by decide) (by decide) (by decide) (by decide) (by decide) (by decide)),
      (h c main_arg10).trans (after_ops_keep (launchContents m c) main_arg10 (by decide) (by decide) (by decide) (by decide) (by decide) (by decide)),
      (h c main_arg11).trans (after_ops_keep (launchContents m c) main_arg11 (by decide) (by decide) (by decide) (by decide) (by decide) (by decide)),
      (h c main_arg12).trans (after_ops_keep (launchContents m c) main_arg12 (by decide) (by decide) (by decide) (by decide) (by decide) (by decide)),
      (h c main_arg13).trans (after_ops_keep (launchContents m c) main_arg13 (by decide) (by decide) (by decide) (by decide) (by decide) (by decide)),
      (h c main_arg14).trans (after_ops_keep (launchContents m c) main_arg14 (by decide) (by decide) (by decide) (by decide) (by decide) (by decide)),
      (h c main_arg15).trans (after_ops_keep (launchContents m c) main_arg15 (by decide) (by decide) (by decide) (by decide) (by decide) (by decide))⟩)
    (Cert.ReferenceIdeal.RunP.run (F := F) m ρ)

end Cert.Bridge.Ref

end
-- ==== Proof.lean ====
import proofs.«149463_j13572096656012_1_alg».proof.Defs
import proofs.«149463_j13572096656012_1_alg».proof.Proof.Gen.Kernel
import proofs.«149463_j13572096656012_1_alg».proof.Proof.Gen.KernelIdeal
import proofs.«149463_j13572096656012_1_alg».proof.Proof.Gen.ReferenceIdeal
import proofs.«149463_j13572096656012_1_alg».proof.Proof.Gen.Pre_finite_inputs
import proofs.«149463_j13572096656012_1_alg».proof.Proof.K.Run
import proofs.«149463_j13572096656012_1_alg».proof.Proof.KI.RunResult
import proofs.«149463_j13572096656012_1_alg».proof.Proof.KI.KernelOut
import proofs.«149463_j13572096656012_1_alg».proof.Proof.KI.StageDense
import proofs.«149463_j13572096656012_1_alg».proof.Proof.KI.StageMsg
import proofs.«149463_j13572096656012_1_alg».proof.Proof.Ref.ReadBack

/-!
# A two-layer gated graph convolution: the tiled kernel program against its plain reference

The kernel program computes every dense product (the node and edge embeddings, and per layer one product of the node
features with the four stacked `256 × 256` blocks `[Wf_i | Ws_i | Wf_j | Ws_j]` and one of the edge embedding with
`[Wf_e | Ws_e]`, each plus a zero bias row) and the gated message `sigmoid(z_f) · softplus(z_s)` in eight tiled regions,
and gathers, segment sums, batch normalisation and the readout on the host; the reference computes the same quantities
with one product per `256 × 256` block.

On the extended reals the two agree with no finiteness needed: a row of a product with stacked blocks is the products with
the blocks side by side (the same sums over the same index set), a row gather commutes with taking a band of columns,
`x + 0 = x`, `logistic x` is `1 / (1 + exp (-x))` by definition and `0 - y = -y`; everything after the messages
(segment sum by target node, inverse degree, residual, batch normalisation, the readout) is the same chain of host
operations in both programs and is carried as one function of equal inputs, never opened.

The frames: each region's body loads whole blocks and stores its whole output block, so each region is one segment record
over the thread state "every unscoped buffer at the boundary's contents"; the reference is host operations only and its run
is the fold of their results.
-/

set_option maxRecDepth 16384

noncomputable section

namespace Cert.Proof

open Idealize.ShloMosaic Idealize.SL.Sem

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Rg.frame (F := Bits) m ρ

/-- So does the program read on the extended reals. -/
theorem frame_ki : Cert.frame_KernelIdeal (hKernelIdeal := Cert.KernelIdeal.Gen.facts) (hPre_finite_inputs := Cert.Pre_finite_inputs.Gen.facts) :=
  fun m ρ _ => Cert.KernelIdeal.Rg.frame (F := Ideal) m ρ

/-- The reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Bridge.Ref.run_out (F := Ideal) m ρ)

/-- From memories agreeing on the arguments both programs end with the result at the reference's function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V20 m (Cert.KernelIdeal.Rg.outs m) c (Proc.devRef .tc Cert.KernelIdeal.main_v204),
    Cert.KernelIdeal.Rg.run_result (F := Ideal) m ρ, ?_⟩
  refine (θ_run Cert.ReferenceIdeal.defs _ _).mono (fun _ h c => ⟨(h c).1.trans ?_, (h c).2⟩)
    (Cert.Bridge.Ref.run_out (F := Ideal) m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact (Cert.KernelIdeal.Stage.kernel_out m c (Cert.KernelIdeal.Stage.T_h0 m c) (Cert.KernelIdeal.Stage.T_e m c)
    (Cert.KernelIdeal.Stage.T_msg0 m c) (Cert.KernelIdeal.Stage.T_msg1 m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
